-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S400x4096 : S_.BroadcastsInDim S400x4096 (![] : Fin 0 → Fin S400x4096.rank)
  reducesTo_S400x4096_S_d0_1 : S400x4096.ReducesTo [0, 1] S_
  bcast_S_S400 : S_.BroadcastsInDim S400 (![] : Fin 0 → Fin S400.rank)
  reducesTo_S400_S_d0 : S400.ReducesTo [0] S_
  bcast_S_S64x400 : S_.BroadcastsInDim S64x400 (![] : Fin 0 → Fin S64x400.rank)
  reducesTo_S64x400_S_d0_1 : S64x400.ReducesTo [0, 1] S_
  bcast_S_S64 : S_.BroadcastsInDim S64 (![] : Fin 0 → Fin S64.rank)
  reducesTo_S64_S_d0 : S64.ReducesTo [0] S_
  bcast_S_S3520x400 : S_.BroadcastsInDim S3520x400 (![] : Fin 0 → Fin S3520x400.rank)
  reducesTo_S3520x400_S_d0_1 : S3520x400.ReducesTo [0, 1] S_
  bcast_S_S3520 : S_.BroadcastsInDim S3520 (![] : Fin 0 → Fin S3520.rank)
  reducesTo_S3520_S_d0 : S3520.ReducesTo [0] S_
  bcast_S_S400x64 : S_.BroadcastsInDim S400x64 (![] : Fin 0 → Fin S400x64.rank)
  reducesTo_S400x64_S_d0_1 : S400x64.ReducesTo [0, 1] S_
  bcast_S_S4096x400 : S_.BroadcastsInDim S4096x400 (![] : Fin 0 → Fin S4096x400.rank)
  reducesTo_S4096x400_S_d0_1 : S4096x400.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S400 .f32) (main_arg12 : FVec F S4096x400 .f32) (main_arg13 : FVec F S4096 .f32) (main_v48 : IVec S_ 1) (main_v49 : FVec F S400x64 .f32) (main_v50 : FVec F S400x64 .f32) : IVec S_ 1 :=
  let main_v51 : IVec S400x64 1 := cmpf .olt main_v49 main_v50
  let main_c_19 : IVec S_ 1 := constantI S_ 1 1#1
  let main_v52 : IVec S_ 1 := (fun x v => Host.reduce IntOp.andi x v reducesTo_S400x64_S_d0_1 h_S_) main_v51 main_c_19
  let main_v53 : IVec S_ 1 := andi main_v48 main_v52
  let main_v54 : FVec F S400 .f32 := Host.absf main_arg11
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  let main_v59 : FVec F S4096x400 .f32 := Host.absf main_arg12
  let main_cst_22 : FVec F S_ .f32 := constant S_ .f32 0x7F800000#32
  let main_v60 : FVec F S4096x400 .f32 := broadcastInDim S4096x400 ![] bcast_S_S4096x400 main_cst_22
  let main_v61 : IVec S4096x400 1 := cmpf .olt main_v59 main_v60
  let main_c_23 : IVec S_ 1 := constantI S_ 1 1#1
  let main_v62 : IVec S_ 1 := (fun x v => Host.reduce IntOp.andi x v reducesTo_S4096x400_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3520x400 .f32 := Host.absf main_arg8
  let main_cst_14 : FVec F S_ .f32 := constant S_ .f32 0x7F800000#32
  let main_v40 : FVec F S3520x400 .f32 := broadcastInDim S3520x400 ![] bcast_S_S3520x400 main_cst_14
  let main_v41 : IVec S3520x400 1 := cmpf .olt main_v39 main_v40
  let main_c_15 : IVec S_ 1 := constantI S_ 1 1#1
  let main_v42 : IVec S_ 1 := (fun x v => Host.reduce IntOp.andi x v reducesTo_S3520x400_S_d0_1 h_S_) main_v41 main_c_15
  let main_v43 : IVec S_ 1 := andi main_v38 main_v42
  let main_v44 : FVec F S3520 .f32 := Host.absf main_arg9
  let main_cst_16 : FVec F S_ .f32 := constant S_ .f32 0x7F800000#32
  let main_v45 : FVec F S3520 .f32 := broadcastInDim S3520 ![] bcast_S_S3520 main_cst_16
  let main_v46 : IVec S3520 1 := cmpf .olt main_v44 main_v45
  let main_c_17 : IVec S_ 1 := constantI S_ 1 1#1
  let main_v47 : IVec S_ 1 := (fun x v => Host.reduce IntOp.andi x v reducesTo_S3520_S_d0 h_S_) main_v46 main_c_17
  let main_v48 : IVec S_ 1 := andi main_v43 main_v47
  let main_v49 : FVec F S400x64 .f32 := Host.absf main_arg10
  let main_cst_18 : FVec F S_ .f32 := constant S_ .f32 0x7F800000#32
  let main_v50 : FVec F S400x64 .f32 := broadcastInDim S400x64 ![] bcast_S_S400x64 main_cst_18
  fn_part3 (F := F) main_arg11 main_arg12 main_arg13 main_v48 main_v49 main_v50

def fn_part1 {F : FTy → Type} [FloatOps F] (main_arg4 : FVec F S64x400 .f32) (main_arg5 : FVec F S64 .f32) (main_arg6 : FVec F S64x400 .f32) (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S64x400 .f32 := Host.absf main_arg4
  let main_cst_6 : FVec F S_ .f32 := constant S_ .f32 0x7F800000#32
  let main_v20 : FVec F S64x400 .f32 := broadcastInDim S64x400 ![] bcast_S_S64x400 main_cst_6
  let main_v21 : IVec S64x400 1 := cmpf .olt main_v19 main_v20
  let main_c_7 : IVec S_ 1 := constantI S_ 1 1#1
  let main_v22 : IVec S_ 1 := (fun x v => Host.reduce IntOp.andi x v reducesTo_S64x400_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x400 .f32 := Host.absf main_arg6
  let main_cst_10 : FVec F S_ .f32 := constant S_ .f32 0x7F800000#32
  let main_v30 : FVec F S64x400 .f32 := broadcastInDim S64x400 ![] bcast_S_S64x400 main_cst_10
  let main_v31 : IVec S64x400 1 := cmpf .olt main_v29 main_v30
  let main_c_11 : IVec S_ 1 := constantI S_ 1 1#1
  let main_v32 : IVec S_ 1 := (fun x v => Host.reduce IntOp.andi x v reducesTo_S64x400_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x4096 .f32) (main_arg1 : FVec F S16384x64 .f32) (main_arg2 : FVec F S400x4096 .f32) (main_arg3 : FVec F S400 .f32) (main_arg4 : FVec F S64x400 .f32) (main_arg5 : FVec F S64 .f32) (main_arg6 : FVec F S64x400 .f32) (main_arg7 : FVec F S64 .f32) (main_arg8 : FVec F S3520x400 .f32) (main_arg9 : FVec F S3520 .f32) (main_arg10 : FVec F S400x64 .f32) (main_arg11 : FVec F S400 .f32) (main_arg12 : FVec F S4096x400 .f32) (main_arg13 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S400x4096 .f32 := Host.absf main_arg2
  let main_cst_2 : FVec F S_ .f32 := constant S_ .f32 0x7F800000#32
  let main_v10 : FVec F S400x4096 .f32 := broadcastInDim S400x4096 ![] bcast_S_S400x4096 main_cst_2
  let main_v11 : IVec S400x4096 1 := cmpf .olt main_v9 main_v10
  let main_c_3 : IVec S_ 1 := constantI S_ 1 1#1
  let main_v12 : IVec S_ 1 := (fun x v => Host.reduce IntOp.andi x v reducesTo_S400x4096_S_d0_1 h_S_) main_v11 main_c_3
  let main_v13 : IVec S_ 1 := andi main_v8 main_v12
  let main_v14 : FVec F S400 .f32 := Host.absf main_arg3
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S1x3520 : Shape := ⟨2, ![1, 3520]⟩
abbrev S256x4096 : Shape := ⟨2, ![256, 4096]⟩
abbrev S256x64 : Shape := ⟨2, ![256, 64]⟩
abbrev S256x400 : Shape := ⟨2, ![256, 400]⟩
abbrev S1x400 : Shape := ⟨2, ![1, 400]⟩
abbrev S1x64 : Shape := ⟨2, ![1, 64]⟩
abbrev S400x3520 : Shape := ⟨2, ![400, 3520]⟩
abbrev S256x3520 : Shape := ⟨2, ![256, 3520]⟩
abbrev S8x440 : Shape := ⟨2, ![8, 440]⟩
abbrev S8x400 : Shape := ⟨2, ![8, 400]⟩
abbrev S8x20x20 : Shape := ⟨3, ![8, 20, 20]⟩
abbrev S8x20 : Shape := ⟨2, ![8, 20]⟩
abbrev S512x64 : Shape := ⟨2, ![512, 64]⟩
abbrev S512x4096 : Shape := ⟨2, ![512, 4096]⟩
abbrev S1x20x20 : Shape := ⟨3, ![1, 20, 20]⟩
abbrev S20x20 : Shape := ⟨2, ![20, 20]⟩
abbrev S1x20 : Shape := ⟨2, ![1, 20]⟩
abbrev S20 : Shape := ⟨1, ![20]⟩
abbrev S20x1 : Shape := ⟨2, ![20, 1]⟩
abbrev S512x20 : Shape := ⟨2, ![512, 20]⟩
abbrev S512x44 : Shape := ⟨2, ![512, 44]⟩
abbrev S512x400 : Shape := ⟨2, ![512, 400]⟩
abbrev S1x4096 : Shape := ⟨2, ![1, 4096]⟩

abbrev nBuf : Space → Nat
  | .hbm => 24
  | .vmem => 30
  | .smem => 0
  | _ => 0

abbrev bufTy : (tb : Table) → Fin (tcTables nBuf tb) → BufTy
  | .hbm, ⟨0, _⟩ => ⟨S16384x4096, .f32⟩
  | .hbm, ⟨1, _⟩ => ⟨S16384x64, .f32⟩
  | .hbm, ⟨2, _⟩ => ⟨S400x4096, .f32⟩
  | .hbm, ⟨3, _⟩ => ⟨S400, .f32⟩
  | .hbm, ⟨4, _⟩ => ⟨S64x400, .f32⟩
  | .hbm, ⟨5, _⟩ => ⟨S64, .f32⟩
  | .hbm, ⟨6, _⟩ => ⟨S64x400, .f32⟩
  | .hbm, ⟨7, _⟩ => ⟨S64, .f32⟩
  | .hbm, ⟨8, _⟩ => ⟨S3520x400, .f32⟩
  | .hbm, ⟨9, _⟩ => ⟨S3520, .f32⟩
  | .hbm, ⟨10, _⟩ => ⟨S400x64, .f32⟩
  | .hbm, ⟨11, _⟩ => ⟨S400, .f32⟩
  | .hbm, ⟨12, _⟩ => ⟨S4096x400, .f32⟩
  | .hbm, ⟨13, _⟩ => ⟨S4096, .f32⟩
  | .hbm, ⟨14, _⟩ => ⟨S16384x64, .f32⟩
  | .hbm, ⟨15, _⟩ => ⟨S16384x64, .f32⟩
  | .hbm, ⟨16, _⟩ => ⟨S1x3520, .f32⟩
  | .hbm, ⟨17, _⟩ => ⟨S3520, .f32⟩
  | .hbm, ⟨18, _⟩ => ⟨S8x440, .f32⟩
  | .hbm, ⟨19, _⟩ => ⟨S8x400, .f32⟩
  | .hbm, ⟨20, _⟩ => ⟨S8x20x20, .f32⟩
  | .hbm, ⟨21, _⟩ => ⟨S8x20, .f32⟩
  | .hbm, ⟨22, _⟩ => ⟨S8x20, .f32⟩
  | .hbm, ⟨23, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S400x4096, .f32⟩
  | .local _ .vmem, ⟨3, _⟩ => ⟨S400, .f32⟩
  | .local _ .vmem, ⟨4, _⟩ => ⟨S64x400, .f32⟩
  | .local _ .vmem, ⟨5, _⟩ => ⟨S64, .f32⟩
  | .local _ .vmem, ⟨6, _⟩ => ⟨S64x400, .f32⟩
  | .local _ .vmem, ⟨7, _⟩ => ⟨S64, .f32⟩
  | .local _ .vmem, ⟨8, _⟩ => ⟨S3520x400, .f32⟩
  | .local _ .vmem, ⟨9, _⟩ => ⟨S3520, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S1x3520, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x64, .f32⟩
  | .local _ .vmem, ⟨21, _⟩ => ⟨S8x20x20, .f32⟩
  | .local _ .vmem, ⟨22, _⟩ => ⟨S8x20, .f32⟩
  | .local _ .vmem, ⟨23, _⟩ => ⟨S8x20, .f32⟩
  | .local _ .vmem, ⟨24, _⟩ => ⟨S400x64, .f32⟩
  | .local _ .vmem, ⟨25, _⟩ => ⟨S400, .f32⟩
  | .local _ .vmem, ⟨26, _⟩ => ⟨S4096x400, .f32⟩
  | .local _ .vmem, ⟨27, _⟩ => ⟨S4096, .f32⟩
  | .local _ .vmem, ⟨28, _⟩ => ⟨S512x4096, .f32⟩
  | .local _ .vmem, ⟨29, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3520x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3520 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3520 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x20x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S400x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S400 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x400 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  inb_S1x3520_S1x3520_0_0 : ∀ a, (![0, 0] : Fin 2 → Nat) a + S1x3520.size a ≤ S1x3520.size a
  h_S1x3520 : 0 < S1x3520.numel
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S400x4096_S400x4096_0_0 : ∀ a, (![0, 0] : Fin 2 → Nat) a + S400x4096.size a ≤ S400x4096.size a
  h_S400x4096 : 0 < S400x4096.numel
  transposes_S400x4096_p1_0_S4096x400 : S400x4096.Transposes [1, 0] S4096x400
  inb_S400_S400_0 : ∀ a, (![0] : Fin 1 → Nat) a + S400.size a ≤ S400.size a
  h_S400 : 0 < S400.numel
  shapeCasts_S400_S1x400 : S400.ShapeCasts S1x400
  broadcasts_S1x400_S256x400 : S1x400.Broadcasts S256x400
  inb_S64x400_S64x400_0_0 : ∀ a, (![0, 0] : Fin 2 → Nat) a + S64x400.size a ≤ S64x400.size a
  h_S64x400 : 0 < S64x400.numel
  transposes_S64x400_p1_0_S400x64 : S64x400.Transposes [1, 0] S400x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  inb_S3520x400_S3520x400_0_0 : ∀ a, (![0, 0] : Fin 2 → Nat) a + S3520x400.size a ≤ S3520x400.size a
  h_S3520x400 : 0 < S3520x400.numel
  transposes_S3520x400_p1_0_S400x3520 : S3520x400.Transposes [1, 0] S400x3520
  inb_S3520_S3520_0 : ∀ a, (![0] : Fin 1 → Nat) a + S3520.size a ≤ S3520.size a
  h_S3520 : 0 < S3520.numel
  shapeCasts_S3520_S1x3520 : S3520.ShapeCasts S1x3520
  broadcasts_S1x3520_S256x3520 : S1x3520.Broadcasts S256x3520
  reduces_S256x3520_S3520 : S256x3520.Reduces [0] S3520
  shapeCasts_S1x3520_S1x3520 : S1x3520.ShapeCasts S1x3520
  shapeCasts_S1x3520_S3520 : S1x3520.ShapeCasts S3520
  shapeCasts_S3520_S8x440 : S3520.ShapeCasts S8x440
  slices_S8x440_S8x400_0_0 : S8x440.Slices ![0, 0] S8x400
  shapeCasts_S8x400_S8x20x20 : S8x400.ShapeCasts S8x20x20
  slices_S8x440_S8x20_0_400 : S8x440.Slices ![0, 400] S8x20
  slices_S8x440_S8x20_0_420 : S8x440.Slices ![0, 420] S8x20
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S8x20x20_S1x20x20_0_0_0 : ∀ a, (![0, 0, 0] : Fin 3 → Nat) a + S1x20x20.size a ≤ S8x20x20.size a
  h_S1x20x20 : 0 < S1x20x20.numel
  shapeCasts_S1x20x20_S20x20 : S1x20x20.ShapeCasts S20x20
  iota_S20x20_d0_w32 : S20x20.Iotas .tc 32 [0]
  iota_S20x20_d1_w32 : S20x20.Iotas .tc 32 [1]
  transposes_S20x20_p1_0_S20x20 : S20x20.Transposes [1, 0] S20x20
  inb_S8x20_S1x20_0_0 : ∀ a, (![0, 0] : Fin 2 → Nat) a + S1x20.size a ≤ S8x20.size a
  h_S1x20 : 0 < S1x20.numel
  shapeCasts_S1x20_S20 : S1x20.ShapeCasts S20
  shapeCasts_S20_S20x1 : S20.ShapeCasts S20x1
  shapeCasts_S20x1_S20x1 : S20x1.ShapeCasts S20x1
  broadcasts_S20x1_S20x20 : S20x1.Broadcasts S20x20
  slices_S512x64_o0_0_S512x20 : S512x64.Slices ![0, 0] S512x20
  shapeCasts_S20_S1x20 : S20.ShapeCasts S1x20
  broadcasts_S1x20_S512x20 : S1x20.Broadcasts S512x20
  concatenates_S512x20_S512x44_S512x64_d1 : Shape.Concatenates [S512x20, S512x44] S512x64 1
  inb_S8x20x20_S1x20x20_1_0_0 : ∀ a, (![1, 0, 0] : Fin 3 → Nat) a + S1x20x20.size a ≤ S8x20x20.size a
  inb_S8x20_S1x20_1_0 : ∀ a, (![1, 0] : Fin 2 → Nat) a + S1x20.size a ≤ S8x20.size a
  inb_S8x20x20_S1x20x20_2_0_0 : ∀ a, (![2, 0, 0] : Fin 3 → Nat) a + S1x20x20.size a ≤ S8x20x20.size a
  inb_S8x20_S1x20_2_0 : ∀ a, (![2, 0] : Fin 2 → Nat) a + S1x20.size a ≤ S8x20.size a
  inb_S8x20x20_S1x20x20_3_0_0 : ∀ a, (![3, 0, 0] : Fin 3 → Nat) a + S1x20x20.size a ≤ S8x20x20.size a
  inb_S8x20_S1x20_3_0 : ∀ a, (![3, 0] : Fin 2 → Nat) a + S1x20.size a ≤ S8x20.size a
  inb_S8x20x20_S1x20x20_4_0_0 : ∀ a, (![4, 0, 0] : Fin 3 → Nat) a + S1x20x20.size a ≤ S8x20x20.size a
  inb_S8x20_S1x20_4_0 : ∀ a, (![4, 0] : Fin 2 → Nat) a + S1x20.size a ≤ S8x20.size a
  inb_S8x20x20_S1x20x20_5_0_0 : ∀ a, (![5, 0, 0] : Fin 3 → Nat) a + S1x20x20.size a ≤ S8x20x20.size a
  inb_S8x20_S1x20_5_0 : ∀ a, (![5, 0] : Fin 2 → Nat) a + S1x20.size a ≤ S8x20.size a
  inb_S8x20x20_S1x20x20_6_0_0 : ∀ a, (![6, 0, 0] : Fin 3 → Nat) a + S1x20x20.size a ≤ S8x20x20.size a
  inb_S8x20_S1x20_6_0 : ∀ a, (![6, 0] : Fin 2 → Nat) a + S1x20.size a ≤ S8x20.size a
  inb_S8x20x20_S1x20x20_7_0_0 : ∀ a, (![7, 0, 0] : Fin 3 → Nat) a + S1x20x20.size a ≤ S8x20x20.size a
  inb_S8x20_S1x20_7_0 : ∀ a, (![7, 0] : Fin 2 → Nat) a + S1x20.size a ≤ S8x20.size a
  inb_S400x64_S400x64_0_0 : ∀ a, (![0, 0] : Fin 2 → Nat) a + S400x64.size a ≤ S400x64.size a
  h_S400x64 : 0 < S400x64.numel
  transposes_S400x64_p1_0_S64x400 : S400x64.Transposes [1, 0] S64x400
  broadcasts_S1x400_S512x400 : S1x400.Broadcasts S512x400
  inb_S4096x400_S4096x400_0_0 : ∀ a, (![0, 0] : Fin 2 → Nat) a + S4096x400.size a ≤ S4096x400.size a
  h_S4096x400 : 0 < S4096x400.numel
  transposes_S4096x400_p1_0_S400x4096 : S4096x400.Transposes [1, 0] S400x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S256x4096_S4096x400_S256x400_1_0_0_1_n_n_wf : DotDims.WF S256x4096 S4096x400 S256x400 [1] [0] [0] [1] [] []
  dot_S256x400_S400x64_S256x64_1_0_0_1_n_n_wf : DotDims.WF S256x400 S400x64 S256x64 [1] [0] [0] [1] [] []
  dot_S256x400_S400x3520_S256x3520_1_0_0_1_n_n_wf : DotDims.WF S256x400 S400x3520 S256x3520 [1] [0] [0] [1] [] []
  dot_S512x20_S20x20_S512x20_1_0_0_1_n_n_wf : DotDims.WF S512x20 S20x20 S512x20 [1] [0] [0] [1] [] []
  dot_S512x64_S64x400_S512x400_1_0_0_1_n_n_wf : DotDims.WF S512x64 S64x400 S512x400 [1] [0] [0] [1] [] []
  dot_S512x400_S400x4096_S512x4096_1_0_0_1_n_n_wf : DotDims.WF S512x400 S400x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x4096.size a ≤ S400x4096.size a
  hwx0_1 : ∀ i : grid0.Coords, EltTy.bits .f32 = 32 ∨ (Rect.block (s := S400x4096) S400x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x400.size a ≤ S64x400.size a
  hwx0_3 : ∀ i : grid0.Coords, EltTy.bits .f32 = 32 ∨ (Rect.block (s := S64x400) S64x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x400.size a ≤ S64x400.size a
  hwx0_5 : ∀ i : grid0.Coords, EltTy.bits .f32 = 32 ∨ (Rect.block (s := S64x400) S64x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3520x400.size a ≤ S3520x400.size a
  hwx0_7 : ∀ i : grid0.Coords, EltTy.bits .f32 = 32 ∨ (Rect.block (s := S3520x400) S3520x400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3520.size a ≤ S3520.size a
  hwx0_8 : ∀ i : grid0.Coords, EltTy.bits .f32 = 32 ∨ (Rect.block (s := S3520) S3520.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S16384x64.size a
  hwx0_9 : ∀ i : grid0.Coords, EltTy.bits .f32 = 32 ∨ (Rect.block (s := S16384x64) S256x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S16384x64.size a
  hwx0_10 : ∀ i : grid0.Coords, EltTy.bits .f32 = 32 ∨ (Rect.block (s := S16384x64) S256x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x3520.size a ≤ S1x3520.size a
  hwx0_11 : ∀ i : grid0.Coords, EltTy.bits .f32 = 32 ∨ (Rect.block (s := S1x3520) S1x3520.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S16384x64.size a
  hwx1_0 : ∀ i : grid1.Coords, EltTy.bits .f32 = 32 ∨ (Rect.block (s := S16384x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S16384x64.size a
  hwx1_1 : ∀ i : grid1.Coords, EltTy.bits .f32 = 32 ∨ (Rect.block (s := S16384x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S16384x64.size a
  hwx1_2 : ∀ i : grid1.Coords, EltTy.bits .f32 = 32 ∨ (Rect.block (s := S16384x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x20x20.size a ≤ S8x20x20.size a
  hwx1_3 : ∀ i : grid1.Coords, EltTy.bits .f32 = 32 ∨ (Rect.block (s := S8x20x20) S8x20x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x20.size a ≤ S8x20.size a
  hwx1_4 : ∀ i : grid1.Coords, EltTy.bits .f32 = 32 ∨ (Rect.block (s := S8x20) S8x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x20.size a ≤ S8x20.size a
  hwx1_5 : ∀ i : grid1.Coords, EltTy.bits .f32 = 32 ∨ (Rect.block (s := S8x20) S8x20.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S400x64.size a ≤ S400x64.size a
  hwx1_6 : ∀ i : grid1.Coords, EltTy.bits .f32 = 32 ∨ (Rect.block (s := S400x64) S400x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S400.size a ≤ S400.size a
  hwx1_7 : ∀ i : grid1.Coords, EltTy.bits .f32 = 32 ∨ (Rect.block (s := S400) S400.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x400.size a ≤ S4096x400.size a
  hwx1_8 : ∀ i : grid1.Coords, EltTy.bits .f32 = 32 ∨ (Rect.block (s := S4096x400) S4096x400.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096.size a ≤ S4096.size a
  hwx1_9 : ∀ i : grid1.Coords, EltTy.bits .f32 = 32 ∨ (Rect.block (s := S4096) S4096.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x4096.size a ≤ S16384x4096.size a
  hwx1_10 : ∀ i : grid1.Coords, EltTy.bits .f32 = 32 ∨ (Rect.block (s := S16384x4096) S512x4096.size (cc1_transform_10 i) (hinb1_10 i)).WholeWords (EltTy.packing .f32)

variable [Facts₀]

def dot_S256x4096_S4096x400_S256x400_1_0_0_1_n_n : DotDims S256x4096 S4096x400 S256x400 where
  lhsContracting := [1]
  rhsContracting := [0]
  lhsNonContracting := [0]
  rhsNonContracting := [1]
  lhsBatch := []
  rhsBatch := []
  wf := dot_S256x4096_S4096x400_S256x400_1_0_0_1_n_n_wf
def dot_S256x400_S400x64_S256x64_1_0_0_1_n_n : DotDims S256x400 S400x64 S256x64 where
  lhsContracting := [1]
  rhsContracting := [0]
  lhsNonContracting := [0]
  rhsNonContracting := [1]
  lhsBatch := []
  rhsBatch := []
  wf := dot_S256x400_S400x64_S256x64_1_0_0_1_n_n_wf
def dot_S256x400_S400x3520_S256x3520_1_0_0_1_n_n : DotDims S256x400 S400x3520 S256x3520 where
  lhsContracting := [1]
  rhsContracting := [0]
  lhsNonContracting := [0]
  rhsNonContracting := [1]
  lhsBatch := []
  rhsBatch := []
  wf := dot_S256x400_S400x3520_S256x3520_1_0_0_1_n_n_wf
def dot_S512x20_S20x20_S512x20_1_0_0_1_n_n : DotDims S512x20 S20x20 S512x20 where
  lhsContracting := [1]
  rhsContracting := [0]
  lhsNonContracting := [0]
  rhsNonContracting := [1]
  lhsBatch := []
  rhsBatch := []
  wf := dot_S512x20_S20x20_S512x20_1_0_0_1_n_n_wf
def dot_S512x64_S64x400_S512x400_1_0_0_1_n_n : DotDims S512x64 S64x400 S512x400 where
  lhsContracting := [1]
  rhsContracting := [0]
  lhsNonContracting := [0]
  rhsNonContracting := [1]
  lhsBatch := []
  rhsBatch := []
  wf := dot_S512x64_S64x400_S512x400_1_0_0_1_n_n_wf
def dot_S512x400_S400x4096_S512x4096_1_0_0_1_n_n : DotDims S512x400 S400x4096 S512x4096 where
  lhsContracting := [1]
  rhsContracting := [0]
  lhsNonContracting := [0]
  rhsNonContracting := [1]
  lhsBatch := []
  rhsBatch := []
  wf := dot_S512x400_S400x4096_S512x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3520x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3520.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S256x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S256x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S1x3520.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S8x20x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S8x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S8x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S400x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S400.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S4096x400.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S4096.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S512x4096.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S16384x64 : Shape := ⟨2, ![16384, 64]⟩
abbrev S400x4096 : Shape := ⟨2, ![400, 4096]⟩
abbrev S400 : Shape := ⟨1, ![400]⟩
abbrev S64x400 : Shape := ⟨2, ![64, 400]⟩
abbrev S64 : Shape := ⟨1, ![64]⟩
abbrev S3520x400 : Shape := ⟨2, ![3520, 400]⟩
abbrev S3520 : Shape := ⟨1, ![3520]⟩
abbrev S400x64 : Shape := ⟨2, ![400, 64]⟩
abbrev S4096x400 : Shape := ⟨2, ![4096, 400]⟩
abbrev S4096 : Shape := ⟨1, ![4096]⟩
abbrev S16384x400 : Shape := ⟨2, ![16384, 400]⟩
abbrev S1x400 : Shape := ⟨2, ![1, 400]⟩
abbrev S_ : Shape := ⟨0, ![]⟩
abbrev S1x64 : Shape := ⟨2, ![1, 64]⟩
abbrev S400x3520 : Shape := ⟨2, ![400, 3520]⟩
abbrev S16384x3520 : Shape := ⟨2, ![16384, 3520]⟩
abbrev S1x3520 : Shape := ⟨2, ![1, 3520]⟩
abbrev S440 : Shape := ⟨1, ![440]⟩
abbrev S20x20 : Shape := ⟨2, ![20, 20]⟩
abbrev S20 : Shape := ⟨1, ![20]⟩
abbrev S20x1 : Shape := ⟨2, ![20, 1]⟩
abbrev S16384x20 : Shape := ⟨2, ![16384, 20]⟩
abbrev S1x20 : Shape := ⟨2, ![1, 20]⟩
abbrev S1 : Shape := ⟨1, ![1]⟩
abbrev S1x4096 : Shape := ⟨2, ![1, 4096]⟩

abbrev nBuf : Space → Nat
  | .hbm => 549
  | .vmem => 0
  | .smem => 0
  | _ => 0

abbrev hbmTy0_0 (i : Nat) : BufTy := match i % 128 with
  | 0 => ⟨S16384x4096, .f32⟩
  | 1 => ⟨S16384x64, .f32⟩
  | 2 => ⟨S400x4096, .f32⟩
  | 3 => ⟨S400, .f32⟩
  | 4 => ⟨S64x400, .f32⟩
  | 5 => ⟨S64, .f32⟩
  | 6 => ⟨S64x400, .f32⟩
  | 7 => ⟨S64, .f32⟩
  | 8 => ⟨S3520x400, .f32⟩
  | 9 => ⟨S3520, .f32⟩
  | 10 => ⟨S400x64, .f32⟩
  | 11 => ⟨S400, .f32⟩
  | 12 => ⟨S4096x400, .f32⟩
  | 13 => ⟨S4096, .f32⟩
  | 14 => ⟨S4096x400, .f32⟩
  | 15 => ⟨S16384x400, .f32⟩
  | 16 => ⟨S1x400, .f32⟩
  | 17 => ⟨S16384x400, .f32⟩
  | 18 => ⟨S16384x400, .f32⟩
  | 19 => ⟨S_, .f32⟩
  | 20 => ⟨S16384x400, .f32⟩
  | 21 => ⟨S16384x400, .f32⟩
  | 22 => ⟨S400x64, .f32⟩
  | 23 => ⟨S16384x64, .f32⟩
  | 24 => ⟨S1x64, .f32⟩
  | 25 => ⟨S16384x64, .f32⟩
  | 26 => ⟨S16384x64, .f32⟩
  | 27 => ⟨S400x64, .f32⟩
  | 28 => ⟨S16384x64, .f32⟩
  | 29 => ⟨S1x64, .f32⟩
  | 30 => ⟨S16384x64, .f32⟩
  | 31 => ⟨S16384x64, .f32⟩
  | 32 => ⟨S400x3520, .f32⟩
  | 33 => ⟨S16384x3520, .f32⟩
  | 34 => ⟨S1x3520, .f32⟩
  | 35 => ⟨S16384x3520, .f32⟩
  | 36 => ⟨S16384x3520, .f32⟩
  | 37 => ⟨S_, .f32⟩
  | 38 => ⟨S3520, .f32⟩
  | 39 => ⟨S_, .f32⟩
  | 40 => ⟨S3520, .f32⟩
  | 41 => ⟨S3520, .f32⟩
  | 42 => ⟨S_, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S440, .f32⟩
  | 49 => ⟨S400, .f32⟩
  | 50 => ⟨S20x20, .f32⟩
  | 51 => ⟨S20x20, .i32⟩
  | 52 => ⟨S_, .i32⟩
  | 53 => ⟨S20x20, .i32⟩
  | 54 => ⟨S20x20, .i32⟩
  | 55 => ⟨S20x20, .i32⟩
  | 56 => ⟨S20x20, .i1⟩
  | 57 => ⟨S_, .f32⟩
  | 58 => ⟨S20x20, .f32⟩
  | 59 => ⟨S20x20, .f32⟩
  | 60 => ⟨S20x20, .i32⟩
  | 61 => ⟨S_, .i32⟩
  | 62 => ⟨S20x20, .i32⟩
  | 63 => ⟨S20x20, .i32⟩
  | 64 => ⟨S20x20, .i32⟩
  | 65 => ⟨S20x20, .i1⟩
  | 66 => ⟨S_, .f32⟩
  | 67 => ⟨S20x20, .f32⟩
  | 68 => ⟨S20x20, .f32⟩
  | 69 => ⟨S20x20, .f32⟩
  | 70 => ⟨S20, .f32⟩
  | 71 => ⟨S20, .f32⟩
  | 72 => ⟨S20x20, .i32⟩
  | 73 => ⟨S20x20, .i32⟩
  | 74 => ⟨S_, .i32⟩
  | 75 => ⟨S20x20, .i32⟩
  | 76 => ⟨S20x20, .i32⟩
  | 77 => ⟨S20x20, .i1⟩
  | 78 => ⟨S20x20, .f32⟩
  | 79 => ⟨S_, .f32⟩
  | 80 => ⟨S20x20, .f32⟩
  | 81 => ⟨S20x20, .f32⟩
  | 82 => ⟨S20x20, .f32⟩
  | 83 => ⟨S_, .f32⟩
  | 84 => ⟨S20, .f32⟩
  | 85 => ⟨S20x20, .i32⟩
  | 86 => ⟨S20x20, .i32⟩
  | 87 => ⟨S_, .i32⟩
  | 88 => ⟨S20x20, .i32⟩
  | 89 => ⟨S20x20, .i32⟩
  | 90 => ⟨S20x20, .i1⟩
  | 91 => ⟨S20x1, .f32⟩
  | 92 => ⟨S_, .f32⟩
  | 93 => ⟨S20x20, .f32⟩
  | 94 => ⟨S20x20, .f32⟩
  | 95 => ⟨S20x20, .f32⟩
  | 96 => ⟨S20x20, .f32⟩
  | 97 => ⟨S16384x20, .f32⟩
  | 98 => ⟨S20x20, .f32⟩
  | 99 => ⟨S16384x20, .f32⟩
  | 100 => ⟨S1x20, .f32⟩
  | 101 => ⟨S16384x20, .f32⟩
  | 102 => ⟨S16384x20, .f32⟩
  | 103 => ⟨S16384x20, .f32⟩
  | 104 => ⟨S20x20, .f32⟩
  | 105 => ⟨S16384x20, .f32⟩
  | 106 => ⟨S_, .i32⟩
  | 107 => ⟨S1, .i32⟩
  | 108 => ⟨S16384x64, .f32⟩
  | 109 => ⟨S440, .f32⟩
  | 110 => ⟨S400, .f32⟩
  | 111 => ⟨S20x20, .f32⟩
  | 112 => ⟨S20x20, .i32⟩
  | 113 => ⟨S_, .i32⟩
  | 114 => ⟨S20x20, .i32⟩
  | 115 => ⟨S20x20, .i32⟩
  | 116 => ⟨S20x20, .i32⟩
  | 117 => ⟨S20x20, .i1⟩
  | 118 => ⟨S_, .f32⟩
  | 119 => ⟨S20x20, .f32⟩
  | 120 => ⟨S20x20, .f32⟩
  | 121 => ⟨S20x20, .i32⟩
  | 122 => ⟨S_, .i32⟩
  | 123 => ⟨S20x20, .i32⟩
  | 124 => ⟨S20x20, .i32⟩
  | 125 => ⟨S20x20, .i32⟩
  | 126 => ⟨S20x20, .i1⟩
  | 127 => ⟨S_, .f32⟩
  | _ => ⟨S16384x4096, .f32⟩

abbrev hbmTy0_1 (i : Nat) : BufTy := match i % 128 with
  | 0 => ⟨S20x20, .f32⟩
  | 1 => ⟨S20x20, .f32⟩
  | 2 => ⟨S20x20, .f32⟩
  | 3 => ⟨S20, .f32⟩
  | 4 => ⟨S20, .f32⟩
  | 5 => ⟨S20x20, .i32⟩
  | 6 => ⟨S20x20, .i32⟩
  | 7 => ⟨S_, .i32⟩
  | 8 => ⟨S20x20, .i32⟩
  | 9 => ⟨S20x20, .i32⟩
  | 10 => ⟨S20x20, .i1⟩
  | 11 => ⟨S20x20, .f32⟩
  | 12 => ⟨S_, .f32⟩
  | 13 => ⟨S20x20, .f32⟩
  | 14 => ⟨S20x20, .f32⟩
  | 15 => ⟨S20x20, .f32⟩
  | 16 => ⟨S_, .f32⟩
  | 17 => ⟨S20, .f32⟩
  | 18 => ⟨S20x20, .i32⟩
  | 19 => ⟨S20x20, .i32⟩
  | 20 => ⟨S_, .i32⟩
  | 21 => ⟨S20x20, .i32⟩
  | 22 => ⟨S20x20, .i32⟩
  | 23 => ⟨S20x20, .i1⟩
  | 24 => ⟨S20x1, .f32⟩
  | 25 => ⟨S_, .f32⟩
  | 26 => ⟨S20x20, .f32⟩
  | 27 => ⟨S20x20, .f32⟩
  | 28 => ⟨S20x20, .f32⟩
  | 29 => ⟨S20x20, .f32⟩
  | 30 => ⟨S16384x20, .f32⟩
  | 31 => ⟨S20x20, .f32⟩
  | 32 => ⟨S16384x20, .f32⟩
  | 33 => ⟨S1x20, .f32⟩
  | 34 => ⟨S16384x20, .f32⟩
  | 35 => ⟨S16384x20, .f32⟩
  | 36 => ⟨S16384x20, .f32⟩
  | 37 => ⟨S20x20, .f32⟩
  | 38 => ⟨S16384x20, .f32⟩
  | 39 => ⟨S_, .i32⟩
  | 40 => ⟨S1, .i32⟩
  | 41 => ⟨S16384x64, .f32⟩
  | 42 => ⟨S440, .f32⟩
  | 43 => ⟨S400, .f32⟩
  | 44 => ⟨S20x20, .f32⟩
  | 45 => ⟨S20x20, .i32⟩
  | 46 => ⟨S_, .i32⟩
  | 47 => ⟨S20x20, .i32⟩
  | 48 => ⟨S20x20, .i32⟩
  | 49 => ⟨S20x20, .i32⟩
  | 50 => ⟨S20x20, .i1⟩
  | 51 => ⟨S_, .f32⟩
  | 52 => ⟨S20x20, .f32⟩
  | 53 => ⟨S20x20, .f32⟩
  | 54 => ⟨S20x20, .i32⟩
  | 55 => ⟨S_, .i32⟩
  | 56 => ⟨S20x20, .i32⟩
  | 57 => ⟨S20x20, .i32⟩
  | 58 => ⟨S20x20, .i32⟩
  | 59 => ⟨S20x20, .i1⟩
  | 60 => ⟨S_, .f32⟩
  | 61 => ⟨S20x20, .f32⟩
  | 62 => ⟨S20x20, .f32⟩
  | 63 => ⟨S20x20, .f32⟩
  | 64 => ⟨S20, .f32⟩
  | 65 => ⟨S20, .f32⟩
  | 66 => ⟨S20x20, .i32⟩
  | 67 => ⟨S20x20, .i32⟩
  | 68 => ⟨S_, .i32⟩
  | 69 => ⟨S20x20, .i32⟩
  | 70 => ⟨S20x20, .i32⟩
  | 71 => ⟨S20x20, .i1⟩
  | 72 => ⟨S20x20, .f32⟩
  | 73 => ⟨S_, .f32⟩
  | 74 => ⟨S20x20, .f32⟩
  | 75 => ⟨S20x20, .f32⟩
  | 76 => ⟨S20x20, .f32⟩
  | 77 => ⟨S_, .f32⟩
  | 78 => ⟨S20, .f32⟩
  | 79 => ⟨S20x20, .i32⟩
  | 80 => ⟨S20x20, .i32⟩
  | 81 => ⟨S_, .i32⟩
  | 82 => ⟨S20x20, .i32⟩
  | 83 => ⟨S20x20, .i32⟩
  | 84 => ⟨S20x20, .i1⟩
  | 85 => ⟨S20x1, .f32⟩
  | 86 => ⟨S_, .f32⟩
  | 87 => ⟨S20x20, .f32⟩
  | 88 => ⟨S20x20, .f32⟩
  | 89 => ⟨S20x20, .f32⟩
  | 90 => ⟨S20x20, .f32⟩
  | 91 => ⟨S16384x20, .f32⟩
  | 92 => ⟨S20x20, .f32⟩
  | 93 => ⟨S16384x20, .f32⟩
  | 94 => ⟨S1x20, .f32⟩
  | 95 => ⟨S16384x20, .f32⟩
  | 96 => ⟨S16384x20, .f32⟩
  | 97 => ⟨S16384x20, .f32⟩
  | 98 => ⟨S20x20, .f32⟩
  | 99 => ⟨S16384x20, .f32⟩
  | 100 => ⟨S_, .i32⟩
  | 101 => ⟨S1, .i32⟩
  | 102 => ⟨S16384x64, .f32⟩
  | 103 => ⟨S440, .f32⟩
  | 104 => ⟨S400, .f32⟩
  | 105 => ⟨S20x20, .f32⟩
  | 106 => ⟨S20x20, .i32⟩
  | 107 => ⟨S_, .i32⟩
  | 108 => ⟨S20x20, .i32⟩
  | 109 => ⟨S20x20, .i32⟩
  | 110 => ⟨S20x20, .i32⟩
  | 111 => ⟨S20x20, .i1⟩
  | 112 => ⟨S_, .f32⟩
  | 113 => ⟨S20x20, .f32⟩
  | 114 => ⟨S20x20, .f32⟩
  | 115 => ⟨S20x20, .i32⟩
  | 116 => ⟨S_, .i32⟩
  | 117 => ⟨S20x20, .i32⟩
  | 118 => ⟨S20x20, .i32⟩
  | 119 => ⟨S20x20, .i32⟩
  | 120 => ⟨S20x20, .i1⟩
  | 121 => ⟨S_, .f32⟩
  | 122 => ⟨S20x20, .f32⟩
  | 123 => ⟨S20x20, .f32⟩
  | 124 => ⟨S20x20, .f32⟩
  | 125 => ⟨S20, .f32⟩
  | 126 => ⟨S20, .f32⟩
  | 127 => ⟨S20x20, .i32⟩
  | _ => ⟨S16384x4096, .f32⟩

abbrev hbmTy0_2 (i : Nat) : BufTy := match i % 128 with
  | 0 => ⟨S20x20, .i32⟩
  | 1 => ⟨S_, .i32⟩
  | 2 => ⟨S20x20, .i32⟩
  | 3 => ⟨S20x20, .i32⟩
  | 4 => ⟨S20x20, .i1⟩
  | 5 => ⟨S20x20, .f32⟩
  | 6 => ⟨S_, .f32⟩
  | 7 => ⟨S20x20, .f32⟩
  | 8 => ⟨S20x20, .f32⟩
  | 9 => ⟨S20x20, .f32⟩
  | 10 => ⟨S_, .f32⟩
  | 11 => ⟨S20, .f32⟩
  | 12 => ⟨S20x20, .i32⟩
  | 13 => ⟨S20x20, .i32⟩
  | 14 => ⟨S_, .i32⟩
  | 15 => ⟨S20x20, .i32⟩
  | 16 => ⟨S20x20, .i32⟩
  | 17 => ⟨S20x20, .i1⟩
  | 18 => ⟨S20x1, .f32⟩
  | 19 => ⟨S_, .f32⟩
  | 20 => ⟨S20x20, .f32⟩
  | 21 => ⟨S20x20, .f32⟩
  | 22 => ⟨S20x20, .f32⟩
  | 23 => ⟨S20x20, .f32⟩
  | 24 => ⟨S16384x20, .f32⟩
  | 25 => ⟨S20x20, .f32⟩
  | 26 => ⟨S16384x20, .f32⟩
  | 27 => ⟨S1x20, .f32⟩
  | 28 => ⟨S16384x20, .f32⟩
  | 29 => ⟨S16384x20, .f32⟩
  | 30 => ⟨S16384x20, .f32⟩
  | 31 => ⟨S20x20, .f32⟩
  | 32 => ⟨S16384x20, .f32⟩
  | 33 => ⟨S_, .i32⟩
  | 34 => ⟨S1, .i32⟩
  | 35 => ⟨S16384x64, .f32⟩
  | 36 => ⟨S440, .f32⟩
  | 37 => ⟨S400, .f32⟩
  | 38 => ⟨S20x20, .f32⟩
  | 39 => ⟨S20x20, .i32⟩
  | 40 => ⟨S_, .i32⟩
  | 41 => ⟨S20x20, .i32⟩
  | 42 => ⟨S20x20, .i32⟩
  | 43 => ⟨S20x20, .i32⟩
  | 44 => ⟨S20x20, .i1⟩
  | 45 => ⟨S_, .f32⟩
  | 46 => ⟨S20x20, .f32⟩
  | 47 => ⟨S20x20, .f32⟩
  | 48 => ⟨S20x20, .i32⟩
  | 49 => ⟨S_, .i32⟩
  | 50 => ⟨S20x20, .i32⟩
  | 51 => ⟨S20x20, .i32⟩
  | 52 => ⟨S20x20, .i32⟩
  | 53 => ⟨S20x20, .i1⟩
  | 54 => ⟨S_, .f32⟩
  | 55 => ⟨S20x20, .f32⟩
  | 56 => ⟨S20x20, .f32⟩
  | 57 => ⟨S20x20, .f32⟩
  | 58 => ⟨S20, .f32⟩
  | 59 => ⟨S20, .f32⟩
  | 60 => ⟨S20x20, .i32⟩
  | 61 => ⟨S20x20, .i32⟩
  | 62 => ⟨S_, .i32⟩
  | 63 => ⟨S20x20, .i32⟩
  | 64 => ⟨S20x20, .i32⟩
  | 65 => ⟨S20x20, .i1⟩
  | 66 => ⟨S20x20, .f32⟩
  | 67 => ⟨S_, .f32⟩
  | 68 => ⟨S20x20, .f32⟩
  | 69 => ⟨S20x20, .f32⟩
  | 70 => ⟨S20x20, .f32⟩
  | 71 => ⟨S_, .f32⟩
  | 72 => ⟨S20, .f32⟩
  | 73 => ⟨S20x20, .i32⟩
  | 74 => ⟨S20x20, .i32⟩
  | 75 => ⟨S_, .i32⟩
  | 76 => ⟨S20x20, .i32⟩
  | 77 => ⟨S20x20, .i32⟩
  | 78 => ⟨S20x20, .i1⟩
  | 79 => ⟨S20x1, .f32⟩
  | 80 => ⟨S_, .f32⟩
  | 81 => ⟨S20x20, .f32⟩
  | 82 => ⟨S20x20, .f32⟩
  | 83 => ⟨S20x20, .f32⟩
  | 84 => ⟨S20x20, .f32⟩
  | 85 => ⟨S16384x20, .f32⟩
  | 86 => ⟨S20x20, .f32⟩
  | 87 => ⟨S16384x20, .f32⟩
  | 88 => ⟨S1x20, .f32⟩
  | 89 => ⟨S16384x20, .f32⟩
  | 90 => ⟨S16384x20, .f32⟩
  | 91 => ⟨S16384x20, .f32⟩
  | 92 => ⟨S20x20, .f32⟩
  | 93 => ⟨S16384x20, .f32⟩
  | 94 => ⟨S_, .i32⟩
  | 95 => ⟨S1, .i32⟩
  | 96 => ⟨S16384x64, .f32⟩
  | 97 => ⟨S440, .f32⟩
  | 98 => ⟨S400, .f32⟩
  | 99 => ⟨S20x20, .f32⟩
  | 100 => ⟨S20x20, .i32⟩
  | 101 => ⟨S_, .i32⟩
  | 102 => ⟨S20x20, .i32⟩
  | 103 => ⟨S20x20, .i32⟩
  | 104 => ⟨S20x20, .i32⟩
  | 105 => ⟨S20x20, .i1⟩
  | 106 => ⟨S_, .f32⟩
  | 107 => ⟨S20x20, .f32⟩
  | 108 => ⟨S20x20, .f32⟩
  | 109 => ⟨S20x20, .i32⟩
  | 110 => ⟨S_, .i32⟩
  | 111 => ⟨S20x20, .i32⟩
  | 112 => ⟨S20x20, .i32⟩
  | 113 => ⟨S20x20, .i32⟩
  | 114 => ⟨S20x20, .i1⟩
  | 115 => ⟨S_, .f32⟩
  | 116 => ⟨S20x20, .f32⟩
  | 117 => ⟨S20x20, .f32⟩
  | 118 => ⟨S20x20, .f32⟩
  | 119 => ⟨S20, .f32⟩
  | 120 => ⟨S20, .f32⟩
  | 121 => ⟨S20x20, .i32⟩
  | 122 => ⟨S20x20, .i32⟩
  | 123 => ⟨S_, .i32⟩
  | 124 => ⟨S20x20, .i32⟩
  | 125 => ⟨S20x20, .i32⟩
  | 126 => ⟨S20x20, .i1⟩
  | 127 => ⟨S20x20, .f32⟩
  | _ => ⟨S16384x4096, .f32⟩

abbrev hbmTy0_3 (i : Nat) : BufTy := match i % 128 with
  | 0 => ⟨S_, .f32⟩
  | 1 => ⟨S20x20, .f32⟩
  | 2 => ⟨S20x20, .f32⟩
  | 3 => ⟨S20x20, .f32⟩
  | 4 => ⟨S_, .f32⟩
  | 5 => ⟨S20, .f32⟩
  | 6 => ⟨S20x20, .i32⟩
  | 7 => ⟨S20x20, .i32⟩
  | 8 => ⟨S_, .i32⟩
  | 9 => ⟨S20x20, .i32⟩
  | 10 => ⟨S20x20, .i32⟩
  | 11 => ⟨S20x20, .i1⟩
  | 12 => ⟨S20x1, .f32⟩
  | 13 => ⟨S_, .f32⟩
  | 14 => ⟨S20x20, .f32⟩
  | 15 => ⟨S20x20, .f32⟩
  | 16 => ⟨S20x20, .f32⟩
  | 17 => ⟨S20x20, .f32⟩
  | 18 => ⟨S16384x20, .f32⟩
  | 19 => ⟨S20x20, .f32⟩
  | 20 => ⟨S16384x20, .f32⟩
  | 21 => ⟨S1x20, .f32⟩
  | 22 => ⟨S16384x20, .f32⟩
  | 23 => ⟨S16384x20, .f32⟩
  | 24 => ⟨S16384x20, .f32⟩
  | 25 => ⟨S20x20, .f32⟩
  | 26 => ⟨S16384x20, .f32⟩
  | 27 => ⟨S_, .i32⟩
  | 28 => ⟨S1, .i32⟩
  | 29 => ⟨S16384x64, .f32⟩
  | 30 => ⟨S440, .f32⟩
  | 31 => ⟨S400, .f32⟩
  | 32 => ⟨S20x20, .f32⟩
  | 33 => ⟨S20x20, .i32⟩
  | 34 => ⟨S_, .i32⟩
  | 35 => ⟨S20x20, .i32⟩
  | 36 => ⟨S20x20, .i32⟩
  | 37 => ⟨S20x20, .i32⟩
  | 38 => ⟨S20x20, .i1⟩
  | 39 => ⟨S_, .f32⟩
  | 40 => ⟨S20x20, .f32⟩
  | 41 => ⟨S20x20, .f32⟩
  | 42 => ⟨S20x20, .i32⟩
  | 43 => ⟨S_, .i32⟩
  | 44 => ⟨S20x20, .i32⟩
  | 45 => ⟨S20x20, .i32⟩
  | 46 => ⟨S20x20, .i32⟩
  | 47 => ⟨S20x20, .i1⟩
  | 48 => ⟨S_, .f32⟩
  | 49 => ⟨S20x20, .f32⟩
  | 50 => ⟨S20x20, .f32⟩
  | 51 => ⟨S20x20, .f32⟩
  | 52 => ⟨S20, .f32⟩
  | 53 => ⟨S20, .f32⟩
  | 54 => ⟨S20x20, .i32⟩
  | 55 => ⟨S20x20, .i32⟩
  | 56 => ⟨S_, .i32⟩
  | 57 => ⟨S20x20, .i32⟩
  | 58 => ⟨S20x20, .i32⟩
  | 59 => ⟨S20x20, .i1⟩
  | 60 => ⟨S20x20, .f32⟩
  | 61 => ⟨S_, .f32⟩
  | 62 => ⟨S20x20, .f32⟩
  | 63 => ⟨S20x20, .f32⟩
  | 64 => ⟨S20x20, .f32⟩
  | 65 => ⟨S_, .f32⟩
  | 66 => ⟨S20, .f32⟩
  | 67 => ⟨S20x20, .i32⟩
  | 68 => ⟨S20x20, .i32⟩
  | 69 => ⟨S_, .i32⟩
  | 70 => ⟨S20x20, .i32⟩
  | 71 => ⟨S20x20, .i32⟩
  | 72 => ⟨S20x20, .i1⟩
  | 73 => ⟨S20x1, .f32⟩
  | 74 => ⟨S_, .f32⟩
  | 75 => ⟨S20x20, .f32⟩
  | 76 => ⟨S20x20, .f32⟩
  | 77 => ⟨S20x20, .f32⟩
  | 78 => ⟨S20x20, .f32⟩
  | 79 => ⟨S16384x20, .f32⟩
  | 80 => ⟨S20x20, .f32⟩
  | 81 => ⟨S16384x20, .f32⟩
  | 82 => ⟨S1x20, .f32⟩
  | 83 => ⟨S16384x20, .f32⟩
  | 84 => ⟨S16384x20, .f32⟩
  | 85 => ⟨S16384x20, .f32⟩
  | 86 => ⟨S20x20, .f32⟩
  | 87 => ⟨S16384x20, .f32⟩
  | 88 => ⟨S_, .i32⟩
  | 89 => ⟨S1, .i32⟩
  | 90 => ⟨S16384x64, .f32⟩
  | 91 => ⟨S440, .f32⟩
  | 92 => ⟨S400, .f32⟩
  | 93 => ⟨S20x20, .f32⟩
  | 94 => ⟨S20x20, .i32⟩
  | 95 => ⟨S_, .i32⟩
  | 96 => ⟨S20x20, .i32⟩
  | 97 => ⟨S20x20, .i32⟩
  | 98 => ⟨S20x20, .i32⟩
  | 99 => ⟨S20x20, .i1⟩
  | 100 => ⟨S_, .f32⟩
  | 101 => ⟨S20x20, .f32⟩
  | 102 => ⟨S20x20, .f32⟩
  | 103 => ⟨S20x20, .i32⟩
  | 104 => ⟨S_, .i32⟩
  | 105 => ⟨S20x20, .i32⟩
  | 106 => ⟨S20x20, .i32⟩
  | 107 => ⟨S20x20, .i32⟩
  | 108 => ⟨S20x20, .i1⟩
  | 109 => ⟨S_, .f32⟩
  | 110 => ⟨S20x20, .f32⟩
  | 111 => ⟨S20x20, .f32⟩
  | 112 => ⟨S20x20, .f32⟩
  | 113 => ⟨S20, .f32⟩
  | 114 => ⟨S20, .f32⟩
  | 115 => ⟨S20x20, .i32⟩
  | 116 => ⟨S20x20, .i32⟩
  | 117 => ⟨S_, .i32⟩
  | 118 => ⟨S20x20, .i32⟩
  | 119 => ⟨S20x20, .i32⟩
  | 120 => ⟨S20x20, .i1⟩
  | 121 => ⟨S20x20, .f32⟩
  | 122 => ⟨S_, .f32⟩
  | 123 => ⟨S20x20, .f32⟩
  | 124 => ⟨S20x20, .f32⟩
  | 125 => ⟨S20x20, .f32⟩
  | 126 => ⟨S_, .f32⟩
  | 127 => ⟨S20, .f32⟩
  | _ => ⟨S16384x4096, .f32⟩

abbrev hbmTy0_4 (i : Nat) : BufTy := match i % 128 with
  | 0 => ⟨S20x20, .i32⟩
  | 1 => ⟨S20x20, .i32⟩
  | 2 => ⟨S_, .i32⟩
  | 3 => ⟨S20x20, .i32⟩
  | 4 => ⟨S20x20, .i32⟩
  | 5 => ⟨S20x20, .i1⟩
  | 6 => ⟨S20x1, .f32⟩
  | 7 => ⟨S_, .f32⟩
  | 8 => ⟨S20x20, .f32⟩
  | 9 => ⟨S20x20, .f32⟩
  | 10 => ⟨S20x20, .f32⟩
  | 11 => ⟨S20x20, .f32⟩
  | 12 => ⟨S16384x20, .f32⟩
  | 13 => ⟨S20x20, .f32⟩
  | 14 => ⟨S16384x20, .f32⟩
  | 15 => ⟨S1x20, .f32⟩
  | 16 => ⟨S16384x20, .f32⟩
  | 17 => ⟨S16384x20, .f32⟩
  | 18 => ⟨S16384x20, .f32⟩
  | 19 => ⟨S20x20, .f32⟩
  | 20 => ⟨S16384x20, .f32⟩
  | 21 => ⟨S_, .i32⟩
  | 22 => ⟨S1, .i32⟩
  | 23 => ⟨S16384x64, .f32⟩
  | 24 => ⟨S64x400, .f32⟩
  | 25 => ⟨S16384x400, .f32⟩
  | 26 => ⟨S1x400, .f32⟩
  | 27 => ⟨S16384x400, .f32⟩
  | 28 => ⟨S16384x400, .f32⟩
  | 29 => ⟨S_, .f32⟩
  | 30 => ⟨S16384x400, .f32⟩
  | 31 => ⟨S16384x400, .f32⟩
  | 32 => ⟨S400x4096, .f32⟩
  | 33 => ⟨S16384x4096, .f32⟩
  | 34 => ⟨S1x4096, .f32⟩
  | 35 => ⟨S16384x4096, .f32⟩
  | 36 => ⟨S16384x4096, .f32⟩
  | _ => ⟨S16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_cst : Ref sig .tc := ⟨.hbm, 57, rfl⟩
abbrev main_call1_v5 : Ref sig .tc := ⟨.hbm, 58, rfl⟩
abbrev main_v32 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_cst : Ref sig .tc := ⟨.hbm, 66, rfl⟩
abbrev main_call2_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_2 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_c : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_cst_0 : Ref sig .tc := ⟨.hbm, 92, rfl⟩
abbrev main_call3_call0_v0 : Ref sig .tc := ⟨.hbm, 93, rfl⟩
abbrev main_call3_call0_v1 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_3 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_call4_v0 : Ref sig .tc := ⟨.hbm, 112, rfl⟩
abbrev main_call4_c : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_cst : Ref sig .tc := ⟨.hbm, 118, rfl⟩
abbrev main_call4_v5 : Ref sig .tc := ⟨.hbm, 119, rfl⟩
abbrev main_v62 : Ref sig .tc := ⟨.hbm, 120, rfl⟩
abbrev main_call5_v0 : Ref sig .tc := ⟨.hbm, 121, rfl⟩
abbrev main_call5_c : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_cst : Ref sig .tc := ⟨.hbm, 127, rfl⟩
abbrev main_call5_v5 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_c_4 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_5 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_call6_cst : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_c : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_v6 : Ref sig .tc := ⟨.hbm, 152, rfl⟩
abbrev main_call6_cst_0 : Ref sig .tc := ⟨.hbm, 153, rfl⟩
abbrev main_call6_call0_v0 : Ref sig .tc := ⟨.hbm, 154, rfl⟩
abbrev main_call6_call0_v1 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_c_6 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_call7_v0 : Ref sig .tc := ⟨.hbm, 173, rfl⟩
abbrev main_call7_c : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_call7_cst : Ref sig .tc := ⟨.hbm, 179, rfl⟩
abbrev main_call7_v5 : Ref sig .tc := ⟨.hbm, 180, rfl⟩
abbrev main_v92 : Ref sig .tc := ⟨.hbm, 181, rfl⟩
abbrev main_call8_v0 : Ref sig .tc := ⟨.hbm, 182, rfl⟩
abbrev main_call8_c : Ref sig .tc := ⟨.hbm, 183, rfl⟩
abbrev main_call8_v1 : Ref sig .tc := ⟨.hbm, 184, rfl⟩
abbrev main_call8_v2 : Ref sig .tc := ⟨.hbm, 185, rfl⟩
abbrev main_call8_v3 : Ref sig .tc := ⟨.hbm, 186, rfl⟩
abbrev main_call8_v4 : Ref sig .tc := ⟨.hbm, 187, rfl⟩
abbrev main_call8_cst : Ref sig .tc := ⟨.hbm, 188, rfl⟩
abbrev main_call8_v5 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_c_7 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_cst_8 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_call9_cst : Ref sig .tc := ⟨.hbm, 205, rfl⟩
abbrev main_call9_v0 : Ref sig .tc := ⟨.hbm, 206, rfl⟩
abbrev main_call9_v1 : Ref sig .tc := ⟨.hbm, 207, rfl⟩
abbrev main_call9_v2 : Ref sig .tc := ⟨.hbm, 208, rfl⟩
abbrev main_call9_c : Ref sig .tc := ⟨.hbm, 209, rfl⟩
abbrev main_call9_v3 : Ref sig .tc := ⟨.hbm, 210, rfl⟩
abbrev main_call9_v4 : Ref sig .tc := ⟨.hbm, 211, rfl⟩
abbrev main_call9_v5 : Ref sig .tc := ⟨.hbm, 212, rfl⟩
abbrev main_call9_v6 : Ref sig .tc := ⟨.hbm, 213, rfl⟩
abbrev main_call9_cst_0 : Ref sig .tc := ⟨.hbm, 214, rfl⟩
abbrev main_call9_call0_v0 : Ref sig .tc := ⟨.hbm, 215, rfl⟩
abbrev main_call9_call0_v1 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_c_9 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_call10_v0 : Ref sig .tc := ⟨.hbm, 234, rfl⟩
abbrev main_call10_c : Ref sig .tc := ⟨.hbm, 235, rfl⟩
abbrev main_call10_v1 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_cst : Ref sig .tc := ⟨.hbm, 240, rfl⟩
abbrev main_call10_v5 : Ref sig .tc := ⟨.hbm, 241, rfl⟩
abbrev main_v122 : Ref sig .tc := ⟨.hbm, 242, rfl⟩
abbrev main_call11_v0 : Ref sig .tc := ⟨.hbm, 243, rfl⟩
abbrev main_call11_c : Ref sig .tc := ⟨.hbm, 244, rfl⟩
abbrev main_call11_v1 : Ref sig .tc := ⟨.hbm, 245, rfl⟩
abbrev main_call11_v2 : Ref sig .tc := ⟨.hbm, 246, rfl⟩
abbrev main_call11_v3 : Ref sig .tc := ⟨.hbm, 247, rfl⟩
abbrev main_call11_v4 : Ref sig .tc := ⟨.hbm, 248, rfl⟩
abbrev main_call11_cst : Ref sig .tc := ⟨.hbm, 249, rfl⟩
abbrev main_call11_v5 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_c_10 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_cst_11 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_call12_cst : Ref sig .tc := ⟨.hbm, 266, rfl⟩
abbrev main_call12_v0 : Ref sig .tc := ⟨.hbm, 267, rfl⟩
abbrev main_call12_v1 : Ref sig .tc := ⟨.hbm, 268, rfl⟩
abbrev main_call12_v2 : Ref sig .tc := ⟨.hbm, 269, rfl⟩
abbrev main_call12_c : Ref sig .tc := ⟨.hbm, 270, rfl⟩
abbrev main_call12_v3 : Ref sig .tc := ⟨.hbm, 271, rfl⟩
abbrev main_call12_v4 : Ref sig .tc := ⟨.hbm, 272, rfl⟩
abbrev main_call12_v5 : Ref sig .tc := ⟨.hbm, 273, rfl⟩
abbrev main_call12_v6 : Ref sig .tc := ⟨.hbm, 274, rfl⟩
abbrev main_call12_cst_0 : Ref sig .tc := ⟨.hbm, 275, rfl⟩
abbrev main_call12_call0_v0 : Ref sig .tc := ⟨.hbm, 276, rfl⟩
abbrev main_call12_call0_v1 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_v143 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_c_12 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_call13_v0 : Ref sig .tc := ⟨.hbm, 295, rfl⟩
abbrev main_call13_c : Ref sig .tc := ⟨.hbm, 296, rfl⟩
abbrev main_call13_v1 : Ref sig .tc := ⟨.hbm, 297, rfl⟩
abbrev main_call13_v2 : Ref sig .tc := ⟨.hbm, 298, rfl⟩
abbrev main_call13_v3 : Ref sig .tc := ⟨.hbm, 299, rfl⟩
abbrev main_call13_v4 : Ref sig .tc := ⟨.hbm, 300, rfl⟩
abbrev main_call13_cst : Ref sig .tc := ⟨.hbm, 301, rfl⟩
abbrev main_call13_v5 : Ref sig .tc := ⟨.hbm, 302, rfl⟩
abbrev main_v152 : Ref sig .tc := ⟨.hbm, 303, rfl⟩
abbrev main_call14_v0 : Ref sig .tc := ⟨.hbm, 304, rfl⟩
abbrev main_call14_c : Ref sig .tc := ⟨.hbm, 305, rfl⟩
abbrev main_call14_v1 : Ref sig .tc := ⟨.hbm, 306, rfl⟩
abbrev main_call14_v2 : Ref sig .tc := ⟨.hbm, 307, rfl⟩
abbrev main_call14_v3 : Ref sig .tc := ⟨.hbm, 308, rfl⟩
abbrev main_call14_v4 : Ref sig .tc := ⟨.hbm, 309, rfl⟩
abbrev main_call14_cst : Ref sig .tc := ⟨.hbm, 310, rfl⟩
abbrev main_call14_v5 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_c_13 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_cst_14 : Ref sig .tc := ⟨.hbm, 323, rfl⟩
abbrev main_v163 : Ref sig .tc := ⟨.hbm, 324, rfl⟩
abbrev main_v164 : Ref sig .tc := ⟨.hbm, 325, rfl⟩
abbrev main_v165 : Ref sig .tc := ⟨.hbm, 326, rfl⟩
abbrev main_call15_cst : Ref sig .tc := ⟨.hbm, 327, rfl⟩
abbrev main_call15_v0 : Ref sig .tc := ⟨.hbm, 328, rfl⟩
abbrev main_call15_v1 : Ref sig .tc := ⟨.hbm, 329, rfl⟩
abbrev main_call15_v2 : Ref sig .tc := ⟨.hbm, 330, rfl⟩
abbrev main_call15_c : Ref sig .tc := ⟨.hbm, 331, rfl⟩
abbrev main_call15_v3 : Ref sig .tc := ⟨.hbm, 332, rfl⟩
abbrev main_call15_v4 : Ref sig .tc := ⟨.hbm, 333, rfl⟩
abbrev main_call15_v5 : Ref sig .tc := ⟨.hbm, 334, rfl⟩
abbrev main_call15_v6 : Ref sig .tc := ⟨.hbm, 335, rfl⟩
abbrev main_call15_cst_0 : Ref sig .tc := ⟨.hbm, 336, rfl⟩
abbrev main_call15_call0_v0 : Ref sig .tc := ⟨.hbm, 337, rfl⟩
abbrev main_call15_call0_v1 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_v176 : Ref sig .tc := ⟨.hbm, 349, rfl⟩
abbrev main_c_15 : Ref sig .tc := ⟨.hbm, 350, rfl⟩
abbrev main_v177 : Ref sig .tc := ⟨.hbm, 351, rfl⟩
abbrev main_v178 : Ref sig .tc := ⟨.hbm, 352, rfl⟩
abbrev main_v179 : Ref sig .tc := ⟨.hbm, 353, rfl⟩
abbrev main_v180 : Ref sig .tc := ⟨.hbm, 354, rfl⟩
abbrev main_v181 : Ref sig .tc := ⟨.hbm, 355, rfl⟩
abbrev main_call16_v0 : Ref sig .tc := ⟨.hbm, 356, rfl⟩
abbrev main_call16_c : Ref sig .tc := ⟨.hbm, 357, rfl⟩
abbrev main_call16_v1 : Ref sig .tc := ⟨.hbm, 358, rfl⟩
abbrev main_call16_v2 : Ref sig .tc := ⟨.hbm, 359, rfl⟩
abbrev main_call16_v3 : Ref sig .tc := ⟨.hbm, 360, rfl⟩
abbrev main_call16_v4 : Ref sig .tc := ⟨.hbm, 361, rfl⟩
abbrev main_call16_cst : Ref sig .tc := ⟨.hbm, 362, rfl⟩
abbrev main_call16_v5 : Ref sig .tc := ⟨.hbm, 363, rfl⟩
abbrev main_v182 : Ref sig .tc := ⟨.hbm, 364, rfl⟩
abbrev main_call17_v0 : Ref sig .tc := ⟨.hbm, 365, rfl⟩
abbrev main_call17_c : Ref sig .tc := ⟨.hbm, 366, rfl⟩
abbrev main_call17_v1 : Ref sig .tc := ⟨.hbm, 367, rfl⟩
abbrev main_call17_v2 : Ref sig .tc := ⟨.hbm, 368, rfl⟩
abbrev main_call17_v3 : Ref sig .tc := ⟨.hbm, 369, rfl⟩
abbrev main_call17_v4 : Ref sig .tc := ⟨.hbm, 370, rfl⟩
abbrev main_call17_cst : Ref sig .tc := ⟨.hbm, 371, rfl⟩
abbrev main_call17_v5 : Ref sig .tc := ⟨.hbm, 372, rfl⟩
abbrev main_v183 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_v187 : Ref sig .tc := ⟨.hbm, 377, rfl⟩
abbrev main_v188 : Ref sig .tc := ⟨.hbm, 378, rfl⟩
abbrev main_c_16 : Ref sig .tc := ⟨.hbm, 379, rfl⟩
abbrev main_v189 : Ref sig .tc := ⟨.hbm, 380, rfl⟩
abbrev main_v190 : Ref sig .tc := ⟨.hbm, 381, rfl⟩
abbrev main_v191 : Ref sig .tc := ⟨.hbm, 382, rfl⟩
abbrev main_v192 : Ref sig .tc := ⟨.hbm, 383, rfl⟩
abbrev main_cst_17 : Ref sig .tc := ⟨.hbm, 384, rfl⟩
abbrev main_v193 : Ref sig .tc := ⟨.hbm, 385, rfl⟩
abbrev main_v194 : Ref sig .tc := ⟨.hbm, 386, rfl⟩
abbrev main_v195 : Ref sig .tc := ⟨.hbm, 387, rfl⟩
abbrev main_call18_cst : Ref sig .tc := ⟨.hbm, 388, rfl⟩
abbrev main_call18_v0 : Ref sig .tc := ⟨.hbm, 389, rfl⟩
abbrev main_call18_v1 : Ref sig .tc := ⟨.hbm, 390, rfl⟩
abbrev main_call18_v2 : Ref sig .tc := ⟨.hbm, 391, rfl⟩
abbrev main_call18_c : Ref sig .tc := ⟨.hbm, 392, rfl⟩
abbrev main_call18_v3 : Ref sig .tc := ⟨.hbm, 393, rfl⟩
abbrev main_call18_v4 : Ref sig .tc := ⟨.hbm, 394, rfl⟩
abbrev main_call18_v5 : Ref sig .tc := ⟨.hbm, 395, rfl⟩
abbrev main_call18_v6 : Ref sig .tc := ⟨.hbm, 396, rfl⟩
abbrev main_call18_cst_0 : Ref sig .tc := ⟨.hbm, 397, rfl⟩
abbrev main_call18_call0_v0 : Ref sig .tc := ⟨.hbm, 398, rfl⟩
abbrev main_call18_call0_v1 : Ref sig .tc := ⟨.hbm, 399, rfl⟩
abbrev main_v196 : Ref sig .tc := ⟨.hbm, 400, rfl⟩
abbrev main_v197 : Ref sig .tc := ⟨.hbm, 401, rfl⟩
abbrev main_v198 : Ref sig .tc := ⟨.hbm, 402, rfl⟩
abbrev main_v199 : Ref sig .tc := ⟨.hbm, 403, rfl⟩
abbrev main_v200 : Ref sig .tc := ⟨.hbm, 404, rfl⟩
abbrev main_v201 : Ref sig .tc := ⟨.hbm, 405, rfl⟩
abbrev main_v202 : Ref sig .tc := ⟨.hbm, 406, rfl⟩
abbrev main_v203 : Ref sig .tc := ⟨.hbm, 407, rfl⟩
abbrev main_v204 : Ref sig .tc := ⟨.hbm, 408, rfl⟩
abbrev main_v205 : Ref sig .tc := ⟨.hbm, 409, rfl⟩
abbrev main_v206 : Ref sig .tc := ⟨.hbm, 410, rfl⟩
abbrev main_c_18 : Ref sig .tc := ⟨.hbm, 411, rfl⟩
abbrev main_v207 : Ref sig .tc := ⟨.hbm, 412, rfl⟩
abbrev main_v208 : Ref sig .tc := ⟨.hbm, 413, rfl⟩
abbrev main_v209 : Ref sig .tc := ⟨.hbm, 414, rfl⟩
abbrev main_v210 : Ref sig .tc := ⟨.hbm, 415, rfl⟩
abbrev main_v211 : Ref sig .tc := ⟨.hbm, 416, rfl⟩
abbrev main_call19_v0 : Ref sig .tc := ⟨.hbm, 417, rfl⟩
abbrev main_call19_c : Ref sig .tc := ⟨.hbm, 418, rfl⟩
abbrev main_call19_v1 : Ref sig .tc := ⟨.hbm, 419, rfl⟩
abbrev main_call19_v2 : Ref sig .tc := ⟨.hbm, 420, rfl⟩
abbrev main_call19_v3 : Ref sig .tc := ⟨.hbm, 421, rfl⟩
abbrev main_call19_v4 : Ref sig .tc := ⟨.hbm, 422, rfl⟩
abbrev main_call19_cst : Ref sig .tc := ⟨.hbm, 423, rfl⟩
abbrev main_call19_v5 : Ref sig .tc := ⟨.hbm, 424, rfl⟩
abbrev main_v212 : Ref sig .tc := ⟨.hbm, 425, rfl⟩
abbrev main_call20_v0 : Ref sig .tc := ⟨.hbm, 426, rfl⟩
abbrev main_call20_c : Ref sig .tc := ⟨.hbm, 427, rfl⟩
abbrev main_call20_v1 : Ref sig .tc := ⟨.hbm, 428, rfl⟩
abbrev main_call20_v2 : Ref sig .tc := ⟨.hbm, 429, rfl⟩
abbrev main_call20_v3 : Ref sig .tc := ⟨.hbm, 430, rfl⟩
abbrev main_call20_v4 : Ref sig .tc := ⟨.hbm, 431, rfl⟩
abbrev main_call20_cst : Ref sig .tc := ⟨.hbm, 432, rfl⟩
abbrev main_call20_v5 : Ref sig .tc := ⟨.hbm, 433, rfl⟩
abbrev main_v213 : Ref sig .tc := ⟨.hbm, 434, rfl⟩
abbrev main_v214 : Ref sig .tc := ⟨.hbm, 435, rfl⟩
abbrev main_v215 : Ref sig .tc := ⟨.hbm, 436, rfl⟩
abbrev main_v216 : Ref sig .tc := ⟨.hbm, 437, rfl⟩
abbrev main_v217 : Ref sig .tc := ⟨.hbm, 438, rfl⟩
abbrev main_v218 : Ref sig .tc := ⟨.hbm, 439, rfl⟩
abbrev main_c_19 : Ref sig .tc := ⟨.hbm, 440, rfl⟩
abbrev main_v219 : Ref sig .tc := ⟨.hbm, 441, rfl⟩
abbrev main_v220 : Ref sig .tc := ⟨.hbm, 442, rfl⟩
abbrev main_v221 : Ref sig .tc := ⟨.hbm, 443, rfl⟩
abbrev main_v222 : Ref sig .tc := ⟨.hbm, 444, rfl⟩
abbrev main_cst_20 : Ref sig .tc := ⟨.hbm, 445, rfl⟩
abbrev main_v223 : Ref sig .tc := ⟨.hbm, 446, rfl⟩
abbrev main_v224 : Ref sig .tc := ⟨.hbm, 447, rfl⟩
abbrev main_v225 : Ref sig .tc := ⟨.hbm, 448, rfl⟩
abbrev main_call21_cst : Ref sig .tc := ⟨.hbm, 449, rfl⟩
abbrev main_call21_v0 : Ref sig .tc := ⟨.hbm, 450, rfl⟩
abbrev main_call21_v1 : Ref sig .tc := ⟨.hbm, 451, rfl⟩
abbrev main_call21_v2 : Ref sig .tc := ⟨.hbm, 452, rfl⟩
abbrev main_call21_c : Ref sig .tc := ⟨.hbm, 453, rfl⟩
abbrev main_call21_v3 : Ref sig .tc := ⟨.hbm, 454, rfl⟩
abbrev main_call21_v4 : Ref sig .tc := ⟨.hbm, 455, rfl⟩
abbrev main_call21_v5 : Ref sig .tc := ⟨.hbm, 456, rfl⟩
abbrev main_call21_v6 : Ref sig .tc := ⟨.hbm, 457, rfl⟩
abbrev main_call21_cst_0 : Ref sig .tc := ⟨.hbm, 458, rfl⟩
abbrev main_call21_call0_v0 : Ref sig .tc := ⟨.hbm, 459, rfl⟩
abbrev main_call21_call0_v1 : Ref sig .tc := ⟨.hbm, 460, rfl⟩
abbrev main_v226 : Ref sig .tc := ⟨.hbm, 461, rfl⟩
abbrev main_v227 : Ref sig .tc := ⟨.hbm, 462, rfl⟩
abbrev main_v228 : Ref sig .tc := ⟨.hbm, 463, rfl⟩
abbrev main_v229 : Ref sig .tc := ⟨.hbm, 464, rfl⟩
abbrev main_v230 : Ref sig .tc := ⟨.hbm, 465, rfl⟩
abbrev main_v231 : Ref sig .tc := ⟨.hbm, 466, rfl⟩
abbrev main_v232 : Ref sig .tc := ⟨.hbm, 467, rfl⟩
abbrev main_v233 : Ref sig .tc := ⟨.hbm, 468, rfl⟩
abbrev main_v234 : Ref sig .tc := ⟨.hbm, 469, rfl⟩
abbrev main_v235 : Ref sig .tc := ⟨.hbm, 470, rfl⟩
abbrev main_v236 : Ref sig .tc := ⟨.hbm, 471, rfl⟩
abbrev main_c_21 : Ref sig .tc := ⟨.hbm, 472, rfl⟩
abbrev main_v237 : Ref sig .tc := ⟨.hbm, 473, rfl⟩
abbrev main_v238 : Ref sig .tc := ⟨.hbm, 474, rfl⟩
abbrev main_v239 : Ref sig .tc := ⟨.hbm, 475, rfl⟩
abbrev main_v240 : Ref sig .tc := ⟨.hbm, 476, rfl⟩
abbrev main_v241 : Ref sig .tc := ⟨.hbm, 477, rfl⟩
abbrev main_call22_v0 : Ref sig .tc := ⟨.hbm, 478, rfl⟩
abbrev main_call22_c : Ref sig .tc := ⟨.hbm, 479, rfl⟩
abbrev main_call22_v1 : Ref sig .tc := ⟨.hbm, 480, rfl⟩
abbrev main_call22_v2 : Ref sig .tc := ⟨.hbm, 481, rfl⟩
abbrev main_call22_v3 : Ref sig .tc := ⟨.hbm, 482, rfl⟩
abbrev main_call22_v4 : Ref sig .tc := ⟨.hbm, 483, rfl⟩
abbrev main_call22_cst : Ref sig .tc := ⟨.hbm, 484, rfl⟩
abbrev main_call22_v5 : Ref sig .tc := ⟨.hbm, 485, rfl⟩
abbrev main_v242 : Ref sig .tc := ⟨.hbm, 486, rfl⟩
abbrev main_call23_v0 : Ref sig .tc := ⟨.hbm, 487, rfl⟩
abbrev main_call23_c : Ref sig .tc := ⟨.hbm, 488, rfl⟩
abbrev main_call23_v1 : Ref sig .tc := ⟨.hbm, 489, rfl⟩
abbrev main_call23_v2 : Ref sig .tc := ⟨.hbm, 490, rfl⟩
abbrev main_call23_v3 : Ref sig .tc := ⟨.hbm, 491, rfl⟩
abbrev main_call23_v4 : Ref sig .tc := ⟨.hbm, 492, rfl⟩
abbrev main_call23_cst : Ref sig .tc := ⟨.hbm, 493, rfl⟩
abbrev main_call23_v5 : Ref sig .tc := ⟨.hbm, 494, rfl⟩
abbrev main_v243 : Ref sig .tc := ⟨.hbm, 495, rfl⟩
abbrev main_v244 : Ref sig .tc := ⟨.hbm, 496, rfl⟩
abbrev main_v245 : Ref sig .tc := ⟨.hbm, 497, rfl⟩
abbrev main_v246 : Ref sig .tc := ⟨.hbm, 498, rfl⟩
abbrev main_v247 : Ref sig .tc := ⟨.hbm, 499, rfl⟩
abbrev main_v248 : Ref sig .tc := ⟨.hbm, 500, rfl⟩
abbrev main_c_22 : Ref sig .tc := ⟨.hbm, 501, rfl⟩
abbrev main_v249 : Ref sig .tc := ⟨.hbm, 502, rfl⟩
abbrev main_v250 : Ref sig .tc := ⟨.hbm, 503, rfl⟩
abbrev main_v251 : Ref sig .tc := ⟨.hbm, 504, rfl⟩
abbrev main_v252 : Ref sig .tc := ⟨.hbm, 505, rfl⟩
abbrev main_cst_23 : Ref sig .tc := ⟨.hbm, 506, rfl⟩
abbrev main_v253 : Ref sig .tc := ⟨.hbm, 507, rfl⟩
abbrev main_v254 : Ref sig .tc := ⟨.hbm, 508, rfl⟩
abbrev main_v255 : Ref sig .tc := ⟨.hbm, 509, rfl⟩
abbrev main_call24_cst : Ref sig .tc := ⟨.hbm, 510, rfl⟩
abbrev main_call24_v0 : Ref sig .tc := ⟨.hbm, 511, rfl⟩
abbrev main_call24_v1 : Ref sig .tc := ⟨.hbm, 512, rfl⟩
abbrev main_call24_v2 : Ref sig .tc := ⟨.hbm, 513, rfl⟩
abbrev main_call24_c : Ref sig .tc := ⟨.hbm, 514, rfl⟩
abbrev main_call24_v3 : Ref sig .tc := ⟨.hbm, 515, rfl⟩
abbrev main_call24_v4 : Ref sig .tc := ⟨.hbm, 516, rfl⟩
abbrev main_call24_v5 : Ref sig .tc := ⟨.hbm, 517, rfl⟩
abbrev main_call24_v6 : Ref sig .tc := ⟨.hbm, 518, rfl⟩
abbrev main_call24_cst_0 : Ref sig .tc := ⟨.hbm, 519, rfl⟩
abbrev main_call24_call0_v0 : Ref sig .tc := ⟨.hbm, 520, rfl⟩
abbrev main_call24_call0_v1 : Ref sig .tc := ⟨.hbm, 521, rfl⟩
abbrev main_v256 : Ref sig .tc := ⟨.hbm, 522, rfl⟩
abbrev main_v257 : Ref sig .tc := ⟨.hbm, 523, rfl⟩
abbrev main_v258 : Ref sig .tc := ⟨.hbm, 524, rfl⟩
abbrev main_v259 : Ref sig .tc := ⟨.hbm, 525, rfl⟩
abbrev main_v260 : Ref sig .tc := ⟨.hbm, 526, rfl⟩
abbrev main_v261 : Ref sig .tc := ⟨.hbm, 527, rfl⟩
abbrev main_v262 : Ref sig .tc := ⟨.hbm, 528, rfl⟩
abbrev main_v263 : Ref sig .tc := ⟨.hbm, 529, rfl⟩
abbrev main_v264 : Ref sig .tc := ⟨.hbm, 530, rfl⟩
abbrev main_v265 : Ref sig .tc := ⟨.hbm, 531, rfl⟩
abbrev main_v266 : Ref sig .tc := ⟨.hbm, 532, rfl⟩
abbrev main_c_24 : Ref sig .tc := ⟨.hbm, 533, rfl⟩
abbrev main_v267 : Ref sig .tc := ⟨.hbm, 534, rfl⟩
abbrev main_v268 : Ref sig .tc := ⟨.hbm, 535, rfl⟩
abbrev main_v269 : Ref sig .tc := ⟨.hbm, 536, rfl⟩
abbrev main_v270 : Ref sig .tc := ⟨.hbm, 537, rfl⟩
abbrev main_v271 : Ref sig .tc := ⟨.hbm, 538, rfl⟩
abbrev main_v272 : Ref sig .tc := ⟨.hbm, 539, rfl⟩
abbrev main_v273 : Ref sig .tc := ⟨.hbm, 540, rfl⟩
abbrev main_call25_cst : Ref sig .tc := ⟨.hbm, 541, rfl⟩
abbrev main_call25_v0 : Ref sig .tc := ⟨.hbm, 542, rfl⟩
abbrev main_v274 : Ref sig .tc := ⟨.hbm, 543, rfl⟩
abbrev main_v275 : Ref sig .tc := ⟨.hbm, 544, rfl⟩
abbrev main_v276 : Ref sig .tc := ⟨.hbm, 545, rfl⟩
abbrev main_v277 : Ref sig .tc := ⟨.hbm, 546, rfl⟩
abbrev main_v278 : Ref sig .tc := ⟨.hbm, 547, rfl⟩
abbrev main_v279 : Ref sig .tc := ⟨.hbm, 548, rfl⟩

abbrev nD : Nat := 1
abbrev τ : Topo := Topo.v7x

variable {F : FTy → Type} [FloatOps F]

class Facts₀ : Prop where
  transposes_S400x4096_S4096x400_1_0 : S400x4096.Transposes [1, 0] S4096x400
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  transposes_S64x400_S400x64_1_0 : S64x400.Transposes [1, 0] S400x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S3520x400_S400x3520_1_0 : S3520x400.Transposes [1, 0] S400x3520
  bcast_S3520_S1x3520_1 : S3520.BroadcastsInDim S1x3520 (![1] : Fin 1 → Fin S1x3520.rank)
  bcast_S1x3520_S16384x3520_0_1 : S1x3520.BroadcastsInDim S16384x3520 (![0, 1] : Fin 2 → Fin S16384x3520.rank)
  reducesTo_S16384x3520_S3520_d0 : S16384x3520.ReducesTo [0] S3520
  h_S_ : 0 < S_.numel
  bcast_S_S3520 : S_.BroadcastsInDim S3520 (![] : Fin 0 → Fin S3520.rank)
  bcast_S_S16384x64 : S_.BroadcastsInDim S16384x64 (![] : Fin 0 → Fin S16384x64.rank)
  slices_S3520_S440_0 : S3520.Slices ![0] S440
  slices_S440_S400_0 : S440.Slices ![0] S400
  shapeCasts_S400_S20x20 : S400.ShapeCasts S20x20
  bcast_S_S20x20 : S_.BroadcastsInDim S20x20 (![] : Fin 0 → Fin S20x20.rank)
  transposes_S20x20_S20x20_1_0 : S20x20.Transposes [1, 0] S20x20
  slices_S440_S20_400 : S440.Slices ![400] S20
  slices_S440_S20_420 : S440.Slices ![420] S20
  pads_S20_S20_000 : S20.Pads (![0] : Fin 1 → Nat) ![0] ![0] S20
  bcast_S20_S20x1_0 : S20.BroadcastsInDim S20x1 (![0] : Fin 1 → Fin S20x1.rank)
  bcast_S20x1_S20x20_0_1 : S20x1.BroadcastsInDim S20x20 (![0, 1] : Fin 2 → Fin S20x20.rank)
  slices_S16384x64_S16384x20_0_0 : S16384x64.Slices ![0, 0] S16384x20
  bcast_S20_S1x20_1 : S20.BroadcastsInDim S1x20 (![1] : Fin 1 → Fin S1x20.rank)
  bcast_S1x20_S16384x20_0_1 : S1x20.BroadcastsInDim S16384x20 (![0, 1] : Fin 2 → Fin S16384x20.rank)
  bcast_S_S1 : S_.BroadcastsInDim S1 (![] : Fin 0 → Fin S1.rank)
  slices_S3520_S440_440 : S3520.Slices ![440] S440
  slices_S3520_S440_880 : S3520.Slices ![880] S440
  slices_S3520_S440_1320 : S3520.Slices ![1320] S440
  slices_S3520_S440_1760 : S3520.Slices ![1760] S440
  slices_S3520_S440_2200 : S3520.Slices ![2200] S440
  slices_S3520_S440_2640 : S3520.Slices ![2640] S440
  slices_S3520_S440_3080 : S3520.Slices ![3080] S440
  transposes_S400x64_S64x400_1_0 : S400x64.Transposes [1, 0] S64x400
  transposes_S4096x400_S400x4096_1_0 : S4096x400.Transposes [1, 0] S400x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x400_S16384x400_1_0_0_1_n_n_wf : DotDims.WF S16384x4096 S4096x400 S16384x400 [1] [0] [0] [1] [] []
  dot_S16384x400_S400x64_S16384x64_1_0_0_1_n_n_wf : DotDims.WF S16384x400 S400x64 S16384x64 [1] [0] [0] [1] [] []
  dot_S16384x400_S400x3520_S16384x3520_1_0_0_1_n_n_wf : DotDims.WF S16384x400 S400x3520 S16384x3520 [1] [0] [0] [1] [] []
  dot_S16384x20_S20x20_S16384x20_1_0_0_1_n_n_wf : DotDims.WF S16384x20 S20x20 S16384x20 [1] [0] [0] [1] [] []
  scatter_S16384x64_S1_S16384x20_01_n_1_0_wf : ScatterDims.WF S16384x64 S1 S16384x20 [0, 1] [] [1] 0
  dot_S16384x64_S64x400_S16384x400_1_0_0_1_n_n_wf : DotDims.WF S16384x64 S64x400 S16384x400 [1] [0] [0] [1] [] []
  dot_S16384x400_S400x4096_S16384x4096_1_0_0_1_n_n_wf : DotDims.WF S16384x400 S400x4096 S16384x4096 [1] [0] [0] [1] [] []

variable [Facts₀]

def dot_S16384x4096_S4096x400_S16384x400_1_0_0_1_n_n : DotDims S16384x4096 S4096x400 S16384x400 where
  lhsContracting := [1]
  rhsContracting := [0]
  lhsNonContracting := [0]
  rhsNonContracting := [1]
  lhsBatch := []
  rhsBatch := []
  wf := dot_S16384x4096_S4096x400_S16384x400_1_0_0_1_n_n_wf
def dot_S16384x400_S400x64_S16384x64_1_0_0_1_n_n : DotDims S16384x400 S400x64 S16384x64 where
  lhsContracting := [1]
  rhsContracting := [0]
  lhsNonContracting := [0]
  rhsNonContracting := [1]
  lhsBatch := []
  rhsBatch := []
  wf := dot_S16384x400_S400x64_S16384x64_1_0_0_1_n_n_wf
def dot_S16384x400_S400x3520_S16384x3520_1_0_0_1_n_n : DotDims S16384x400 S400x3520 S16384x3520 where
  lhsContracting := [1]
  rhsContracting := [0]
  lhsNonContracting := [0]
  rhsNonContracting := [1]
  lhsBatch := []
  rhsBatch := []
  wf := dot_S16384x400_S400x3520_S16384x3520_1_0_0_1_n_n_wf
def dot_S16384x20_S20x20_S16384x20_1_0_0_1_n_n : DotDims S16384x20 S20x20 S16384x20 where
  lhsContracting := [1]
  rhsContracting := [0]
  lhsNonContracting := [0]
  rhsNonContracting := [1]
  lhsBatch := []
  rhsBatch := []
  wf := dot_S16384x20_S20x20_S16384x20_1_0_0_1_n_n_wf
def scatter_S16384x64_S1_S16384x20_01_n_1_0 : ScatterDims S16384x64 S1 S16384x20 where
  updateWindowDims := [0, 1]
  insertedWindowDims := []
  scatterDimsToOperandDims := [1]
  indexVectorDim := 0
  wf := scatter_S16384x64_S1_S16384x20_01_n_1_0_wf
def dot_S16384x64_S64x400_S16384x400_1_0_0_1_n_n : DotDims S16384x64 S64x400 S16384x400 where
  lhsContracting := [1]
  rhsContracting := [0]
  lhsNonContracting := [0]
  rhsNonContracting := [1]
  lhsBatch := []
  rhsBatch := []
  wf := dot_S16384x64_S64x400_S16384x400_1_0_0_1_n_n_wf
def dot_S16384x400_S400x4096_S16384x4096_1_0_0_1_n_n : DotDims S16384x400 S400x4096 S16384x4096 where
  lhsContracting := [1]
  rhsContracting := [0]
  lhsNonContracting := [0]
  rhsNonContracting := [1]
  lhsBatch := []
  rhsBatch := []
  wf := dot_S16384x400_S400x4096_S16384x4096_1_0_0_1_n_n_wf

class Facts : Prop extends Facts₀ where

variable [Facts]
-- ==== Proof.KRun.lean ====
/-
  The idealized kernel's whole run with its three result arrays named.

  The program is two pipelined regions with a stretch of six host operations between them.  Its run ends with every
  unscoped buffer at the contents of the last segment boundary: a region's arrays at what its write-backs leave,
  every other buffer as the boundary before left it.  Reading the three result buffers (the decoder's output and the
  two encoder heads) and the fourteen argument buffers off that last boundary gives the run below.
-/
import proofs.«112810_j2207613190724_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three result arrays end at the last
    boundary's contents and the arguments as launched. -/
theorem run_values : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       h c _ (mem_uc main_v0_0 (by decide)),
       h c _ (mem_uc main_v0_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.KRun

end
-- ==== Proof.Spec.lean ====
/-
  The network both programs compute, row by row, on the extended reals.

  A row x of the input (4096 entries) is taken by a linear layer and a cut at zero to a hidden row h (400 entries);
  three linear layers read h: the mean row mu (64), the log-variance row lv (64), and a row of 3520 flow parameters
  whose average over all 16384 rows of the batch is shared by every row.  A latent row starts at
  eps * exp(lv / 2) + mu and passes eight triangular Sylvester steps, each acting on its first twenty entries only:
  z <- z + (tanh (z A^T + c)) M, where A is the lower (even steps) or transposed-lower (odd steps) triangle of the
  step's 20x20 parameter block with the step's own diagonal v, and M is the upper triangle (even) or its transpose
  (odd).  Two more linear layers with a cut at zero between them give the output row (4096).
-/
import Idealize.ShloMosaic.PureOps.Ideal
import Idealize.ShloMosaic.Lib.ValueIdx

noncomputable section

open scoped BigOperators

namespace Cert.Spec

open Idealize.ShloMosaic Idealize.ShloMosaic.ValueIdx

abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- The word of +0.0, kept as a word: both programs spell it, and it is only ever met as itself. -/
abbrev z32 : EReal := Ideal.ofBits .f32 0x00000000#32

/-- Row r of a two-axis array. -/
def row {n k : Nat} (x : Arr2 n k) (r : Fin n) : Fin k → EReal := fun j => x (ix2 r j)

/-- A linear layer on one row: entry c of x W^T + b. -/
def lin {k m : Nat} (W : Arr2 m k) (b : Arr1 m) (x : Fin k → EReal) : Fin m → EReal :=
  fun c => (∑ j : Fin k, x j * W (ix2 c j)) + b (ix1 c)

/-- The cut at zero, entry by entry. -/
def relu {m : Nat} (x : Fin m → EReal) : Fin m → EReal := fun c => max (x c) z32

/-- The hidden row of an input row. -/
def hid (W1 : Arr2 400 4096) (b1 : Arr1 400) (x : Fin 4096 → EReal) : Fin 400 → EReal := relu (lin W1 b1 x)

/-- The mean array: row r is the first head's layer of the hidden row of x's row r. -/
def MU (x : Arr2 16384 4096) (W1 : Arr2 400 4096) (b1 : Arr1 400) (W21 : Arr2 64 400) (b21 : Arr1 64) : Arr2 16384 64 :=
  fun i => lin W21 b21 (hid W1 b1 (row x (i 0))) (i 1)

/-- The flow parameters before averaging: entry n is the sum over the batch of the third head's entry n. -/
def FSUM (x : Arr2 16384 4096) (W1 : Arr2 400 4096) (b1 : Arr1 400) (W23 : Arr2 3520 400) (b23 : Arr1 3520) : Fin 3520 → EReal :=
  fun n => ∑ r : Fin 16384, lin W23 b23 (hid W1 b1 (row x r)) n

/-- The averaged flow parameters as the kernel forms them: the batch sum times the word of 2^-14. -/
def FPmul (x : Arr2 16384 4096) (W1 : Arr2 400 4096) (b1 : Arr1 400) (W23 : Arr2 3520 400) (b23 : Arr1 3520) : Arr1 3520 :=
  fun n => FSUM x W1 b1 W23 b23 (n 0) * Ideal.ofBits .f32 0x38800000#32

/-- The averaged flow parameters as the reference forms them: the batch sum divided by the word of 16384. -/
def FPdiv (x : Arr2 16384 4096) (W1 : Arr2 400 4096) (b1 : Arr1 400) (W23 : Arr2 3520 400) (b23 : Arr1 3520) : Arr1 3520 :=
  fun n => Ideal.div (FSUM x W1 b1 W23 b23 (n 0)) (Ideal.ofBits .f32 0x46800000#32)

/-- The latent row before the flow. -/
def z0 (mu lv eps : Fin 64 → EReal) : Fin 64 → EReal :=
  fun c => eps c * Ideal.exp (Ideal.ofBits .f32 0x3F000000#32 * lv c) + mu c

/-- The upper triangle of a 20x20 block: zero strictly below the diagonal. -/
def triu (R : Fin 20 → Fin 20 → EReal) : Fin 20 → Fin 20 → EReal := fun a b => if b.val < a.val then z32 else R a b
/-- The lower triangle of a 20x20 block: zero strictly above the diagonal. -/
def tril (R : Fin 20 → Fin 20 → EReal) : Fin 20 → Fin 20 → EReal := fun a b => if b.val ≤ a.val then R a b else z32

/-- The matrix A of a step: the lower triangle (even steps) or its transpose (odd steps), the diagonal replaced by v. -/
def amat (even : Bool) (R : Fin 20 → Fin 20 → EReal) (v : Fin 20 → EReal) : Fin 20 → Fin 20 → EReal :=
  fun a b => if a = b then v a else (if even then tril R a b else tril R b a)
/-- The matrix M of a step, as the product uses it: entry (b, a) multiplies tanh's entry b into the update's entry a. -/
def mmat (even : Bool) (R : Fin 20 → Fin 20 → EReal) : Fin 20 → Fin 20 → EReal :=
  fun b a => if even then triu R b a else triu R a b

/-- The first twenty entries of a 64-entry row. -/
def first20 (z : Fin 64 → EReal) : Fin 20 → EReal := fun b => z ⟨b.val, by omega⟩

/-- The pre-activation of a step. -/
def pre (even : Bool) (R : Fin 20 → Fin 20 → EReal) (v c : Fin 20 → EReal) (z : Fin 64 → EReal) : Fin 20 → EReal :=
  fun a => (∑ b : Fin 20, first20 z b * amat even R v a b) + c a
/-- The update of a step (twenty entries). -/
def upd (even : Bool) (R : Fin 20 → Fin 20 → EReal) (v c : Fin 20 → EReal) (z : Fin 64 → EReal) : Fin 20 → EReal :=
  fun a => ∑ b : Fin 20, Ideal.tanh (pre even R v c z b) * mmat even R b a
/-- One step on a latent row: the update is added to the first twenty entries, the others stay. -/
def step (even : Bool) (R : Fin 20 → Fin 20 → EReal) (v c : Fin 20 → EReal) (z : Fin 64 → EReal) : Fin 64 → EReal :=
  fun j => if h : j.val < 20 then z j + upd even R v c z ⟨j.val, h⟩ else z j

/-- Step k's parameters read off the three parameter arrays. -/
def Rk (RR : Arr3 8 20 20) (k : Fin 8) : Fin 20 → Fin 20 → EReal := fun a b => RR (ix3 k a b)
def vk (V : Arr2 8 20) (k : Fin 8) : Fin 20 → EReal := fun a => V (ix2 k a)

/-- Step k on a latent row. -/
def stepk (RR : Arr3 8 20 20) (V C : Arr2 8 20) (k : Fin 8) (z : Fin 64 → EReal) : Fin 64 → EReal :=
  step (k.val % 2 == 0) (Rk RR k) (vk V k) (vk C k) z

/-- The eight steps in order. -/
def flow (RR : Arr3 8 20 20) (V C : Arr2 8 20) (z : Fin 64 → EReal) : Fin 64 → EReal :=
  stepk RR V C 7 (stepk RR V C 6 (stepk RR V C 5 (stepk RR V C 4 (stepk RR V C 3 (stepk RR V C 2 (stepk RR V C 1 (stepk RR V C 0 z)))))))

/-- The decoder on a latent row. -/
def dec (W3 : Arr2 400 64) (b3 : Arr1 400) (W4 : Arr2 4096 400) (b4 : Arr1 4096) (z : Fin 64 → EReal) : Fin 4096 → EReal :=
  lin W4 b4 (relu (lin W3 b3 z))

/-- The second pallas_call's result as a function of ITS operand arrays: row by row, the latent row, the flow, the decoder. -/
def OUT (mu lv eps : Arr2 16384 64) (RR : Arr3 8 20 20) (V C : Arr2 8 20)
    (W3 : Arr2 400 64) (b3 : Arr1 400) (W4 : Arr2 4096 400) (b4 : Arr1 4096) : Arr2 16384 4096 :=
  fun i => dec W3 b3 W4 b4 (flow RR V C (z0 (row mu (i 0)) (row lv (i 0)) (row eps (i 0)))) (i 1)

/-- Where step k's block entry (a, b), diagonal entry a and bias entry a sit among the 3520 averaged parameters:
    step k owns entries 440k .. 440k+439, the first 400 its 20x20 block in row-major order, then its diagonal (20),
    then its bias (20). -/
def posR (k : Fin 8) (a b : Fin 20) : Fin 3520 := ⟨440 * k.val + 20 * a.val + b.val, by omega⟩
def posV (k : Fin 8) (a : Fin 20) : Fin 3520 := ⟨440 * k.val + 400 + a.val, by omega⟩
def posC (k : Fin 8) (a : Fin 20) : Fin 3520 := ⟨440 * k.val + 420 + a.val, by omega⟩

/-- The three parameter arrays cut out of the 3520 averaged flow parameters. -/
def RRof (p : Arr1 3520) : Arr3 8 20 20 := fun i => p (ix1 (posR (i 0) (i 1) (i 2)))
def Vof (p : Arr1 3520) : Arr2 8 20 := fun i => p (ix1 (posV (i 0) (i 1)))
def Cof (p : Arr1 3520) : Arr2 8 20 := fun i => p (ix1 (posC (i 0) (i 1)))

end Cert.Spec

end
-- ==== Proof.KHost.lean ====
/-
  The six host operations between the two regions cut the averaged flow parameters (the first region's third result,
  a 1x3520 array) into the second region's three parameter operands: a reshape to 3520, a reshape to 8x440, the
  column slices [0,400), [400,420), [420,440) and a reshape of the first to 8x20x20.  Entry (k, a, b) of the block
  array is therefore entry 440k + 20a + b of the 3520, entry (k, a) of the diagonals is entry 440k + 400 + a and
  entry (k, a) of the biases is entry 440k + 420 + a; no other buffer is written.
-/
import proofs.«112810_j2207613190724_2_alg».proof.Proof.Gen.KernelIdeal.Launch
import proofs.«112810_j2207613190724_2_alg».proof.Proof.Spec
import Idealize.ShloMosaic.Lib.Pipeline.Value
import Idealize.ShloMosaic.Lib.ValueLayout
import Idealize.ShloMosaic.Lib.StableHlo.Run

noncomputable section

namespace Cert.KernelIdeal.KHost

open Cert.KernelIdeal Cert.KernelIdeal.Gen Idealize.ShloMosaic Idealize.ShloMosaic.ValueIdx

variable (W : Valuation τ sig (Elt Ideal))

/-- The 1x3520 array as a vector of 3520 entries. -/
def flat (A : (⟨2, ![1, 3520]⟩ : Shape).Idx → EReal) : Cert.Spec.Arr1 3520 := fun n => A (ix2 (0 : Fin 1) (n 0))

/-- The block operand at (k, a, b). -/
theorem v4_apply (k : Fin 8) (a b : Fin 20) :
    (StableHlo.after (hostOps1 (F := Ideal)) W (Proc.devRef .tc main_v4) : S8x20x20.Idx → EReal) (ix3 k a b)
      = (W (Proc.devRef .tc main_v0_2) : S1x3520.Idx → EReal) (ix2 (0 : Fin 1) (Cert.Spec.posR k a b)) := by
  dsimp only [hostOps1]
  after_results
  refine (shapeCast_apply (s := S8x400) (t := S8x20x20) _ _ (ix3 k a b) (ix2 k (⟨20 * a.val + b.val, by omega⟩ : Fin 400)) ?_).trans ?_
  · rw [Shape.rowMajor_val_two, Shape.rowMajor_val_three]
    show k.val * 400 + (20 * a.val + b.val) = (k.val * 20 + a.val) * 20 + b.val
    omega
  refine (extractStridedSlice_apply (s := S8x440) (t := S8x400) _ _ _ (ix2 k (⟨20 * a.val + b.val, by omega⟩ : Fin 400))
    (ix2 k (⟨20 * a.val + b.val, by omega⟩ : Fin 440)) (fun ax => by
      match ax with
      | ⟨0, _⟩ => exact (Nat.zero_add _).symm
      | ⟨1, _⟩ => exact (Nat.zero_add _).symm)).trans ?_
  refine (shapeCast_apply (s := S3520) (t := S8x440) _ _ (ix2 k (⟨20 * a.val + b.val, by omega⟩ : Fin 440)) (ix1 (Cert.Spec.posR k a b)) ?_).trans ?_
  · rw [Shape.rowMajor_val_two, Shape.rowMajor_val_one]
    show 440 * k.val + 20 * a.val + b.val = k.val * 440 + (20 * a.val + b.val)
    omega
  refine (shapeCast_apply (s := S1x3520) (t := S3520) _ _ (ix1 (Cert.Spec.posR k a b)) (ix2 (0 : Fin 1) (Cert.Spec.posR k a b)) ?_).trans rfl
  rw [Shape.rowMajor_val_two, Shape.rowMajor_val_one]
  show 0 * 3520 + (Cert.Spec.posR k a b).val = (Cert.Spec.posR k a b).val
  omega

/-- The diagonal operand at (k, a). -/
theorem v5_apply (k : Fin 8) (a : Fin 20) :
    (StableHlo.after (hostOps1 (F := Ideal)) W (Proc.devRef .tc main_v5) : S8x20.Idx → EReal) (ix2 k a)
      = (W (Proc.devRef .tc main_v0_2) : S1x3520.Idx → EReal) (ix2 (0 : Fin 1) (Cert.Spec.posV k a)) := by
  dsimp only [hostOps1]
  after_results
  refine (extractStridedSlice_apply (s := S8x440) (t := S8x20) _ _ _ (ix2 k a)
    (ix2 k (⟨400 + a.val, by omega⟩ : Fin 440)) (fun ax => by
      match ax with
      | ⟨0, _⟩ => exact (Nat.zero_add _).symm
      | ⟨1, _⟩ => rfl)).trans ?_
  refine (shapeCast_apply (s := S3520) (t := S8x440) _ _ (ix2 k (⟨400 + a.val, by omega⟩ : Fin 440)) (ix1 (Cert.Spec.posV k a)) ?_).trans ?_
  · rw [Shape.rowMajor_val_two, Shape.rowMajor_val_one]
    show 440 * k.val + 400 + a.val = k.val * 440 + (400 + a.val)
    omega
  refine (shapeCast_apply (s := S1x3520) (t := S3520) _ _ (ix1 (Cert.Spec.posV k a)) (ix2 (0 : Fin 1) (Cert.Spec.posV k a)) ?_).trans rfl
  rw [Shape.rowMajor_val_two, Shape.rowMajor_val_one]
  show 0 * 3520 + (Cert.Spec.posV k a).val = (Cert.Spec.posV k a).val
  omega

/-- The bias operand at (k, a). -/
theorem v6_apply (k : Fin 8) (a : Fin 20) :
    (StableHlo.after (hostOps1 (F := Ideal)) W (Proc.devRef .tc main_v6) : S8x20.Idx → EReal) (ix2 k a)
      = (W (Proc.devRef .tc main_v0_2) : S1x3520.Idx → EReal) (ix2 (0 : Fin 1) (Cert.Spec.posC k a)) := by
  dsimp only [hostOps1]
  after_results
  refine (extractStridedSlice_apply (s := S8x440) (t := S8x20) _ _ _ (ix2 k a)
    (ix2 k (⟨420 + a.val, by omega⟩ : Fin 440)) (fun ax => by
      match ax with
      | ⟨0, _⟩ => exact (Nat.zero_add _).symm
      | ⟨1, _⟩ => rfl)).trans ?_
  refine (shapeCast_apply (s := S3520) (t := S8x440) _ _ (ix2 k (⟨420 + a.val, by omega⟩ : Fin 440)) (ix1 (Cert.Spec.posC k a)) ?_).trans ?_
  · rw [Shape.rowMajor_val_two, Shape.rowMajor_val_one]
    show 440 * k.val + 420 + a.val = k.val * 440 + (420 + a.val)
    omega
  refine (shapeCast_apply (s := S1x3520) (t := S3520) _ _ (ix1 (Cert.Spec.posC k a)) (ix2 (0 : Fin 1) (Cert.Spec.posC k a)) ?_).trans rfl
  rw [Shape.rowMajor_val_two, Shape.rowMajor_val_one]
  show 0 * 3520 + (Cert.Spec.posC k a).val = (Cert.Spec.posC k a).val
  omega

/-- The three parameter operands as the cuts of the flattened accumulator array. -/
theorem v4_eq : (StableHlo.after (hostOps1 (F := Ideal)) W (Proc.devRef .tc main_v4) : Cert.Spec.Arr3 8 20 20)
    = Cert.Spec.RRof (flat (W (Proc.devRef .tc main_v0_2))) := by
  funext i
  rw [eq_ix3 i]
  exact v4_apply W (i 0) (i 1) (i 2)
theorem v5_eq : (StableHlo.after (hostOps1 (F := Ideal)) W (Proc.devRef .tc main_v5) : Cert.Spec.Arr2 8 20)
    = Cert.Spec.Vof (flat (W (Proc.devRef .tc main_v0_2))) := by
  funext i
  rw [eq_ix2 i]
  exact v5_apply W (i 0) (i 1)
theorem v6_eq : (StableHlo.after (hostOps1 (F := Ideal)) W (Proc.devRef .tc main_v6) : Cert.Spec.Arr2 8 20)
    = Cert.Spec.Cof (flat (W (Proc.devRef .tc main_v0_2))) := by
  funext i
  rw [eq_ix2 i]
  exact v6_apply W (i 0) (i 1)

/-- The six operations write none of the second region's other operands. -/
theorem keep_v0_0 : StableHlo.after (hostOps1 (F := Ideal)) W (Proc.devRef .tc main_v0_0) = W (Proc.devRef .tc main_v0_0) := by
  dsimp only [hostOps1]; after_results
theorem keep_v0_1 : StableHlo.after (hostOps1 (F := Ideal)) W (Proc.devRef .tc main_v0_1) = W (Proc.devRef .tc main_v0_1) := by
  dsimp only [hostOps1]; after_results
theorem keep_arg1 : StableHlo.after (hostOps1 (F := Ideal)) W (Proc.devRef .tc main_arg1) = W (Proc.devRef .tc main_arg1) := by
  dsimp only [hostOps1]; after_results
theorem keep_arg10 : StableHlo.after (hostOps1 (F := Ideal)) W (Proc.devRef .tc main_arg10) = W (Proc.devRef .tc main_arg10) := by
  dsimp only [hostOps1]; after_results
theorem keep_arg11 : StableHlo.after (hostOps1 (F := Ideal)) W (Proc.devRef .tc main_arg11) = W (Proc.devRef .tc main_arg11) := by
  dsimp only [hostOps1]; after_results
theorem keep_arg12 : StableHlo.after (hostOps1 (F := Ideal)) W (Proc.devRef .tc main_arg12) = W (Proc.devRef .tc main_arg12) := by
  dsimp only [hostOps1]; after_results
theorem keep_arg13 : StableHlo.after (hostOps1 (F := Ideal)) W (Proc.devRef .tc main_arg13) = W (Proc.devRef .tc main_arg13) := by
  dsimp only [hostOps1]; after_results

end Cert.KernelIdeal.KHost

end
-- ==== Proof.Consts.lean ====
/-
  The two words that carry the batch average, as the extended reals they denote: the kernel multiplies the batch sum
  by the word of 2^-14, the reference divides it by the word of 16384 = 2^14.  On the extended reals dividing by a
  nonzero real is multiplying by its reciprocal, for every operand, infinite ones included; so the two averaged
  parameter vectors are one.
-/
import proofs.«112810_j2207613190724_2_alg».proof.Proof.Spec

noncomputable section

namespace Cert.Consts

open Idealize.ShloMosaic

/-- The word 0x46800000 denotes 16384. -/
theorem ofBits_16384 : Ideal.ofBits .f32 0x46800000#32 = ((16384 : ℝ) : EReal) := by
  simp [Ideal.ofBits, Ideal.ieee, -EReal.coe_mul]; norm_num

/-- The word 0x38800000 denotes 1/16384. -/
theorem ofBits_inv16384 : Ideal.ofBits .f32 0x38800000#32 = ((1 / 16384 : ℝ) : EReal) := by
  simp [Ideal.ofBits, Ideal.ieee, -EReal.coe_mul]; norm_num

/-- The averaged flow parameters are the same vector whether the batch sum is multiplied by 2^-14 or divided by 2^14. -/
theorem FPmul_eq_FPdiv (x : Cert.Spec.Arr2 16384 4096) (W1 : Cert.Spec.Arr2 400 4096) (b1 : Cert.Spec.Arr1 400)
    (W23 : Cert.Spec.Arr2 3520 400) (b23 : Cert.Spec.Arr1 3520) :
    Cert.Spec.FPmul x W1 b1 W23 b23 = Cert.Spec.FPdiv x W1 b1 W23 b23 := by
  funext n
  unfold Cert.Spec.FPmul Cert.Spec.FPdiv
  rw [ofBits_16384, ofBits_inv16384, Ideal.div_coe (by norm_num : (16384 : ℝ) ≠ 0)]

end Cert.Consts

end
-- ==== Proof.KVal.lean ====
/-
  The idealized kernel's three results as functions of its arguments.

  The second region's output array is, row by row, the decoder of the flow of the latent row (the region's own
  operands: the two encoder heads, eps, the three cuts of the averaged parameters, the decoder's weights).  Its
  operands are read back through the program: the two heads and the 1x3520 accumulator are what the first region
  left in its three output arrays (functions of x, W1, b1 and the heads' weights), the three cuts are the six host
  operations applied to the accumulator, and eps and the decoder's weights are argument arrays no earlier segment
  writes.  What each region leaves in its output arrays is taken here as a hypothesis (the four facts of `Regions`),
  proved region by region elsewhere.
-/
import proofs.«112810_j2207613190724_2_alg».proof.Proof.KRun
import proofs.«112810_j2207613190724_2_alg».proof.Proof.KHost
import proofs.«112810_j2207613190724_2_alg».proof.Proof.Consts

noncomputable section

namespace Cert.KernelIdeal.KVal

open Cert.KernelIdeal Cert.KernelIdeal.Gen
open Idealize.ShloMosaic Idealize.ShloMosaic.ValueIdx Idealize.ShloMosaic.TcCoe Idealize.SL.Sem
open Idealize.ShloMosaic.Pipeline (Dat)

/-- What the two regions leave in their output arrays, for ANY contents `V` at the region's entry. -/
structure Regions : Prop where
  arr9 : ∀ (V : (c : Dev nD) → (b : Ref sig .tc) → Buf (Elt Ideal) ((c : Thread nD τ).loc b)) (c : Dev nD),
    ((dat0 (F := Ideal) V c).arrAt 9 cfg0.N : Cert.Spec.Arr2 16384 64)
      = Cert.Spec.MU (V c main_arg0) (V c main_arg2) (V c main_arg3) (V c main_arg4) (V c main_arg5)
  arr10 : ∀ (V : (c : Dev nD) → (b : Ref sig .tc) → Buf (Elt Ideal) ((c : Thread nD τ).loc b)) (c : Dev nD),
    ((dat0 (F := Ideal) V c).arrAt 10 cfg0.N : Cert.Spec.Arr2 16384 64)
      = Cert.Spec.MU (V c main_arg0) (V c main_arg2) (V c main_arg3) (V c main_arg6) (V c main_arg7)
  arr11 : ∀ (V : (c : Dev nD) → (b : Ref sig .tc) → Buf (Elt Ideal) ((c : Thread nD τ).loc b)) (c : Dev nD),
    ((dat0 (F := Ideal) V c).arrAt 11 cfg0.N : Cert.Spec.Arr2 1 3520)
      = fun i => Cert.Spec.FPmul (V c main_arg0) (V c main_arg2) (V c main_arg3) (V c main_arg8) (V c main_arg9) (ix1 (i 1))
  out10 : ∀ (V : (c : Dev nD) → (b : Ref sig .tc) → Buf (Elt Ideal) ((c : Thread nD τ).loc b)) (c : Dev nD),
    ((dat1 (F := Ideal) V c).arrAt 10 cfg1.N : Cert.Spec.Arr2 16384 4096)
      = Cert.Spec.OUT (V c main_v0_0) (V c main_v0_1) (V c main_arg1) (V c main_v4) (V c main_v5) (V c main_v6)
          (V c main_arg10) (V c main_arg11) (V c main_arg12) (V c main_arg13)

variable (m : (ℓ : Loc nD τ sig) → Buf (Elt Ideal) ℓ) (ρ : Dev nD → PrngReg)

/-- The mean head, as the second region finds it. -/
theorem v2_v0_0 (h : Regions) (c : Dev nD) :
    (V2 m ρ c main_v0_0 : Cert.Spec.Arr2 16384 64)
      = Cert.Spec.MU (V0 m ρ c main_arg0) (V0 m ρ c main_arg2) (V0 m ρ c main_arg3) (V0 m ρ c main_arg4) (V0 m ρ c main_arg5) :=
  (KHost.keep_v0_0 (W1 m ρ c)).trans ((W1_arr m ρ c 9).trans (h.arr9 (V0 m ρ) c))

/-- The log-variance head, as the second region finds it. -/
theorem v2_v0_1 (h : Regions) (c : Dev nD) :
    (V2 m ρ c main_v0_1 : Cert.Spec.Arr2 16384 64)
      = Cert.Spec.MU (V0 m ρ c main_arg0) (V0 m ρ c main_arg2) (V0 m ρ c main_arg3) (V0 m ρ c main_arg6) (V0 m ρ c main_arg7) :=
  (KHost.keep_v0_1 (W1 m ρ c)).trans ((W1_arr m ρ c 10).trans (h.arr10 (V0 m ρ) c))

/-- The accumulator array after the first region, flattened, is the averaged parameter vector. -/
theorem flat_w1 (h : Regions) (c : Dev nD) :
    KHost.flat (W1 m ρ c (Proc.devRef .tc main_v0_2))
      = Cert.Spec.FPmul (V0 m ρ c main_arg0) (V0 m ρ c main_arg2) (V0 m ρ c main_arg3) (V0 m ρ c main_arg8) (V0 m ρ c main_arg9) := by
  funext n
  unfold KHost.flat
  rw [show (W1 m ρ c (Proc.devRef .tc main_v0_2) : Cert.Spec.Arr2 1 3520) = _ from (W1_arr m ρ c 11).trans (h.arr11 (V0 m ρ) c)]
  exact congrArg _ (eq_ix1 n).symm

theorem v2_v4 (h : Regions) (c : Dev nD) :
    (V2 m ρ c main_v4 : Cert.Spec.Arr3 8 20 20)
      = Cert.Spec.RRof (Cert.Spec.FPmul (V0 m ρ c main_arg0) (V0 m ρ c main_arg2) (V0 m ρ c main_arg3) (V0 m ρ c main_arg8) (V0 m ρ c main_arg9)) :=
  (KHost.v4_eq (W1 m ρ c)).trans (congrArg Cert.Spec.RRof (flat_w1 m ρ h c))
theorem v2_v5 (h : Regions) (c : Dev nD) :
    (V2 m ρ c main_v5 : Cert.Spec.Arr2 8 20)
      = Cert.Spec.Vof (Cert.Spec.FPmul (V0 m ρ c main_arg0) (V0 m ρ c main_arg2) (V0 m ρ c main_arg3) (V0 m ρ c main_arg8) (V0 m ρ c main_arg9)) :=
  (KHost.v5_eq (W1 m ρ c)).trans (congrArg Cert.Spec.Vof (flat_w1 m ρ h c))
theorem v2_v6 (h : Regions) (c : Dev nD) :
    (V2 m ρ c main_v6 : Cert.Spec.Arr2 8 20)
      = Cert.Spec.Cof (Cert.Spec.FPmul (V0 m ρ c main_arg0) (V0 m ρ c main_arg2) (V0 m ρ c main_arg3) (V0 m ρ c main_arg8) (V0 m ρ c main_arg9)) :=
  (KHost.v6_eq (W1 m ρ c)).trans (congrArg Cert.Spec.Cof (flat_w1 m ρ h c))

/-- The argument arrays the second region reads are as launched: neither the first region nor the host stretch writes them. -/
theorem v2_arg1 (c : Dev nD) : V2 m ρ c main_arg1 = V0 m ρ c main_arg1 :=
  (KHost.keep_arg1 (W1 m ρ c)).trans (W1_of_ne m ρ c main_arg1 (by decide))
theorem v2_arg10 (c : Dev nD) : V2 m ρ c main_arg10 = V0 m ρ c main_arg10 :=
  (KHost.keep_arg10 (W1 m ρ c)).trans (W1_of_ne m ρ c main_arg10 (by decide))
theorem v2_arg11 (c : Dev nD) : V2 m ρ c main_arg11 = V0 m ρ c main_arg11 :=
  (KHost.keep_arg11 (W1 m ρ c)).trans (W1_of_ne m ρ c main_arg11 (by decide))
theorem v2_arg12 (c : Dev nD) : V2 m ρ c main_arg12 = V0 m ρ c main_arg12 :=
  (KHost.keep_arg12 (W1 m ρ c)).trans (W1_of_ne m ρ c main_arg12 (by decide))
theorem v2_arg13 (c : Dev nD) : V2 m ρ c main_arg13 = V0 m ρ c main_arg13 :=
  (KHost.keep_arg13 (W1 m ρ c)).trans (W1_of_ne m ρ c main_arg13 (by decide))

/-- The decoder's output array at the end of the run. -/
theorem w3_v7 (h : Regions) (c : Dev nD) :
    (W3 m ρ c (Proc.devRef .tc main_v7) : Cert.Spec.Arr2 16384 4096)
      = Cert.Spec.OUT
          (Cert.Spec.MU (V0 m ρ c main_arg0) (V0 m ρ c main_arg2) (V0 m ρ c main_arg3) (V0 m ρ c main_arg4) (V0 m ρ c main_arg5))
          (Cert.Spec.MU (V0 m ρ c main_arg0) (V0 m ρ c main_arg2) (V0 m ρ c main_arg3) (V0 m ρ c main_arg6) (V0 m ρ c main_arg7))
          (V0 m ρ c main_arg1)
          (Cert.Spec.RRof (Cert.Spec.FPdiv (V0 m ρ c main_arg0) (V0 m ρ c main_arg2) (V0 m ρ c main_arg3) (V0 m ρ c main_arg8) (V0 m ρ c main_arg9)))
          (Cert.Spec.Vof (Cert.Spec.FPdiv (V0 m ρ c main_arg0) (V0 m ρ c main_arg2) (V0 m ρ c main_arg3) (V0 m ρ c main_arg8) (V0 m ρ c main_arg9)))
          (Cert.Spec.Cof (Cert.Spec.FPdiv (V0 m ρ c main_arg0) (V0 m ρ c main_arg2) (V0 m ρ c main_arg3) (V0 m ρ c main_arg8) (V0 m ρ c main_arg9)))
          (V0 m ρ c main_arg10) (V0 m ρ c main_arg11) (V0 m ρ c main_arg12) (V0 m ρ c main_arg13) := by
  refine ((W3_arr m ρ c 10).trans (h.out10 (V2 m ρ) c)).trans ?_
  rw [v2_v0_0 m ρ h c, v2_v0_1 m ρ h c, v2_v4 m ρ h c, v2_v5 m ρ h c, v2_v6 m ρ h c,
    v2_arg1 m ρ c, v2_arg10 m ρ c, v2_arg11 m ρ c, v2_arg12 m ρ c, v2_arg13 m ρ c, Cert.Consts.FPmul_eq_FPdiv]

/-- The two encoder heads at the end of the run: the second region only reads them. -/
theorem w3_v0_0 (h : Regions) (c : Dev nD) :
    (W3 m ρ c (Proc.devRef .tc main_v0_0) : Cert.Spec.Arr2 16384 64)
      = Cert.Spec.MU (V0 m ρ c main_arg0) (V0 m ρ c main_arg2) (V0 m ρ c main_arg3) (V0 m ρ c main_arg4) (V0 m ρ c main_arg5) :=
  (W3_arr m ρ c 0).trans (((dat1 (V2 m ρ) c).arrAt_in 0 rfl _).trans ((A_eq1 (V2 m ρ) c 0).trans (v2_v0_0 m ρ h c)))
theorem w3_v0_1 (h : Regions) (c : Dev nD) :
    (W3 m ρ c (Proc.devRef .tc main_v0_1) : Cert.Spec.Arr2 16384 64)
      = Cert.Spec.MU (V0 m ρ c main_arg0) (V0 m ρ c main_arg2) (V0 m ρ c main_arg3) (V0 m ρ c main_arg6) (V0 m ρ c main_arg7) :=
  (W3_arr m ρ c 1).trans (((dat1 (V2 m ρ) c).arrAt_in 1 rfl _).trans ((A_eq1 (V2 m ρ) c 1).trans (v2_v0_1 m ρ h c)))

end Cert.KernelIdeal.KVal

end
-- ==== Proof.RefStmt.lean ====
/-
  What the reference's run is to establish: every weakly fair execution of the idealized reference terminates without
  a fault, its three results end at the specification's functions of the argument arrays (the decoder's output, the
  mean head, the log-variance head), and the fourteen argument arrays end as launched.
-/
import proofs.«112810_j2207613190724_2_alg».proof.ReferenceIdeal
import proofs.«112810_j2207613190724_2_alg».proof.Proof.Gen.ReferenceIdeal
import proofs.«112810_j2207613190724_2_alg».proof.Proof.Spec
import Idealize.ShloMosaic.Adequacy
import Idealize.ShloMosaic.Init

noncomputable section

namespace Cert.RefStmt

open Idealize.ShloMosaic Idealize.ShloMosaic.TcCoe Idealize.SL.Sem

/-- The reference's run with its three results named. -/
def RefRun : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v279) = Cert.Spec.OUT (Cert.Spec.MU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) (Cert.Spec.MU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) (m ((c.tc : Thread Cert.ReferenceIdeal.nD Cert.ReferenceIdeal.τ).loc Cert.ReferenceIdeal.main_arg1))
          (Cert.Spec.RRof (Cert.Spec.FPdiv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))))
          (Cert.Spec.Vof (Cert.Spec.FPdiv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))))
          (Cert.Spec.Cof (Cert.Spec.FPdiv (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))))
          (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v10) = Cert.Spec.MU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v15) = Cert.Spec.MU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

end Cert.RefStmt

end
-- ==== Proof.Assemble.lean ====
/-
  The certificate's five claims from the parts.

  Both idealized programs compute, on the extended reals, the same network of the argument arrays (Spec.lean): the
  kernel's run ends with its three result arrays at the decoder's output and the two encoder heads (KVal.lean, from
  what each region leaves in its output arrays), the reference's run at the same three functions.  The kernel forms
  the averaged flow parameters by a product with 2^-14 and the reference by a quotient by 2^14, one vector
  (Consts.lean).  The three frames are the runs with the results dropped; the idealization rewrote nothing.
-/
import proofs.«112810_j2207613190724_2_alg».proof.Defs
import proofs.«112810_j2207613190724_2_alg».proof.Proof.Gen.Kernel
import proofs.«112810_j2207613190724_2_alg».proof.Proof.Gen.Kernel.Frame
import proofs.«112810_j2207613190724_2_alg».proof.Proof.Gen.KernelIdeal
import proofs.«112810_j2207613190724_2_alg».proof.Proof.Gen.ReferenceIdeal
import proofs.«112810_j2207613190724_2_alg».proof.Proof.Gen.Pre_finite_inputs
import proofs.«112810_j2207613190724_2_alg».proof.Proof.KVal
import proofs.«112810_j2207613190724_2_alg».proof.Proof.RefStmt

noncomputable section

namespace Cert.Assemble

open Idealize.ShloMosaic Idealize.ShloMosaic.TcCoe Idealize.SL.Sem

open Cert.RefStmt (RefRun)

theorem frame_p : @Cert.frame_Kernel Cert.Kernel.Gen.facts Cert.Pre_finite_inputs.Gen.facts :=
  fun m ρ _ => Cert.Kernel.Gen.frame m ρ
theorem frame_pi : @Cert.frame_KernelIdeal Cert.KernelIdeal.Gen.facts Cert.Pre_finite_inputs.Gen.facts :=
  fun m ρ _ => Cert.KernelIdeal.Gen.frame m ρ
theorem frame_ri (hR : RefRun) : @Cert.frame_ReferenceIdeal Cert.ReferenceIdeal.Gen.facts Cert.Pre_finite_inputs.Gen.facts :=
  fun m ρ _ => (θ_run (Cert.ReferenceIdeal.defs (F := Ideal)) _ _).mono (fun _ h c => (h c).2.2.2) (hR m ρ)

/-- The two idealized programs end with equal results: each run ends at the specification's three functions of
    the arguments, and the arguments agree. -/
theorem algebraic (hK : Cert.KernelIdeal.KVal.Regions) (hR : RefRun) :
    @Cert.algebraic_KernelIdeal_ReferenceIdeal Cert.KernelIdeal.Gen.facts Cert.ReferenceIdeal.Gen.facts Cert.Pre_finite_inputs.Gen.facts := by
  intro m ρ m' ρ' _ hagree
  refine ⟨fun c => (Cert.Spec.OUT (Cert.Spec.MU (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.Spec.MU (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1))
          (Cert.Spec.RRof (Cert.Spec.FPdiv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
          (Cert.Spec.Vof (Cert.Spec.FPdiv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
          (Cert.Spec.Cof (Cert.Spec.FPdiv (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))
          (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) : Cert.Spec.Arr2 16384 4096),
    fun c => (Cert.Spec.MU (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) : Cert.Spec.Arr2 16384 64),
    fun c => (Cert.Spec.MU (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Cert.Spec.Arr2 16384 64), ?_, ?_⟩
  · exact (θ_run (Cert.KernelIdeal.defs (F := Ideal)) _ _).mono
      (fun r h c => ⟨(h c).1.trans (Cert.KernelIdeal.KVal.w3_v7 m ρ hK c),
        (h c).2.1.trans (Cert.KernelIdeal.KVal.w3_v0_0 m ρ hK c),
        (h c).2.2.1.trans (Cert.KernelIdeal.KVal.w3_v0_1 m ρ hK c), (h c).2.2.2⟩)
      (Cert.KernelIdeal.KRun.run_values (F := Ideal) m ρ)
  · refine (θ_run (Cert.ReferenceIdeal.defs (F := Ideal)) _ _).mono (fun r h c => ?_) (hR m' ρ')
    have ha := hagree c
    obtain ⟨h0, h1, h2, hrest⟩ := h c
    refine ⟨h0.trans ?_, h1.trans ?_, h2.trans ?_, hrest⟩
    · rw [ha.1, ha.2.1, ha.2.2.1, ha.2.2.2.1, ha.2.2.2.2.1, ha.2.2.2.2.2.1, ha.2.2.2.2.2.2.1, ha.2.2.2.2.2.2.2.1,
        ha.2.2.2.2.2.2.2.2.1, ha.2.2.2.2.2.2.2.2.2.1, ha.2.2.2.2.2.2.2.2.2.2.1, ha.2.2.2.2.2.2.2.2.2.2.2.1,
        ha.2.2.2.2.2.2.2.2.2.2.2.2.1, ha.2.2.2.2.2.2.2.2.2.2.2.2.2]
    · rw [ha.1, ha.2.2.1, ha.2.2.2.1, ha.2.2.2.2.1, ha.2.2.2.2.2.1]
    · rw [ha.1, ha.2.2.1, ha.2.2.2.1, ha.2.2.2.2.2.2.1, ha.2.2.2.2.2.2.2.1]

/-- The whole claim from the parts. -/
theorem claim_of (hK : Cert.KernelIdeal.KVal.Regions) (hR : RefRun) : Cert.Claim :=
  ⟨Cert.Kernel.Gen.facts, Cert.KernelIdeal.Gen.facts, Cert.ReferenceIdeal.Gen.facts, Cert.Pre_finite_inputs.Gen.facts,
    frame_p, frame_pi, frame_ri hR, trivial, algebraic hK hR⟩

end Cert.Assemble

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.K0Pay.lean ====
/-
  The arithmetic of one tile of the encoder, read entry by entry on the extended reals.

  A tile is 256 rows of the input.  The hidden tile is the cut at zero of the tile times the transposed first weight
  plus the first bias; each head's tile is the hidden tile times that head's transposed weight plus its bias; the
  accumulator gains, in entry n, the sum over the tile's 256 rows of the third head's entry n.  Roundings to a
  narrower format are the identity here, a product into zeros is the plain finite sum, and a transposed weight read
  at (k, c) is the weight at (c, k): so every entry is the specification's layer of the specification's hidden row.
-/
import proofs.«112810_j2207613190724_2_alg».proof.Proof.Gen.KernelIdeal.Skeleton
import proofs.«112810_j2207613190724_2_alg».proof.Proof.Spec
import proofs.«112810_j2207613190724_2_alg».proof.Proof.LibDotIx2
import Idealize.ShloMosaic.Lib.ValueLayout
import Idealize.ShloMosaic.Lib.Pipeline.Value

noncomputable section

open scoped BigOperators

namespace Cert.KernelIdeal.K0

open Idealize.ShloMosaic Idealize.ShloMosaic.ValueIdx Cert.KernelIdeal Cert.KernelIdeal.Gen

/-- The three products of the encoder are plain row-by-column products. -/
theorem plain_h : PlainDot dot_S256x4096_S4096x400_S256x400_1_0_0_1_n_n where
  rank := rfl
  size := rfl
  l0 := fun j q => rfl
  l1 := fun j q => dot_S256x4096_S4096x400_S256x400_1_0_0_1_n_n.lhsIdx_val_of_single rfl j q
  r0 := fun j q => dot_S256x4096_S4096x400_S256x400_1_0_0_1_n_n.rhsIdx_val_of_single rfl j q
  r1 := fun j q => rfl

theorem plain_m : PlainDot dot_S256x400_S400x64_S256x64_1_0_0_1_n_n where
  rank := rfl
  size := rfl
  l0 := fun j q => rfl
  l1 := fun j q => dot_S256x400_S400x64_S256x64_1_0_0_1_n_n.lhsIdx_val_of_single rfl j q
  r0 := fun j q => dot_S256x400_S400x64_S256x64_1_0_0_1_n_n.rhsIdx_val_of_single rfl j q
  r1 := fun j q => rfl

theorem plain_f : PlainDot dot_S256x400_S400x3520_S256x3520_1_0_0_1_n_n where
  rank := rfl
  size := rfl
  l0 := fun j q => rfl
  l1 := fun j q => dot_S256x400_S400x3520_S256x3520_1_0_0_1_n_n.lhsIdx_val_of_single rfl j q
  r0 := fun j q => dot_S256x400_S400x3520_S256x3520_1_0_0_1_n_n.rhsIdx_val_of_single rfl j q
  r1 := fun j q => rfl

/-- The hidden tile: entry (r, h) is the hidden row of the tile's row r, at h. -/
theorem pay4_apply (v3 : Vec Ideal S256x4096 .f32) (v5 : Vec Ideal S400x4096 .f32) (v9 : Vec Ideal S400 .f32) (r : Fin 256) (h : Fin 400) :
    k0_pay4 v3 v5 v9 (ix2 r h) = Cert.Spec.hid v5 v9 (fun j => v3 (ix2 r j)) h := by
  unfold k0_pay4
  simp only [truncf_apply, maximumf_apply, addf_apply, broadcast_apply, matmul]
  rw [matmul_zero_ix2_any plain_h, broadcastTo_1b_ab_apply, shapeCast_a_1a_apply]
  have et : ∀ k : Fin 4096, transpose S4096x400 [1, 0] (truncf FTy.bf16 v5 bitsLt_bf16_f32) transposes_S400x4096_p1_0_S4096x400 (ix2 k h)
      = (truncf FTy.bf16 v5 bitsLt_bf16_f32 : FVec Ideal S400x4096 .bf16) (ix2 h k) :=
    fun k => transpose_ix2_apply (a := 400) (b := 4096) _ _ k h
  simp only [et, truncf_apply]
  rfl

/-- A head's tile (mean or log-variance): entry (r, c) is the head's layer of the hidden row of the tile's row r, at c. -/
theorem pay5_apply (v3 : Vec Ideal S256x4096 .f32) (v5 : Vec Ideal S400x4096 .f32) (v9 : Vec Ideal S400 .f32)
    (v16 : Vec Ideal S64x400 .f32) (v20 : Vec Ideal S64 .f32) (r : Fin 256) (c : Fin 64) :
    k0_pay5 v3 v5 v9 v16 v20 (ix2 r c) = Cert.Spec.lin v16 v20 (Cert.Spec.hid v5 v9 (fun j => v3 (ix2 r j))) c := by
  unfold k0_pay5
  simp only [addf_apply, matmul]
  rw [matmul_zero_ix2_any plain_m, broadcastTo_1b_ab_apply, shapeCast_a_1a_apply]
  have et : ∀ k : Fin 400, transpose S400x64 [1, 0] (truncf FTy.bf16 v16 bitsLt_bf16_f32) transposes_S64x400_p1_0_S400x64 (ix2 k c)
      = (truncf FTy.bf16 v16 bitsLt_bf16_f32 : FVec Ideal S64x400 .bf16) (ix2 c k) :=
    fun k => transpose_ix2_apply (a := 64) (b := 400) _ _ k c
  simp only [et, truncf_apply, pay4_apply]
  rfl

theorem pay6_apply (v3 : Vec Ideal S256x4096 .f32) (v5 : Vec Ideal S400x4096 .f32) (v9 : Vec Ideal S400 .f32)
    (v25 : Vec Ideal S64x400 .f32) (v29 : Vec Ideal S64 .f32) (r : Fin 256) (c : Fin 64) :
    k0_pay6 v3 v5 v9 v25 v29 (ix2 r c) = Cert.Spec.lin v25 v29 (Cert.Spec.hid v5 v9 (fun j => v3 (ix2 r j))) c :=
  pay5_apply v3 v5 v9 v25 v29 r c

/-- Column t of a two-axis array with row k put back is entry (k, t). -/
theorem lift_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The accumulator after a point: entry n is what it held plus the tile's column sum of the third head's layer. -/
theorem pay1_apply (v15 : FVec Ideal S256x400 .bf16) (v34 : Vec Ideal S3520x400 .f32) (v38 : Vec Ideal S3520 .f32)
    (v44 : Vec Ideal S1x3520 .f32) (u : Fin 1) (n : Fin 3520) :
    k0_pay1 v15 v34 v38 v44 (ix2 u n)
      = v44 (ix2 u n) + ∑ r : Fin 256, ((∑ k : Fin 400, v15 (ix2 r k) * v34 (ix2 n k)) + v38 (ix1 n)) := by
  unfold k0_pay1
  simp only [addf_apply, shapeCast_self]
  rw [shapeCast_a_1a_apply]
  refine congrArg (v44 (ix2 u n) + ·) ?_
  refine (Ideal.multiReduction_add_single _ 0x00000000#32 reduces_S256x3520_S3520 (.inl rfl) rfl (ix1 n)).trans ?_
  show ∑ r : Fin 256, _ = _
  refine Finset.sum_congr rfl fun r _ => ?_
  rw [lift_ix2 reduces_S256x3520_S3520 n r]
  simp only [addf_apply, matmul]
  rw [matmul_zero_ix2_any plain_f, broadcastTo_1b_ab_apply, shapeCast_a_1a_apply]
  have et : ∀ k : Fin 400, transpose S400x3520 [1, 0] (truncf FTy.bf16 v34 bitsLt_bf16_f32) transposes_S3520x400_p1_0_S400x3520 (ix2 k n)
      = (truncf FTy.bf16 v34 bitsLt_bf16_f32 : FVec Ideal S3520x400 .bf16) (ix2 n k) :=
    fun k => transpose_ix2_apply (a := 3520) (b := 400) _ _ k n
  simp only [et, truncf_apply]

/-- The last point's scaling: every entry times the word of 2^-14. -/
theorem pay2_apply (v51 : Vec Ideal S1x3520 .f32) (j : S1x3520.Idx) :
    k0_pay2 v51 j = v51 j * Ideal.ofBits .f32 0x38800000#32 := by
  unfold k0_pay2
  simp only [mulf_apply, shapeCast_self, broadcast_apply]
  rfl

/-- The first point's reset: every entry the zero word. -/
theorem pay3_apply (j : S1x3520.Idx) : k0_pay3 (F := Ideal) j = Ideal.ofBits .f32 0x00000000#32 := rfl

end Cert.KernelIdeal.K0

end
-- ==== Proof.K0Blocks.lean ====
/-
  Where a block sits in its array.

  The input, the mean and the log-variance are cut into 64 tiles of 256 rows: at grid point t the block's entry
  (r, j) is the array's entry (256 t + r, j).  Every other operand is read whole at every point, so its block is the
  array itself; the accumulator's block is its whole 1 x 3520 array as well.  A block's coordinate on an axis is the
  block index times the block size plus the coordinate inside the block, and the block indices are decided once
  over the 64 grid points.
-/
import proofs.«112810_j2207613190724_2_alg».proof.Proof.Gen.KernelIdeal.Frame
import Idealize.ShloMosaic.Lib.Pipeline.Value
import Idealize.ShloMosaic.Lib.ValueIdx

noncomputable section

namespace Cert.KernelIdeal.K0

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The printed index maps over the grid: the row-tiled windows sit at block row t, the accumulator at block 0. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = 0 ∧ win0_11.index t (1 : Fin 2) = 0 :=
  (by decide +kernel : ∀ t : Fin grid0.N, _)

/-- The operands read whole sit at block 0 on every axis, at every point. -/
theorem whole_facts : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row r of the tile at point t is row 256 t + r of the array. -/
def trow (t : Fin cfg0.N) (r : Fin 256) : Fin 16384 :=
  ⟨256 * t.val + r.val, by have := t.isLt; have hN : cfg0.N = 64 := N_0; omega⟩

/-- The input tile at point t, at (r, j), is the input array at (256 t + r, j). -/
theorem blk0_apply (c : Dev nD) (t : Fin cfg0.N) (r : Fin 256) (j : Fin 4096) :
    (iblk0 V c 0 t : Vec F S256x4096 .f32) (ix2 r j) = V c main_arg0 (ix2 (trow t r) j) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 256 + 1 * r.val = 256 * t.val + r.val; omega
  | ⟨1, _⟩ => show win0_0.index t (1 : Fin 2) * 4096 + 1 * j.val = j.val; omega

theorem blk1_eq (c : Dev nD) (t : Fin cfg0.N) : (iblk0 V c 1 t : Vec F S400x4096 .f32) = V c main_arg2 := by
  obtain ⟨e1_0, e1_1, e2_0, e3_0, e3_1, e4_0, e5_0, e5_1, e6_0, e7_0, e7_1, e8_0⟩ := whole_facts t
  funext y
  unfold iblk0
  rw [View.read_apply]
  show V c main_arg2 _ = V c main_arg2 y
  refine congrArg (V c main_arg2) ?_
  funext a
  apply Fin.ext
  match a with
  | ⟨0, _⟩ => show win0_1.index t (0 : Fin 2) * 400 + 1 * (y 0).val = (y 0).val; omega
  | ⟨1, _⟩ => show win0_1.index t (1 : Fin 2) * 4096 + 1 * (y 1).val = (y 1).val; omega

theorem blk2_eq (c : Dev nD) (t : Fin cfg0.N) : (iblk0 V c 2 t : Vec F S400 .f32) = V c main_arg3 := by
  obtain ⟨e1_0, e1_1, e2_0, e3_0, e3_1, e4_0, e5_0, e5_1, e6_0, e7_0, e7_1, e8_0⟩ := whole_facts t
  funext y
  unfold iblk0
  rw [View.read_apply]
  show V c main_arg3 _ = V c main_arg3 y
  refine congrArg (V c main_arg3) ?_
  funext a
  apply Fin.ext
  match a with
  | ⟨0, _⟩ => show win0_2.index t (0 : Fin 1) * 400 + 1 * (y 0).val = (y 0).val; omega

theorem blk3_eq (c : Dev nD) (t : Fin cfg0.N) : (iblk0 V c 3 t : Vec F S64x400 .f32) = V c main_arg4 := by
  obtain ⟨e1_0, e1_1, e2_0, e3_0, e3_1, e4_0, e5_0, e5_1, e6_0, e7_0, e7_1, e8_0⟩ := whole_facts t
  funext y
  unfold iblk0
  rw [View.read_apply]
  show V c main_arg4 _ = V c main_arg4 y
  refine congrArg (V c main_arg4) ?_
  funext a
  apply Fin.ext
  match a with
  | ⟨0, _⟩ => show win0_3.index t (0 : Fin 2) * 64 + 1 * (y 0).val = (y 0).val; omega
  | ⟨1, _⟩ => show win0_3.index t (1 : Fin 2) * 400 + 1 * (y 1).val = (y 1).val; omega

theorem blk4_eq (c : Dev nD) (t : Fin cfg0.N) : (iblk0 V c 4 t : Vec F S64 .f32) = V c main_arg5 := by
  obtain ⟨e1_0, e1_1, e2_0, e3_0, e3_1, e4_0, e5_0, e5_1, e6_0, e7_0, e7_1, e8_0⟩ := whole_facts t
  funext y
  unfold iblk0
  rw [View.read_apply]
  show V c main_arg5 _ = V c main_arg5 y
  refine congrArg (V c main_arg5) ?_
  funext a
  apply Fin.ext
  match a with
  | ⟨0, _⟩ => show win0_4.index t (0 : Fin 1) * 64 + 1 * (y 0).val = (y 0).val; omega

theorem blk5_eq (c : Dev nD) (t : Fin cfg0.N) : (iblk0 V c 5 t : Vec F S64x400 .f32) = V c main_arg6 := by
  obtain ⟨e1_0, e1_1, e2_0, e3_0, e3_1, e4_0, e5_0, e5_1, e6_0, e7_0, e7_1, e8_0⟩ := whole_facts t
  funext y
  unfold iblk0
  rw [View.read_apply]
  show V c main_arg6 _ = V c main_arg6 y
  refine congrArg (V c main_arg6) ?_
  funext a
  apply Fin.ext
  match a with
  | ⟨0, _⟩ => show win0_5.index t (0 : Fin 2) * 64 + 1 * (y 0).val = (y 0).val; omega
  | ⟨1, _⟩ => show win0_5.index t (1 : Fin 2) * 400 + 1 * (y 1).val = (y 1).val; omega

theorem blk6_eq (c : Dev nD) (t : Fin cfg0.N) : (iblk0 V c 6 t : Vec F S64 .f32) = V c main_arg7 := by
  obtain ⟨e1_0, e1_1, e2_0, e3_0, e3_1, e4_0, e5_0, e5_1, e6_0, e7_0, e7_1, e8_0⟩ := whole_facts t
  funext y
  unfold iblk0
  rw [View.read_apply]
  show V c main_arg7 _ = V c main_arg7 y
  refine congrArg (V c main_arg7) ?_
  funext a
  apply Fin.ext
  match a with
  | ⟨0, _⟩ => show win0_6.index t (0 : Fin 1) * 64 + 1 * (y 0).val = (y 0).val; omega

theorem blk7_eq (c : Dev nD) (t : Fin cfg0.N) : (iblk0 V c 7 t : Vec F S3520x400 .f32) = V c main_arg8 := by
  obtain ⟨e1_0, e1_1, e2_0, e3_0, e3_1, e4_0, e5_0, e5_1, e6_0, e7_0, e7_1, e8_0⟩ := whole_facts t
  funext y
  unfold iblk0
  rw [View.read_apply]
  show V c main_arg8 _ = V c main_arg8 y
  refine congrArg (V c main_arg8) ?_
  funext a
  apply Fin.ext
  match a with
  | ⟨0, _⟩ => show win0_7.index t (0 : Fin 2) * 3520 + 1 * (y 0).val = (y 0).val; omega
  | ⟨1, _⟩ => show win0_7.index t (1 : Fin 2) * 400 + 1 * (y 1).val = (y 1).val; omega

theorem blk8_eq (c : Dev nD) (t : Fin cfg0.N) : (iblk0 V c 8 t : Vec F S3520 .f32) = V c main_arg9 := by
  obtain ⟨e1_0, e1_1, e2_0, e3_0, e3_1, e4_0, e5_0, e5_1, e6_0, e7_0, e7_1, e8_0⟩ := whole_facts t
  funext y
  unfold iblk0
  rw [View.read_apply]
  show V c main_arg9 _ = V c main_arg9 y
  refine congrArg (V c main_arg9) ?_
  funext a
  apply Fin.ext
  match a with
  | ⟨0, _⟩ => show win0_8.index t (0 : Fin 1) * 3520 + 1 * (y 0).val = (y 0).val; omega

/-- Entry (r, cc) of the mean block at point t sits at (256 t + r, cc) of the mean array; the same for the log-variance. -/
theorem emb9 (t : Fin cfg0.N) (r : Fin 256) (cc : Fin 64) :
    (((cfg0.win 9).blk t).view.emb (ix2 r cc) : S16384x64.Idx) = ix2 (trow t r) cc := by
  obtain ⟨-, -, e0, e1, -⟩ := idx_facts t
  funext a
  apply Fin.ext
  match a with
  | ⟨0, _⟩ => show win0_9.index t (0 : Fin 2) * 256 + 1 * r.val = 256 * t.val + r.val; omega
  | ⟨1, _⟩ => show win0_9.index t (1 : Fin 2) * 64 + 1 * cc.val = cc.val; omega

theorem emb10 (t : Fin cfg0.N) (r : Fin 256) (cc : Fin 64) :
    (((cfg0.win 10).blk t).view.emb (ix2 r cc) : S16384x64.Idx) = ix2 (trow t r) cc := by
  obtain ⟨-, -, -, -, e0, e1, -⟩ := idx_facts t
  funext a
  apply Fin.ext
  match a with
  | ⟨0, _⟩ => show win0_10.index t (0 : Fin 2) * 256 + 1 * r.val = 256 * t.val + r.val; omega
  | ⟨1, _⟩ => show win0_10.index t (1 : Fin 2) * 64 + 1 * cc.val = cc.val; omega

/-- The accumulator block is the whole accumulator array at every point. -/
theorem emb11 (t : Fin cfg0.N) (y : S1x3520.Idx) :
    (((cfg0.win 11).blk t).view.emb y : S1x3520.Idx) = y := by
  obtain ⟨-, -, -, -, -, -, e0, e1⟩ := idx_facts t
  funext a
  apply Fin.ext
  match a with
  | ⟨0, _⟩ => show win0_11.index t (0 : Fin 2) * 1 + 1 * (y 0).val = (y 0).val; omega
  | ⟨1, _⟩ => show win0_11.index t (1 : Fin 2) * 3520 + 1 * (y 1).val = (y 1).val; omega

end Cert.KernelIdeal.K0

end
-- ==== Proof.K0Pieces.lean ====
/-
  What one grid point leaves in each of the three output blocks, as a value of the blocks it read.

  In every case the mean block is the first head's tile and the log-variance block the second head's.  The
  accumulator block: at the first point it is set to zeros and the tile's column sums are added to that; at a
  middle point the column sums are added to what the point before left; at the last point the same, and then every
  entry is multiplied by the word of 2^-14.  Each block is written by whole-block stores, so reading it back gives
  the last store's value, and a load between two stores reads the earlier store's value.
-/
import proofs.«112810_j2207613190724_2_alg».proof.Proof.Gen.KernelIdeal.Frame
import Idealize.ShloMosaic.Lib.Pipeline.Value
import Idealize.ShloMosaic.Lib.Tactic

noncomputable section

namespace Cert.KernelIdeal.K0

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl

theorem hz1 : (![0] : Fin 1 → Nat) = fun _ => 0 := funext fun a => by fin_cases a <;> rfl

theorem out_A_9 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay5 x0 x1 x2 x3 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_A_10 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay6 x0 x1 x2 x5 x6 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_A_11 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) :
    out0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k0_pay1 (k0_pay4 x0 x1 x2) x7 x8 k0_pay3 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S1x3520) hz2, View.readCov_unit_zero (S := S1x3520) _ hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_B_9 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay5 x0 x1 x2 x3 x4 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_B_10 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay6 x0 x1 x2 x5 x6 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_B_11 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : ¬cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay1 (k0_pay4 x0 x1 x2) x7 x8 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_C_9 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay5 x0 x1 x2 x3 x4 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_C
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_C_10 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay6 x0 x1 x2 x5 x6 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_C
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

theorem out_C_11 (c : Dev nD) (i : grid0.Coords) (arg1 : Memref sig .tc .vmem S256x4096 .f32) (harg1 : arg1.IsWhole) (arg2 : Memref sig .tc .vmem S400x4096 .f32) (harg2 : arg2.IsWhole) (arg3 : Memref sig .tc .vmem S400 .f32) (harg3 : arg3.IsWhole) (arg4 : Memref sig .tc .vmem S64x400 .f32) (harg4 : arg4.IsWhole) (arg5 : Memref sig .tc .vmem S64 .f32) (harg5 : arg5.IsWhole) (arg6 : Memref sig .tc .vmem S64x400 .f32) (harg6 : arg6.IsWhole) (arg7 : Memref sig .tc .vmem S64 .f32) (harg7 : arg7.IsWhole) (arg8 : Memref sig .tc .vmem S3520x400 .f32) (harg8 : arg8.IsWhole) (arg9 : Memref sig .tc .vmem S3520 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S1x3520 .f32) (harg12 : arg12.IsWhole) (hc0 : ¬cond0_0 i) (hc1 : cond0_1 i) (x0 : Vec F S256x4096 .f32) (x1 : Vec F S400x4096 .f32) (x2 : Vec F S400 .f32) (x3 : Vec F S64x400 .f32) (x4 : Vec F S64 .f32) (x5 : Vec F S64x400 .f32) (x6 : Vec F S64 .f32) (x7 : Vec F S3520x400 .f32) (x8 : Vec F S3520 .f32) (xo11 : Vec F S1x3520 .f32) :
    out0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11 = k0_pay2 (k0_pay1 (k0_pay4 x0 x1 x2) x7 x8 xo11) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo11)]
  unfold kernelRun0_C
  dsimp only
  sl_unfold_words
  rw [View.canon_cons_unit_zero (S := S1x3520) hz2, View.readCov_unit_zero (S := S1x3520) _ hz2]
  simp only [View.readAt_eq_ld, harg1.read_unread, harg2.read_unread, harg3.read_unread, harg4.read_unread, harg5.read_unread, harg6.read_unread, harg7.read_unread, harg8.read_unread, harg9.read_unread, harg12.read_unread, View.ld_unit_zero (S := S256x4096) hz2, View.ld_unit_zero (S := S400x4096) hz2, View.ld_unit_zero (S := S400) hz1, View.ld_unit_zero (S := S64x400) hz2, View.ld_unit_zero (S := S64) hz1, View.ld_unit_zero (S := S3520x400) hz2, View.ld_unit_zero (S := S3520) hz1, View.ld_unit_zero (S := S1x3520) hz2]

end Cert.KernelIdeal.K0

end
-- ==== Proof.K0OutsH.lean ====
/-
  The mean and log-variance blocks after each grid point, as values of the point's input blocks.

  Which of the three cases a point runs is decided by its position (first, middle, last), but in every case the two
  blocks are the two heads' tiles of the point's input blocks: the cases differ only in what they do to the accumulator.
-/
import proofs.«112810_j2207613190724_2_alg».proof.Proof.K0Pieces

noncomputable section

namespace Cert.KernelIdeal.K0

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

set_option maxHeartbeats 400000 in
theorem outs9_A (c : Dev nD) (t : Fin cfg0.N) (h0 : t.val % 64 = 0) (h1 : ¬t.val % 64 = 63) :
    (outsAt0 V c t.val t.isLt).1 = k0_pay5 (iblk0 V c 0 t) (iblk0 V c 1 t) (iblk0 V c 2 t) (iblk0 V c 3 t) (iblk0 V c 4 t) :=
  (congrArg Prod.fst (outsAt0_A V c t h0 h1)).trans
    (out_A_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))

set_option maxHeartbeats 400000 in
theorem outs9_B (c : Dev nD) (t : Fin cfg0.N) (h0 : ¬t.val % 64 = 0) (h1 : ¬t.val % 64 = 63) :
    (outsAt0 V c t.val t.isLt).1 = k0_pay5 (iblk0 V c 0 t) (iblk0 V c 1 t) (iblk0 V c 2 t) (iblk0 V c 3 t) (iblk0 V c 4 t) :=
  (congrArg Prod.fst (outsAt0_B V c t h0 h1)).trans
    (out_B_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2)

set_option maxHeartbeats 400000 in
theorem outs9_C (c : Dev nD) (t : Fin cfg0.N) (h0 : ¬t.val % 64 = 0) (h1 : t.val % 64 = 63) :
    (outsAt0 V c t.val t.isLt).1 = k0_pay5 (iblk0 V c 0 t) (iblk0 V c 1 t) (iblk0 V c 2 t) (iblk0 V c 3 t) (iblk0 V c 4 t) :=
  (congrArg Prod.fst (outsAt0_C V c t h0 h1)).trans
    (out_C_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2)

set_option maxHeartbeats 400000 in
theorem outs10_A (c : Dev nD) (t : Fin cfg0.N) (h0 : t.val % 64 = 0) (h1 : ¬t.val % 64 = 63) :
    (outsAt0 V c t.val t.isLt).2.1 = k0_pay6 (iblk0 V c 0 t) (iblk0 V c 1 t) (iblk0 V c 2 t) (iblk0 V c 5 t) (iblk0 V c 6 t) :=
  (congrArg (fun p : Vec F S256x64 .f32 × Vec F S256x64 .f32 × Vec F S1x3520 .f32 => p.2.1) (outsAt0_A V c t h0 h1)).trans
    (out_A_10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))

set_option maxHeartbeats 400000 in
theorem outs10_B (c : Dev nD) (t : Fin cfg0.N) (h0 : ¬t.val % 64 = 0) (h1 : ¬t.val % 64 = 63) :
    (outsAt0 V c t.val t.isLt).2.1 = k0_pay6 (iblk0 V c 0 t) (iblk0 V c 1 t) (iblk0 V c 2 t) (iblk0 V c 5 t) (iblk0 V c 6 t) :=
  (congrArg (fun p : Vec F S256x64 .f32 × Vec F S256x64 .f32 × Vec F S1x3520 .f32 => p.2.1) (outsAt0_B V c t h0 h1)).trans
    (out_B_10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2)

set_option maxHeartbeats 400000 in
theorem outs10_C (c : Dev nD) (t : Fin cfg0.N) (h0 : ¬t.val % 64 = 0) (h1 : t.val % 64 = 63) :
    (outsAt0 V c t.val t.isLt).2.1 = k0_pay6 (iblk0 V c 0 t) (iblk0 V c 1 t) (iblk0 V c 2 t) (iblk0 V c 5 t) (iblk0 V c 6 t) :=
  (congrArg (fun p : Vec F S256x64 .f32 × Vec F S256x64 .f32 × Vec F S1x3520 .f32 => p.2.1) (outsAt0_C V c t h0 h1)).trans
    (out_C_10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2)

/-- The mean block after any point is the first head's tile of the point's input blocks. -/
theorem outs9 (c : Dev nD) (t : Fin cfg0.N) :
    (outsAt0 V c t.val t.isLt).1 = k0_pay5 (iblk0 V c 0 t) (iblk0 V c 1 t) (iblk0 V c 2 t) (iblk0 V c 3 t) (iblk0 V c 4 t) := by
  by_cases h0 : t.val % 64 = 0
  · exact outs9_A V c t h0 (by omega)
  · by_cases h1 : t.val % 64 = 63
    · exact outs9_C V c t h0 h1
    · exact outs9_B V c t h0 h1

/-- The log-variance block after any point is the second head's tile of the point's input blocks. -/
theorem outs10 (c : Dev nD) (t : Fin cfg0.N) :
    (outsAt0 V c t.val t.isLt).2.1 = k0_pay6 (iblk0 V c 0 t) (iblk0 V c 1 t) (iblk0 V c 2 t) (iblk0 V c 5 t) (iblk0 V c 6 t) := by
  by_cases h0 : t.val % 64 = 0
  · exact outs10_A V c t h0 (by omega)
  · by_cases h1 : t.val % 64 = 63
    · exact outs10_C V c t h0 h1
    · exact outs10_B V c t h0 h1

end Cert.KernelIdeal.K0

end
-- ==== Proof.K0Heads.lean ====
/-
  The mean and the log-variance arrays after the first region.

  Each of the 64 grid points writes back its own 256-row block of each array, and the blocks tile the array: row i
  lies in the block of point i / 256.  The block a point writes is the head's tile of the point's input rows, which
  entry by entry is the specification's head at row 256 t + r.  So each array ends as the specification's head of
  the whole input.
-/
import proofs.«112810_j2207613190724_2_alg».proof.Proof.K0Pay
import proofs.«112810_j2207613190724_2_alg».proof.Proof.K0Blocks
import proofs.«112810_j2207613190724_2_alg».proof.Proof.K0OutsH

noncomputable section

open scoped BigOperators

namespace Cert.KernelIdeal.K0

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- One tile entry is the array's entry: the head's layer of the hidden row of input row 256 t + r. -/
theorem tile_eq (c : Dev nD) (t : Fin cfg0.N) (Wh : Cert.Spec.Arr2 64 400) (bh : Cert.Spec.Arr1 64) (r : Fin 256) (cc : Fin 64) :
    Cert.Spec.lin Wh bh (Cert.Spec.hid (iblk0 V c 1 t) (iblk0 V c 2 t) (fun j => (iblk0 V c 0 t : Vec Ideal S256x4096 .f32) (ix2 r j))) cc
      = Cert.Spec.MU (V c main_arg0) (V c main_arg2) (V c main_arg3) Wh bh (ix2 (trow t r) cc) := by
  rw [blk1_eq, blk2_eq]
  have e0 : (fun j => (iblk0 V c 0 t : Vec Ideal S256x4096 .f32) (ix2 r j)) = Cert.Spec.row (V c main_arg0) (trow t r) :=
    funext fun j => blk0_apply V c t r j
  rw [e0]
  rfl

theorem pay5_tile (c : Dev nD) (t : Fin cfg0.N) (r : Fin 256) (cc : Fin 64) :
    k0_pay5 (iblk0 V c 0 t) (iblk0 V c 1 t) (iblk0 V c 2 t) (iblk0 V c 3 t) (iblk0 V c 4 t) (ix2 r cc)
      = Cert.Spec.MU (V c main_arg0) (V c main_arg2) (V c main_arg3) (V c main_arg4) (V c main_arg5) (ix2 (trow t r) cc) :=
  (pay5_apply (iblk0 V c 0 t) (iblk0 V c 1 t) (iblk0 V c 2 t) (iblk0 V c 3 t) (iblk0 V c 4 t) r cc).trans
    (by rw [blk3_eq, blk4_eq]; exact tile_eq V c t (V c main_arg4) (V c main_arg5) r cc)

theorem pay6_tile (c : Dev nD) (t : Fin cfg0.N) (r : Fin 256) (cc : Fin 64) :
    k0_pay6 (iblk0 V c 0 t) (iblk0 V c 1 t) (iblk0 V c 2 t) (iblk0 V c 5 t) (iblk0 V c 6 t) (ix2 r cc)
      = Cert.Spec.MU (V c main_arg0) (V c main_arg2) (V c main_arg3) (V c main_arg6) (V c main_arg7) (ix2 (trow t r) cc) :=
  (pay6_apply (iblk0 V c 0 t) (iblk0 V c 1 t) (iblk0 V c 2 t) (iblk0 V c 5 t) (iblk0 V c 6 t) r cc).trans
    (by rw [blk5_eq, blk6_eq]; exact tile_eq V c t (V c main_arg6) (V c main_arg7) r cc)

/-- An index of the array is in point t's block iff each coordinate is in the block's range on its axis. -/
theorem mem_blk9 (t : Fin cfg0.N) (i : S16384x64.Idx) :
    i ∈ ((cfg0.win 9).blk t).view.set ↔ ∀ a : Fin 2, win0_9.index t a * S256x64.size a ≤ (i a).val ∧ (i a).val < win0_9.index t a * S256x64.size a + S256x64.size a := by
  show i ∈ ((View.whole main_v0_0).slice (win0_9.rect t)).set ↔ _
  rw [View.set_slice_whole, Rect.mem_set_unit]
  exact Iff.rfl

/-- Row i of the array lies in the block of point i / 256, and every point writes its block back. -/
theorem cover9 (i : S16384x64.Idx) : ∃ t : Fin cfg0.N, (cfg0.win 9).flush t = true ∧ i ∈ ((cfg0.win 9).blk t).view.set := by
  have hi0 : (i 0).val < 16384 := (i 0).isLt
  have hi1 : (i 1).val < 64 := (i 1).isLt
  have hN : cfg0.N = 64 := N_0
  obtain ⟨t, ht⟩ : ∃ t : Fin cfg0.N, t.val = (i 0).val / 256 := ⟨⟨(i 0).val / 256, by omega⟩, rfl⟩
  obtain ⟨-, -, e9_0, e9_1, e10_0, e10_1, -⟩ := idx_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 64 ≤ (i 1).val ∧ (i 1).val < win0_9.index t (1 : Fin 2) * 64 + 64; omega

/-- What point t writes back is block t of the head's array. -/
theorem flushed9 (c : Dev nD) (t : Fin cfg0.N) :
    (dat0 V c).flushed 9 t = ((cfg0.win 9).blk t).view.read (Elt Ideal)
      (Cert.Spec.MU (V c main_arg0) (V c main_arg2) (V c main_arg3) (V c main_arg4) (V c main_arg5)) := by
  show (cfg0.win 9).cut (grid0.coords t) ((dat0 V c).after 9 t) = _
  rw [after0_9, outs9]
  refine funext fun (y : S256x64.Idx) => ?_
  obtain ⟨r, cc, rfl⟩ : ∃ (r : Fin 256) (cc : Fin 64), y = ix2 r cc := ⟨y 0, y 1, eq_ix2 y⟩
  rw [View.read_apply]
  show k0_pay5 (F := Ideal) _ _ _ _ _ (ix2 r cc) = Cert.Spec.MU _ _ _ _ _ (((cfg0.win 9).blk t).view.emb (ix2 r cc))
  rw [emb9]
  exact pay5_tile V c t r cc

/-- The head's array after the region. -/
theorem arr9 (c : Dev nD) :
    ((dat0 (F := Ideal) V c).arrAt 9 cfg0.N : Cert.Spec.Arr2 16384 64)
      = Cert.Spec.MU (V c main_arg0) (V c main_arg2) (V c main_arg3) (V c main_arg4) (V c main_arg5) :=
  (dat0 V c).arrAt_eq_of_cover 9 _ (fun t _ => flushed9 V c t) cover9

/-- An index of the array is in point t's block iff each coordinate is in the block's range on its axis. -/
theorem mem_blk10 (t : Fin cfg0.N) (i : S16384x64.Idx) :
    i ∈ ((cfg0.win 10).blk t).view.set ↔ ∀ a : Fin 2, win0_10.index t a * S256x64.size a ≤ (i a).val ∧ (i a).val < win0_10.index t a * S256x64.size a + S256x64.size a := by
  show i ∈ ((View.whole main_v0_1).slice (win0_10.rect t)).set ↔ _
  rw [View.set_slice_whole, Rect.mem_set_unit]
  exact Iff.rfl

/-- Row i of the array lies in the block of point i / 256, and every point writes its block back. -/
theorem cover10 (i : S16384x64.Idx) : ∃ t : Fin cfg0.N, (cfg0.win 10).flush t = true ∧ i ∈ ((cfg0.win 10).blk t).view.set := by
  have hi0 : (i 0).val < 16384 := (i 0).isLt
  have hi1 : (i 1).val < 64 := (i 1).isLt
  have hN : cfg0.N = 64 := N_0
  obtain ⟨t, ht⟩ : ∃ t : Fin cfg0.N, t.val = (i 0).val / 256 := ⟨⟨(i 0).val / 256, by omega⟩, rfl⟩
  obtain ⟨-, -, e9_0, e9_1, e10_0, e10_1, -⟩ := idx_facts t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 64 ≤ (i 1).val ∧ (i 1).val < win0_10.index t (1 : Fin 2) * 64 + 64; omega

/-- What point t writes back is block t of the head's array. -/
theorem flushed10 (c : Dev nD) (t : Fin cfg0.N) :
    (dat0 V c).flushed 10 t = ((cfg0.win 10).blk t).view.read (Elt Ideal)
      (Cert.Spec.MU (V c main_arg0) (V c main_arg2) (V c main_arg3) (V c main_arg6) (V c main_arg7)) := by
  show (cfg0.win 10).cut (grid0.coords t) ((dat0 V c).after 10 t) = _
  rw [after0_10, outs10]
  refine funext fun (y : S256x64.Idx) => ?_
  obtain ⟨r, cc, rfl⟩ : ∃ (r : Fin 256) (cc : Fin 64), y = ix2 r cc := ⟨y 0, y 1, eq_ix2 y⟩
  rw [View.read_apply]
  show k0_pay6 (F := Ideal) _ _ _ _ _ (ix2 r cc) = Cert.Spec.MU _ _ _ _ _ (((cfg0.win 10).blk t).view.emb (ix2 r cc))
  rw [emb10]
  exact pay6_tile V c t r cc

/-- The head's array after the region. -/
theorem arr10 (c : Dev nD) :
    ((dat0 (F := Ideal) V c).arrAt 10 cfg0.N : Cert.Spec.Arr2 16384 64)
      = Cert.Spec.MU (V c main_arg0) (V c main_arg2) (V c main_arg3) (V c main_arg6) (V c main_arg7) :=
  (dat0 V c).arrAt_eq_of_cover 10 _ (fun t _ => flushed10 V c t) cover10

end Cert.KernelIdeal.K0

end
-- ==== Proof.K0OutsA.lean ====
/-
  The accumulator block after each grid point, as a value of the point's input blocks and of what the point before left.

  The first point resets the block to zeros and adds its tile's column sums; a middle point adds its tile's column
  sums to what the point before left; the last point does the same and then multiplies every entry by the word of 2^-14.
-/
import proofs.«112810_j2207613190724_2_alg».proof.Proof.K0Pieces

noncomputable section

namespace Cert.KernelIdeal.K0

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The accumulator after the first point: the tile's column sums added to zeros. -/
theorem outs11_A (c : Dev nD) (t : Fin cfg0.N) (h0 : t.val % 64 = 0) (h1 : ¬t.val % 64 = 63) :
    (outsAt0 V c t.val t.isLt).2.2 = k0_pay1 (k0_pay4 (iblk0 V c 0 t) (iblk0 V c 1 t) (iblk0 V c 2 t)) (iblk0 V c 7 t) (iblk0 V c 8 t) k0_pay3 := by
  rw [outsAt0_A V c t h0 h1]
  dsimp only
  exact out_A_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)

/-- The accumulator after a middle point: the tile's column sums added to what the point before left. -/
theorem outs11_B (c : Dev nD) (t : Fin cfg0.N) (h0 : ¬t.val % 64 = 0) (h1 : ¬t.val % 64 = 63) :
    (outsAt0 V c t.val t.isLt).2.2 = k0_pay1 (k0_pay4 (iblk0 V c 0 t) (iblk0 V c 1 t) (iblk0 V c 2 t)) (iblk0 V c 7 t) (iblk0 V c 8 t) (outsAt0 V c (t.val - 1) (Nat.lt_of_le_of_lt (Nat.sub_le t.val 1) t.isLt)).2.2 := by
  rw [outsAt0_B V c t h0 h1]
  dsimp only
  exact out_B_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2

/-- The accumulator after the last point: the same sum, then scaled. -/
theorem outs11_C (c : Dev nD) (t : Fin cfg0.N) (h0 : ¬t.val % 64 = 0) (h1 : t.val % 64 = 63) :
    (outsAt0 V c t.val t.isLt).2.2 = k0_pay2 (k0_pay1 (k0_pay4 (iblk0 V c 0 t) (iblk0 V c 1 t) (iblk0 V c 2 t)) (iblk0 V c 7 t) (iblk0 V c 8 t) (outsAt0 V c (t.val - 1) (Nat.lt_of_le_of_lt (Nat.sub_le t.val 1) t.isLt)).2.2) := by
  rw [outsAt0_C V c t h0 h1]
  dsimp only
  exact out_C_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le t.val 1) t.isLt)).2.2

end Cert.KernelIdeal.K0

end
-- ==== Proof.K0Sum.lean ====
/-
  A sum over the 16384 rows of the batch, grouped into 64 tiles of 256 consecutive rows: row 256 q + r is row r of
  tile q, and every row is met exactly once.  Addition only has to be commutative and associative.
-/
import Mathlib.Data.EReal.Basic
import Mathlib.Algebra.BigOperators.Fin
import Mathlib.Logic.Equiv.Fin.Basic

open scoped BigOperators

namespace Cert.KernelIdeal.K0

/-- A sum over 16384 rows, grouped into 64 tiles of 256 rows. -/
theorem sum_rows_eq_sum_tiles {β : Type*} [AddCommMonoid β] (g : Fin 16384 → β) :
    ∑ x : Fin 16384, g x = ∑ q : Fin 64, ∑ r : Fin 256, g ⟨256 * q.val + r.val, by have := q.isLt; have := r.isLt; omega⟩ := by
  have e1 : ∑ x : Fin 16384, g x = ∑ p : Fin 64 × Fin 256, g (finProdFinEquiv p) :=
    (Equiv.sum_comp (finProdFinEquiv (m := 64) (n := 256)) g).symm
  rw [e1, Fintype.sum_prod_type]
  refine Finset.sum_congr rfl fun q _ => Finset.sum_congr rfl fun r _ => congrArg g (Fin.ext ?_)
  show r.val + 256 * q.val = 256 * q.val + r.val
  omega

end Cert.KernelIdeal.K0
-- ==== Proof.K0Acc.lean ====
/-
  The accumulator array after the first region: the averaged flow parameters.

  Entry n of the 1 x 3520 block is carried from point to point.  After point s < 63 it holds the zero word plus the
  sum, over the tiles 0 .. s, of the tile's column sum of the third head's entry n; this is shown by induction on
  the point, the first point starting from zeros and every later one adding its own tile.  The last point adds its
  tile as well and multiplies by the word of 2^-14.  The 64 tile sums together are the sum over all 16384 rows of
  the batch (row 256 q + r is row r of tile q), and the zero word is the number 0.  The block is written back once,
  after the last point, and it is the whole array.
-/
import proofs.«112810_j2207613190724_2_alg».proof.Proof.K0Pay
import proofs.«112810_j2207613190724_2_alg».proof.Proof.K0Blocks
import proofs.«112810_j2207613190724_2_alg».proof.Proof.K0OutsA
import proofs.«112810_j2207613190724_2_alg».proof.Proof.K0Sum
import Idealize.ShloMosaic.PureOps.Ideal.Laws

noncomputable section

open scoped BigOperators

namespace Cert.KernelIdeal.K0

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The third head's entry n of the array's row r. -/
def f3 (c : Dev nD) (n : Fin 3520) (r : Fin 16384) : EReal :=
  Cert.Spec.lin (V c main_arg8) (V c main_arg9) (Cert.Spec.hid (V c main_arg2) (V c main_arg3) (Cert.Spec.row (V c main_arg0) r)) n

/-- Tile s's column sum of the third head's entry n (zero past the last tile). -/
def M (c : Dev nD) (n : Fin 3520) (s : Nat) : EReal :=
  if h : s < 64 then ∑ r : Fin 256, f3 V c n ⟨256 * s + r.val, by have := r.isLt; omega⟩ else 0

theorem M_tile (c : Dev nD) (n : Fin 3520) (t : Fin cfg0.N) : M V c n t.val = ∑ r : Fin 256, f3 V c n (trow t r) := by
  have hN : cfg0.N = 64 := N_0
  have ht : t.val < 64 := by have := t.isLt; omega
  unfold M
  rw [dif_pos ht]
  rfl

/-- The accumulator's update over a hidden tile made from the input tile. -/
theorem pay1_hid (v3 : Vec Ideal S256x4096 .f32) (v5 : Vec Ideal S400x4096 .f32) (v9 : Vec Ideal S400 .f32)
    (v34 : Vec Ideal S3520x400 .f32) (v38 : Vec Ideal S3520 .f32) (v44 : Vec Ideal S1x3520 .f32) (u : Fin 1) (n : Fin 3520) :
    k0_pay1 (k0_pay4 v3 v5 v9) v34 v38 v44 (ix2 u n)
      = v44 (ix2 u n) + ∑ r : Fin 256, Cert.Spec.lin v34 v38 (Cert.Spec.hid v5 v9 (fun j => v3 (ix2 r j))) n := by
  rw [pay1_apply]
  simp only [pay4_apply]
  rfl

/-- At point t the accumulator gains tile t's column sum. -/
theorem pay1_tile (c : Dev nD) (t : Fin cfg0.N) (acc : Vec Ideal S1x3520 .f32) (u : Fin 1) (n : Fin 3520) :
    k0_pay1 (k0_pay4 (iblk0 V c 0 t) (iblk0 V c 1 t) (iblk0 V c 2 t)) (iblk0 V c 7 t) (iblk0 V c 8 t) acc (ix2 u n)
      = acc (ix2 u n) + M V c n t.val := by
  refine (pay1_hid (iblk0 V c 0 t) (iblk0 V c 1 t) (iblk0 V c 2 t) (iblk0 V c 7 t) (iblk0 V c 8 t) acc u n).trans ?_
  rw [M_tile, blk1_eq, blk2_eq, blk7_eq, blk8_eq]
  refine congrArg (acc (ix2 u n) + ·) (Finset.sum_congr rfl fun r _ => ?_)
  have e0 : (fun j => (iblk0 V c 0 t : Vec Ideal S256x4096 .f32) (ix2 r j)) = Cert.Spec.row (V c main_arg0) (trow t r) :=
    funext fun j => blk0_apply V c t r j
  rw [e0]
  rfl

/-- Before the last point the accumulator holds the zero word plus the column sums of the tiles so far. -/
theorem acc_lt (c : Dev nD) : ∀ (s : Nat) (hs : s < cfg0.N), s < 63 → ∀ (u : Fin 1) (n : Fin 3520),
    (outsAt0 V c s hs).2.2 (ix2 u n) = Cert.Spec.z32 + ∑ q ∈ Finset.range (s + 1), M V c n q
  | 0, hs, _, u, n => by
    have e := congrFun (outs11_A V c ⟨0, hs⟩ rfl (by dsimp only; omega)) (ix2 u n)
    refine e.trans ?_
    rw [pay1_tile, Finset.sum_range_one]
    rfl
  | s + 1, hs, hlt, u, n => by
    have hB0 : ¬(⟨s + 1, hs⟩ : Fin cfg0.N).val % 64 = 0 := by dsimp only; omega
    have hB1 : ¬(⟨s + 1, hs⟩ : Fin cfg0.N).val % 64 = 63 := by dsimp only; omega
    have e := congrFun (outs11_B V c ⟨s + 1, hs⟩ hB0 hB1) (ix2 u n)
    refine e.trans ?_
    rw [pay1_tile]
    show (outsAt0 V c s _).2.2 (ix2 u n) + M V c n (s + 1) = _
    rw [acc_lt c s _ (by omega) u n, Finset.sum_range_succ _ (s + 1), add_assoc]

/-- After the last point: the zero word plus all 64 column sums, times the word of 2^-14. -/
theorem acc_last (c : Dev nD) (t : Fin cfg0.N) (h1 : t.val % 64 = 63) (u : Fin 1) (n : Fin 3520) :
    (outsAt0 V c t.val t.isLt).2.2 (ix2 u n)
      = (Cert.Spec.z32 + ∑ q ∈ Finset.range 64, M V c n q) * Ideal.ofBits .f32 0x38800000#32 := by
  have hN : cfg0.N = 64 := N_0
  have ht : t.val = 63 := by have := t.isLt; omega
  have h62 : t.val - 1 + 1 = t.val := by omega
  have e := congrFun (outs11_C V c t (by omega) h1) (ix2 u n)
  refine e.trans ?_
  rw [pay2_apply, pay1_tile, acc_lt V c (t.val - 1) _ (by omega) u n, h62, add_assoc, ← Finset.sum_range_succ, ht]

/-- The 64 column sums add up to the sum over all rows. -/
theorem sum_M (c : Dev nD) (n : Fin 3520) :
    ∑ q ∈ Finset.range 64, M V c n q = ∑ r : Fin 16384, f3 V c n r := by
  rw [sum_rows_eq_sum_tiles, Finset.sum_range]
  refine Finset.sum_congr rfl fun q _ => ?_
  unfold M
  rw [dif_pos q.isLt]

/-- An index of the accumulator array is in point t's block iff each coordinate is in the block's range on its axis. -/
theorem mem_blk11 (t : Fin cfg0.N) (i : S1x3520.Idx) :
    i ∈ ((cfg0.win 11).blk t).view.set ↔ ∀ a : Fin 2, win0_11.index t a * S1x3520.size a ≤ (i a).val ∧ (i a).val < win0_11.index t a * S1x3520.size a + S1x3520.size a := by
  show i ∈ ((View.whole main_v0_2).slice (win0_11.rect t)).set ↔ _
  rw [View.set_slice_whole, Rect.mem_set_unit]
  exact Iff.rfl

/-- The last grid point. -/
def tLast : Fin cfg0.N := ⟨63, by rw [show cfg0.N = 64 from N_0]; decide⟩

/-- The last point writes the block back, and the block is the whole array. -/
theorem cover11 (i : S1x3520.Idx) : ∃ t : Fin cfg0.N, (cfg0.win 11).flush t = true ∧ i ∈ ((cfg0.win 11).blk t).view.set := by
  have hi0 : (i 0).val < 1 := (i 0).isLt
  have hi1 : (i 1).val < 3520 := (i 1).isLt
  obtain ⟨-, -, -, -, -, -, e0, e1⟩ := idx_facts tLast
  refine ⟨tLast, (flush0_11 tLast).mpr rfl, ?_⟩
  rw [mem_blk11]
  intro a
  match a with
  | ⟨0, _⟩ => show win0_11.index tLast (0 : Fin 2) * 1 ≤ (i 0).val ∧ (i 0).val < win0_11.index tLast (0 : Fin 2) * 1 + 1; omega
  | ⟨1, _⟩ => show win0_11.index tLast (1 : Fin 2) * 3520 ≤ (i 1).val ∧ (i 1).val < win0_11.index tLast (1 : Fin 2) * 3520 + 3520; omega

/-- The one write-back, at the last point, writes the averaged flow parameters. -/
theorem flushed11 (c : Dev nD) (t : Fin cfg0.N) (hf : (cfg0.win 11).flush t = true) :
    (dat0 V c).flushed 11 t = ((cfg0.win 11).blk t).view.read (Elt Ideal)
      (fun i => Cert.Spec.FPmul (V c main_arg0) (V c main_arg2) (V c main_arg3) (V c main_arg8) (V c main_arg9) (ix1 (i 1)) : Cert.Spec.Arr2 1 3520) := by
  have h1 : t.val % 64 = 63 := (flush0_11 t).mp hf
  show (cfg0.win 11).cut (grid0.coords t) ((dat0 V c).after 11 t) = _
  rw [after0_11]
  refine funext fun (y : S1x3520.Idx) => ?_
  obtain ⟨u, n, rfl⟩ : ∃ (u : Fin 1) (n : Fin 3520), y = ix2 u n := ⟨y 0, y 1, eq_ix2 y⟩
  rw [View.read_apply, emb11]
  show (outsAt0 V c t.val t.isLt).2.2 (ix2 u n) = Cert.Spec.FPmul _ _ _ _ _ (ix1 n)
  rw [acc_last V c t h1 u n, sum_M]
  show (Ideal.ofBits .f32 0x00000000#32 + _) * _ = _
  rw [Ideal.ofBits_zero_f32, zero_add]
  rfl

/-- The accumulator array after the region. -/
theorem arr11 (c : Dev nD) :
    ((dat0 (F := Ideal) V c).arrAt 11 cfg0.N : Cert.Spec.Arr2 1 3520)
      = fun i => Cert.Spec.FPmul (V c main_arg0) (V c main_arg2) (V c main_arg3) (V c main_arg8) (V c main_arg9) (ix1 (i 1)) :=
  (dat0 V c).arrAt_eq_of_cover 11 _ (flushed11 V c) cover11

end Cert.KernelIdeal.K0

end
-- ==== Proof.K0.lean ====
/-
  What the first region leaves in its three output arrays, for any contents at the region's entry: the mean and the
  log-variance are the two heads of the encoder row by row, and the 1 x 3520 array is the batch sum of the third head
  times the word of 2^-14.
-/
import proofs.«112810_j2207613190724_2_alg».proof.Proof.K0Heads
import proofs.«112810_j2207613190724_2_alg».proof.Proof.K0Acc
-- ==== Proof.K1Masks.lean ====
/-
  The triangular and diagonal masks of a flow step, read at a row and a column.

  The body builds its masks from the two coordinate arrays of a 20 x 20 block: "row - 1 >= column" (strictly below the
  diagonal), "row + 0 >= column" (on or below it) and "row = column". At (a, b) each is the bit of the corresponding
  comparison of a and b as natural numbers; a selection on such a bit is an if-then-else on that comparison. From these:
  the upper triangle, the lower triangle, and a block with its diagonal replaced by a vector, each at (a, b).
-/
import proofs.«112810_j2207613190724_2_alg».proof.Proof.Gen.KernelIdeal
import proofs.«112810_j2207613190724_2_alg».proof.Proof.Spec
import Idealize.ShloMosaic.Lib.ValueLayout

noncomputable section

open scoped BigOperators

namespace Cert.KernelIdeal.K1

open Idealize.ShloMosaic Idealize.ShloMosaic.ValueIdx Cert.KernelIdeal Cert.KernelIdeal.Gen

/-- A coordinate below 20 as a 32-bit word, read back as a signed integer. -/
theorem toInt_coord (a : Fin 20) : (BitVec.ofNat 32 a.val).toInt = (a.val : Int) := by revert a; decide

/-- A coordinate below 20 plus the word of -1, read back as a signed integer: the coordinate less one. -/
theorem toInt_pred (a : Fin 20) : (IntOp.addi (BitVec.ofNat 32 a.val) 4294967295#32).toInt = (a.val : Int) - 1 := by
  revert a; decide

/-- Adding the zero word changes nothing. -/
theorem addi_zero (x : BitVec 32) : IntOp.addi x 0#32 = x := by unfold IntOp.addi; exact BitVec.add_zero x

/-- Signed "at least" as a bit. -/
theorem cmpi_sge_eq (x y : BitVec 32) : IntOp.cmpi .sge x y = if y.toInt ≤ x.toInt then 1#1 else 0#1 := by
  unfold IntOp.cmpi
  by_cases h : y.toInt ≤ x.toInt
  · rw [if_pos h]
    have e : y.sle x = true := BitVec.sle_iff_toInt_le.mpr h
    show BitVec.ofBool (y.sle x) = 1#1
    rw [e]; rfl
  · rw [if_neg h]
    have e : y.sle x = false := by
      rw [Bool.eq_false_iff]; intro hh; exact h (BitVec.sle_iff_toInt_le.mp hh)
    show BitVec.ofBool (y.sle x) = 0#1
    rw [e]; rfl

/-- Equality of two coordinate words as a bit. -/
theorem cmpi_eq_coord (a b : Fin 20) :
    IntOp.cmpi .eq (BitVec.ofNat 32 a.val) (BitVec.ofNat 32 b.val) = if a = b then 1#1 else 0#1 := by
  unfold IntOp.cmpi
  by_cases h : a = b
  · subst h; rw [if_pos rfl]
    show BitVec.ofBool (BitVec.ofNat 32 a.val == BitVec.ofNat 32 a.val) = 1#1
    rw [beq_self_eq_true]; rfl
  · rw [if_neg h]
    have ne : ¬ (BitVec.ofNat 32 a.val = BitVec.ofNat 32 b.val) := fun e => h (Fin.ext (by
      have := congrArg BitVec.toInt e; rw [toInt_coord, toInt_coord] at this; omega))
    have e : (BitVec.ofNat 32 a.val == BitVec.ofNat 32 b.val) = false := by
      rw [Bool.eq_false_iff]; intro hh; exact ne (eq_of_beq hh)
    show BitVec.ofBool (BitVec.ofNat 32 a.val == BitVec.ofNat 32 b.val) = 0#1
    rw [e]; rfl

/-- The row coordinate array and the column coordinate array of a 20 x 20 block. -/
abbrev rowIx : IVec S20x20 32 := iota .tc S20x20 32 [0] iota_S20x20_d0_w32
abbrev colIx : IVec S20x20 32 := iota .tc S20x20 32 [1] iota_S20x20_d1_w32

theorem rowIx_apply (a b : Fin 20) : rowIx (ix2 a b) = BitVec.ofNat 32 a.val := iota_single_apply _ _ _ _ _ _
theorem colIx_apply (a b : Fin 20) : colIx (ix2 a b) = BitVec.ofNat 32 b.val := iota_single_apply _ _ _ _ _ _

/-- "Strictly below the diagonal", from any array that is the row coordinates. -/
theorem below_bit (R : IVec S20x20 32) (hR : R = rowIx) (a b : Fin 20) :
    cmpi .sge (addi R (broadcast S20x20 4294967295#32)) colIx (ix2 a b) = if b.val < a.val then 1#1 else 0#1 := by
  subst hR
  show IntOp.cmpi .sge (IntOp.addi (rowIx (ix2 a b)) 4294967295#32) (colIx (ix2 a b)) = _
  rw [rowIx_apply, colIx_apply, cmpi_sge_eq, toInt_pred, toInt_coord]
  by_cases h : b.val < a.val
  · rw [if_pos h, if_pos (by omega)]
  · rw [if_neg h, if_neg (by omega)]

/-- "On or below the diagonal". -/
theorem loweq_bit (a b : Fin 20) :
    cmpi .sge (addi rowIx (broadcast S20x20 0#32)) colIx (ix2 a b) = if b.val ≤ a.val then 1#1 else 0#1 := by
  show IntOp.cmpi .sge (IntOp.addi (rowIx (ix2 a b)) 0#32) (colIx (ix2 a b)) = _
  rw [rowIx_apply, colIx_apply, addi_zero, cmpi_sge_eq, toInt_coord, toInt_coord]
  by_cases h : b.val ≤ a.val
  · rw [if_pos h, if_pos (by omega)]
  · rw [if_neg h, if_neg (by omega)]

/-- "On the diagonal". -/
theorem diag_bit (a b : Fin 20) : cmpi .eq rowIx colIx (ix2 a b) = if a = b then 1#1 else 0#1 := by
  show IntOp.cmpi .eq (rowIx (ix2 a b)) (colIx (ix2 a b)) = _
  rw [rowIx_apply, colIx_apply, cmpi_eq_coord]

/-- A selection on a bit that is the truth of p is an if-then-else on p. -/
theorem select_of_bit {α : Type} {s : Shape} (c : IVec s 1) (x y : s.Idx → α) (i : s.Idx) (p : Prop) [Decidable p]
    (h : c i = if p then 1#1 else 0#1) : select c x y i = if p then x i else y i := by
  rw [select_apply, h]
  by_cases hp : p
  · rw [if_pos hp, if_pos hp, select_one]
  · rw [if_neg hp, if_neg hp, select_zero]

/-- The upper triangle of a block: the zero word strictly below the diagonal. -/
def upper (Bm : IVec S20x20 1) (X : FVec Ideal S20x20 .f32) : FVec Ideal S20x20 .f32 :=
  select Bm (broadcast S20x20 (Scalar.ofBits .f32 0x00000000#32)) X

theorem upper_apply (Bm : IVec S20x20 1) (hB : ∀ a b : Fin 20, Bm (ix2 a b) = if b.val < a.val then 1#1 else 0#1)
    (X : FVec Ideal S20x20 .f32) (a b : Fin 20) :
    upper Bm X (ix2 a b) = Cert.Spec.triu (fun a b => X (ix2 a b)) a b :=
  select_of_bit _ _ _ _ _ (hB a b)

/-- The lower triangle of a block: the zero word strictly above the diagonal. -/
def lower (Bm : IVec S20x20 1) (X : FVec Ideal S20x20 .f32) : FVec Ideal S20x20 .f32 :=
  select Bm X (broadcast S20x20 (Scalar.ofBits .f32 0x00000000#32))

theorem lower_apply (Bm : IVec S20x20 1) (hB : ∀ a b : Fin 20, Bm (ix2 a b) = if b.val ≤ a.val then 1#1 else 0#1)
    (X : FVec Ideal S20x20 .f32) (a b : Fin 20) :
    lower Bm X (ix2 a b) = Cert.Spec.tril (fun a b => X (ix2 a b)) a b :=
  select_of_bit _ _ _ _ _ (hB a b)

/-- A vector of 20 entries laid along the rows of a 20 x 20 block: entry (a, b) is the vector's entry a. -/
def alongRows (v : FVec Ideal S20 .f32) : FVec Ideal S20x20 .f32 :=
  broadcastTo S20x20 (shapeCast S20x1 (shapeCast S20x1 v shapeCasts_S20_S20x1) shapeCasts_S20x1_S20x1) broadcasts_S20x1_S20x20

theorem alongRows_apply (v : FVec Ideal S20 .f32) (a b : Fin 20) : alongRows v (ix2 a b) = v (ix1 a) := by
  unfold alongRows
  rw [shapeCast_self]
  refine (broadcastTo_apply _ broadcasts_S20x1_S20x20 (ix2 a b) (ix2 a (0 : Fin 1)) (fun ax => ?_)).trans ?_
  · match ax with
    | ⟨0, _⟩ => rfl
    | ⟨1, _⟩ => rfl
  · refine shapeCast_apply v shapeCasts_S20_S20x1 _ _ ?_
    rw [Shape.rowMajor_val_one, Shape.rowMajor_val_two]
    show a.val = a.val * 1 + 0
    omega

/-- A block with its diagonal replaced by a vector. -/
def withDiag (v : FVec Ideal S20 .f32) (Y : FVec Ideal S20x20 .f32) : FVec Ideal S20x20 .f32 :=
  select (cmpi .eq rowIx colIx) (alongRows v) Y

theorem withDiag_apply (v : FVec Ideal S20 .f32) (Y : FVec Ideal S20x20 .f32) (a b : Fin 20) :
    withDiag v Y (ix2 a b) = if a = b then v (ix1 a) else Y (ix2 a b) := by
  unfold withDiag
  rw [select_of_bit _ _ _ _ _ (diag_bit a b), alongRows_apply]

/-- A 20 x 20 block transposed, at (a, b). -/
theorem tr_apply (X : FVec Ideal S20x20 .f32) (a b : Fin 20) :
    transpose S20x20 [1, 0] X transposes_S20x20_p1_0_S20x20 (ix2 a b) = X (ix2 b a) :=
  transpose_ix2_apply X transposes_S20x20_p1_0_S20x20 a b

end Cert.KernelIdeal.K1

end
-- ==== Proof.K1Dot.lean ====
/-
  The three matrix products of the decode body are plain products: the left operand's second axis is contracted with
  the right operand's first, nothing is batched. Each fact is read off the literal dimension numbers.
-/
import proofs.«112810_j2207613190724_2_alg».proof.Proof.Gen.KernelIdeal
import proofs.«112810_j2207613190724_2_alg».proof.Proof.LibDotIx2

noncomputable section

namespace Cert.KernelIdeal.K1

open Idealize.ShloMosaic Idealize.ShloMosaic.ValueIdx Cert.KernelIdeal Cert.KernelIdeal.Gen

/-- 512 x 20 by 20 x 20: the two products of a flow step. -/
theorem plain20 : PlainDot dot_S512x20_S20x20_S512x20_1_0_0_1_n_n where
  rank := rfl
  size := rfl
  l0 := fun j q => rfl
  l1 := fun j q => rfl
  r0 := fun j q => rfl
  r1 := fun j q => rfl

/-- 512 x 64 by 64 x 400: the decoder's first layer. -/
theorem plain64 : PlainDot dot_S512x64_S64x400_S512x400_1_0_0_1_n_n where
  rank := rfl
  size := rfl
  l0 := fun j q => rfl
  l1 := fun j q => rfl
  r0 := fun j q => rfl
  r1 := fun j q => rfl

/-- 512 x 400 by 400 x 4096: the decoder's second layer. -/
theorem plain400 : PlainDot dot_S512x400_S400x4096_S512x4096_1_0_0_1_n_n where
  rank := rfl
  size := rfl
  l0 := fun j q => rfl
  l1 := fun j q => rfl
  r0 := fun j q => rfl
  r1 := fun j q => rfl

end Cert.KernelIdeal.K1

end
-- ==== Proof.K1Step.lean ====
/-
  One flow step on the 512 x 64 latent tile, read at a row and a column.

  The body's step takes the tile z, the matrix At (20 x 20, the step's A already transposed for the product), the bias
  c (20) and the matrix Mt (20 x 20, as the second product uses it) and returns
  z + [ tanh (z[:, :20] At + c) Mt | 0 ], the zero block filling columns 20..63. At (r, j) this is the specification's
  step on row r: for j below 20 the entry plus the update's entry j, otherwise the entry itself (the zero word added).
-/
import proofs.«112810_j2207613190724_2_alg».proof.Proof.K1Masks
import proofs.«112810_j2207613190724_2_alg».proof.Proof.K1Dot

noncomputable section

open scoped BigOperators

namespace Cert.KernelIdeal.K1

open Idealize.ShloMosaic Idealize.ShloMosaic.ValueIdx Cert.KernelIdeal Cert.KernelIdeal.Gen

/-- The first twenty columns of the latent tile. -/
def first20cols (z : FVec Ideal S512x64 .f32) : FVec Ideal S512x20 .f32 :=
  extractStridedSlice S512x20 ![0, 0] z slices_S512x64_o0_0_S512x20

theorem first20cols_apply (z : FVec Ideal S512x64 .f32) (r : Fin 512) (b : Fin 20) :
    first20cols z (ix2 r b) = z (ix2 r ⟨b.val, by omega⟩) :=
  slice2_axis1_apply 0 z slices_S512x64_o0_0_S512x20 r b ⟨b.val, by omega⟩ (Nat.zero_add _).symm

/-- A bias of 20 entries laid over the 512 rows. -/
def biasRows (c : FVec Ideal S20 .f32) : FVec Ideal S512x20 .f32 :=
  broadcastTo S512x20 (shapeCast S1x20 c shapeCasts_S20_S1x20) broadcasts_S1x20_S512x20

theorem biasRows_apply (c : FVec Ideal S20 .f32) (r : Fin 512) (a : Fin 20) : biasRows c (ix2 r a) = c (ix1 a) := by
  unfold biasRows
  rw [broadcastTo_1b_ab_apply, shapeCast_a_1a_apply]

/-- The pre-activation tile of a step. -/
def preTile (z : FVec Ideal S512x64 .f32) (At : FVec Ideal S20x20 .f32) (c : FVec Ideal S20 .f32) : FVec Ideal S512x20 .f32 :=
  addf (matmul dot_S512x20_S20x20_S512x20_1_0_0_1_n_n none (first20cols z) At (constant S512x20 .f32 0x00000000#32)) (biasRows c)

theorem preTile_apply (z : FVec Ideal S512x64 .f32) (At : FVec Ideal S20x20 .f32) (c : FVec Ideal S20 .f32) (r : Fin 512) (a : Fin 20) :
    preTile z At c (ix2 r a) = (∑ b : Fin 20, z (ix2 r ⟨b.val, by omega⟩) * At (ix2 b a)) + c (ix1 a) := by
  unfold preTile
  rw [addf_apply, biasRows_apply]
  refine congrArg (· + c (ix1 a)) ?_
  refine (matmul_zero_ix2_any plain20 none (first20cols z) At r a).trans ?_
  refine Finset.sum_congr rfl fun b _ => ?_
  rw [first20cols_apply]

/-- The update tile of a step: tanh of the pre-activation times Mt. -/
def updTile (z : FVec Ideal S512x64 .f32) (At : FVec Ideal S20x20 .f32) (c : FVec Ideal S20 .f32) (Mt : FVec Ideal S20x20 .f32) :
    FVec Ideal S512x20 .f32 :=
  matmul dot_S512x20_S20x20_S512x20_1_0_0_1_n_n none (tanh (preTile z At c)) Mt (constant S512x20 .f32 0x00000000#32)

theorem updTile_apply (z : FVec Ideal S512x64 .f32) (At : FVec Ideal S20x20 .f32) (c : FVec Ideal S20 .f32) (Mt : FVec Ideal S20x20 .f32)
    (r : Fin 512) (a : Fin 20) :
    updTile z At c Mt (ix2 r a) = ∑ b : Fin 20, Ideal.tanh (preTile z At c (ix2 r b)) * Mt (ix2 b a) := by
  unfold updTile
  exact matmul_zero_ix2_any plain20 none (tanh (preTile z At c)) Mt r a

/-- An update tile widened to 64 columns by a zero block. -/
def padded (u : FVec Ideal S512x20 .f32) : FVec Ideal S512x64 .f32 :=
  concatenate S512x64 1 [⟨S512x20, u⟩, ⟨S512x44, broadcast S512x44 (Scalar.ofBits .f32 0x00000000#32)⟩]
    concatenates_S512x20_S512x44_S512x64_d1

theorem padded_left (u : FVec Ideal S512x20 .f32) (r : Fin 512) (j : Fin 64) (h : j.val < 20) :
    padded u (ix2 r j) = u (ix2 r ⟨j.val, h⟩) := by
  unfold padded
  refine concatenate_pair_apply_left (t := S512x64) (s₁ := S512x20) (s₂ := S512x44) 1 u _ concatenates_S512x20_S512x44_S512x64_d1
    (ix2 r j) rfl (ix2 r ⟨j.val, h⟩) (fun b => ?_)
  match b with
  | ⟨0, _⟩ => rfl
  | ⟨1, _⟩ => rfl

theorem padded_right (u : FVec Ideal S512x20 .f32) (r : Fin 512) (j : Fin 64) (h : ¬ j.val < 20) :
    padded u (ix2 r j) = Ideal.ofBits .f32 0x00000000#32 := by
  unfold padded
  refine (concatenate_pair_apply_right (t := S512x64) (s₁ := S512x20) (s₂ := S512x44) 1 u _ concatenates_S512x20_S512x44_S512x64_d1
    (ix2 r j) rfl rfl (ix2 r ⟨j.val - 20, by omega⟩) (fun b hb => ?_) ?_).trans rfl
  · match b with
    | ⟨0, _⟩ => rfl
    | ⟨1, _⟩ => exact absurd rfl hb
  · show (j.val - 20) + 20 = j.val
    omega

/-- The body's step. -/
def core (z : FVec Ideal S512x64 .f32) (At : FVec Ideal S20x20 .f32) (c : FVec Ideal S20 .f32) (Mt : FVec Ideal S20x20 .f32) :
    FVec Ideal S512x64 .f32 :=
  addf z (padded (updTile z At c Mt))

/-- The body's step at (r, j) is the specification's step on row r, when At, c and Mt hold the step's A (transposed),
    bias and M. -/
theorem core_apply (even : Bool) (R : Fin 20 → Fin 20 → EReal) (v cc : Fin 20 → EReal)
    (z : FVec Ideal S512x64 .f32) (At : FVec Ideal S20x20 .f32) (c : FVec Ideal S20 .f32) (Mt : FVec Ideal S20x20 .f32)
    (hA : ∀ a b : Fin 20, At (ix2 b a) = Cert.Spec.amat even R v a b)
    (hc : ∀ a : Fin 20, c (ix1 a) = cc a)
    (hM : ∀ b a : Fin 20, Mt (ix2 b a) = Cert.Spec.mmat even R b a)
    (r : Fin 512) (j : Fin 64) :
    core z At c Mt (ix2 r j) = Cert.Spec.step even R v cc (Cert.Spec.row z r) j := by
  have hpre : ∀ a : Fin 20, preTile z At c (ix2 r a) = Cert.Spec.pre even R v cc (Cert.Spec.row z r) a := fun a => by
    rw [preTile_apply, hc]
    unfold Cert.Spec.pre
    refine congrArg (· + cc a) (Finset.sum_congr rfl fun b _ => ?_)
    rw [hA]
    rfl
  unfold core
  rw [addf_apply]
  unfold Cert.Spec.step
  by_cases h : j.val < 20
  · rw [dif_pos h, padded_left _ _ _ h, updTile_apply]
    refine congrArg (z (ix2 r j) + ·) ?_
    unfold Cert.Spec.upd
    refine Finset.sum_congr rfl fun b _ => ?_
    rw [hpre, hM]
  · rw [dif_neg h, padded_right _ _ _ h, Ideal.ofBits_zero_f32, add_zero]
    rfl

end Cert.KernelIdeal.K1

end
-- ==== Proof.K1Blocks.lean ====
/-
  The parameters of step k read off the three parameter windows, and the even and the odd step of the body.

  Step k loads slab k of the 8 x 20 x 20 block array (one 20 x 20 block) and row k of the two 8 x 20 arrays (the diagonal
  and the bias). An even step multiplies by the lower triangle with the diagonal replaced, and then by the transposed
  upper triangle transposed back; an odd step by the transposed lower triangle with the diagonal replaced, and then by
  the upper triangle transposed. Read at (b, a) the two matrices are the specification's A (transposed) and M.
-/
import proofs.«112810_j2207613190724_2_alg».proof.Proof.K1Step
import Idealize.ShloMosaic.Lib.Pipeline.FrameBody

noncomputable section

open scoped BigOperators

namespace Cert.KernelIdeal.K1

open Idealize.ShloMosaic Idealize.ShloMosaic.ValueIdx Cert.KernelIdeal Cert.KernelIdeal.Gen

/-- Slab k of the block array, as the body loads it. -/
def slab3 (x3 : Vec Ideal S8x20x20 .f32) (k : Nat) (inb : ∀ a, (![k, 0, 0] : Fin 3 → Nat) a + S1x20x20.size a ≤ S8x20x20.size a) :
    Vec Ideal S1x20x20 .f32 :=
  View.ld x3 (Rect.unit (s := S8x20x20) ![k, 0, 0] S1x20x20.size inb)

theorem slab3_apply (x3 : Vec Ideal S8x20x20 .f32) (k : Nat) (inb : ∀ a, (![k, 0, 0] : Fin 3 → Nat) a + S1x20x20.size a ≤ S8x20x20.size a)
    (hk : k < 8) (a b : Fin 20) : slab3 x3 k inb (ix3 (0 : Fin 1) a b) = x3 (ix3 ⟨k, hk⟩ a b) := by
  unfold slab3
  show x3 _ = x3 _
  refine congrArg x3 (funext fun ax => Fin.ext ?_)
  match ax with
  | ⟨0, _⟩ => show k + 1 * 0 = k; omega
  | ⟨1, _⟩ => show 0 + 1 * a.val = a.val; omega
  | ⟨2, _⟩ => show 0 + 1 * b.val = b.val; omega

/-- Row k of a parameter array of 8 rows, as the body loads it. -/
def slab2 (x : Vec Ideal S8x20 .f32) (k : Nat) (inb : ∀ a, (![k, 0] : Fin 2 → Nat) a + S1x20.size a ≤ S8x20.size a) :
    Vec Ideal S1x20 .f32 :=
  View.ld x (Rect.unit (s := S8x20) ![k, 0] S1x20.size inb)

theorem slab2_apply (x : Vec Ideal S8x20 .f32) (k : Nat) (inb : ∀ a, (![k, 0] : Fin 2 → Nat) a + S1x20.size a ≤ S8x20.size a)
    (hk : k < 8) (a : Fin 20) : slab2 x k inb (ix2 (0 : Fin 1) a) = x (ix2 ⟨k, hk⟩ a) := by
  unfold slab2
  show x _ = x _
  refine congrArg x (funext fun ax => Fin.ext ?_)
  match ax with
  | ⟨0, _⟩ => show k + 1 * 0 = k; omega
  | ⟨1, _⟩ => show 0 + 1 * a.val = a.val; omega

/-- The 20 x 20 block of a loaded slab. -/
def blk (S : Vec Ideal S1x20x20 .f32) : FVec Ideal S20x20 .f32 := shapeCast S20x20 S shapeCasts_S1x20x20_S20x20

theorem blk_apply (S : Vec Ideal S1x20x20 .f32) (a b : Fin 20) : blk S (ix2 a b) = S (ix3 (0 : Fin 1) a b) :=
  shapeCast_1ab_ab_apply S shapeCasts_S1x20x20_S20x20 a b

/-- The 20 entries of a loaded row. -/
def vec (Rw : Vec Ideal S1x20 .f32) : FVec Ideal S20 .f32 := shapeCast S20 Rw shapeCasts_S1x20_S20

theorem vec_apply (Rw : Vec Ideal S1x20 .f32) (a : Fin 20) : vec Rw (ix1 a) = Rw (ix2 (0 : Fin 1) a) :=
  shapeCast_1a_a_apply Rw shapeCasts_S1x20_S20 a

/-- The two triangular masks as the body spells them. -/
abbrev belowBits : IVec S20x20 1 := cmpi .sge (addi rowIx (broadcast S20x20 4294967295#32)) colIx
abbrev loweqBits : IVec S20x20 1 := cmpi .sge (addi rowIx (broadcast S20x20 0#32)) colIx

theorem belowBits_apply (a b : Fin 20) : belowBits (ix2 a b) = if b.val < a.val then 1#1 else 0#1 := below_bit rowIx rfl a b
theorem loweqBits_apply (a b : Fin 20) : loweqBits (ix2 a b) = if b.val ≤ a.val then 1#1 else 0#1 := loweq_bit a b

abbrev tr (X : FVec Ideal S20x20 .f32) : FVec Ideal S20x20 .f32 := transpose S20x20 [1, 0] X transposes_S20x20_p1_0_S20x20

theorem tr_at (X : FVec Ideal S20x20 .f32) (a b : Fin 20) : tr X (ix2 a b) = X (ix2 b a) := tr_apply X a b

/-- The first product's right operand, even step and odd step. -/
def AtEven (X : FVec Ideal S20x20 .f32) (v : FVec Ideal S20 .f32) : FVec Ideal S20x20 .f32 := tr (withDiag v (lower loweqBits X))
def AtOdd (X : FVec Ideal S20x20 .f32) (v : FVec Ideal S20 .f32) : FVec Ideal S20x20 .f32 := tr (withDiag v (tr (lower loweqBits X)))
/-- The second product's right operand, even step and odd step. -/
def MtEven (X : FVec Ideal S20x20 .f32) : FVec Ideal S20x20 .f32 := tr (tr (upper belowBits X))
def MtOdd (X : FVec Ideal S20x20 .f32) : FVec Ideal S20x20 .f32 := tr (upper belowBits X)

theorem AtEven_apply (X : FVec Ideal S20x20 .f32) (v : FVec Ideal S20 .f32) (a b : Fin 20) :
    AtEven X v (ix2 b a) = Cert.Spec.amat true (fun a b => X (ix2 a b)) (fun a => v (ix1 a)) a b := by
  unfold AtEven
  rw [tr_at, withDiag_apply, lower_apply _ loweqBits_apply]
  rfl

theorem AtOdd_apply (X : FVec Ideal S20x20 .f32) (v : FVec Ideal S20 .f32) (a b : Fin 20) :
    AtOdd X v (ix2 b a) = Cert.Spec.amat false (fun a b => X (ix2 a b)) (fun a => v (ix1 a)) a b := by
  unfold AtOdd
  rw [tr_at, withDiag_apply, tr_at, lower_apply _ loweqBits_apply]
  rfl

theorem MtEven_apply (X : FVec Ideal S20x20 .f32) (b a : Fin 20) :
    MtEven X (ix2 b a) = Cert.Spec.mmat true (fun a b => X (ix2 a b)) b a := by
  unfold MtEven
  rw [tr_at, tr_at, upper_apply _ belowBits_apply]
  rfl

theorem MtOdd_apply (X : FVec Ideal S20x20 .f32) (b a : Fin 20) :
    MtOdd X (ix2 b a) = Cert.Spec.mmat false (fun a b => X (ix2 a b)) b a := by
  unfold MtOdd
  rw [tr_at, upper_apply _ belowBits_apply]
  rfl

/-- The body's even step and odd step on the latent tile. -/
def stepEven (z : FVec Ideal S512x64 .f32) (X : FVec Ideal S20x20 .f32) (v c : FVec Ideal S20 .f32) : FVec Ideal S512x64 .f32 :=
  core z (AtEven X v) c (MtEven X)
def stepOdd (z : FVec Ideal S512x64 .f32) (X : FVec Ideal S20x20 .f32) (v c : FVec Ideal S20 .f32) : FVec Ideal S512x64 .f32 :=
  core z (AtOdd X v) c (MtOdd X)

theorem stepEven_apply (z : FVec Ideal S512x64 .f32) (X : FVec Ideal S20x20 .f32) (v c : FVec Ideal S20 .f32) (r : Fin 512) (j : Fin 64) :
    stepEven z X v c (ix2 r j)
      = Cert.Spec.step true (fun a b => X (ix2 a b)) (fun a => v (ix1 a)) (fun a => c (ix1 a)) (Cert.Spec.row z r) j :=
  core_apply true _ _ _ z _ c _ (AtEven_apply X v) (fun _ => rfl) (MtEven_apply X) r j

theorem stepOdd_apply (z : FVec Ideal S512x64 .f32) (X : FVec Ideal S20x20 .f32) (v c : FVec Ideal S20 .f32) (r : Fin 512) (j : Fin 64) :
    stepOdd z X v c (ix2 r j)
      = Cert.Spec.step false (fun a b => X (ix2 a b)) (fun a => v (ix1 a)) (fun a => c (ix1 a)) (Cert.Spec.row z r) j :=
  core_apply false _ _ _ z _ c _ (AtOdd_apply X v) (fun _ => rfl) (MtOdd_apply X) r j

/-- Step k's three parameters, loaded from slab k and rows k, are the specification's. -/
theorem blk_slab (x3 : Vec Ideal S8x20x20 .f32) (k : Nat) (inb) (hk : k < 8) :
    (fun a b : Fin 20 => blk (slab3 x3 k inb) (ix2 a b)) = Cert.Spec.Rk x3 ⟨k, hk⟩ :=
  funext fun a => funext fun b => by rw [blk_apply, slab3_apply x3 k inb hk]; rfl

theorem vec_slab (x : Vec Ideal S8x20 .f32) (k : Nat) (inb) (hk : k < 8) :
    (fun a : Fin 20 => vec (slab2 x k inb) (ix1 a)) = Cert.Spec.vk x ⟨k, hk⟩ :=
  funext fun a => by rw [vec_apply, slab2_apply x k inb hk]; rfl

end Cert.KernelIdeal.K1

end
-- ==== Proof.K1Start.lean ====
/-
  The latent tile before the flow: eps * exp (lv / 2) + mu, entry by entry, so row r of the tile is the specification's
  starting row of rows r of the three blocks.
-/
import proofs.«112810_j2207613190724_2_alg».proof.Proof.Gen.KernelIdeal
import proofs.«112810_j2207613190724_2_alg».proof.Proof.Spec
import Idealize.ShloMosaic.Lib.ValueLayout

noncomputable section

namespace Cert.KernelIdeal.K1

open Idealize.ShloMosaic Idealize.ShloMosaic.ValueIdx Cert.KernelIdeal Cert.KernelIdeal.Gen

/-- The body's starting tile from the mean, log-variance and noise blocks. -/
def z0Tile (x0 x1 x2 : Vec Ideal S512x64 .f32) : FVec Ideal S512x64 .f32 :=
  addf (mulf x2 (exp (mulf (broadcast S512x64 (Scalar.ofBits .f32 0x3F000000#32)) (shapeCast S512x64 x1 shapeCasts_S512x64_S512x64))))
    (shapeCast S512x64 x0 shapeCasts_S512x64_S512x64)

theorem z0Tile_apply (x0 x1 x2 : Vec Ideal S512x64 .f32) (r : Fin 512) (j : Fin 64) :
    z0Tile x0 x1 x2 (ix2 r j) = Cert.Spec.z0 (Cert.Spec.row x0 r) (Cert.Spec.row x1 r) (Cert.Spec.row x2 r) j := by
  unfold z0Tile
  rw [shapeCast_self, shapeCast_self]
  rfl

end Cert.KernelIdeal.K1

end
-- ==== Proof.K1Flow.lean ====
/-
  The eight steps of the body in order on the starting tile: row r of the result is the specification's flow of the
  starting row of rows r of the mean, log-variance and noise blocks, with the parameters of step k read from slab k of
  the block array and rows k of the diagonal and bias arrays.
-/
import proofs.«112810_j2207613190724_2_alg».proof.Proof.K1Blocks
import proofs.«112810_j2207613190724_2_alg».proof.Proof.K1Start

noncomputable section

namespace Cert.KernelIdeal.K1

open Idealize.ShloMosaic Idealize.ShloMosaic.ValueIdx Cert.KernelIdeal Cert.KernelIdeal.Gen

/-- The latent tile after the eight steps. -/
def flowTile (x0 x1 x2 : Vec Ideal S512x64 .f32) (x3 : Vec Ideal S8x20x20 .f32) (x4 x5 : Vec Ideal S8x20 .f32) : FVec Ideal S512x64 .f32 :=
  (stepOdd (stepEven (stepOdd (stepEven (stepOdd (stepEven (stepOdd (stepEven (z0Tile x0 x1 x2)
      (blk (slab3 x3 0 inb_S8x20x20_S1x20x20_0_0_0)) (vec (slab2 x4 0 inb_S8x20_S1x20_0_0)) (vec (slab2 x5 0 inb_S8x20_S1x20_0_0)))
      (blk (slab3 x3 1 inb_S8x20x20_S1x20x20_1_0_0)) (vec (slab2 x4 1 inb_S8x20_S1x20_1_0)) (vec (slab2 x5 1 inb_S8x20_S1x20_1_0)))
      (blk (slab3 x3 2 inb_S8x20x20_S1x20x20_2_0_0)) (vec (slab2 x4 2 inb_S8x20_S1x20_2_0)) (vec (slab2 x5 2 inb_S8x20_S1x20_2_0)))
      (blk (slab3 x3 3 inb_S8x20x20_S1x20x20_3_0_0)) (vec (slab2 x4 3 inb_S8x20_S1x20_3_0)) (vec (slab2 x5 3 inb_S8x20_S1x20_3_0)))
      (blk (slab3 x3 4 inb_S8x20x20_S1x20x20_4_0_0)) (vec (slab2 x4 4 inb_S8x20_S1x20_4_0)) (vec (slab2 x5 4 inb_S8x20_S1x20_4_0)))
      (blk (slab3 x3 5 inb_S8x20x20_S1x20x20_5_0_0)) (vec (slab2 x4 5 inb_S8x20_S1x20_5_0)) (vec (slab2 x5 5 inb_S8x20_S1x20_5_0)))
      (blk (slab3 x3 6 inb_S8x20x20_S1x20x20_6_0_0)) (vec (slab2 x4 6 inb_S8x20_S1x20_6_0)) (vec (slab2 x5 6 inb_S8x20_S1x20_6_0)))
      (blk (slab3 x3 7 inb_S8x20x20_S1x20x20_7_0_0)) (vec (slab2 x4 7 inb_S8x20_S1x20_7_0)) (vec (slab2 x5 7 inb_S8x20_S1x20_7_0)))

theorem row_stepEven (z : FVec Ideal S512x64 .f32) (X : FVec Ideal S20x20 .f32) (v c : FVec Ideal S20 .f32) (r : Fin 512) :
    Cert.Spec.row (stepEven z X v c) r
      = Cert.Spec.step true (fun a b => X (ix2 a b)) (fun a => v (ix1 a)) (fun a => c (ix1 a)) (Cert.Spec.row z r) :=
  funext fun j => stepEven_apply z X v c r j

theorem row_stepOdd (z : FVec Ideal S512x64 .f32) (X : FVec Ideal S20x20 .f32) (v c : FVec Ideal S20 .f32) (r : Fin 512) :
    Cert.Spec.row (stepOdd z X v c) r
      = Cert.Spec.step false (fun a b => X (ix2 a b)) (fun a => v (ix1 a)) (fun a => c (ix1 a)) (Cert.Spec.row z r) :=
  funext fun j => stepOdd_apply z X v c r j

theorem row_z0Tile (x0 x1 x2 : Vec Ideal S512x64 .f32) (r : Fin 512) :
    Cert.Spec.row (z0Tile x0 x1 x2) r = Cert.Spec.z0 (Cert.Spec.row x0 r) (Cert.Spec.row x1 r) (Cert.Spec.row x2 r) :=
  funext fun j => z0Tile_apply x0 x1 x2 r j

theorem flowTile_row (x0 x1 x2 : Vec Ideal S512x64 .f32) (x3 : Vec Ideal S8x20x20 .f32) (x4 x5 : Vec Ideal S8x20 .f32) (r : Fin 512) :
    Cert.Spec.row (flowTile x0 x1 x2 x3 x4 x5) r
      = Cert.Spec.flow x3 x4 x5 (Cert.Spec.z0 (Cert.Spec.row x0 r) (Cert.Spec.row x1 r) (Cert.Spec.row x2 r)) := by
  unfold flowTile
  rw [row_stepOdd, row_stepEven, row_stepOdd, row_stepEven, row_stepOdd, row_stepEven, row_stepOdd, row_stepEven, row_z0Tile]
  rw [blk_slab x3 7 inb_S8x20x20_S1x20x20_7_0_0 (by omega),
    vec_slab x4 7 inb_S8x20_S1x20_7_0 (by omega),
    vec_slab x5 7 inb_S8x20_S1x20_7_0 (by omega),
    blk_slab x3 6 inb_S8x20x20_S1x20x20_6_0_0 (by omega),
    vec_slab x4 6 inb_S8x20_S1x20_6_0 (by omega),
    vec_slab x5 6 inb_S8x20_S1x20_6_0 (by omega),
    blk_slab x3 5 inb_S8x20x20_S1x20x20_5_0_0 (by omega),
    vec_slab x4 5 inb_S8x20_S1x20_5_0 (by omega),
    vec_slab x5 5 inb_S8x20_S1x20_5_0 (by omega),
    blk_slab x3 4 inb_S8x20x20_S1x20x20_4_0_0 (by omega),
    vec_slab x4 4 inb_S8x20_S1x20_4_0 (by omega),
    vec_slab x5 4 inb_S8x20_S1x20_4_0 (by omega),
    blk_slab x3 3 inb_S8x20x20_S1x20x20_3_0_0 (by omega),
    vec_slab x4 3 inb_S8x20_S1x20_3_0 (by omega),
    vec_slab x5 3 inb_S8x20_S1x20_3_0 (by omega),
    blk_slab x3 2 inb_S8x20x20_S1x20x20_2_0_0 (by omega),
    vec_slab x4 2 inb_S8x20_S1x20_2_0 (by omega),
    vec_slab x5 2 inb_S8x20_S1x20_2_0 (by omega),
    blk_slab x3 1 inb_S8x20x20_S1x20x20_1_0_0 (by omega),
    vec_slab x4 1 inb_S8x20_S1x20_1_0 (by omega),
    vec_slab x5 1 inb_S8x20_S1x20_1_0 (by omega),
    blk_slab x3 0 inb_S8x20x20_S1x20x20_0_0_0 (by omega),
    vec_slab x4 0 inb_S8x20_S1x20_0_0 (by omega),
    vec_slab x5 0 inb_S8x20_S1x20_0_0 (by omega)]
  rfl

end Cert.KernelIdeal.K1

end
-- ==== Proof.K1Dec.lean ====
/-
  The decoder on the 512 x 64 latent tile, read at a row and a column: two linear layers (each a product with the
  transposed weight array into zeros, plus the bias laid over the rows) with a cut at the zero word between them.
  Changes of float format are the identity on the extended reals.
-/
import proofs.«112810_j2207613190724_2_alg».proof.Proof.K1Dot
import proofs.«112810_j2207613190724_2_alg».proof.Proof.Spec
import Idealize.ShloMosaic.Lib.ValueLayout

noncomputable section

open scoped BigOperators

namespace Cert.KernelIdeal.K1

open Idealize.ShloMosaic Idealize.ShloMosaic.ValueIdx Cert.KernelIdeal Cert.KernelIdeal.Gen

/-- The hidden tile of the decoder. -/
def hidTile (z : FVec Ideal S512x64 .f32) (x6 : Vec Ideal S400x64 .f32) (x7 : Vec Ideal S400 .f32) : FVec Ideal S512x400 .f32 :=
  maximumf
    (addf (matmul dot_S512x64_S64x400_S512x400_1_0_0_1_n_n none (truncf .bf16 z bitsLt_bf16_f32)
            (transpose S64x400 [1, 0] (truncf .bf16 x6 bitsLt_bf16_f32) transposes_S400x64_p1_0_S64x400)
            (constant S512x400 .f32 0x00000000#32))
          (broadcastTo S512x400 (shapeCast S1x400 x7 shapeCasts_S400_S1x400) broadcasts_S1x400_S512x400))
    (broadcast S512x400 (Scalar.ofBits .f32 0x00000000#32))

theorem hidTile_apply (z : FVec Ideal S512x64 .f32) (x6 : Vec Ideal S400x64 .f32) (x7 : Vec Ideal S400 .f32) (r : Fin 512) (c : Fin 400) :
    hidTile z x6 x7 (ix2 r c) = Cert.Spec.relu (Cert.Spec.lin x6 x7 (Cert.Spec.row z r)) c := by
  unfold hidTile
  rw [maximumf_apply, addf_apply, broadcastTo_1b_ab_apply, shapeCast_a_1a_apply]
  unfold Cert.Spec.relu Cert.Spec.lin
  refine congrArg (fun t => max (t + x7 (ix1 c)) Cert.Spec.z32) ?_
  refine (matmul_zero_ix2_any plain64 none _ _ r c).trans ?_
  refine Finset.sum_congr rfl fun k _ => ?_
  rw [transpose_ix2_apply]
  rfl

/-- The output tile of the decoder. -/
def outTile (h : FVec Ideal S512x400 .f32) (x8 : Vec Ideal S4096x400 .f32) (x9 : Vec Ideal S4096 .f32) : FVec Ideal S512x4096 .f32 :=
  addf (matmul dot_S512x400_S400x4096_S512x4096_1_0_0_1_n_n none (truncf .bf16 h bitsLt_bf16_f32)
          (transpose S400x4096 [1, 0] (truncf .bf16 x8 bitsLt_bf16_f32) transposes_S4096x400_p1_0_S400x4096)
          (constant S512x4096 .f32 0x00000000#32))
       (broadcastTo S512x4096 (shapeCast S1x4096 x9 shapeCasts_S4096_S1x4096) broadcasts_S1x4096_S512x4096)

theorem outTile_apply (h : FVec Ideal S512x400 .f32) (x8 : Vec Ideal S4096x400 .f32) (x9 : Vec Ideal S4096 .f32) (r : Fin 512) (j : Fin 4096) :
    outTile h x8 x9 (ix2 r j) = Cert.Spec.lin x8 x9 (Cert.Spec.row h r) j := by
  unfold outTile
  rw [addf_apply, broadcastTo_1b_ab_apply, shapeCast_a_1a_apply]
  unfold Cert.Spec.lin
  refine congrArg (fun t => t + x9 (ix1 j)) ?_
  refine (matmul_zero_ix2_any plain400 none _ _ r j).trans ?_
  refine Finset.sum_congr rfl fun k _ => ?_
  rw [transpose_ix2_apply]
  rfl

/-- The whole decoder. -/
def decTile (z : FVec Ideal S512x64 .f32) (x6 : Vec Ideal S400x64 .f32) (x7 : Vec Ideal S400 .f32)
    (x8 : Vec Ideal S4096x400 .f32) (x9 : Vec Ideal S4096 .f32) : FVec Ideal S512x4096 .f32 :=
  outTile (hidTile z x6 x7) x8 x9

theorem decTile_apply (z : FVec Ideal S512x64 .f32) (x6 : Vec Ideal S400x64 .f32) (x7 : Vec Ideal S400 .f32)
    (x8 : Vec Ideal S4096x400 .f32) (x9 : Vec Ideal S4096 .f32) (r : Fin 512) (j : Fin 4096) :
    decTile z x6 x7 x8 x9 (ix2 r j) = Cert.Spec.dec x6 x7 x8 x9 (Cert.Spec.row z r) j := by
  unfold decTile Cert.Spec.dec
  rw [outTile_apply]
  refine congrArg (fun h => Cert.Spec.lin x8 x9 h j) (funext fun c => ?_)
  exact hidTile_apply z x6 x7 r c

end Cert.KernelIdeal.K1

end
-- ==== Proof.K1Pay.lean ====
/-
  What the body leaves in the output block, as one function of the ten loaded blocks: the decoder of the eight steps of
  the starting tile. The body's printed operations are, statement for statement, those of the tiles named here, and the
  whole-block loads read the blocks themselves.
-/
import proofs.«112810_j2207613190724_2_alg».proof.Proof.Gen.KernelIdeal.Frame
import proofs.«112810_j2207613190724_2_alg».proof.Proof.K1Flow
import proofs.«112810_j2207613190724_2_alg».proof.Proof.K1Dec

set_option maxRecDepth 16384

noncomputable section

namespace Cert.KernelIdeal.K1

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- The output block after the body is the decoder of the flow of the starting tile of the loaded blocks. -/
theorem out_eq (x0 x1 x2 : Vec Ideal S512x64 .f32) (x3 : Vec Ideal S8x20x20 .f32) (x4 x5 : Vec Ideal S8x20 .f32)
    (x6 : Vec Ideal S400x64 .f32) (x7 : Vec Ideal S400 .f32) (x8 : Vec Ideal S4096x400 .f32) (x9 : Vec Ideal S4096 .f32) :
    out1_10 (F := Ideal) x0 x1 x2 x3 x4 x5 x6 x7 x8 x9 = decTile (flowTile x0 x1 x2 x3 x4 x5) x6 x7 x8 x9 := by
  unfold out1_10
  rw [View.canon_unit_zero hz2]
  simp only [View.ld_unit_zero (S := S512x64) hz2, View.ld_unit_zero (S := S400x64) hz2, View.ld_unit_zero (S := S400) hz1,
    View.ld_unit_zero (S := S4096x400) hz2, View.ld_unit_zero (S := S4096) hz1]
  rfl

end Cert.KernelIdeal.K1

end
-- ==== Proof.K1Tile.lean ====
/-
  The output tile at (r, q), when the three row-blocked operands' blocks are rows 512 T + r of their arrays: the
  specification's output array at (512 T + r, q). Only the rows of the mean, log-variance and noise arrays move with the
  tile; the parameters and the decoder's weights are whole arrays.
-/
import proofs.«112810_j2207613190724_2_alg».proof.Proof.K1Flow
import proofs.«112810_j2207613190724_2_alg».proof.Proof.K1Dec

noncomputable section

namespace Cert.KernelIdeal.K1

open Idealize.ShloMosaic Idealize.ShloMosaic.ValueIdx Cert.KernelIdeal Cert.KernelIdeal.Gen

theorem tile_at (x0 x1 x2 : Vec Ideal S512x64 .f32) (x3 : Vec Ideal S8x20x20 .f32) (x4 x5 : Vec Ideal S8x20 .f32)
    (x6 : Vec Ideal S400x64 .f32) (x7 : Vec Ideal S400 .f32) (x8 : Vec Ideal S4096x400 .f32) (x9 : Vec Ideal S4096 .f32)
    (mu lv eps : Cert.Spec.Arr2 16384 64) (T : Nat) (hT : T < 32)
    (h0 : ∀ (r : Fin 512) (j : Fin 64), x0 (ix2 r j) = mu (ix2 ⟨512 * T + r.val, by omega⟩ j))
    (h1 : ∀ (r : Fin 512) (j : Fin 64), x1 (ix2 r j) = lv (ix2 ⟨512 * T + r.val, by omega⟩ j))
    (h2 : ∀ (r : Fin 512) (j : Fin 64), x2 (ix2 r j) = eps (ix2 ⟨512 * T + r.val, by omega⟩ j))
    (r : Fin 512) (q : Fin 4096) :
    decTile (flowTile x0 x1 x2 x3 x4 x5) x6 x7 x8 x9 (ix2 r q)
      = Cert.Spec.OUT mu lv eps x3 x4 x5 x6 x7 x8 x9 (ix2 ⟨512 * T + r.val, by omega⟩ q) := by
  rw [decTile_apply, flowTile_row]
  have e0 : Cert.Spec.row x0 r = Cert.Spec.row mu ⟨512 * T + r.val, by omega⟩ := funext fun j => h0 r j
  have e1 : Cert.Spec.row x1 r = Cert.Spec.row lv ⟨512 * T + r.val, by omega⟩ := funext fun j => h1 r j
  have e2 : Cert.Spec.row x2 r = Cert.Spec.row eps ⟨512 * T + r.val, by omega⟩ := funext fun j => h2 r j
  rw [e0, e1, e2]
  rfl

end Cert.KernelIdeal.K1

end
-- ==== Proof.K1Arr.lean ====
/-
  From the output blocks to the output array of the decode region.

  Point t of the 32 works on rows 512 t .. 512 t + 511: the blocks of the mean, log-variance and noise arrays and of the
  output array at point t are those rows, and the seven other windows are their whole arrays at every point. So what
  point t writes back is block t of the specification's output array of the region's ten operand arrays, and the 32
  blocks cover the 16384 rows: the array ends holding that function.
-/
import proofs.«112810_j2207613190724_2_alg».proof.Proof.Gen.KernelIdeal.Frame
import proofs.«112810_j2207613190724_2_alg».proof.Proof.K1Pay
import proofs.«112810_j2207613190724_2_alg».proof.Proof.K1Tile
import Idealize.ShloMosaic.Lib.Pipeline.Value

set_option maxRecDepth 16384

noncomputable section

namespace Cert.KernelIdeal.K1

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The printed index maps over the grid: the four row-blocked windows sit at block row t, column block 0; the seven
    whole windows at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0 :=
  (by decide +kernel : ∀ t : Fin grid1.N, _)

theorem t_lt (t : Fin cfg1.N) : t.val < 32 := by
  have h : t.val < cfg1.N := t.isLt
  have hN : cfg1.N = 32 := N_1
  omega

/-- Row r of the mean window's block at point t is row 512 t + r of its array; the same for the log-variance and the
    noise windows. -/
theorem blk0_apply (c : Dev nD) (t : Fin cfg1.N) (r : Fin 512) (j : Fin 64) :
    (iblk1 V c 0 t : Vec Ideal S512x64 .f32) (ix2 r j)
      = (V c main_v0_0 : Cert.Spec.Arr2 16384 64) (ix2 ⟨512 * t.val + r.val, by have := t_lt t; omega⟩ j) := by
  have e0 : win1_0.index t (0 : Fin 2) = t.val := (idx_facts t).1
  have e1 : win1_0.index t (1 : Fin 2) = 0 := (idx_facts t).2.1
  unfold iblk1
  rw [View.read_apply]
  show V c main_v0_0 _ = V c main_v0_0 _
  congr 1
  funext a
  apply Fin.ext
  match a with
  | ⟨0, _⟩ => show win1_0.index t (0 : Fin 2) * 512 + 1 * r.val = 512 * t.val + r.val; rw [e0]; omega
  | ⟨1, _⟩ => show win1_0.index t (1 : Fin 2) * 64 + 1 * j.val = j.val; rw [e1]; omega

theorem blk1_apply (c : Dev nD) (t : Fin cfg1.N) (r : Fin 512) (j : Fin 64) :
    (iblk1 V c 1 t : Vec Ideal S512x64 .f32) (ix2 r j)
      = (V c main_v0_1 : Cert.Spec.Arr2 16384 64) (ix2 ⟨512 * t.val + r.val, by have := t_lt t; omega⟩ j) := by
  have e0 : win1_1.index t (0 : Fin 2) = t.val := (idx_facts t).2.2.1
  have e1 : win1_1.index t (1 : Fin 2) = 0 := (idx_facts t).2.2.2.1
  unfold iblk1
  rw [View.read_apply]
  show V c main_v0_1 _ = V c main_v0_1 _
  congr 1
  funext a
  apply Fin.ext
  match a with
  | ⟨0, _⟩ => show win1_1.index t (0 : Fin 2) * 512 + 1 * r.val = 512 * t.val + r.val; rw [e0]; omega
  | ⟨1, _⟩ => show win1_1.index t (1 : Fin 2) * 64 + 1 * j.val = j.val; rw [e1]; omega

theorem blk2_apply (c : Dev nD) (t : Fin cfg1.N) (r : Fin 512) (j : Fin 64) :
    (iblk1 V c 2 t : Vec Ideal S512x64 .f32) (ix2 r j)
      = (V c main_arg1 : Cert.Spec.Arr2 16384 64) (ix2 ⟨512 * t.val + r.val, by have := t_lt t; omega⟩ j) := by
  have e0 : win1_2.index t (0 : Fin 2) = t.val := (idx_facts t).2.2.2.2.1
  have e1 : win1_2.index t (1 : Fin 2) = 0 := (idx_facts t).2.2.2.2.2.1
  unfold iblk1
  rw [View.read_apply]
  show V c main_arg1 _ = V c main_arg1 _
  congr 1
  funext a
  apply Fin.ext
  match a with
  | ⟨0, _⟩ => show win1_2.index t (0 : Fin 2) * 512 + 1 * r.val = 512 * t.val + r.val; rw [e0]; omega
  | ⟨1, _⟩ => show win1_2.index t (1 : Fin 2) * 64 + 1 * j.val = j.val; rw [e1]; omega

/-- The seven other windows hold their whole arrays at every point. -/
theorem blk3_eq (c : Dev nD) (t : Fin cfg1.N) : (iblk1 V c 3 t : Vec Ideal S8x20x20 .f32) = (V c main_v4 : Cert.Spec.Arr3 8 20 20) := by
  have e0 : win1_3.index t (0 : Fin 3) = 0 := (idx_facts t).2.2.2.2.2.2.2.2.1
  have e1 : win1_3.index t (1 : Fin 3) = 0 := (idx_facts t).2.2.2.2.2.2.2.2.2.1
  have e2 : win1_3.index t (2 : Fin 3) = 0 := (idx_facts t).2.2.2.2.2.2.2.2.2.2.1
  funext j
  unfold iblk1
  rw [View.read_apply]
  show V c main_v4 _ = V c main_v4 _
  congr 1
  funext a
  apply Fin.ext
  match a with
  | ⟨0, _⟩ => show win1_3.index t (0 : Fin 3) * 8 + 1 * (j 0).val = (j 0).val; rw [e0]; omega
  | ⟨1, _⟩ => show win1_3.index t (1 : Fin 3) * 20 + 1 * (j 1).val = (j 1).val; rw [e1]; omega
  | ⟨2, _⟩ => show win1_3.index t (2 : Fin 3) * 20 + 1 * (j 2).val = (j 2).val; rw [e2]; omega

theorem blk4_eq (c : Dev nD) (t : Fin cfg1.N) : (iblk1 V c 4 t : Vec Ideal S8x20 .f32) = (V c main_v5 : Cert.Spec.Arr2 8 20) := by
  have e0 : win1_4.index t (0 : Fin 2) = 0 := (idx_facts t).2.2.2.2.2.2.2.2.2.2.2.1
  have e1 : win1_4.index t (1 : Fin 2) = 0 := (idx_facts t).2.2.2.2.2.2.2.2.2.2.2.2.1
  funext j
  unfold iblk1
  rw [View.read_apply]
  show V c main_v5 _ = V c main_v5 _
  congr 1
  funext a
  apply Fin.ext
  match a with
  | ⟨0, _⟩ => show win1_4.index t (0 : Fin 2) * 8 + 1 * (j 0).val = (j 0).val; rw [e0]; omega
  | ⟨1, _⟩ => show win1_4.index t (1 : Fin 2) * 20 + 1 * (j 1).val = (j 1).val; rw [e1]; omega

theorem blk5_eq (c : Dev nD) (t : Fin cfg1.N) : (iblk1 V c 5 t : Vec Ideal S8x20 .f32) = (V c main_v6 : Cert.Spec.Arr2 8 20) := by
  have e0 : win1_5.index t (0 : Fin 2) = 0 := (idx_facts t).2.2.2.2.2.2.2.2.2.2.2.2.2.1
  have e1 : win1_5.index t (1 : Fin 2) = 0 := (idx_facts t).2.2.2.2.2.2.2.2.2.2.2.2.2.2.1
  funext j
  unfold iblk1
  rw [View.read_apply]
  show V c main_v6 _ = V c main_v6 _
  congr 1
  funext a
  apply Fin.ext
  match a with
  | ⟨0, _⟩ => show win1_5.index t (0 : Fin 2) * 8 + 1 * (j 0).val = (j 0).val; rw [e0]; omega
  | ⟨1, _⟩ => show win1_5.index t (1 : Fin 2) * 20 + 1 * (j 1).val = (j 1).val; rw [e1]; omega

theorem blk6_eq (c : Dev nD) (t : Fin cfg1.N) : (iblk1 V c 6 t : Vec Ideal S400x64 .f32) = (V c main_arg10 : Cert.Spec.Arr2 400 64) := by
  have e0 : win1_6.index t (0 : Fin 2) = 0 := (idx_facts t).2.2.2.2.2.2.2.2.2.2.2.2.2.2.2.1
  have e1 : win1_6.index t (1 : Fin 2) = 0 := (idx_facts t).2.2.2.2.2.2.2.2.2.2.2.2.2.2.2.2.1
  funext j
  unfold iblk1
  rw [View.read_apply]
  show V c main_arg10 _ = V c main_arg10 _
  congr 1
  funext a
  apply Fin.ext
  match a with
  | ⟨0, _⟩ => show win1_6.index t (0 : Fin 2) * 400 + 1 * (j 0).val = (j 0).val; rw [e0]; omega
  | ⟨1, _⟩ => show win1_6.index t (1 : Fin 2) * 64 + 1 * (j 1).val = (j 1).val; rw [e1]; omega

theorem blk7_eq (c : Dev nD) (t : Fin cfg1.N) : (iblk1 V c 7 t : Vec Ideal S400 .f32) = (V c main_arg11 : Cert.Spec.Arr1 400) := by
  have e0 : win1_7.index t (0 : Fin 1) = 0 := (idx_facts t).2.2.2.2.2.2.2.2.2.2.2.2.2.2.2.2.2.1
  funext j
  unfold iblk1
  rw [View.read_apply]
  show V c main_arg11 _ = V c main_arg11 _
  congr 1
  funext a
  apply Fin.ext
  match a with
  | ⟨0, _⟩ => show win1_7.index t (0 : Fin 1) * 400 + 1 * (j 0).val = (j 0).val; rw [e0]; omega

theorem blk8_eq (c : Dev nD) (t : Fin cfg1.N) : (iblk1 V c 8 t : Vec Ideal S4096x400 .f32) = (V c main_arg12 : Cert.Spec.Arr2 4096 400) := by
  have e0 : win1_8.index t (0 : Fin 2) = 0 := (idx_facts t).2.2.2.2.2.2.2.2.2.2.2.2.2.2.2.2.2.2.1
  have e1 : win1_8.index t (1 : Fin 2) = 0 := (idx_facts t).2.2.2.2.2.2.2.2.2.2.2.2.2.2.2.2.2.2.2.1
  funext j
  unfold iblk1
  rw [View.read_apply]
  show V c main_arg12 _ = V c main_arg12 _
  congr 1
  funext a
  apply Fin.ext
  match a with
  | ⟨0, _⟩ => show win1_8.index t (0 : Fin 2) * 4096 + 1 * (j 0).val = (j 0).val; rw [e0]; omega
  | ⟨1, _⟩ => show win1_8.index t (1 : Fin 2) * 400 + 1 * (j 1).val = (j 1).val; rw [e1]; omega

theorem blk9_eq (c : Dev nD) (t : Fin cfg1.N) : (iblk1 V c 9 t : Vec Ideal S4096 .f32) = (V c main_arg13 : Cert.Spec.Arr1 4096) := by
  have e0 : win1_9.index t (0 : Fin 1) = 0 := (idx_facts t).2.2.2.2.2.2.2.2.2.2.2.2.2.2.2.2.2.2.2.2
  funext j
  unfold iblk1
  rw [View.read_apply]
  show V c main_arg13 _ = V c main_arg13 _
  congr 1
  funext a
  apply Fin.ext
  match a with
  | ⟨0, _⟩ => show win1_9.index t (0 : Fin 1) * 4096 + 1 * (j 0).val = (j 0).val; rw [e0]; omega

/-- The specification's output array of the region's ten operand arrays as the region finds them. -/
def G (c : Dev nD) : Cert.Spec.Arr2 16384 4096 :=
  Cert.Spec.OUT (V c main_v0_0) (V c main_v0_1) (V c main_arg1) (V c main_v4) (V c main_v5) (V c main_v6)
    (V c main_arg10) (V c main_arg11) (V c main_arg12) (V c main_arg13)

/-- The output tile of point t is rows 512 t .. 512 t + 511 of that array. -/
theorem tile_eq (c : Dev nD) (t : Fin cfg1.N) :
    (decTile (flowTile (iblk1 V c 0 t) (iblk1 V c 1 t) (iblk1 V c 2 t) (iblk1 V c 3 t) (iblk1 V c 4 t) (iblk1 V c 5 t))
        (iblk1 V c 6 t) (iblk1 V c 7 t) (iblk1 V c 8 t) (iblk1 V c 9 t) : S512x4096.Idx → EReal)
      = fun j => G V c (ix2 ⟨512 * t.val + (j 0).val, by have := t_lt t; have hj : (j 0).val < 512 := (j 0).isLt; omega⟩ (j 1)) := by
  funext j
  obtain ⟨r, q, rfl⟩ : ∃ (r : Fin 512) (q : Fin 4096), j = ix2 r q := ⟨j 0, j 1, eq_ix2 j⟩
  refine (tile_at (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (V c main_v0_0) (V c main_v0_1) (V c main_arg1)
    t.val (t_lt t) (blk0_apply V c t) (blk1_apply V c t) (blk2_apply V c t) r q).trans ?_
  unfold G
  rw [blk3_eq V c t, blk4_eq V c t, blk5_eq V c t, blk6_eq V c t, blk7_eq V c t, blk8_eq V c t, blk9_eq V c t]

/-- What point t writes back is block t of that array. -/
theorem flushed_eq (c : Dev nD) (t : Fin cfg1.N) :
    (dat1 (F := Ideal) V c).flushed 10 t = ((cfg1.win 10).blk t).view.read (Elt Ideal) (G V c) := by
  show (cfg1.win 10).cut (grid1.coords t) ((dat1 V c).after 10 t) = _
  rw [after1_10, out_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t), tile_eq V c t]
  have e0 : win1_10.index t (0 : Fin 2) = t.val := (idx_facts t).2.2.2.2.2.2.1
  have e1 : win1_10.index t (1 : Fin 2) = 0 := (idx_facts t).2.2.2.2.2.2.2.1
  funext j
  show G V c _ = G V c (((cfg1.win 10).blk t).view.emb j)
  congr 1
  funext a
  apply Fin.ext
  match a with
  | ⟨0, _⟩ => show 512 * t.val + (j 0).val = win1_10.index t (0 : Fin 2) * 512 + 1 * (j 0).val; rw [e0]; omega
  | ⟨1, _⟩ => show (j 1).val = win1_10.index t (1 : Fin 2) * 4096 + 1 * (j 1).val; rw [e1]; omega

/-- An index of the output array is in point t's block iff each coordinate is in the block's range on its axis. -/
theorem mem_blk (t : Fin cfg1.N) (i : S16384x4096.Idx) :
    i ∈ ((cfg1.win 10).blk t).view.set ↔ ∀ a : Fin 2, win1_10.index t a * S512x4096.size a ≤ (i a).val ∧ (i a).val < win1_10.index t a * S512x4096.size a + S512x4096.size a := by
  show i ∈ ((View.whole main_v7).slice (win1_10.rect t)).set ↔ _
  rw [View.set_slice_whole, Rect.mem_set_unit]
  exact Iff.rfl

/-- Row i of the output array is covered by point i / 512. -/
theorem cover (i : S16384x4096.Idx) : ∃ t : Fin cfg1.N, (cfg1.win 10).flush t = true ∧ i ∈ ((cfg1.win 10).blk t).view.set := by
  have hi0 : (i 0).val < 16384 := (i 0).isLt
  have hi1 : (i 1).val < 4096 := (i 1).isLt
  have hN : cfg1.N = 32 := N_1
  refine ⟨⟨(i 0).val / 512, by rw [hN]; omega⟩, flush1_10 _, ?_⟩
  rw [mem_blk]
  have e0 := (idx_facts ⟨(i 0).val / 512, by rw [hN]; omega⟩).2.2.2.2.2.2.1
  have e1 := (idx_facts ⟨(i 0).val / 512, by rw [hN]; omega⟩).2.2.2.2.2.2.2.1
  intro a
  match a with
  | ⟨0, _⟩ =>
    show win1_10.index ⟨(i 0).val / 512, _⟩ (0 : Fin 2) * 512 ≤ (i 0).val ∧ (i 0).val < win1_10.index ⟨(i 0).val / 512, _⟩ (0 : Fin 2) * 512 + 512
    rw [e0]
    show (i 0).val / 512 * 512 ≤ (i 0).val ∧ (i 0).val < (i 0).val / 512 * 512 + 512
    omega
  | ⟨1, _⟩ =>
    show win1_10.index ⟨(i 0).val / 512, _⟩ (1 : Fin 2) * 4096 ≤ (i 1).val ∧ (i 1).val < win1_10.index ⟨(i 0).val / 512, _⟩ (1 : Fin 2) * 4096 + 4096
    rw [e1]
    omega

/-- The output array of the decode region after its 32 points: the specification's output array of the ten operand
    arrays as the region finds them. -/
theorem arr10 (c : Dev nD) :
    ((dat1 (F := Ideal) V c).arrAt 10 cfg1.N : Cert.Spec.Arr2 16384 4096)
      = Cert.Spec.OUT (V c main_v0_0) (V c main_v0_1) (V c main_arg1) (V c main_v4) (V c main_v5) (V c main_v6)
          (V c main_arg10) (V c main_arg11) (V c main_arg12) (V c main_arg13) :=
  (dat1 (F := Ideal) V c).arrAt_eq_of_cover 10 (G V c) (fun t _ => flushed_eq V c t) (fun i => cover i)

end Cert.KernelIdeal.K1

end
-- ==== Proof.K1.lean ====
/-
  The decode region's output array, for any contents at the region's entry: row by row the decoder of the flow of the
  latent row of the region's ten operand arrays.
-/
import proofs.«112810_j2207613190724_2_alg».proof.Proof.K1Arr

noncomputable section

namespace Cert.KernelIdeal.K1

open Cert.KernelIdeal Cert.KernelIdeal.Gen
open Idealize.ShloMosaic Idealize.ShloMosaic.ValueIdx Idealize.ShloMosaic.TcCoe Idealize.SL.Sem
open Idealize.ShloMosaic.Pipeline (Dat)

/-- The same statement with the entry contents quantified first. -/
theorem out10 : ∀ (V : (c : Dev nD) → (b : Ref sig .tc) → Buf (Elt Ideal) ((c : Thread nD τ).loc b)) (c : Dev nD),
    ((dat1 (F := Ideal) V c).arrAt 10 cfg1.N : Cert.Spec.Arr2 16384 4096)
      = Cert.Spec.OUT (V c main_v0_0) (V c main_v0_1) (V c main_arg1) (V c main_v4) (V c main_v5) (V c main_v6)
          (V c main_arg10) (V c main_arg11) (V c main_arg12) (V c main_arg13) :=
  fun V c => arr10 V c

end Cert.KernelIdeal.K1

end
-- ==== Proof.RefLib.lean ====
/-
  Small facts about a straight line of host operations: an operation that writes one buffer writes inside any list
  of references holding that buffer's reference.
-/
import Idealize.ShloMosaic.Lib.StableHlo.Run

set_option synthInstance.maxSize 4096

noncomputable section

namespace Cert.ReferenceIdeal.RefSide

open Idealize.ShloMosaic Idealize.ShloMosaic.TcCoe Idealize.SL.Sem Idealize.ShloMosaic.StableHlo

variable {F : FTy → Type} [FloatOps F]

/-- An operation whose only written buffer is the reference y writes inside every list of references that holds y. -/
theorem writes_sub {τ : Topo} {sig : RefSig} {Val : EltTy → Type} {W : List (Ref sig .tc)} {op : HloOp τ sig Val} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The same for a property stated by membership. -/
theorem mem_app {α : Type} {p : α → Prop} {l₁ l₂ : List α} (h₁ : ∀ x ∈ l₁, p x) (h₂ : ∀ x ∈ l₂, p x) : ∀ x ∈ l₁ ++ l₂, p x :=
  fun x hx => (List.mem_append.1 hx).elim (h₁ x) (h₂ x)

/-- Running two lines one after the other: the contents after the second, from the contents after the first. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.RefSide

end
-- ==== Proof.RefWin0.lean ====
/-
  Window 0 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 90 operations, in order. -/
abbrev win0 : List (HloOp τ sig (Elt F)) :=
  [
    StableHlo.unary main_arg2 main_v0 ((transpose S4096x400 [1, 0] · transposes_S400x4096_S4096x400_1_0) : (⟨S400x4096, .f32⟩ : BufTy).Contents (Elt F) → (⟨S4096x400, .f32⟩ : BufTy).Contents (Elt F)),
    StableHlo.binary main_arg0 main_v0 main_v1 ((fun l r => Host.dotGeneral dot_S16384x4096_S4096x400_S16384x400_1_0_0_1_n_n none l r) : (⟨S16384x4096, .f32⟩ : BufTy).Contents (Elt F) → (⟨S4096x400, .f32⟩ : BufTy).Contents (Elt F) → (⟨S16384x400, .f32⟩ : BufTy).Contents (Elt F)),
    StableHlo.unary main_arg3 main_v2 (broadcastInDim S1x400 ![1] bcast_S400_S1x400_1 : (⟨S400, .f32⟩ : BufTy).Contents (Elt F) → (⟨S1x400, .f32⟩ : BufTy).Contents (Elt F)),
    StableHlo.unary main_v2 main_v3 (broadcastInDim S16384x400 ![0, 1] bcast_S1x400_S16384x400_0_1 : (⟨S1x400, .f32⟩ : BufTy).Contents (Elt F) → (⟨S16384x400, .f32⟩ : BufTy).Contents (Elt F)),
    StableHlo.binary main_v1 main_v3 main_v4 (addf : (⟨S16384x400, .f32⟩ : BufTy).Contents (Elt F) → (⟨S16384x400, .f32⟩ : BufTy).Contents (Elt F) → (⟨S16384x400, .f32⟩ : BufTy).Contents (Elt F)),
    StableHlo.TRef.nullary main_call0.cst (constant S_ .f32 0x00000000#32),
    StableHlo.TRef.unary main_call0.cst main_call0.v0 (broadcastInDim S16384x400 ![] bcast_S_S16384x400),
    StableHlo.TRef.binary (.of main_v4) main_call0.v0 main_call0.v1 maximumf,
    StableHlo.unary main_arg4 main_v6 ((transpose S400x64 [1, 0] · transposes_S64x400_S400x64_1_0) : (⟨S64x400, .f32⟩ : BufTy).Contents (Elt F) → (⟨S400x64, .f32⟩ : BufTy).Contents (Elt F)),
    StableHlo.binary main_v5 main_v6 main_v7 ((fun l r => Host.dotGeneral dot_S16384x400_S400x64_S16384x64_1_0_0_1_n_n none l r) : (⟨S16384x400, .f32⟩ : BufTy).Contents (Elt F) → (⟨S400x64, .f32⟩ : BufTy).Contents (Elt F) → (⟨S16384x64, .f32⟩ : BufTy).Contents (Elt F)),
    StableHlo.unary main_arg5 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S16384x64 ![0, 1] bcast_S1x64_S16384x64_0_1 : (⟨S1x64, .f32⟩ : BufTy).Contents (Elt F) → (⟨S16384x64, .f32⟩ : BufTy).Contents (Elt F)),
    StableHlo.binary main_v7 main_v9 main_v10 (addf : (⟨S16384x64, .f32⟩ : BufTy).Contents (Elt F) → (⟨S16384x64, .f32⟩ : BufTy).Contents (Elt F) → (⟨S16384x64, .f32⟩ : BufTy).Contents (Elt F)),
    StableHlo.unary main_arg6 main_v11 ((transpose S400x64 [1, 0] · transposes_S64x400_S400x64_1_0) : (⟨S64x400, .f32⟩ : BufTy).Contents (Elt F) → (⟨S400x64, .f32⟩ : BufTy).Contents (Elt F)),
    StableHlo.binary main_v5 main_v11 main_v12 ((fun l r => Host.dotGeneral dot_S16384x400_S400x64_S16384x64_1_0_0_1_n_n none l r) : (⟨S16384x400, .f32⟩ : BufTy).Contents (Elt F) → (⟨S400x64, .f32⟩ : BufTy).Contents (Elt F) → (⟨S16384x64, .f32⟩ : BufTy).Contents (Elt F)),
    StableHlo.unary main_arg7 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S16384x64 ![0, 1] bcast_S1x64_S16384x64_0_1 : (⟨S1x64, .f32⟩ : BufTy).Contents (Elt F) → (⟨S16384x64, .f32⟩ : BufTy).Contents (Elt F)),
    StableHlo.binary main_v12 main_v14 main_v15 (addf : (⟨S16384x64, .f32⟩ : BufTy).Contents (Elt F) → (⟨S16384x64, .f32⟩ : BufTy).Contents (Elt F) → (⟨S16384x64, .f32⟩ : BufTy).Contents (Elt F)),
    StableHlo.unary main_arg8 main_v16 ((transpose S400x3520 [1, 0] · transposes_S3520x400_S400x3520_1_0) : (⟨S3520x400, .f32⟩ : BufTy).Contents (Elt F) → (⟨S400x3520, .f32⟩ : BufTy).Contents (Elt F)),
    StableHlo.binary main_v5 main_v16 main_v17 ((fun l r => Host.dotGeneral dot_S16384x400_S400x3520_S16384x3520_1_0_0_1_n_n none l r) : (⟨S16384x400, .f32⟩ : BufTy).Contents (Elt F) → (⟨S400x3520, .f32⟩ : BufTy).Contents (Elt F) → (⟨S16384x3520, .f32⟩ : BufTy).Contents (Elt F)),
    StableHlo.unary main_arg9 main_v18 (broadcastInDim S1x3520 ![1] bcast_S3520_S1x3520_1 : (⟨S3520, .f32⟩ : BufTy).Contents (Elt F) → (⟨S1x3520, .f32⟩ : BufTy).Contents (Elt F)),
    StableHlo.unary main_v18 main_v19 (broadcastInDim S16384x3520 ![0, 1] bcast_S1x3520_S16384x3520_0_1 : (⟨S1x3520, .f32⟩ : BufTy).Contents (Elt F) → (⟨S16384x3520, .f32⟩ : BufTy).Contents (Elt F)),
    StableHlo.binary main_v17 main_v19 main_v20 (addf : (⟨S16384x3520, .f32⟩ : BufTy).Contents (Elt F) → (⟨S16384x3520, .f32⟩ : BufTy).Contents (Elt F) → (⟨S16384x3520, .f32⟩ : BufTy).Contents (Elt F)),
    StableHlo.nullary main_cst (constant S_ .f32 0x00000000#32),
    StableHlo.binary main_v20 main_cst main_v21 ((fun x v => Host.reduceAdd x v reducesTo_S16384x3520_S3520_d0 h_S_) : (⟨S16384x3520, .f32⟩ : BufTy).Contents (Elt F) → (⟨S_, .f32⟩ : BufTy).Contents (Elt F) → (⟨S3520, .f32⟩ : BufTy).Contents (Elt F)),
    StableHlo.nullary main_cst_0 (constant S_ .f32 0x46800000#32),
    StableHlo.unary main_cst_0 main_v22 (broadcastInDim S3520 ![] bcast_S_S3520 : (⟨S_, .f32⟩ : BufTy).Contents (Elt F) → (⟨S3520, .f32⟩ : BufTy).Contents (Elt F)),
    StableHlo.binary main_v21 main_v22 main_v23 (Host.divf : (⟨S3520, .f32⟩ : BufTy).Contents (Elt F) → (⟨S3520, .f32⟩ : BufTy).Contents (Elt F) → (⟨S3520, .f32⟩ : BufTy).Contents (Elt F)),
    StableHlo.nullary main_cst_1 (constant S_ .f32 0x3F000000#32),
    StableHlo.unary main_cst_1 main_v24 (broadcastInDim S16384x64 ![] bcast_S_S16384x64 : (⟨S_, .f32⟩ : BufTy).Contents (Elt F) → (⟨S16384x64, .f32⟩ : BufTy).Contents (Elt F)),
    StableHlo.binary main_v24 main_v15 main_v25 (mulf : (⟨S16384x64, .f32⟩ : BufTy).Contents (Elt F) → (⟨S16384x64, .f32⟩ : BufTy).Contents (Elt F) → (⟨S16384x64, .f32⟩ : BufTy).Contents (Elt F)),
    StableHlo.unary main_v25 main_v26 (Host.exp : (⟨S16384x64, .f32⟩ : BufTy).Contents (Elt F) → (⟨S16384x64, .f32⟩ : BufTy).Contents (Elt F)),
    StableHlo.binary main_arg1 main_v26 main_v27 (mulf : (⟨S16384x64, .f32⟩ : BufTy).Contents (Elt F) → (⟨S16384x64, .f32⟩ : BufTy).Contents (Elt F) → (⟨S16384x64, .f32⟩ : BufTy).Contents (Elt F)),
    StableHlo.binary main_v27 main_v10 main_v28 (addf : (⟨S16384x64, .f32⟩ : BufTy).Contents (Elt F) → (⟨S16384x64, .f32⟩ : BufTy).Contents (Elt F) → (⟨S16384x64, .f32⟩ : BufTy).Contents (Elt F)),
    StableHlo.unary main_v23 main_v29 ((extractStridedSlice S440 ![0] · slices_S3520_S440_0) : (⟨S3520, .f32⟩ : BufTy).Contents (Elt F) → (⟨S440, .f32⟩ : BufTy).Contents (Elt F)),
    StableHlo.unary main_v29 main_v30 ((extractStridedSlice S400 ![0] · slices_S440_S400_0) : (⟨S440, .f32⟩ : BufTy).Contents (Elt F) → (⟨S400, .f32⟩ : BufTy).Contents (Elt F)),
    StableHlo.reshape main_v30 main_v31 rfl shapeCasts_S400_S20x20,
    StableHlo.TRef.nullary main_call1.v0 (iotaInDim S20x20 32 0),
    StableHlo.TRef.nullary main_call1.c (constantI S_ 32 4294967295#32),
    StableHlo.TRef.unary main_call1.c main_call1.v1 (broadcastInDim S20x20 ![] bcast_S_S20x20),
    StableHlo.TRef.binary main_call1.v0 main_call1.v1 main_call1.v2 addi,
    StableHlo.TRef.nullary main_call1.v3 (iotaInDim S20x20 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S20x20 ![] bcast_S_S20x20),
    StableHlo.TRef.ternary main_call1.v4 main_call1.v5 (.of main_v31) main_call1.v6 select,
    StableHlo.TRef.nullary main_call2.v0 (iotaInDim S20x20 32 0),
    StableHlo.TRef.nullary main_call2.c (constantI S_ 32 0#32),
    StableHlo.TRef.unary main_call2.c main_call2.v1 (broadcastInDim S20x20 ![] bcast_S_S20x20),
    StableHlo.TRef.binary main_call2.v0 main_call2.v1 main_call2.v2 addi,
    StableHlo.TRef.nullary main_call2.v3 (iotaInDim S20x20 32 1),
    StableHlo.TRef.binary main_call2.v2 main_call2.v3 main_call2.v4 (cmpi .sge),
    StableHlo.TRef.nullary main_call2.cst (constant S_ .f32 0x00000000#32),
    StableHlo.TRef.unary main_call2.cst main_call2.v5 (broadcastInDim S20x20 ![] bcast_S_S20x20),
    StableHlo.TRef.ternary main_call2.v4 (.of main_v31) main_call2.v5 main_call2.v6 select,
    StableHlo.unary main_v32 main_v34 ((transpose S20x20 [1, 0] · transposes_S20x20_S20x20_1_0) : (⟨S20x20, .f32⟩ : BufTy).Contents (Elt F) → (⟨S20x20, .f32⟩ : BufTy).Contents (Elt F)),
    StableHlo.unary main_v29 main_v35 ((extractStridedSlice S20 ![400] · slices_S440_S20_400) : (⟨S440, .f32⟩ : BufTy).Contents (Elt F) → (⟨S20, .f32⟩ : BufTy).Contents (Elt F)),
    StableHlo.unary main_v29 main_v36 ((extractStridedSlice S20 ![420] · slices_S440_S20_420) : (⟨S440, .f32⟩ : BufTy).Contents (Elt F) → (⟨S20, .f32⟩ : BufTy).Contents (Elt F)),
    StableHlo.nullary main_v37 (iotaInDim S20x20 32 0),
    StableHlo.nullary main_v38 (iotaInDim S20x20 32 1),
    StableHlo.nullary main_c (constantI S_ 32 0#32),
    StableHlo.unary main_c main_v39 (broadcastInDim S20x20 ![] bcast_S_S20x20 : (⟨S_, .i32⟩ : BufTy).Contents (Elt F) → (⟨S20x20, .i32⟩ : BufTy).Contents (Elt F)),
    StableHlo.binary main_v37 main_v39 main_v40 (addi : (⟨S20x20, .i32⟩ : BufTy).Contents (Elt F) → (⟨S20x20, .i32⟩ : BufTy).Contents (Elt F) → (⟨S20x20, .i32⟩ : BufTy).Contents (Elt F)),
    StableHlo.binary main_v40 main_v38 main_v41 (cmpi .eq : (⟨S20x20, .i32⟩ : BufTy).Contents (Elt F) → (⟨S20x20, .i32⟩ : BufTy).Contents (Elt F) → (⟨S20x20, .i1⟩ : BufTy).Contents (Elt F)),
    StableHlo.unary main_v41 main_v42 (uitofp .f32 : (⟨S20x20, .i1⟩ : BufTy).Contents (Elt F) → (⟨S20x20, .f32⟩ : BufTy).Contents (Elt F)),
    StableHlo.nullary main_cst_2 (constant S_ .f32 0x3F800000#32),
    StableHlo.unary main_cst_2 main_v43 (broadcastInDim S20x20 ![] bcast_S_S20x20 : (⟨S_, .f32⟩ : BufTy).Contents (Elt F) → (⟨S20x20, .f32⟩ : BufTy).Contents (Elt F)),
    StableHlo.binary main_v43 main_v42 main_v44 (subf : (⟨S20x20, .f32⟩ : BufTy).Contents (Elt F) → (⟨S20x20, .f32⟩ : BufTy).Contents (Elt F) → (⟨S20x20, .f32⟩ : BufTy).Contents (Elt F)),
    StableHlo.binary main_v33 main_v44 main_v45 (mulf : (⟨S20x20, .f32⟩ : BufTy).Contents (Elt F) → (⟨S20x20, .f32⟩ : BufTy).Contents (Elt F) → (⟨S20x20, .f32⟩ : BufTy).Contents (Elt F)),
    StableHlo.TRef.nullary main_call3.cst (constant S_ .f32 0x00000000#32),
    StableHlo.TRef.binary (.of main_v35) main_call3.cst main_call3.v0 (fun x v => pad S20 ![0] ![0] ![0] x v pads_S20_S20_000 h_S_),
    StableHlo.TRef.nullary main_call3.v1 (iotaInDim S20x20 32 0),
    StableHlo.TRef.nullary main_call3.v2 (iotaInDim S20x20 32 1),
    StableHlo.TRef.nullary main_call3.c (constantI S_ 32 0#32),
    StableHlo.TRef.unary main_call3.c main_call3.v3 (broadcastInDim S20x20 ![] bcast_S_S20x20),
    StableHlo.TRef.binary main_call3.v1 main_call3.v3 main_call3.v4 addi,
    StableHlo.TRef.binary main_call3.v4 main_call3.v2 main_call3.v5 (cmpi .eq),
    StableHlo.TRef.unary main_call3.v0 main_call3.v6 (broadcastInDim S20x1 ![0] bcast_S20_S20x1_0),
    StableHlo.TRef.nullary main_call3.cst_0 (constant S_ .f32 0x00000000#32),
    StableHlo.TRef.unary main_call3.v6 main_call3.call0.v0 (broadcastInDim S20x20 ![0, 1] bcast_S20x1_S20x20_0_1),
    StableHlo.TRef.unary main_call3.cst_0 main_call3.call0.v1 (broadcastInDim S20x20 ![] bcast_S_S20x20),
    StableHlo.TRef.ternary main_call3.v5 main_call3.call0.v0 main_call3.call0.v1 main_call3.call0.v2 select,
    StableHlo.binary main_v45 main_v46 main_v47 (addf : (⟨S20x20, .f32⟩ : BufTy).Contents (Elt F) → (⟨S20x20, .f32⟩ : BufTy).Contents (Elt F) → (⟨S20x20, .f32⟩ : BufTy).Contents (Elt F)),
    StableHlo.unary main_v28 main_v48 ((extractStridedSlice S16384x20 ![0, 0] · slices_S16384x64_S16384x20_0_0) : (⟨S16384x64, .f32⟩ : BufTy).Contents (Elt F) → (⟨S16384x20, .f32⟩ : BufTy).Contents (Elt F)),
    StableHlo.unary main_v47 main_v49 ((transpose S20x20 [1, 0] · transposes_S20x20_S20x20_1_0) : (⟨S20x20, .f32⟩ : BufTy).Contents (Elt F) → (⟨S20x20, .f32⟩ : BufTy).Contents (Elt F)),
    StableHlo.binary main_v48 main_v49 main_v50 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v36 main_v51 (broadcastInDim S1x20 ![1] bcast_S20_S1x20_1 : (⟨S20, .f32⟩ : BufTy).Contents (Elt F) → (⟨S1x20, .f32⟩ : BufTy).Contents (Elt F)),
    StableHlo.unary main_v51 main_v52 (broadcastInDim S16384x20 ![0, 1] bcast_S1x20_S16384x20_0_1 : (⟨S1x20, .f32⟩ : BufTy).Contents (Elt F) → (⟨S16384x20, .f32⟩ : BufTy).Contents (Elt F)),
    StableHlo.binary main_v50 main_v52 main_v53 (addf : (⟨S16384x20, .f32⟩ : BufTy).Contents (Elt F) → (⟨S16384x20, .f32⟩ : BufTy).Contents (Elt F) → (⟨S16384x20, .f32⟩ : BufTy).Contents (Elt F)),
    StableHlo.unary main_v53 main_v54 (Host.tanh : (⟨S16384x20, .f32⟩ : BufTy).Contents (Elt F) → (⟨S16384x20, .f32⟩ : BufTy).Contents (Elt F)) ]

set_option maxRecDepth 4096 in
set_option maxHeartbeats 4000000 in
/-- The window is that straight line: the called functions' bodies unfolded at their calls, sequencing reassociated. -/
theorem part0_eq (c : Dev nD) : main_part0 (F := F) c = seq win0 := by
  simp only [main_part0, fn_relu.body, fn_triu.body, fn_tril.body, fn_diag.body, fn_where.body, seq, bind_assoc, pure_bind] <;> rfl

end Cert.ReferenceIdeal.RefSide

end
-- ==== Proof.RefWin1.lean ====
/-
  Window 1 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 116 operations, in order. -/
abbrev win1 : List (HloOp τ sig (Elt F)) :=
  [
    StableHlo.unary main_v34 main_v55 ((transpose S20x20 [1, 0] · transposes_S20x20_S20x20_1_0) : (⟨S20x20, .f32⟩ : BufTy).Contents (Elt F) → (⟨S20x20, .f32⟩ : BufTy).Contents (Elt F)),
    StableHlo.binary main_v54 main_v55 main_v56 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_3 (constantI S_ 32 0#32),
    StableHlo.unary main_c_3 main_v57 (broadcastInDim S1 ![] bcast_S_S1 : (⟨S_, .i32⟩ : BufTy).Contents (Elt F) → (⟨S1, .i32⟩ : BufTy).Contents (Elt F)),
    StableHlo.ternary main_v28 main_v57 main_v56 main_v58 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v59 ((extractStridedSlice S440 ![440] · slices_S3520_S440_440) : (⟨S3520, .f32⟩ : BufTy).Contents (Elt F) → (⟨S440, .f32⟩ : BufTy).Contents (Elt F)),
    StableHlo.unary main_v59 main_v60 ((extractStridedSlice S400 ![0] · slices_S440_S400_0) : (⟨S440, .f32⟩ : BufTy).Contents (Elt F) → (⟨S400, .f32⟩ : BufTy).Contents (Elt F)),
    StableHlo.reshape main_v60 main_v61 rfl shapeCasts_S400_S20x20,
    StableHlo.TRef.nullary main_call4.v0 (iotaInDim S20x20 32 0),
    StableHlo.TRef.nullary main_call4.c (constantI S_ 32 4294967295#32),
    StableHlo.TRef.unary main_call4.c main_call4.v1 (broadcastInDim S20x20 ![] bcast_S_S20x20),
    StableHlo.TRef.binary main_call4.v0 main_call4.v1 main_call4.v2 addi,
    StableHlo.TRef.nullary main_call4.v3 (iotaInDim S20x20 32 1),
    StableHlo.TRef.binary main_call4.v2 main_call4.v3 main_call4.v4 (cmpi .sge),
    StableHlo.TRef.nullary main_call4.cst (constant S_ .f32 0x00000000#32),
    StableHlo.TRef.unary main_call4.cst main_call4.v5 (broadcastInDim S20x20 ![] bcast_S_S20x20),
    StableHlo.TRef.ternary main_call4.v4 main_call4.v5 (.of main_v61) main_call4.v6 select,
    StableHlo.TRef.nullary main_call5.v0 (iotaInDim S20x20 32 0),
    StableHlo.TRef.nullary main_call5.c (constantI S_ 32 0#32),
    StableHlo.TRef.unary main_call5.c main_call5.v1 (broadcastInDim S20x20 ![] bcast_S_S20x20),
    StableHlo.TRef.binary main_call5.v0 main_call5.v1 main_call5.v2 addi,
    StableHlo.TRef.nullary main_call5.v3 (iotaInDim S20x20 32 1),
    StableHlo.TRef.binary main_call5.v2 main_call5.v3 main_call5.v4 (cmpi .sge),
    StableHlo.TRef.nullary main_call5.cst (constant S_ .f32 0x00000000#32),
    StableHlo.TRef.unary main_call5.cst main_call5.v5 (broadcastInDim S20x20 ![] bcast_S_S20x20),
    StableHlo.TRef.ternary main_call5.v4 (.of main_v61) main_call5.v5 main_call5.v6 select,
    StableHlo.unary main_v63 main_v64 ((transpose S20x20 [1, 0] · transposes_S20x20_S20x20_1_0) : (⟨S20x20, .f32⟩ : BufTy).Contents (Elt F) → (⟨S20x20, .f32⟩ : BufTy).Contents (Elt F)),
    StableHlo.unary main_v59 main_v65 ((extractStridedSlice S20 ![400] · slices_S440_S20_400) : (⟨S440, .f32⟩ : BufTy).Contents (Elt F) → (⟨S20, .f32⟩ : BufTy).Contents (Elt F)),
    StableHlo.unary main_v59 main_v66 ((extractStridedSlice S20 ![420] · slices_S440_S20_420) : (⟨S440, .f32⟩ : BufTy).Contents (Elt F) → (⟨S20, .f32⟩ : BufTy).Contents (Elt F)),
    StableHlo.nullary main_v67 (iotaInDim S20x20 32 0),
    StableHlo.nullary main_v68 (iotaInDim S20x20 32 1),
    StableHlo.nullary main_c_4 (constantI S_ 32 0#32),
    StableHlo.unary main_c_4 main_v69 (broadcastInDim S20x20 ![] bcast_S_S20x20 : (⟨S_, .i32⟩ : BufTy).Contents (Elt F) → (⟨S20x20, .i32⟩ : BufTy).Contents (Elt F)),
    StableHlo.binary main_v67 main_v69 main_v70 (addi : (⟨S20x20, .i32⟩ : BufTy).Contents (Elt F) → (⟨S20x20, .i32⟩ : BufTy).Contents (Elt F) → (⟨S20x20, .i32⟩ : BufTy).Contents (Elt F)),
    StableHlo.binary main_v70 main_v68 main_v71 (cmpi .eq : (⟨S20x20, .i32⟩ : BufTy).Contents (Elt F) → (⟨S20x20, .i32⟩ : BufTy).Contents (Elt F) → (⟨S20x20, .i1⟩ : BufTy).Contents (Elt F)),
    StableHlo.unary main_v71 main_v72 (uitofp .f32 : (⟨S20x20, .i1⟩ : BufTy).Contents (Elt F) → (⟨S20x20, .f32⟩ : BufTy).Contents (Elt F)),
    StableHlo.nullary main_cst_5 (constant S_ .f32 0x3F800000#32),
    StableHlo.unary main_cst_5 main_v73 (broadcastInDim S20x20 ![] bcast_S_S20x20 : (⟨S_, .f32⟩ : BufTy).Contents (Elt F) → (⟨S20x20, .f32⟩ : BufTy).Contents (Elt F)),
    StableHlo.binary main_v73 main_v72 main_v74 (subf : (⟨S20x20, .f32⟩ : BufTy).Contents (Elt F) → (⟨S20x20, .f32⟩ : BufTy).Contents (Elt F) → (⟨S20x20, .f32⟩ : BufTy).Contents (Elt F)),
    StableHlo.binary main_v64 main_v74 main_v75 (mulf : (⟨S20x20, .f32⟩ : BufTy).Contents (Elt F) → (⟨S20x20, .f32⟩ : BufTy).Contents (Elt F) → (⟨S20x20, .f32⟩ : BufTy).Contents (Elt F)),
    StableHlo.TRef.nullary main_call6.cst (constant S_ .f32 0x00000000#32),
    StableHlo.TRef.binary (.of main_v65) main_call6.cst main_call6.v0 (fun x v => pad S20 ![0] ![0] ![0] x v pads_S20_S20_000 h_S_),
    StableHlo.TRef.nullary main_call6.v1 (iotaInDim S20x20 32 0),
    StableHlo.TRef.nullary main_call6.v2 (iotaInDim S20x20 32 1),
    StableHlo.TRef.nullary main_call6.c (constantI S_ 32 0#32),
    StableHlo.TRef.unary main_call6.c main_call6.v3 (broadcastInDim S20x20 ![] bcast_S_S20x20),
    StableHlo.TRef.binary main_call6.v1 main_call6.v3 main_call6.v4 addi,
    StableHlo.TRef.binary main_call6.v4 main_call6.v2 main_call6.v5 (cmpi .eq),
    StableHlo.TRef.unary main_call6.v0 main_call6.v6 (broadcastInDim S20x1 ![0] bcast_S20_S20x1_0),
    StableHlo.TRef.nullary main_call6.cst_0 (constant S_ .f32 0x00000000#32),
    StableHlo.TRef.unary main_call6.v6 main_call6.call0.v0 (broadcastInDim S20x20 ![0, 1] bcast_S20x1_S20x20_0_1),
    StableHlo.TRef.unary main_call6.cst_0 main_call6.call0.v1 (broadcastInDim S20x20 ![] bcast_S_S20x20),
    StableHlo.TRef.ternary main_call6.v5 main_call6.call0.v0 main_call6.call0.v1 main_call6.call0.v2 select,
    StableHlo.binary main_v75 main_v76 main_v77 (addf : (⟨S20x20, .f32⟩ : BufTy).Contents (Elt F) → (⟨S20x20, .f32⟩ : BufTy).Contents (Elt F) → (⟨S20x20, .f32⟩ : BufTy).Contents (Elt F)),
    StableHlo.unary main_v58 main_v78 ((extractStridedSlice S16384x20 ![0, 0] · slices_S16384x64_S16384x20_0_0) : (⟨S16384x64, .f32⟩ : BufTy).Contents (Elt F) → (⟨S16384x20, .f32⟩ : BufTy).Contents (Elt F)),
    StableHlo.unary main_v77 main_v79 ((transpose S20x20 [1, 0] · transposes_S20x20_S20x20_1_0) : (⟨S20x20, .f32⟩ : BufTy).Contents (Elt F) → (⟨S20x20, .f32⟩ : BufTy).Contents (Elt F)),
    StableHlo.binary main_v78 main_v79 main_v80 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v66 main_v81 (broadcastInDim S1x20 ![1] bcast_S20_S1x20_1 : (⟨S20, .f32⟩ : BufTy).Contents (Elt F) → (⟨S1x20, .f32⟩ : BufTy).Contents (Elt F)),
    StableHlo.unary main_v81 main_v82 (broadcastInDim S16384x20 ![0, 1] bcast_S1x20_S16384x20_0_1 : (⟨S1x20, .f32⟩ : BufTy).Contents (Elt F) → (⟨S16384x20, .f32⟩ : BufTy).Contents (Elt F)),
    StableHlo.binary main_v80 main_v82 main_v83 (addf : (⟨S16384x20, .f32⟩ : BufTy).Contents (Elt F) → (⟨S16384x20, .f32⟩ : BufTy).Contents (Elt F) → (⟨S16384x20, .f32⟩ : BufTy).Contents (Elt F)),
    StableHlo.unary main_v83 main_v84 (Host.tanh : (⟨S16384x20, .f32⟩ : BufTy).Contents (Elt F) → (⟨S16384x20, .f32⟩ : BufTy).Contents (Elt F)),
    StableHlo.unary main_v62 main_v85 ((transpose S20x20 [1, 0] · transposes_S20x20_S20x20_1_0) : (⟨S20x20, .f32⟩ : BufTy).Contents (Elt F) → (⟨S20x20, .f32⟩ : BufTy).Contents (Elt F)),
    StableHlo.binary main_v84 main_v85 main_v86 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_6 (constantI S_ 32 0#32),
    StableHlo.unary main_c_6 main_v87 (broadcastInDim S1 ![] bcast_S_S1 : (⟨S_, .i32⟩ : BufTy).Contents (Elt F) → (⟨S1, .i32⟩ : BufTy).Contents (Elt F)),
    StableHlo.ternary main_v58 main_v87 main_v86 main_v88 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v89 ((extractStridedSlice S440 ![880] · slices_S3520_S440_880) : (⟨S3520, .f32⟩ : BufTy).Contents (Elt F) → (⟨S440, .f32⟩ : BufTy).Contents (Elt F)),
    StableHlo.unary main_v89 main_v90 ((extractStridedSlice S400 ![0] · slices_S440_S400_0) : (⟨S440, .f32⟩ : BufTy).Contents (Elt F) → (⟨S400, .f32⟩ : BufTy).Contents (Elt F)),
    StableHlo.reshape main_v90 main_v91 rfl shapeCasts_S400_S20x20,
    StableHlo.TRef.nullary main_call7.v0 (iotaInDim S20x20 32 0),
    StableHlo.TRef.nullary main_call7.c (constantI S_ 32 4294967295#32),
    StableHlo.TRef.unary main_call7.c main_call7.v1 (broadcastInDim S20x20 ![] bcast_S_S20x20),
    StableHlo.TRef.binary main_call7.v0 main_call7.v1 main_call7.v2 addi,
    StableHlo.TRef.nullary main_call7.v3 (iotaInDim S20x20 32 1),
    StableHlo.TRef.binary main_call7.v2 main_call7.v3 main_call7.v4 (cmpi .sge),
    StableHlo.TRef.nullary main_call7.cst (constant S_ .f32 0x00000000#32),
    StableHlo.TRef.unary main_call7.cst main_call7.v5 (broadcastInDim S20x20 ![] bcast_S_S20x20),
    StableHlo.TRef.ternary main_call7.v4 main_call7.v5 (.of main_v91) main_call7.v6 select,
    StableHlo.TRef.nullary main_call8.v0 (iotaInDim S20x20 32 0),
    StableHlo.TRef.nullary main_call8.c (constantI S_ 32 0#32),
    StableHlo.TRef.unary main_call8.c main_call8.v1 (broadcastInDim S20x20 ![] bcast_S_S20x20),
    StableHlo.TRef.binary main_call8.v0 main_call8.v1 main_call8.v2 addi,
    StableHlo.TRef.nullary main_call8.v3 (iotaInDim S20x20 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S20x20 ![] bcast_S_S20x20),
    StableHlo.TRef.ternary main_call8.v4 (.of main_v91) main_call8.v5 main_call8.v6 select,
    StableHlo.unary main_v92 main_v94 ((transpose S20x20 [1, 0] · transposes_S20x20_S20x20_1_0) : (⟨S20x20, .f32⟩ : BufTy).Contents (Elt F) → (⟨S20x20, .f32⟩ : BufTy).Contents (Elt F)),
    StableHlo.unary main_v89 main_v95 ((extractStridedSlice S20 ![400] · slices_S440_S20_400) : (⟨S440, .f32⟩ : BufTy).Contents (Elt F) → (⟨S20, .f32⟩ : BufTy).Contents (Elt F)),
    StableHlo.unary main_v89 main_v96 ((extractStridedSlice S20 ![420] · slices_S440_S20_420) : (⟨S440, .f32⟩ : BufTy).Contents (Elt F) → (⟨S20, .f32⟩ : BufTy).Contents (Elt F)),
    StableHlo.nullary main_v97 (iotaInDim S20x20 32 0),
    StableHlo.nullary main_v98 (iotaInDim S20x20 32 1),
    StableHlo.nullary main_c_7 (constantI S_ 32 0#32),
    StableHlo.unary main_c_7 main_v99 (broadcastInDim S20x20 ![] bcast_S_S20x20 : (⟨S_, .i32⟩ : BufTy).Contents (Elt F) → (⟨S20x20, .i32⟩ : BufTy).Contents (Elt F)),
    StableHlo.binary main_v97 main_v99 main_v100 (addi : (⟨S20x20, .i32⟩ : BufTy).Contents (Elt F) → (⟨S20x20, .i32⟩ : BufTy).Contents (Elt F) → (⟨S20x20, .i32⟩ : BufTy).Contents (Elt F)),
    StableHlo.binary main_v100 main_v98 main_v101 (cmpi .eq : (⟨S20x20, .i32⟩ : BufTy).Contents (Elt F) → (⟨S20x20, .i32⟩ : BufTy).Contents (Elt F) → (⟨S20x20, .i1⟩ : BufTy).Contents (Elt F)),
    StableHlo.unary main_v101 main_v102 (uitofp .f32 : (⟨S20x20, .i1⟩ : BufTy).Contents (Elt F) → (⟨S20x20, .f32⟩ : BufTy).Contents (Elt F)),
    StableHlo.nullary main_cst_8 (constant S_ .f32 0x3F800000#32),
    StableHlo.unary main_cst_8 main_v103 (broadcastInDim S20x20 ![] bcast_S_S20x20 : (⟨S_, .f32⟩ : BufTy).Contents (Elt F) → (⟨S20x20, .f32⟩ : BufTy).Contents (Elt F)),
    StableHlo.binary main_v103 main_v102 main_v104 (subf : (⟨S20x20, .f32⟩ : BufTy).Contents (Elt F) → (⟨S20x20, .f32⟩ : BufTy).Contents (Elt F) → (⟨S20x20, .f32⟩ : BufTy).Contents (Elt F)),
    StableHlo.binary main_v93 main_v104 main_v105 (mulf : (⟨S20x20, .f32⟩ : BufTy).Contents (Elt F) → (⟨S20x20, .f32⟩ : BufTy).Contents (Elt F) → (⟨S20x20, .f32⟩ : BufTy).Contents (Elt F)),
    StableHlo.TRef.nullary main_call9.cst (constant S_ .f32 0x00000000#32),
    StableHlo.TRef.binary (.of main_v95) main_call9.cst main_call9.v0 (fun x v => pad S20 ![0] ![0] ![0] x v pads_S20_S20_000 h_S_),
    StableHlo.TRef.nullary main_call9.v1 (iotaInDim S20x20 32 0),
    StableHlo.TRef.nullary main_call9.v2 (iotaInDim S20x20 32 1),
    StableHlo.TRef.nullary main_call9.c (constantI S_ 32 0#32),
    StableHlo.TRef.unary main_call9.c main_call9.v3 (broadcastInDim S20x20 ![] bcast_S_S20x20),
    StableHlo.TRef.binary main_call9.v1 main_call9.v3 main_call9.v4 addi,
    StableHlo.TRef.binary main_call9.v4 main_call9.v2 main_call9.v5 (cmpi .eq),
    StableHlo.TRef.unary main_call9.v0 main_call9.v6 (broadcastInDim S20x1 ![0] bcast_S20_S20x1_0),
    StableHlo.TRef.nullary main_call9.cst_0 (constant S_ .f32 0x00000000#32),
    StableHlo.TRef.unary main_call9.v6 main_call9.call0.v0 (broadcastInDim S20x20 ![0, 1] bcast_S20x1_S20x20_0_1),
    StableHlo.TRef.unary main_call9.cst_0 main_call9.call0.v1 (broadcastInDim S20x20 ![] bcast_S_S20x20),
    StableHlo.TRef.ternary main_call9.v5 main_call9.call0.v0 main_call9.call0.v1 main_call9.call0.v2 select,
    StableHlo.binary main_v105 main_v106 main_v107 (addf : (⟨S20x20, .f32⟩ : BufTy).Contents (Elt F) → (⟨S20x20, .f32⟩ : BufTy).Contents (Elt F) → (⟨S20x20, .f32⟩ : BufTy).Contents (Elt F)),
    StableHlo.unary main_v88 main_v108 ((extractStridedSlice S16384x20 ![0, 0] · slices_S16384x64_S16384x20_0_0) : (⟨S16384x64, .f32⟩ : BufTy).Contents (Elt F) → (⟨S16384x20, .f32⟩ : BufTy).Contents (Elt F)) ]

set_option maxRecDepth 4096 in
set_option maxHeartbeats 4000000 in
/-- The window is that straight line: the called functions' bodies unfolded at their calls, sequencing reassociated. -/
theorem part1_eq (c : Dev nD) : main_part1 (F := F) c = seq win1 := by
  simp only [main_part1, fn_triu.body, fn_tril.body, fn_diag.body, fn_where.body, seq, bind_assoc, pure_bind] <;> rfl

end Cert.ReferenceIdeal.RefSide

end
-- ==== Proof.RefWin2.lean ====
/-
  Window 2 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 104 operations, in order. -/
abbrev win2 : List (HloOp τ sig (Elt F)) :=
  [
    StableHlo.unary main_v107 main_v109 ((transpose S20x20 [1, 0] · transposes_S20x20_S20x20_1_0) : (⟨S20x20, .f32⟩ : BufTy).Contents (Elt F) → (⟨S20x20, .f32⟩ : BufTy).Contents (Elt F)),
    StableHlo.binary main_v108 main_v109 main_v110 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v96 main_v111 (broadcastInDim S1x20 ![1] bcast_S20_S1x20_1 : (⟨S20, .f32⟩ : BufTy).Contents (Elt F) → (⟨S1x20, .f32⟩ : BufTy).Contents (Elt F)),
    StableHlo.unary main_v111 main_v112 (broadcastInDim S16384x20 ![0, 1] bcast_S1x20_S16384x20_0_1 : (⟨S1x20, .f32⟩ : BufTy).Contents (Elt F) → (⟨S16384x20, .f32⟩ : BufTy).Contents (Elt F)),
    StableHlo.binary main_v110 main_v112 main_v113 (addf : (⟨S16384x20, .f32⟩ : BufTy).Contents (Elt F) → (⟨S16384x20, .f32⟩ : BufTy).Contents (Elt F) → (⟨S16384x20, .f32⟩ : BufTy).Contents (Elt F)),
    StableHlo.unary main_v113 main_v114 (Host.tanh : (⟨S16384x20, .f32⟩ : BufTy).Contents (Elt F) → (⟨S16384x20, .f32⟩ : BufTy).Contents (Elt F)),
    StableHlo.unary main_v94 main_v115 ((transpose S20x20 [1, 0] · transposes_S20x20_S20x20_1_0) : (⟨S20x20, .f32⟩ : BufTy).Contents (Elt F) → (⟨S20x20, .f32⟩ : BufTy).Contents (Elt F)),
    StableHlo.binary main_v114 main_v115 main_v116 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_9 (constantI S_ 32 0#32),
    StableHlo.unary main_c_9 main_v117 (broadcastInDim S1 ![] bcast_S_S1 : (⟨S_, .i32⟩ : BufTy).Contents (Elt F) → (⟨S1, .i32⟩ : BufTy).Contents (Elt F)),
    StableHlo.ternary main_v88 main_v117 main_v116 main_v118 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v119 ((extractStridedSlice S440 ![1320] · slices_S3520_S440_1320) : (⟨S3520, .f32⟩ : BufTy).Contents (Elt F) → (⟨S440, .f32⟩ : BufTy).Contents (Elt F)),
    StableHlo.unary main_v119 main_v120 ((extractStridedSlice S400 ![0] · slices_S440_S400_0) : (⟨S440, .f32⟩ : BufTy).Contents (Elt F) → (⟨S400, .f32⟩ : BufTy).Contents (Elt F)),
    StableHlo.reshape main_v120 main_v121 rfl shapeCasts_S400_S20x20,
    StableHlo.TRef.nullary main_call10.v0 (iotaInDim S20x20 32 0),
    StableHlo.TRef.nullary main_call10.c (constantI S_ 32 4294967295#32),
    StableHlo.TRef.unary main_call10.c main_call10.v1 (broadcastInDim S20x20 ![] bcast_S_S20x20),
    StableHlo.TRef.binary main_call10.v0 main_call10.v1 main_call10.v2 addi,
    StableHlo.TRef.nullary main_call10.v3 (iotaInDim S20x20 32 1),
    StableHlo.TRef.binary main_call10.v2 main_call10.v3 main_call10.v4 (cmpi .sge),
    StableHlo.TRef.nullary main_call10.cst (constant S_ .f32 0x00000000#32),
    StableHlo.TRef.unary main_call10.cst main_call10.v5 (broadcastInDim S20x20 ![] bcast_S_S20x20),
    StableHlo.TRef.ternary main_call10.v4 main_call10.v5 (.of main_v121) main_call10.v6 select,
    StableHlo.TRef.nullary main_call11.v0 (iotaInDim S20x20 32 0),
    StableHlo.TRef.nullary main_call11.c (constantI S_ 32 0#32),
    StableHlo.TRef.unary main_call11.c main_call11.v1 (broadcastInDim S20x20 ![] bcast_S_S20x20),
    StableHlo.TRef.binary main_call11.v0 main_call11.v1 main_call11.v2 addi,
    StableHlo.TRef.nullary main_call11.v3 (iotaInDim S20x20 32 1),
    StableHlo.TRef.binary main_call11.v2 main_call11.v3 main_call11.v4 (cmpi .sge),
    StableHlo.TRef.nullary main_call11.cst (constant S_ .f32 0x00000000#32),
    StableHlo.TRef.unary main_call11.cst main_call11.v5 (broadcastInDim S20x20 ![] bcast_S_S20x20),
    StableHlo.TRef.ternary main_call11.v4 (.of main_v121) main_call11.v5 main_call11.v6 select,
    StableHlo.unary main_v123 main_v124 ((transpose S20x20 [1, 0] · transposes_S20x20_S20x20_1_0) : (⟨S20x20, .f32⟩ : BufTy).Contents (Elt F) → (⟨S20x20, .f32⟩ : BufTy).Contents (Elt F)),
    StableHlo.unary main_v119 main_v125 ((extractStridedSlice S20 ![400] · slices_S440_S20_400) : (⟨S440, .f32⟩ : BufTy).Contents (Elt F) → (⟨S20, .f32⟩ : BufTy).Contents (Elt F)),
    StableHlo.unary main_v119 main_v126 ((extractStridedSlice S20 ![420] · slices_S440_S20_420) : (⟨S440, .f32⟩ : BufTy).Contents (Elt F) → (⟨S20, .f32⟩ : BufTy).Contents (Elt F)),
    StableHlo.nullary main_v127 (iotaInDim S20x20 32 0),
    StableHlo.nullary main_v128 (iotaInDim S20x20 32 1),
    StableHlo.nullary main_c_10 (constantI S_ 32 0#32),
    StableHlo.unary main_c_10 main_v129 (broadcastInDim S20x20 ![] bcast_S_S20x20 : (⟨S_, .i32⟩ : BufTy).Contents (Elt F) → (⟨S20x20, .i32⟩ : BufTy).Contents (Elt F)),
    StableHlo.binary main_v127 main_v129 main_v130 (addi : (⟨S20x20, .i32⟩ : BufTy).Contents (Elt F) → (⟨S20x20, .i32⟩ : BufTy).Contents (Elt F) → (⟨S20x20, .i32⟩ : BufTy).Contents (Elt F)),
    StableHlo.binary main_v130 main_v128 main_v131 (cmpi .eq : (⟨S20x20, .i32⟩ : BufTy).Contents (Elt F) → (⟨S20x20, .i32⟩ : BufTy).Contents (Elt F) → (⟨S20x20, .i1⟩ : BufTy).Contents (Elt F)),
    StableHlo.unary main_v131 main_v132 (uitofp .f32 : (⟨S20x20, .i1⟩ : BufTy).Contents (Elt F) → (⟨S20x20, .f32⟩ : BufTy).Contents (Elt F)),
    StableHlo.nullary main_cst_11 (constant S_ .f32 0x3F800000#32),
    StableHlo.unary main_cst_11 main_v133 (broadcastInDim S20x20 ![] bcast_S_S20x20 : (⟨S_, .f32⟩ : BufTy).Contents (Elt F) → (⟨S20x20, .f32⟩ : BufTy).Contents (Elt F)),
    StableHlo.binary main_v133 main_v132 main_v134 (subf : (⟨S20x20, .f32⟩ : BufTy).Contents (Elt F) → (⟨S20x20, .f32⟩ : BufTy).Contents (Elt F) → (⟨S20x20, .f32⟩ : BufTy).Contents (Elt F)),
    StableHlo.binary main_v124 main_v134 main_v135 (mulf : (⟨S20x20, .f32⟩ : BufTy).Contents (Elt F) → (⟨S20x20, .f32⟩ : BufTy).Contents (Elt F) → (⟨S20x20, .f32⟩ : BufTy).Contents (Elt F)),
    StableHlo.TRef.nullary main_call12.cst (constant S_ .f32 0x00000000#32),
    StableHlo.TRef.binary (.of main_v125) main_call12.cst main_call12.v0 (fun x v => pad S20 ![0] ![0] ![0] x v pads_S20_S20_000 h_S_),
    StableHlo.TRef.nullary main_call12.v1 (iotaInDim S20x20 32 0),
    StableHlo.TRef.nullary main_call12.v2 (iotaInDim S20x20 32 1),
    StableHlo.TRef.nullary main_call12.c (constantI S_ 32 0#32),
    StableHlo.TRef.unary main_call12.c main_call12.v3 (broadcastInDim S20x20 ![] bcast_S_S20x20),
    StableHlo.TRef.binary main_call12.v1 main_call12.v3 main_call12.v4 addi,
    StableHlo.TRef.binary main_call12.v4 main_call12.v2 main_call12.v5 (cmpi .eq),
    StableHlo.TRef.unary main_call12.v0 main_call12.v6 (broadcastInDim S20x1 ![0] bcast_S20_S20x1_0),
    StableHlo.TRef.nullary main_call12.cst_0 (constant S_ .f32 0x00000000#32),
    StableHlo.TRef.unary main_call12.v6 main_call12.call0.v0 (broadcastInDim S20x20 ![0, 1] bcast_S20x1_S20x20_0_1),
    StableHlo.TRef.unary main_call12.cst_0 main_call12.call0.v1 (broadcastInDim S20x20 ![] bcast_S_S20x20),
    StableHlo.TRef.ternary main_call12.v5 main_call12.call0.v0 main_call12.call0.v1 main_call12.call0.v2 select,
    StableHlo.binary main_v135 main_v136 main_v137 (addf : (⟨S20x20, .f32⟩ : BufTy).Contents (Elt F) → (⟨S20x20, .f32⟩ : BufTy).Contents (Elt F) → (⟨S20x20, .f32⟩ : BufTy).Contents (Elt F)),
    StableHlo.unary main_v118 main_v138 ((extractStridedSlice S16384x20 ![0, 0] · slices_S16384x64_S16384x20_0_0) : (⟨S16384x64, .f32⟩ : BufTy).Contents (Elt F) → (⟨S16384x20, .f32⟩ : BufTy).Contents (Elt F)),
    StableHlo.unary main_v137 main_v139 ((transpose S20x20 [1, 0] · transposes_S20x20_S20x20_1_0) : (⟨S20x20, .f32⟩ : BufTy).Contents (Elt F) → (⟨S20x20, .f32⟩ : BufTy).Contents (Elt F)),
    StableHlo.binary main_v138 main_v139 main_v140 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v126 main_v141 (broadcastInDim S1x20 ![1] bcast_S20_S1x20_1 : (⟨S20, .f32⟩ : BufTy).Contents (Elt F) → (⟨S1x20, .f32⟩ : BufTy).Contents (Elt F)),
    StableHlo.unary main_v141 main_v142 (broadcastInDim S16384x20 ![0, 1] bcast_S1x20_S16384x20_0_1 : (⟨S1x20, .f32⟩ : BufTy).Contents (Elt F) → (⟨S16384x20, .f32⟩ : BufTy).Contents (Elt F)),
    StableHlo.binary main_v140 main_v142 main_v143 (addf : (⟨S16384x20, .f32⟩ : BufTy).Contents (Elt F) → (⟨S16384x20, .f32⟩ : BufTy).Contents (Elt F) → (⟨S16384x20, .f32⟩ : BufTy).Contents (Elt F)),
    StableHlo.unary main_v143 main_v144 (Host.tanh : (⟨S16384x20, .f32⟩ : BufTy).Contents (Elt F) → (⟨S16384x20, .f32⟩ : BufTy).Contents (Elt F)),
    StableHlo.unary main_v122 main_v145 ((transpose S20x20 [1, 0] · transposes_S20x20_S20x20_1_0) : (⟨S20x20, .f32⟩ : BufTy).Contents (Elt F) → (⟨S20x20, .f32⟩ : BufTy).Contents (Elt F)),
    StableHlo.binary main_v144 main_v145 main_v146 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_12 (constantI S_ 32 0#32),
    StableHlo.unary main_c_12 main_v147 (broadcastInDim S1 ![] bcast_S_S1 : (⟨S_, .i32⟩ : BufTy).Contents (Elt F) → (⟨S1, .i32⟩ : BufTy).Contents (Elt F)),
    StableHlo.ternary main_v118 main_v147 main_v146 main_v148 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v149 ((extractStridedSlice S440 ![1760] · slices_S3520_S440_1760) : (⟨S3520, .f32⟩ : BufTy).Contents (Elt F) → (⟨S440, .f32⟩ : BufTy).Contents (Elt F)),
    StableHlo.unary main_v149 main_v150 ((extractStridedSlice S400 ![0] · slices_S440_S400_0) : (⟨S440, .f32⟩ : BufTy).Contents (Elt F) → (⟨S400, .f32⟩ : BufTy).Contents (Elt F)),
    StableHlo.reshape main_v150 main_v151 rfl shapeCasts_S400_S20x20,
    StableHlo.TRef.nullary main_call13.v0 (iotaInDim S20x20 32 0),
    StableHlo.TRef.nullary main_call13.c (constantI S_ 32 4294967295#32),
    StableHlo.TRef.unary main_call13.c main_call13.v1 (broadcastInDim S20x20 ![] bcast_S_S20x20),
    StableHlo.TRef.binary main_call13.v0 main_call13.v1 main_call13.v2 addi,
    StableHlo.TRef.nullary main_call13.v3 (iotaInDim S20x20 32 1),
    StableHlo.TRef.binary main_call13.v2 main_call13.v3 main_call13.v4 (cmpi .sge),
    StableHlo.TRef.nullary main_call13.cst (constant S_ .f32 0x00000000#32),
    StableHlo.TRef.unary main_call13.cst main_call13.v5 (broadcastInDim S20x20 ![] bcast_S_S20x20),
    StableHlo.TRef.ternary main_call13.v4 main_call13.v5 (.of main_v151) main_call13.v6 select,
    StableHlo.TRef.nullary main_call14.v0 (iotaInDim S20x20 32 0),
    StableHlo.TRef.nullary main_call14.c (constantI S_ 32 0#32),
    StableHlo.TRef.unary main_call14.c main_call14.v1 (broadcastInDim S20x20 ![] bcast_S_S20x20),
    StableHlo.TRef.binary main_call14.v0 main_call14.v1 main_call14.v2 addi,
    StableHlo.TRef.nullary main_call14.v3 (iotaInDim S20x20 32 1),
    StableHlo.TRef.binary main_call14.v2 main_call14.v3 main_call14.v4 (cmpi .sge),
    StableHlo.TRef.nullary main_call14.cst (constant S_ .f32 0x00000000#32),
    StableHlo.TRef.unary main_call14.cst main_call14.v5 (broadcastInDim S20x20 ![] bcast_S_S20x20),
    StableHlo.TRef.ternary main_call14.v4 (.of main_v151) main_call14.v5 main_call14.v6 select,
    StableHlo.unary main_v152 main_v154 ((transpose S20x20 [1, 0] · transposes_S20x20_S20x20_1_0) : (⟨S20x20, .f32⟩ : BufTy).Contents (Elt F) → (⟨S20x20, .f32⟩ : BufTy).Contents (Elt F)),
    StableHlo.unary main_v149 main_v155 ((extractStridedSlice S20 ![400] · slices_S440_S20_400) : (⟨S440, .f32⟩ : BufTy).Contents (Elt F) → (⟨S20, .f32⟩ : BufTy).Contents (Elt F)),
    StableHlo.unary main_v149 main_v156 ((extractStridedSlice S20 ![420] · slices_S440_S20_420) : (⟨S440, .f32⟩ : BufTy).Contents (Elt F) → (⟨S20, .f32⟩ : BufTy).Contents (Elt F)),
    StableHlo.nullary main_v157 (iotaInDim S20x20 32 0),
    StableHlo.nullary main_v158 (iotaInDim S20x20 32 1),
    StableHlo.nullary main_c_13 (constantI S_ 32 0#32),
    StableHlo.unary main_c_13 main_v159 (broadcastInDim S20x20 ![] bcast_S_S20x20 : (⟨S_, .i32⟩ : BufTy).Contents (Elt F) → (⟨S20x20, .i32⟩ : BufTy).Contents (Elt F)),
    StableHlo.binary main_v157 main_v159 main_v160 (addi : (⟨S20x20, .i32⟩ : BufTy).Contents (Elt F) → (⟨S20x20, .i32⟩ : BufTy).Contents (Elt F) → (⟨S20x20, .i32⟩ : BufTy).Contents (Elt F)),
    StableHlo.binary main_v160 main_v158 main_v161 (cmpi .eq : (⟨S20x20, .i32⟩ : BufTy).Contents (Elt F) → (⟨S20x20, .i32⟩ : BufTy).Contents (Elt F) → (⟨S20x20, .i1⟩ : BufTy).Contents (Elt F)),
    StableHlo.unary main_v161 main_v162 (uitofp .f32 : (⟨S20x20, .i1⟩ : BufTy).Contents (Elt F) → (⟨S20x20, .f32⟩ : BufTy).Contents (Elt F)),
    StableHlo.nullary main_cst_14 (constant S_ .f32 0x3F800000#32) ]

set_option maxRecDepth 4096 in
set_option maxHeartbeats 4000000 in
/-- The window is that straight line: the called functions' bodies unfolded at their calls, sequencing reassociated. -/
theorem part2_eq (c : Dev nD) : main_part2 (F := F) c = seq win2 := by
  simp only [main_part2, fn_triu.body, fn_tril.body, fn_diag.body, fn_where.body, seq, bind_assoc, pure_bind] <;> rfl

end Cert.ReferenceIdeal.RefSide

end
-- ==== Proof.RefWin3.lean ====
/-
  Window 3 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 116 operations, in order. -/
abbrev win3 : List (HloOp τ sig (Elt F)) :=
  [
    StableHlo.unary main_cst_14 main_v163 (broadcastInDim S20x20 ![] bcast_S_S20x20 : (⟨S_, .f32⟩ : BufTy).Contents (Elt F) → (⟨S20x20, .f32⟩ : BufTy).Contents (Elt F)),
    StableHlo.binary main_v163 main_v162 main_v164 (subf : (⟨S20x20, .f32⟩ : BufTy).Contents (Elt F) → (⟨S20x20, .f32⟩ : BufTy).Contents (Elt F) → (⟨S20x20, .f32⟩ : BufTy).Contents (Elt F)),
    StableHlo.binary main_v153 main_v164 main_v165 (mulf : (⟨S20x20, .f32⟩ : BufTy).Contents (Elt F) → (⟨S20x20, .f32⟩ : BufTy).Contents (Elt F) → (⟨S20x20, .f32⟩ : BufTy).Contents (Elt F)),
    StableHlo.TRef.nullary main_call15.cst (constant S_ .f32 0x00000000#32),
    StableHlo.TRef.binary (.of main_v155) main_call15.cst main_call15.v0 (fun x v => pad S20 ![0] ![0] ![0] x v pads_S20_S20_000 h_S_),
    StableHlo.TRef.nullary main_call15.v1 (iotaInDim S20x20 32 0),
    StableHlo.TRef.nullary main_call15.v2 (iotaInDim S20x20 32 1),
    StableHlo.TRef.nullary main_call15.c (constantI S_ 32 0#32),
    StableHlo.TRef.unary main_call15.c main_call15.v3 (broadcastInDim S20x20 ![] bcast_S_S20x20),
    StableHlo.TRef.binary main_call15.v1 main_call15.v3 main_call15.v4 addi,
    StableHlo.TRef.binary main_call15.v4 main_call15.v2 main_call15.v5 (cmpi .eq),
    StableHlo.TRef.unary main_call15.v0 main_call15.v6 (broadcastInDim S20x1 ![0] bcast_S20_S20x1_0),
    StableHlo.TRef.nullary main_call15.cst_0 (constant S_ .f32 0x00000000#32),
    StableHlo.TRef.unary main_call15.v6 main_call15.call0.v0 (broadcastInDim S20x20 ![0, 1] bcast_S20x1_S20x20_0_1),
    StableHlo.TRef.unary main_call15.cst_0 main_call15.call0.v1 (broadcastInDim S20x20 ![] bcast_S_S20x20),
    StableHlo.TRef.ternary main_call15.v5 main_call15.call0.v0 main_call15.call0.v1 main_call15.call0.v2 select,
    StableHlo.binary main_v165 main_v166 main_v167 (addf : (⟨S20x20, .f32⟩ : BufTy).Contents (Elt F) → (⟨S20x20, .f32⟩ : BufTy).Contents (Elt F) → (⟨S20x20, .f32⟩ : BufTy).Contents (Elt F)),
    StableHlo.unary main_v148 main_v168 ((extractStridedSlice S16384x20 ![0, 0] · slices_S16384x64_S16384x20_0_0) : (⟨S16384x64, .f32⟩ : BufTy).Contents (Elt F) → (⟨S16384x20, .f32⟩ : BufTy).Contents (Elt F)),
    StableHlo.unary main_v167 main_v169 ((transpose S20x20 [1, 0] · transposes_S20x20_S20x20_1_0) : (⟨S20x20, .f32⟩ : BufTy).Contents (Elt F) → (⟨S20x20, .f32⟩ : BufTy).Contents (Elt F)),
    StableHlo.binary main_v168 main_v169 main_v170 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v156 main_v171 (broadcastInDim S1x20 ![1] bcast_S20_S1x20_1 : (⟨S20, .f32⟩ : BufTy).Contents (Elt F) → (⟨S1x20, .f32⟩ : BufTy).Contents (Elt F)),
    StableHlo.unary main_v171 main_v172 (broadcastInDim S16384x20 ![0, 1] bcast_S1x20_S16384x20_0_1 : (⟨S1x20, .f32⟩ : BufTy).Contents (Elt F) → (⟨S16384x20, .f32⟩ : BufTy).Contents (Elt F)),
    StableHlo.binary main_v170 main_v172 main_v173 (addf : (⟨S16384x20, .f32⟩ : BufTy).Contents (Elt F) → (⟨S16384x20, .f32⟩ : BufTy).Contents (Elt F) → (⟨S16384x20, .f32⟩ : BufTy).Contents (Elt F)),
    StableHlo.unary main_v173 main_v174 (Host.tanh : (⟨S16384x20, .f32⟩ : BufTy).Contents (Elt F) → (⟨S16384x20, .f32⟩ : BufTy).Contents (Elt F)),
    StableHlo.unary main_v154 main_v175 ((transpose S20x20 [1, 0] · transposes_S20x20_S20x20_1_0) : (⟨S20x20, .f32⟩ : BufTy).Contents (Elt F) → (⟨S20x20, .f32⟩ : BufTy).Contents (Elt F)),
    StableHlo.binary main_v174 main_v175 main_v176 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_15 (constantI S_ 32 0#32),
    StableHlo.unary main_c_15 main_v177 (broadcastInDim S1 ![] bcast_S_S1 : (⟨S_, .i32⟩ : BufTy).Contents (Elt F) → (⟨S1, .i32⟩ : BufTy).Contents (Elt F)),
    StableHlo.ternary main_v148 main_v177 main_v176 main_v178 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v179 ((extractStridedSlice S440 ![2200] · slices_S3520_S440_2200) : (⟨S3520, .f32⟩ : BufTy).Contents (Elt F) → (⟨S440, .f32⟩ : BufTy).Contents (Elt F)),
    StableHlo.unary main_v179 main_v180 ((extractStridedSlice S400 ![0] · slices_S440_S400_0) : (⟨S440, .f32⟩ : BufTy).Contents (Elt F) → (⟨S400, .f32⟩ : BufTy).Contents (Elt F)),
    StableHlo.reshape main_v180 main_v181 rfl shapeCasts_S400_S20x20,
    StableHlo.TRef.nullary main_call16.v0 (iotaInDim S20x20 32 0),
    StableHlo.TRef.nullary main_call16.c (constantI S_ 32 4294967295#32),
    StableHlo.TRef.unary main_call16.c main_call16.v1 (broadcastInDim S20x20 ![] bcast_S_S20x20),
    StableHlo.TRef.binary main_call16.v0 main_call16.v1 main_call16.v2 addi,
    StableHlo.TRef.nullary main_call16.v3 (iotaInDim S20x20 32 1),
    StableHlo.TRef.binary main_call16.v2 main_call16.v3 main_call16.v4 (cmpi .sge),
    StableHlo.TRef.nullary main_call16.cst (constant S_ .f32 0x00000000#32),
    StableHlo.TRef.unary main_call16.cst main_call16.v5 (broadcastInDim S20x20 ![] bcast_S_S20x20),
    StableHlo.TRef.ternary main_call16.v4 main_call16.v5 (.of main_v181) main_call16.v6 select,
    StableHlo.TRef.nullary main_call17.v0 (iotaInDim S20x20 32 0),
    StableHlo.TRef.nullary main_call17.c (constantI S_ 32 0#32),
    StableHlo.TRef.unary main_call17.c main_call17.v1 (broadcastInDim S20x20 ![] bcast_S_S20x20),
    StableHlo.TRef.binary main_call17.v0 main_call17.v1 main_call17.v2 addi,
    StableHlo.TRef.nullary main_call17.v3 (iotaInDim S20x20 32 1),
    StableHlo.TRef.binary main_call17.v2 main_call17.v3 main_call17.v4 (cmpi .sge),
    StableHlo.TRef.nullary main_call17.cst (constant S_ .f32 0x00000000#32),
    StableHlo.TRef.unary main_call17.cst main_call17.v5 (broadcastInDim S20x20 ![] bcast_S_S20x20),
    StableHlo.TRef.ternary main_call17.v4 (.of main_v181) main_call17.v5 main_call17.v6 select,
    StableHlo.unary main_v183 main_v184 ((transpose S20x20 [1, 0] · transposes_S20x20_S20x20_1_0) : (⟨S20x20, .f32⟩ : BufTy).Contents (Elt F) → (⟨S20x20, .f32⟩ : BufTy).Contents (Elt F)),
    StableHlo.unary main_v179 main_v185 ((extractStridedSlice S20 ![400] · slices_S440_S20_400) : (⟨S440, .f32⟩ : BufTy).Contents (Elt F) → (⟨S20, .f32⟩ : BufTy).Contents (Elt F)),
    StableHlo.unary main_v179 main_v186 ((extractStridedSlice S20 ![420] · slices_S440_S20_420) : (⟨S440, .f32⟩ : BufTy).Contents (Elt F) → (⟨S20, .f32⟩ : BufTy).Contents (Elt F)),
    StableHlo.nullary main_v187 (iotaInDim S20x20 32 0),
    StableHlo.nullary main_v188 (iotaInDim S20x20 32 1),
    StableHlo.nullary main_c_16 (constantI S_ 32 0#32),
    StableHlo.unary main_c_16 main_v189 (broadcastInDim S20x20 ![] bcast_S_S20x20 : (⟨S_, .i32⟩ : BufTy).Contents (Elt F) → (⟨S20x20, .i32⟩ : BufTy).Contents (Elt F)),
    StableHlo.binary main_v187 main_v189 main_v190 (addi : (⟨S20x20, .i32⟩ : BufTy).Contents (Elt F) → (⟨S20x20, .i32⟩ : BufTy).Contents (Elt F) → (⟨S20x20, .i32⟩ : BufTy).Contents (Elt F)),
    StableHlo.binary main_v190 main_v188 main_v191 (cmpi .eq : (⟨S20x20, .i32⟩ : BufTy).Contents (Elt F) → (⟨S20x20, .i32⟩ : BufTy).Contents (Elt F) → (⟨S20x20, .i1⟩ : BufTy).Contents (Elt F)),
    StableHlo.unary main_v191 main_v192 (uitofp .f32 : (⟨S20x20, .i1⟩ : BufTy).Contents (Elt F) → (⟨S20x20, .f32⟩ : BufTy).Contents (Elt F)),
    StableHlo.nullary main_cst_17 (constant S_ .f32 0x3F800000#32),
    StableHlo.unary main_cst_17 main_v193 (broadcastInDim S20x20 ![] bcast_S_S20x20 : (⟨S_, .f32⟩ : BufTy).Contents (Elt F) → (⟨S20x20, .f32⟩ : BufTy).Contents (Elt F)),
    StableHlo.binary main_v193 main_v192 main_v194 (subf : (⟨S20x20, .f32⟩ : BufTy).Contents (Elt F) → (⟨S20x20, .f32⟩ : BufTy).Contents (Elt F) → (⟨S20x20, .f32⟩ : BufTy).Contents (Elt F)),
    StableHlo.binary main_v184 main_v194 main_v195 (mulf : (⟨S20x20, .f32⟩ : BufTy).Contents (Elt F) → (⟨S20x20, .f32⟩ : BufTy).Contents (Elt F) → (⟨S20x20, .f32⟩ : BufTy).Contents (Elt F)),
    StableHlo.TRef.nullary main_call18.cst (constant S_ .f32 0x00000000#32),
    StableHlo.TRef.binary (.of main_v185) main_call18.cst main_call18.v0 (fun x v => pad S20 ![0] ![0] ![0] x v pads_S20_S20_000 h_S_),
    StableHlo.TRef.nullary main_call18.v1 (iotaInDim S20x20 32 0),
    StableHlo.TRef.nullary main_call18.v2 (iotaInDim S20x20 32 1),
    StableHlo.TRef.nullary main_call18.c (constantI S_ 32 0#32),
    StableHlo.TRef.unary main_call18.c main_call18.v3 (broadcastInDim S20x20 ![] bcast_S_S20x20),
    StableHlo.TRef.binary main_call18.v1 main_call18.v3 main_call18.v4 addi,
    StableHlo.TRef.binary main_call18.v4 main_call18.v2 main_call18.v5 (cmpi .eq),
    StableHlo.TRef.unary main_call18.v0 main_call18.v6 (broadcastInDim S20x1 ![0] bcast_S20_S20x1_0),
    StableHlo.TRef.nullary main_call18.cst_0 (constant S_ .f32 0x00000000#32),
    StableHlo.TRef.unary main_call18.v6 main_call18.call0.v0 (broadcastInDim S20x20 ![0, 1] bcast_S20x1_S20x20_0_1),
    StableHlo.TRef.unary main_call18.cst_0 main_call18.call0.v1 (broadcastInDim S20x20 ![] bcast_S_S20x20),
    StableHlo.TRef.ternary main_call18.v5 main_call18.call0.v0 main_call18.call0.v1 main_call18.call0.v2 select,
    StableHlo.binary main_v195 main_v196 main_v197 (addf : (⟨S20x20, .f32⟩ : BufTy).Contents (Elt F) → (⟨S20x20, .f32⟩ : BufTy).Contents (Elt F) → (⟨S20x20, .f32⟩ : BufTy).Contents (Elt F)),
    StableHlo.unary main_v178 main_v198 ((extractStridedSlice S16384x20 ![0, 0] · slices_S16384x64_S16384x20_0_0) : (⟨S16384x64, .f32⟩ : BufTy).Contents (Elt F) → (⟨S16384x20, .f32⟩ : BufTy).Contents (Elt F)),
    StableHlo.unary main_v197 main_v199 ((transpose S20x20 [1, 0] · transposes_S20x20_S20x20_1_0) : (⟨S20x20, .f32⟩ : BufTy).Contents (Elt F) → (⟨S20x20, .f32⟩ : BufTy).Contents (Elt F)),
    StableHlo.binary main_v198 main_v199 main_v200 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v186 main_v201 (broadcastInDim S1x20 ![1] bcast_S20_S1x20_1 : (⟨S20, .f32⟩ : BufTy).Contents (Elt F) → (⟨S1x20, .f32⟩ : BufTy).Contents (Elt F)),
    StableHlo.unary main_v201 main_v202 (broadcastInDim S16384x20 ![0, 1] bcast_S1x20_S16384x20_0_1 : (⟨S1x20, .f32⟩ : BufTy).Contents (Elt F) → (⟨S16384x20, .f32⟩ : BufTy).Contents (Elt F)),
    StableHlo.binary main_v200 main_v202 main_v203 (addf : (⟨S16384x20, .f32⟩ : BufTy).Contents (Elt F) → (⟨S16384x20, .f32⟩ : BufTy).Contents (Elt F) → (⟨S16384x20, .f32⟩ : BufTy).Contents (Elt F)),
    StableHlo.unary main_v203 main_v204 (Host.tanh : (⟨S16384x20, .f32⟩ : BufTy).Contents (Elt F) → (⟨S16384x20, .f32⟩ : BufTy).Contents (Elt F)),
    StableHlo.unary main_v182 main_v205 ((transpose S20x20 [1, 0] · transposes_S20x20_S20x20_1_0) : (⟨S20x20, .f32⟩ : BufTy).Contents (Elt F) → (⟨S20x20, .f32⟩ : BufTy).Contents (Elt F)),
    StableHlo.binary main_v204 main_v205 main_v206 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_18 (constantI S_ 32 0#32),
    StableHlo.unary main_c_18 main_v207 (broadcastInDim S1 ![] bcast_S_S1 : (⟨S_, .i32⟩ : BufTy).Contents (Elt F) → (⟨S1, .i32⟩ : BufTy).Contents (Elt F)),
    StableHlo.ternary main_v178 main_v207 main_v206 main_v208 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v209 ((extractStridedSlice S440 ![2640] · slices_S3520_S440_2640) : (⟨S3520, .f32⟩ : BufTy).Contents (Elt F) → (⟨S440, .f32⟩ : BufTy).Contents (Elt F)),
    StableHlo.unary main_v209 main_v210 ((extractStridedSlice S400 ![0] · slices_S440_S400_0) : (⟨S440, .f32⟩ : BufTy).Contents (Elt F) → (⟨S400, .f32⟩ : BufTy).Contents (Elt F)),
    StableHlo.reshape main_v210 main_v211 rfl shapeCasts_S400_S20x20,
    StableHlo.TRef.nullary main_call19.v0 (iotaInDim S20x20 32 0),
    StableHlo.TRef.nullary main_call19.c (constantI S_ 32 4294967295#32),
    StableHlo.TRef.unary main_call19.c main_call19.v1 (broadcastInDim S20x20 ![] bcast_S_S20x20),
    StableHlo.TRef.binary main_call19.v0 main_call19.v1 main_call19.v2 addi,
    StableHlo.TRef.nullary main_call19.v3 (iotaInDim S20x20 32 1),
    StableHlo.TRef.binary main_call19.v2 main_call19.v3 main_call19.v4 (cmpi .sge),
    StableHlo.TRef.nullary main_call19.cst (constant S_ .f32 0x00000000#32),
    StableHlo.TRef.unary main_call19.cst main_call19.v5 (broadcastInDim S20x20 ![] bcast_S_S20x20),
    StableHlo.TRef.ternary main_call19.v4 main_call19.v5 (.of main_v211) main_call19.v6 select,
    StableHlo.TRef.nullary main_call20.v0 (iotaInDim S20x20 32 0),
    StableHlo.TRef.nullary main_call20.c (constantI S_ 32 0#32),
    StableHlo.TRef.unary main_call20.c main_call20.v1 (broadcastInDim S20x20 ![] bcast_S_S20x20),
    StableHlo.TRef.binary main_call20.v0 main_call20.v1 main_call20.v2 addi,
    StableHlo.TRef.nullary main_call20.v3 (iotaInDim S20x20 32 1),
    StableHlo.TRef.binary main_call20.v2 main_call20.v3 main_call20.v4 (cmpi .sge),
    StableHlo.TRef.nullary main_call20.cst (constant S_ .f32 0x00000000#32),
    StableHlo.TRef.unary main_call20.cst main_call20.v5 (broadcastInDim S20x20 ![] bcast_S_S20x20),
    StableHlo.TRef.ternary main_call20.v4 (.of main_v211) main_call20.v5 main_call20.v6 select,
    StableHlo.unary main_v212 main_v214 ((transpose S20x20 [1, 0] · transposes_S20x20_S20x20_1_0) : (⟨S20x20, .f32⟩ : BufTy).Contents (Elt F) → (⟨S20x20, .f32⟩ : BufTy).Contents (Elt F)),
    StableHlo.unary main_v209 main_v215 ((extractStridedSlice S20 ![400] · slices_S440_S20_400) : (⟨S440, .f32⟩ : BufTy).Contents (Elt F) → (⟨S20, .f32⟩ : BufTy).Contents (Elt F)),
    StableHlo.unary main_v209 main_v216 ((extractStridedSlice S20 ![420] · slices_S440_S20_420) : (⟨S440, .f32⟩ : BufTy).Contents (Elt F) → (⟨S20, .f32⟩ : BufTy).Contents (Elt F)),
    StableHlo.nullary main_v217 (iotaInDim S20x20 32 0),
    StableHlo.nullary main_v218 (iotaInDim S20x20 32 1) ]

set_option maxRecDepth 4096 in
set_option maxHeartbeats 4000000 in
/-- The window is that straight line: the called functions' bodies unfolded at their calls, sequencing reassociated. -/
theorem part3_eq (c : Dev nD) : main_part3 (F := F) c = seq win3 := by
  simp only [main_part3, fn_diag.body, fn_triu.body, fn_tril.body, fn_where.body, seq, bind_assoc, pure_bind] <;> rfl

end Cert.ReferenceIdeal.RefSide

end
-- ==== Proof.RefWin4.lean ====
/-
  Window 4 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 100 operations, in order. -/
abbrev win4 : List (HloOp τ sig (Elt F)) :=
  [
    StableHlo.nullary main_c_19 (constantI S_ 32 0#32),
    StableHlo.unary main_c_19 main_v219 (broadcastInDim S20x20 ![] bcast_S_S20x20 : (⟨S_, .i32⟩ : BufTy).Contents (Elt F) → (⟨S20x20, .i32⟩ : BufTy).Contents (Elt F)),
    StableHlo.binary main_v217 main_v219 main_v220 (addi : (⟨S20x20, .i32⟩ : BufTy).Contents (Elt F) → (⟨S20x20, .i32⟩ : BufTy).Contents (Elt F) → (⟨S20x20, .i32⟩ : BufTy).Contents (Elt F)),
    StableHlo.binary main_v220 main_v218 main_v221 (cmpi .eq : (⟨S20x20, .i32⟩ : BufTy).Contents (Elt F) → (⟨S20x20, .i32⟩ : BufTy).Contents (Elt F) → (⟨S20x20, .i1⟩ : BufTy).Contents (Elt F)),
    StableHlo.unary main_v221 main_v222 (uitofp .f32 : (⟨S20x20, .i1⟩ : BufTy).Contents (Elt F) → (⟨S20x20, .f32⟩ : BufTy).Contents (Elt F)),
    StableHlo.nullary main_cst_20 (constant S_ .f32 0x3F800000#32),
    StableHlo.unary main_cst_20 main_v223 (broadcastInDim S20x20 ![] bcast_S_S20x20 : (⟨S_, .f32⟩ : BufTy).Contents (Elt F) → (⟨S20x20, .f32⟩ : BufTy).Contents (Elt F)),
    StableHlo.binary main_v223 main_v222 main_v224 (subf : (⟨S20x20, .f32⟩ : BufTy).Contents (Elt F) → (⟨S20x20, .f32⟩ : BufTy).Contents (Elt F) → (⟨S20x20, .f32⟩ : BufTy).Contents (Elt F)),
    StableHlo.binary main_v213 main_v224 main_v225 (mulf : (⟨S20x20, .f32⟩ : BufTy).Contents (Elt F) → (⟨S20x20, .f32⟩ : BufTy).Contents (Elt F) → (⟨S20x20, .f32⟩ : BufTy).Contents (Elt F)),
    StableHlo.TRef.nullary main_call21.cst (constant S_ .f32 0x00000000#32),
    StableHlo.TRef.binary (.of main_v215) main_call21.cst main_call21.v0 (fun x v => pad S20 ![0] ![0] ![0] x v pads_S20_S20_000 h_S_),
    StableHlo.TRef.nullary main_call21.v1 (iotaInDim S20x20 32 0),
    StableHlo.TRef.nullary main_call21.v2 (iotaInDim S20x20 32 1),
    StableHlo.TRef.nullary main_call21.c (constantI S_ 32 0#32),
    StableHlo.TRef.unary main_call21.c main_call21.v3 (broadcastInDim S20x20 ![] bcast_S_S20x20),
    StableHlo.TRef.binary main_call21.v1 main_call21.v3 main_call21.v4 addi,
    StableHlo.TRef.binary main_call21.v4 main_call21.v2 main_call21.v5 (cmpi .eq),
    StableHlo.TRef.unary main_call21.v0 main_call21.v6 (broadcastInDim S20x1 ![0] bcast_S20_S20x1_0),
    StableHlo.TRef.nullary main_call21.cst_0 (constant S_ .f32 0x00000000#32),
    StableHlo.TRef.unary main_call21.v6 main_call21.call0.v0 (broadcastInDim S20x20 ![0, 1] bcast_S20x1_S20x20_0_1),
    StableHlo.TRef.unary main_call21.cst_0 main_call21.call0.v1 (broadcastInDim S20x20 ![] bcast_S_S20x20),
    StableHlo.TRef.ternary main_call21.v5 main_call21.call0.v0 main_call21.call0.v1 main_call21.call0.v2 select,
    StableHlo.binary main_v225 main_v226 main_v227 (addf : (⟨S20x20, .f32⟩ : BufTy).Contents (Elt F) → (⟨S20x20, .f32⟩ : BufTy).Contents (Elt F) → (⟨S20x20, .f32⟩ : BufTy).Contents (Elt F)),
    StableHlo.unary main_v208 main_v228 ((extractStridedSlice S16384x20 ![0, 0] · slices_S16384x64_S16384x20_0_0) : (⟨S16384x64, .f32⟩ : BufTy).Contents (Elt F) → (⟨S16384x20, .f32⟩ : BufTy).Contents (Elt F)),
    StableHlo.unary main_v227 main_v229 ((transpose S20x20 [1, 0] · transposes_S20x20_S20x20_1_0) : (⟨S20x20, .f32⟩ : BufTy).Contents (Elt F) → (⟨S20x20, .f32⟩ : BufTy).Contents (Elt F)),
    StableHlo.binary main_v228 main_v229 main_v230 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v216 main_v231 (broadcastInDim S1x20 ![1] bcast_S20_S1x20_1 : (⟨S20, .f32⟩ : BufTy).Contents (Elt F) → (⟨S1x20, .f32⟩ : BufTy).Contents (Elt F)),
    StableHlo.unary main_v231 main_v232 (broadcastInDim S16384x20 ![0, 1] bcast_S1x20_S16384x20_0_1 : (⟨S1x20, .f32⟩ : BufTy).Contents (Elt F) → (⟨S16384x20, .f32⟩ : BufTy).Contents (Elt F)),
    StableHlo.binary main_v230 main_v232 main_v233 (addf : (⟨S16384x20, .f32⟩ : BufTy).Contents (Elt F) → (⟨S16384x20, .f32⟩ : BufTy).Contents (Elt F) → (⟨S16384x20, .f32⟩ : BufTy).Contents (Elt F)),
    StableHlo.unary main_v233 main_v234 (Host.tanh : (⟨S16384x20, .f32⟩ : BufTy).Contents (Elt F) → (⟨S16384x20, .f32⟩ : BufTy).Contents (Elt F)),
    StableHlo.unary main_v214 main_v235 ((transpose S20x20 [1, 0] · transposes_S20x20_S20x20_1_0) : (⟨S20x20, .f32⟩ : BufTy).Contents (Elt F) → (⟨S20x20, .f32⟩ : BufTy).Contents (Elt F)),
    StableHlo.binary main_v234 main_v235 main_v236 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_21 (constantI S_ 32 0#32),
    StableHlo.unary main_c_21 main_v237 (broadcastInDim S1 ![] bcast_S_S1 : (⟨S_, .i32⟩ : BufTy).Contents (Elt F) → (⟨S1, .i32⟩ : BufTy).Contents (Elt F)),
    StableHlo.ternary main_v208 main_v237 main_v236 main_v238 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_v23 main_v239 ((extractStridedSlice S440 ![3080] · slices_S3520_S440_3080) : (⟨S3520, .f32⟩ : BufTy).Contents (Elt F) → (⟨S440, .f32⟩ : BufTy).Contents (Elt F)),
    StableHlo.unary main_v239 main_v240 ((extractStridedSlice S400 ![0] · slices_S440_S400_0) : (⟨S440, .f32⟩ : BufTy).Contents (Elt F) → (⟨S400, .f32⟩ : BufTy).Contents (Elt F)),
    StableHlo.reshape main_v240 main_v241 rfl shapeCasts_S400_S20x20,
    StableHlo.TRef.nullary main_call22.v0 (iotaInDim S20x20 32 0),
    StableHlo.TRef.nullary main_call22.c (constantI S_ 32 4294967295#32),
    StableHlo.TRef.unary main_call22.c main_call22.v1 (broadcastInDim S20x20 ![] bcast_S_S20x20),
    StableHlo.TRef.binary main_call22.v0 main_call22.v1 main_call22.v2 addi,
    StableHlo.TRef.nullary main_call22.v3 (iotaInDim S20x20 32 1),
    StableHlo.TRef.binary main_call22.v2 main_call22.v3 main_call22.v4 (cmpi .sge),
    StableHlo.TRef.nullary main_call22.cst (constant S_ .f32 0x00000000#32),
    StableHlo.TRef.unary main_call22.cst main_call22.v5 (broadcastInDim S20x20 ![] bcast_S_S20x20),
    StableHlo.TRef.ternary main_call22.v4 main_call22.v5 (.of main_v241) main_call22.v6 select,
    StableHlo.TRef.nullary main_call23.v0 (iotaInDim S20x20 32 0),
    StableHlo.TRef.nullary main_call23.c (constantI S_ 32 0#32),
    StableHlo.TRef.unary main_call23.c main_call23.v1 (broadcastInDim S20x20 ![] bcast_S_S20x20),
    StableHlo.TRef.binary main_call23.v0 main_call23.v1 main_call23.v2 addi,
    StableHlo.TRef.nullary main_call23.v3 (iotaInDim S20x20 32 1),
    StableHlo.TRef.binary main_call23.v2 main_call23.v3 main_call23.v4 (cmpi .sge),
    StableHlo.TRef.nullary main_call23.cst (constant S_ .f32 0x00000000#32),
    StableHlo.TRef.unary main_call23.cst main_call23.v5 (broadcastInDim S20x20 ![] bcast_S_S20x20),
    StableHlo.TRef.ternary main_call23.v4 (.of main_v241) main_call23.v5 main_call23.v6 select,
    StableHlo.unary main_v243 main_v244 ((transpose S20x20 [1, 0] · transposes_S20x20_S20x20_1_0) : (⟨S20x20, .f32⟩ : BufTy).Contents (Elt F) → (⟨S20x20, .f32⟩ : BufTy).Contents (Elt F)),
    StableHlo.unary main_v239 main_v245 ((extractStridedSlice S20 ![400] · slices_S440_S20_400) : (⟨S440, .f32⟩ : BufTy).Contents (Elt F) → (⟨S20, .f32⟩ : BufTy).Contents (Elt F)),
    StableHlo.unary main_v239 main_v246 ((extractStridedSlice S20 ![420] · slices_S440_S20_420) : (⟨S440, .f32⟩ : BufTy).Contents (Elt F) → (⟨S20, .f32⟩ : BufTy).Contents (Elt F)),
    StableHlo.nullary main_v247 (iotaInDim S20x20 32 0),
    StableHlo.nullary main_v248 (iotaInDim S20x20 32 1),
    StableHlo.nullary main_c_22 (constantI S_ 32 0#32),
    StableHlo.unary main_c_22 main_v249 (broadcastInDim S20x20 ![] bcast_S_S20x20 : (⟨S_, .i32⟩ : BufTy).Contents (Elt F) → (⟨S20x20, .i32⟩ : BufTy).Contents (Elt F)),
    StableHlo.binary main_v247 main_v249 main_v250 (addi : (⟨S20x20, .i32⟩ : BufTy).Contents (Elt F) → (⟨S20x20, .i32⟩ : BufTy).Contents (Elt F) → (⟨S20x20, .i32⟩ : BufTy).Contents (Elt F)),
    StableHlo.binary main_v250 main_v248 main_v251 (cmpi .eq : (⟨S20x20, .i32⟩ : BufTy).Contents (Elt F) → (⟨S20x20, .i32⟩ : BufTy).Contents (Elt F) → (⟨S20x20, .i1⟩ : BufTy).Contents (Elt F)),
    StableHlo.unary main_v251 main_v252 (uitofp .f32 : (⟨S20x20, .i1⟩ : BufTy).Contents (Elt F) → (⟨S20x20, .f32⟩ : BufTy).Contents (Elt F)),
    StableHlo.nullary main_cst_23 (constant S_ .f32 0x3F800000#32),
    StableHlo.unary main_cst_23 main_v253 (broadcastInDim S20x20 ![] bcast_S_S20x20 : (⟨S_, .f32⟩ : BufTy).Contents (Elt F) → (⟨S20x20, .f32⟩ : BufTy).Contents (Elt F)),
    StableHlo.binary main_v253 main_v252 main_v254 (subf : (⟨S20x20, .f32⟩ : BufTy).Contents (Elt F) → (⟨S20x20, .f32⟩ : BufTy).Contents (Elt F) → (⟨S20x20, .f32⟩ : BufTy).Contents (Elt F)),
    StableHlo.binary main_v244 main_v254 main_v255 (mulf : (⟨S20x20, .f32⟩ : BufTy).Contents (Elt F) → (⟨S20x20, .f32⟩ : BufTy).Contents (Elt F) → (⟨S20x20, .f32⟩ : BufTy).Contents (Elt F)),
    StableHlo.TRef.nullary main_call24.cst (constant S_ .f32 0x00000000#32),
    StableHlo.TRef.binary (.of main_v245) main_call24.cst main_call24.v0 (fun x v => pad S20 ![0] ![0] ![0] x v pads_S20_S20_000 h_S_),
    StableHlo.TRef.nullary main_call24.v1 (iotaInDim S20x20 32 0),
    StableHlo.TRef.nullary main_call24.v2 (iotaInDim S20x20 32 1),
    StableHlo.TRef.nullary main_call24.c (constantI S_ 32 0#32),
    StableHlo.TRef.unary main_call24.c main_call24.v3 (broadcastInDim S20x20 ![] bcast_S_S20x20),
    StableHlo.TRef.binary main_call24.v1 main_call24.v3 main_call24.v4 addi,
    StableHlo.TRef.binary main_call24.v4 main_call24.v2 main_call24.v5 (cmpi .eq),
    StableHlo.TRef.unary main_call24.v0 main_call24.v6 (broadcastInDim S20x1 ![0] bcast_S20_S20x1_0),
    StableHlo.TRef.nullary main_call24.cst_0 (constant S_ .f32 0x00000000#32),
    StableHlo.TRef.unary main_call24.v6 main_call24.call0.v0 (broadcastInDim S20x20 ![0, 1] bcast_S20x1_S20x20_0_1),
    StableHlo.TRef.unary main_call24.cst_0 main_call24.call0.v1 (broadcastInDim S20x20 ![] bcast_S_S20x20),
    StableHlo.TRef.ternary main_call24.v5 main_call24.call0.v0 main_call24.call0.v1 main_call24.call0.v2 select,
    StableHlo.binary main_v255 main_v256 main_v257 (addf : (⟨S20x20, .f32⟩ : BufTy).Contents (Elt F) → (⟨S20x20, .f32⟩ : BufTy).Contents (Elt F) → (⟨S20x20, .f32⟩ : BufTy).Contents (Elt F)),
    StableHlo.unary main_v238 main_v258 ((extractStridedSlice S16384x20 ![0, 0] · slices_S16384x64_S16384x20_0_0) : (⟨S16384x64, .f32⟩ : BufTy).Contents (Elt F) → (⟨S16384x20, .f32⟩ : BufTy).Contents (Elt F)),
    StableHlo.unary main_v257 main_v259 ((transpose S20x20 [1, 0] · transposes_S20x20_S20x20_1_0) : (⟨S20x20, .f32⟩ : BufTy).Contents (Elt F) → (⟨S20x20, .f32⟩ : BufTy).Contents (Elt F)),
    StableHlo.binary main_v258 main_v259 main_v260 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v246 main_v261 (broadcastInDim S1x20 ![1] bcast_S20_S1x20_1 : (⟨S20, .f32⟩ : BufTy).Contents (Elt F) → (⟨S1x20, .f32⟩ : BufTy).Contents (Elt F)),
    StableHlo.unary main_v261 main_v262 (broadcastInDim S16384x20 ![0, 1] bcast_S1x20_S16384x20_0_1 : (⟨S1x20, .f32⟩ : BufTy).Contents (Elt F) → (⟨S16384x20, .f32⟩ : BufTy).Contents (Elt F)),
    StableHlo.binary main_v260 main_v262 main_v263 (addf : (⟨S16384x20, .f32⟩ : BufTy).Contents (Elt F) → (⟨S16384x20, .f32⟩ : BufTy).Contents (Elt F) → (⟨S16384x20, .f32⟩ : BufTy).Contents (Elt F)),
    StableHlo.unary main_v263 main_v264 (Host.tanh : (⟨S16384x20, .f32⟩ : BufTy).Contents (Elt F) → (⟨S16384x20, .f32⟩ : BufTy).Contents (Elt F)),
    StableHlo.unary main_v242 main_v265 ((transpose S20x20 [1, 0] · transposes_S20x20_S20x20_1_0) : (⟨S20x20, .f32⟩ : BufTy).Contents (Elt F) → (⟨S20x20, .f32⟩ : BufTy).Contents (Elt F)),
    StableHlo.binary main_v264 main_v265 main_v266 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_24 (constantI S_ 32 0#32),
    StableHlo.unary main_c_24 main_v267 (broadcastInDim S1 ![] bcast_S_S1 : (⟨S_, .i32⟩ : BufTy).Contents (Elt F) → (⟨S1, .i32⟩ : BufTy).Contents (Elt F)),
    StableHlo.ternary main_v238 main_v267 main_v266 main_v268 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)),
    StableHlo.unary main_arg10 main_v269 ((transpose S64x400 [1, 0] · transposes_S400x64_S64x400_1_0) : (⟨S400x64, .f32⟩ : BufTy).Contents (Elt F) → (⟨S64x400, .f32⟩ : BufTy).Contents (Elt F)),
    StableHlo.binary main_v268 main_v269 main_v270 ((fun l r => Host.dotGeneral dot_S16384x64_S64x400_S16384x400_1_0_0_1_n_n none l r) : (⟨S16384x64, .f32⟩ : BufTy).Contents (Elt F) → (⟨S64x400, .f32⟩ : BufTy).Contents (Elt F) → (⟨S16384x400, .f32⟩ : BufTy).Contents (Elt F)),
    StableHlo.unary main_arg11 main_v271 (broadcastInDim S1x400 ![1] bcast_S400_S1x400_1 : (⟨S400, .f32⟩ : BufTy).Contents (Elt F) → (⟨S1x400, .f32⟩ : BufTy).Contents (Elt F)),
    StableHlo.unary main_v271 main_v272 (broadcastInDim S16384x400 ![0, 1] bcast_S1x400_S16384x400_0_1 : (⟨S1x400, .f32⟩ : BufTy).Contents (Elt F) → (⟨S16384x400, .f32⟩ : BufTy).Contents (Elt F)) ]

set_option maxRecDepth 4096 in
set_option maxHeartbeats 4000000 in
/-- The window is that straight line: the called functions' bodies unfolded at their calls, sequencing reassociated. -/
theorem part4_eq (c : Dev nD) : main_part4 (F := F) c = seq win4 := by
  simp only [main_part4, fn_diag.body, fn_triu.body, fn_tril.body, fn_where.body, seq, bind_assoc, pure_bind] <;> rfl

end Cert.ReferenceIdeal.RefSide

end
-- ==== Proof.RefWin5.lean ====
/-
  Window 5 of the reference's @main is the straight line of its host operations, each call replaced by the called
  function's operations over that call's buffers.
-/
import proofs.«112810_j2207613190724_2_alg».proof.Proof.Gen.ReferenceIdeal
import Idealize.ShloMosaic.Lib.StableHlo.Run

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The window's 9 operations, in order. -/
abbrev win5 : List (HloOp τ sig (Elt F)) :=
  [
    StableHlo.binary main_v270 main_v272 main_v273 (addf : (⟨S16384x400, .f32⟩ : BufTy).Contents (Elt F) → (⟨S16384x400, .f32⟩ : BufTy).Contents (Elt F) → (⟨S16384x400, .f32⟩ : BufTy).Contents (Elt F)),
    StableHlo.TRef.nullary main_call25.cst (constant S_ .f32 0x00000000#32),
    StableHlo.TRef.unary main_call25.cst main_call25.v0 (broadcastInDim S16384x400 ![] bcast_S_S16384x400),
    StableHlo.TRef.binary (.of main_v273) main_call25.v0 main_call25.v1 maximumf,
    StableHlo.unary main_arg12 main_v275 ((transpose S400x4096 [1, 0] · transposes_S4096x400_S400x4096_1_0) : (⟨S4096x400, .f32⟩ : BufTy).Contents (Elt F) → (⟨S400x4096, .f32⟩ : BufTy).Contents (Elt F)),
    StableHlo.binary main_v274 main_v275 main_v276 ((fun l r => Host.dotGeneral dot_S16384x400_S400x4096_S16384x4096_1_0_0_1_n_n none l r) : (⟨S16384x400, .f32⟩ : BufTy).Contents (Elt F) → (⟨S400x4096, .f32⟩ : BufTy).Contents (Elt F) → (⟨S16384x4096, .f32⟩ : BufTy).Contents (Elt F)),
    StableHlo.unary main_arg13 main_v277 (broadcastInDim S1x4096 ![1] bcast_S4096_S1x4096_1 : (⟨S4096, .f32⟩ : BufTy).Contents (Elt F) → (⟨S1x4096, .f32⟩ : BufTy).Contents (Elt F)),
    StableHlo.unary main_v277 main_v278 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v276 main_v278 main_v279 (addf : (⟨S16384x4096, .f32⟩ : BufTy).Contents (Elt F) → (⟨S16384x4096, .f32⟩ : BufTy).Contents (Elt F) → (⟨S16384x4096, .f32⟩ : BufTy).Contents (Elt F)) ]

set_option maxRecDepth 4096 in
set_option maxHeartbeats 4000000 in
/-- The window is that straight line: the called functions' bodies unfolded at their calls, sequencing reassociated. -/
theorem part5_eq (c : Dev nD) : main_part5 (F := F) c = seq win5 := by
  simp only [main_part5, fn_relu.body, seq, bind_assoc, pure_bind] <;> rfl

end Cert.ReferenceIdeal.RefSide

end
-- ==== Proof.RefOpsEnc.lean ====
/-
  The reference's host operations of the encoder (the hidden layer, the three heads, the batch mean of the flow parameters, the latent start), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 34 operations, in order. -/
abbrev opsEnc : List (HloOp τ sig (Elt F)) :=
  [
    StableHlo.unary main_arg2 main_v0 ((transpose S4096x400 [1, 0] · transposes_S400x4096_S4096x400_1_0) : (⟨S400x4096, .f32⟩ : BufTy).Contents (Elt F) → (⟨S4096x400, .f32⟩ : BufTy).Contents (Elt F)),
    StableHlo.binary main_arg0 main_v0 main_v1 ((fun l r => Host.dotGeneral dot_S16384x4096_S4096x400_S16384x400_1_0_0_1_n_n none l r) : (⟨S16384x4096, .f32⟩ : BufTy).Contents (Elt F) → (⟨S4096x400, .f32⟩ : BufTy).Contents (Elt F) → (⟨S16384x400, .f32⟩ : BufTy).Contents (Elt F)),
    StableHlo.unary main_arg3 main_v2 (broadcastInDim S1x400 ![1] bcast_S400_S1x400_1 : (⟨S400, .f32⟩ : BufTy).Contents (Elt F) → (⟨S1x400, .f32⟩ : BufTy).Contents (Elt F)),
    StableHlo.unary main_v2 main_v3 (broadcastInDim S16384x400 ![0, 1] bcast_S1x400_S16384x400_0_1 : (⟨S1x400, .f32⟩ : BufTy).Contents (Elt F) → (⟨S16384x400, .f32⟩ : BufTy).Contents (Elt F)),
    StableHlo.binary main_v1 main_v3 main_v4 (addf : (⟨S16384x400, .f32⟩ : BufTy).Contents (Elt F) → (⟨S16384x400, .f32⟩ : BufTy).Contents (Elt F) → (⟨S16384x400, .f32⟩ : BufTy).Contents (Elt F)),
    StableHlo.TRef.nullary main_call0.cst (constant S_ .f32 0x00000000#32),
    StableHlo.TRef.unary main_call0.cst main_call0.v0 (broadcastInDim S16384x400 ![] bcast_S_S16384x400),
    StableHlo.TRef.binary (.of main_v4) main_call0.v0 main_call0.v1 maximumf,
    StableHlo.unary main_arg4 main_v6 ((transpose S400x64 [1, 0] · transposes_S64x400_S400x64_1_0) : (⟨S64x400, .f32⟩ : BufTy).Contents (Elt F) → (⟨S400x64, .f32⟩ : BufTy).Contents (Elt F)),
    StableHlo.binary main_v5 main_v6 main_v7 ((fun l r => Host.dotGeneral dot_S16384x400_S400x64_S16384x64_1_0_0_1_n_n none l r) : (⟨S16384x400, .f32⟩ : BufTy).Contents (Elt F) → (⟨S400x64, .f32⟩ : BufTy).Contents (Elt F) → (⟨S16384x64, .f32⟩ : BufTy).Contents (Elt F)),
    StableHlo.unary main_arg5 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S16384x64 ![0, 1] bcast_S1x64_S16384x64_0_1 : (⟨S1x64, .f32⟩ : BufTy).Contents (Elt F) → (⟨S16384x64, .f32⟩ : BufTy).Contents (Elt F)),
    StableHlo.binary main_v7 main_v9 main_v10 (addf : (⟨S16384x64, .f32⟩ : BufTy).Contents (Elt F) → (⟨S16384x64, .f32⟩ : BufTy).Contents (Elt F) → (⟨S16384x64, .f32⟩ : BufTy).Contents (Elt F)),
    StableHlo.unary main_arg6 main_v11 ((transpose S400x64 [1, 0] · transposes_S64x400_S400x64_1_0) : (⟨S64x400, .f32⟩ : BufTy).Contents (Elt F) → (⟨S400x64, .f32⟩ : BufTy).Contents (Elt F)),
    StableHlo.binary main_v5 main_v11 main_v12 ((fun l r => Host.dotGeneral dot_S16384x400_S400x64_S16384x64_1_0_0_1_n_n none l r) : (⟨S16384x400, .f32⟩ : BufTy).Contents (Elt F) → (⟨S400x64, .f32⟩ : BufTy).Contents (Elt F) → (⟨S16384x64, .f32⟩ : BufTy).Contents (Elt F)),
    StableHlo.unary main_arg7 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S16384x64 ![0, 1] bcast_S1x64_S16384x64_0_1 : (⟨S1x64, .f32⟩ : BufTy).Contents (Elt F) → (⟨S16384x64, .f32⟩ : BufTy).Contents (Elt F)),
    StableHlo.binary main_v12 main_v14 main_v15 (addf : (⟨S16384x64, .f32⟩ : BufTy).Contents (Elt F) → (⟨S16384x64, .f32⟩ : BufTy).Contents (Elt F) → (⟨S16384x64, .f32⟩ : BufTy).Contents (Elt F)),
    StableHlo.unary main_arg8 main_v16 ((transpose S400x3520 [1, 0] · transposes_S3520x400_S400x3520_1_0) : (⟨S3520x400, .f32⟩ : BufTy).Contents (Elt F) → (⟨S400x3520, .f32⟩ : BufTy).Contents (Elt F)),
    StableHlo.binary main_v5 main_v16 main_v17 ((fun l r => Host.dotGeneral dot_S16384x400_S400x3520_S16384x3520_1_0_0_1_n_n none l r) : (⟨S16384x400, .f32⟩ : BufTy).Contents (Elt F) → (⟨S400x3520, .f32⟩ : BufTy).Contents (Elt F) → (⟨S16384x3520, .f32⟩ : BufTy).Contents (Elt F)),
    StableHlo.unary main_arg9 main_v18 (broadcastInDim S1x3520 ![1] bcast_S3520_S1x3520_1 : (⟨S3520, .f32⟩ : BufTy).Contents (Elt F) → (⟨S1x3520, .f32⟩ : BufTy).Contents (Elt F)),
    StableHlo.unary main_v18 main_v19 (broadcastInDim S16384x3520 ![0, 1] bcast_S1x3520_S16384x3520_0_1 : (⟨S1x3520, .f32⟩ : BufTy).Contents (Elt F) → (⟨S16384x3520, .f32⟩ : BufTy).Contents (Elt F)),
    StableHlo.binary main_v17 main_v19 main_v20 (addf : (⟨S16384x3520, .f32⟩ : BufTy).Contents (Elt F) → (⟨S16384x3520, .f32⟩ : BufTy).Contents (Elt F) → (⟨S16384x3520, .f32⟩ : BufTy).Contents (Elt F)),
    StableHlo.nullary main_cst (constant S_ .f32 0x00000000#32),
    StableHlo.binary main_v20 main_cst main_v21 ((fun x v => Host.reduceAdd x v reducesTo_S16384x3520_S3520_d0 h_S_) : (⟨S16384x3520, .f32⟩ : BufTy).Contents (Elt F) → (⟨S_, .f32⟩ : BufTy).Contents (Elt F) → (⟨S3520, .f32⟩ : BufTy).Contents (Elt F)),
    StableHlo.nullary main_cst_0 (constant S_ .f32 0x46800000#32),
    StableHlo.unary main_cst_0 main_v22 (broadcastInDim S3520 ![] bcast_S_S3520 : (⟨S_, .f32⟩ : BufTy).Contents (Elt F) → (⟨S3520, .f32⟩ : BufTy).Contents (Elt F)),
    StableHlo.binary main_v21 main_v22 main_v23 (Host.divf : (⟨S3520, .f32⟩ : BufTy).Contents (Elt F) → (⟨S3520, .f32⟩ : BufTy).Contents (Elt F) → (⟨S3520, .f32⟩ : BufTy).Contents (Elt F)),
    StableHlo.nullary main_cst_1 (constant S_ .f32 0x3F000000#32),
    StableHlo.unary main_cst_1 main_v24 (broadcastInDim S16384x64 ![] bcast_S_S16384x64 : (⟨S_, .f32⟩ : BufTy).Contents (Elt F) → (⟨S16384x64, .f32⟩ : BufTy).Contents (Elt F)),
    StableHlo.binary main_v24 main_v15 main_v25 (mulf : (⟨S16384x64, .f32⟩ : BufTy).Contents (Elt F) → (⟨S16384x64, .f32⟩ : BufTy).Contents (Elt F) → (⟨S16384x64, .f32⟩ : BufTy).Contents (Elt F)),
    StableHlo.unary main_v25 main_v26 (Host.exp : (⟨S16384x64, .f32⟩ : BufTy).Contents (Elt F) → (⟨S16384x64, .f32⟩ : BufTy).Contents (Elt F)),
    StableHlo.binary main_arg1 main_v26 main_v27 (mulf : (⟨S16384x64, .f32⟩ : BufTy).Contents (Elt F) → (⟨S16384x64, .f32⟩ : BufTy).Contents (Elt F) → (⟨S16384x64, .f32⟩ : BufTy).Contents (Elt F)),
    StableHlo.binary main_v27 main_v10 main_v28 (addf : (⟨S16384x64, .f32⟩ : BufTy).Contents (Elt F) → (⟨S16384x64, .f32⟩ : BufTy).Contents (Elt F) → (⟨S16384x64, .f32⟩ : BufTy).Contents (Elt F)) ]

theorem opsEnc_sub : (opsEnc : List (HloOp τ sig (Elt F))).Forall fun op => op.bufs ⊆ tcRefs τ sig :=
  ⟨
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., unary_bufs_sub ..,
    binary_bufs_sub .., unary_bufs_sub .., binary_bufs_sub .., binary_bufs_sub ..⟩

theorem opsEnc_fresh : ∀ op ∈ (opsEnc : List (HloOp τ sig (Elt F))), op.fresh = ∅ := by
  intro _ h; (repeat (cases h with | head => rfl | tail _ h => ?_)); exact nomatch h

/-- The references the line writes. -/
abbrev wEnc : List (Ref sig .tc) :=
  [
    main_v0, main_v1, main_v2, main_v3, main_v4, main_call0_cst, main_call0_v0, main_v5,
    main_v6, main_v7, main_v8, main_v9, main_v10, main_v11, main_v12, main_v13,
    main_v14, main_v15, main_v16, main_v17, main_v18, main_v19, main_v20, main_cst,
    main_v21, main_cst_0, main_v22, main_v23, main_cst_1, main_v24, main_v25, main_v26,
    main_v27, main_v28 ]

theorem opsEnc_writes : (opsEnc : List (HloOp τ sig (Elt F))).Forall fun op => op.writes ⊆ (wEnc.map (Proc.devRef (τ := τ) .tc)).toFinset :=
  ⟨
    writes_sub main_v0 rfl (by decide),
    writes_sub main_v1 rfl (by decide),
    writes_sub main_v2 rfl (by decide),
    writes_sub main_v3 rfl (by decide),
    writes_sub main_v4 rfl (by decide),
    writes_sub main_call0_cst rfl (by decide),
    writes_sub main_call0_v0 rfl (by decide),
    writes_sub main_v5 rfl (by decide),
    writes_sub main_v6 rfl (by decide),
    writes_sub main_v7 rfl (by decide),
    writes_sub main_v8 rfl (by decide),
    writes_sub main_v9 rfl (by decide),
    writes_sub main_v10 rfl (by decide),
    writes_sub main_v11 rfl (by decide),
    writes_sub main_v12 rfl (by decide),
    writes_sub main_v13 rfl (by decide),
    writes_sub main_v14 rfl (by decide),
    writes_sub main_v15 rfl (by decide),
    writes_sub main_v16 rfl (by decide),
    writes_sub main_v17 rfl (by decide),
    writes_sub main_v18 rfl (by decide),
    writes_sub main_v19 rfl (by decide),
    writes_sub main_v20 rfl (by decide),
    writes_sub main_cst rfl (by decide),
    writes_sub main_v21 rfl (by decide),
    writes_sub main_cst_0 rfl (by decide),
    writes_sub main_v22 rfl (by decide),
    writes_sub main_v23 rfl (by decide),
    writes_sub main_cst_1 rfl (by decide),
    writes_sub main_v24 rfl (by decide),
    writes_sub main_v25 rfl (by decide),
    writes_sub main_v26 rfl (by decide),
    writes_sub main_v27 rfl (by decide),
    writes_sub main_v28 rfl (by decide)⟩

/-- A reference the line does not write keeps its contents. -/
theorem opsEnc_keep (V : Valuation τ sig (Elt F)) {r : Ref sig .tc} (hr : r ∉ wEnc) :
    after opsEnc V (Proc.devRef .tc r) = V (Proc.devRef .tc r) :=
  after_of_writes_sub opsEnc V opsEnc_writes hr

end Cert.ReferenceIdeal.RefSide

end
-- ==== Proof.RefOpsS0.lean ====
/-
  The reference's host operations of Sylvester step 0 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS0 : List (HloOp τ sig (Elt F)) :=
  [
    StableHlo.unary main_v23 main_v29 ((extractStridedSlice S440 ![0] · slices_S3520_S440_0) : (⟨S3520, .f32⟩ : BufTy).Contents (Elt F) → (⟨S440, .f32⟩ : BufTy).Contents (Elt F)),
    StableHlo.unary main_v29 main_v30 ((extractStridedSlice S400 ![0] · slices_S440_S400_0) : (⟨S440, .f32⟩ : BufTy).Contents (Elt F) → (⟨S400, .f32⟩ : BufTy).Contents (Elt F)),
    StableHlo.reshape main_v30 main_v31 rfl shapeCasts_S400_S20x20,
    StableHlo.TRef.nullary main_call1.v0 (iotaInDim S20x20 32 0),
    StableHlo.TRef.nullary main_call1.c (constantI S_ 32 4294967295#32),
    StableHlo.TRef.unary main_call1.c main_call1.v1 (broadcastInDim S20x20 ![] bcast_S_S20x20),
    StableHlo.TRef.binary main_call1.v0 main_call1.v1 main_call1.v2 addi,
    StableHlo.TRef.nullary main_call1.v3 (iotaInDim S20x20 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S20x20 ![] bcast_S_S20x20),
    StableHlo.TRef.ternary main_call1.v4 main_call1.v5 (.of main_v31) main_call1.v6 select,
    StableHlo.TRef.nullary main_call2.v0 (iotaInDim S20x20 32 0),
    StableHlo.TRef.nullary main_call2.c (constantI S_ 32 0#32),
    StableHlo.TRef.unary main_call2.c main_call2.v1 (broadcastInDim S20x20 ![] bcast_S_S20x20),
    StableHlo.TRef.binary main_call2.v0 main_call2.v1 main_call2.v2 addi,
    StableHlo.TRef.nullary main_call2.v3 (iotaInDim S20x20 32 1),
    StableHlo.TRef.binary main_call2.v2 main_call2.v3 main_call2.v4 (cmpi .sge),
    StableHlo.TRef.nullary main_call2.cst (constant S_ .f32 0x00000000#32),
    StableHlo.TRef.unary main_call2.cst main_call2.v5 (broadcastInDim S20x20 ![] bcast_S_S20x20),
    StableHlo.TRef.ternary main_call2.v4 (.of main_v31) main_call2.v5 main_call2.v6 select,
    StableHlo.unary main_v32 main_v34 ((transpose S20x20 [1, 0] · transposes_S20x20_S20x20_1_0) : (⟨S20x20, .f32⟩ : BufTy).Contents (Elt F) → (⟨S20x20, .f32⟩ : BufTy).Contents (Elt F)),
    StableHlo.unary main_v29 main_v35 ((extractStridedSlice S20 ![400] · slices_S440_S20_400) : (⟨S440, .f32⟩ : BufTy).Contents (Elt F) → (⟨S20, .f32⟩ : BufTy).Contents (Elt F)),
    StableHlo.unary main_v29 main_v36 ((extractStridedSlice S20 ![420] · slices_S440_S20_420) : (⟨S440, .f32⟩ : BufTy).Contents (Elt F) → (⟨S20, .f32⟩ : BufTy).Contents (Elt F)),
    StableHlo.nullary main_v37 (iotaInDim S20x20 32 0),
    StableHlo.nullary main_v38 (iotaInDim S20x20 32 1),
    StableHlo.nullary main_c (constantI S_ 32 0#32),
    StableHlo.unary main_c main_v39 (broadcastInDim S20x20 ![] bcast_S_S20x20 : (⟨S_, .i32⟩ : BufTy).Contents (Elt F) → (⟨S20x20, .i32⟩ : BufTy).Contents (Elt F)),
    StableHlo.binary main_v37 main_v39 main_v40 (addi : (⟨S20x20, .i32⟩ : BufTy).Contents (Elt F) → (⟨S20x20, .i32⟩ : BufTy).Contents (Elt F) → (⟨S20x20, .i32⟩ : BufTy).Contents (Elt F)),
    StableHlo.binary main_v40 main_v38 main_v41 (cmpi .eq : (⟨S20x20, .i32⟩ : BufTy).Contents (Elt F) → (⟨S20x20, .i32⟩ : BufTy).Contents (Elt F) → (⟨S20x20, .i1⟩ : BufTy).Contents (Elt F)),
    StableHlo.unary main_v41 main_v42 (uitofp .f32 : (⟨S20x20, .i1⟩ : BufTy).Contents (Elt F) → (⟨S20x20, .f32⟩ : BufTy).Contents (Elt F)),
    StableHlo.nullary main_cst_2 (constant S_ .f32 0x3F800000#32),
    StableHlo.unary main_cst_2 main_v43 (broadcastInDim S20x20 ![] bcast_S_S20x20 : (⟨S_, .f32⟩ : BufTy).Contents (Elt F) → (⟨S20x20, .f32⟩ : BufTy).Contents (Elt F)),
    StableHlo.binary main_v43 main_v42 main_v44 (subf : (⟨S20x20, .f32⟩ : BufTy).Contents (Elt F) → (⟨S20x20, .f32⟩ : BufTy).Contents (Elt F) → (⟨S20x20, .f32⟩ : BufTy).Contents (Elt F)),
    StableHlo.binary main_v33 main_v44 main_v45 (mulf : (⟨S20x20, .f32⟩ : BufTy).Contents (Elt F) → (⟨S20x20, .f32⟩ : BufTy).Contents (Elt F) → (⟨S20x20, .f32⟩ : BufTy).Contents (Elt F)),
    StableHlo.TRef.nullary main_call3.cst (constant S_ .f32 0x00000000#32),
    StableHlo.TRef.binary (.of main_v35) main_call3.cst main_call3.v0 (fun x v => pad S20 ![0] ![0] ![0] x v pads_S20_S20_000 h_S_),
    StableHlo.TRef.nullary main_call3.v1 (iotaInDim S20x20 32 0),
    StableHlo.TRef.nullary main_call3.v2 (iotaInDim S20x20 32 1),
    StableHlo.TRef.nullary main_call3.c (constantI S_ 32 0#32),
    StableHlo.TRef.unary main_call3.c main_call3.v3 (broadcastInDim S20x20 ![] bcast_S_S20x20),
    StableHlo.TRef.binary main_call3.v1 main_call3.v3 main_call3.v4 addi,
    StableHlo.TRef.binary main_call3.v4 main_call3.v2 main_call3.v5 (cmpi .eq),
    StableHlo.TRef.unary main_call3.v0 main_call3.v6 (broadcastInDim S20x1 ![0] bcast_S20_S20x1_0),
    StableHlo.TRef.nullary main_call3.cst_0 (constant S_ .f32 0x00000000#32),
    StableHlo.TRef.unary main_call3.v6 main_call3.call0.v0 (broadcastInDim S20x20 ![0, 1] bcast_S20x1_S20x20_0_1),
    StableHlo.TRef.unary main_call3.cst_0 main_call3.call0.v1 (broadcastInDim S20x20 ![] bcast_S_S20x20),
    StableHlo.TRef.ternary main_call3.v5 main_call3.call0.v0 main_call3.call0.v1 main_call3.call0.v2 select,
    StableHlo.binary main_v45 main_v46 main_v47 (addf : (⟨S20x20, .f32⟩ : BufTy).Contents (Elt F) → (⟨S20x20, .f32⟩ : BufTy).Contents (Elt F) → (⟨S20x20, .f32⟩ : BufTy).Contents (Elt F)),
    StableHlo.unary main_v28 main_v48 ((extractStridedSlice S16384x20 ![0, 0] · slices_S16384x64_S16384x20_0_0) : (⟨S16384x64, .f32⟩ : BufTy).Contents (Elt F) → (⟨S16384x20, .f32⟩ : BufTy).Contents (Elt F)),
    StableHlo.unary main_v47 main_v49 ((transpose S20x20 [1, 0] · transposes_S20x20_S20x20_1_0) : (⟨S20x20, .f32⟩ : BufTy).Contents (Elt F) → (⟨S20x20, .f32⟩ : BufTy).Contents (Elt F)),
    StableHlo.binary main_v48 main_v49 main_v50 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v36 main_v51 (broadcastInDim S1x20 ![1] bcast_S20_S1x20_1 : (⟨S20, .f32⟩ : BufTy).Contents (Elt F) → (⟨S1x20, .f32⟩ : BufTy).Contents (Elt F)),
    StableHlo.unary main_v51 main_v52 (broadcastInDim S16384x20 ![0, 1] bcast_S1x20_S16384x20_0_1 : (⟨S1x20, .f32⟩ : BufTy).Contents (Elt F) → (⟨S16384x20, .f32⟩ : BufTy).Contents (Elt F)),
    StableHlo.binary main_v50 main_v52 main_v53 (addf : (⟨S16384x20, .f32⟩ : BufTy).Contents (Elt F) → (⟨S16384x20, .f32⟩ : BufTy).Contents (Elt F) → (⟨S16384x20, .f32⟩ : BufTy).Contents (Elt F)),
    StableHlo.unary main_v53 main_v54 (Host.tanh : (⟨S16384x20, .f32⟩ : BufTy).Contents (Elt F) → (⟨S16384x20, .f32⟩ : BufTy).Contents (Elt F)),
    StableHlo.unary main_v34 main_v55 ((transpose S20x20 [1, 0] · transposes_S20x20_S20x20_1_0) : (⟨S20x20, .f32⟩ : BufTy).Contents (Elt F) → (⟨S20x20, .f32⟩ : BufTy).Contents (Elt F)),
    StableHlo.binary main_v54 main_v55 main_v56 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_3 (constantI S_ 32 0#32),
    StableHlo.unary main_c_3 main_v57 (broadcastInDim S1 ![] bcast_S_S1 : (⟨S_, .i32⟩ : BufTy).Contents (Elt F) → (⟨S1, .i32⟩ : BufTy).Contents (Elt F)),
    StableHlo.ternary main_v28 main_v57 main_v56 main_v58 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS0_sub : (opsS0 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS0_fresh : ∀ op ∈ (opsS0 : List (HloOp τ sig (Elt F))), op.fresh = ∅ := by
  intro _ h; (repeat (cases h with | head => rfl | tail _ h => ?_)); exact nomatch h

/-- The references the line writes. -/
abbrev wS0 : List (Ref sig .tc) :=
  [
    main_v29, main_v30, main_v31, main_call1_v0, main_call1_c, main_call1_v1, main_call1_v2, main_call1_v3,
    main_call1_v4, main_call1_cst, main_call1_v5, main_v32, main_call2_v0, main_call2_c, main_call2_v1, main_call2_v2,
    main_call2_v3, main_call2_v4, main_call2_cst, main_call2_v5, main_v33, main_v34, main_v35, main_v36,
    main_v37, main_v38, main_c, main_v39, main_v40, main_v41, main_v42, main_cst_2,
    main_v43, main_v44, main_v45, main_call3_cst, main_call3_v0, main_call3_v1, main_call3_v2, main_call3_c,
    main_call3_v3, main_call3_v4, main_call3_v5, main_call3_v6, main_call3_cst_0, main_call3_call0_v0, main_call3_call0_v1, main_v46,
    main_v47, main_v48, main_v49, main_v50, main_v51, main_v52, main_v53, main_v54,
    main_v55, main_v56, main_c_3, main_v57, main_v58 ]

theorem opsS0_writes : (opsS0 : List (HloOp τ sig (Elt F))).Forall fun op => op.writes ⊆ (wS0.map (Proc.devRef (τ := τ) .tc)).toFinset :=
  ⟨
    writes_sub main_v29 rfl (by decide),
    writes_sub main_v30 rfl (by decide),
    writes_sub main_v31 rfl (by decide),
    writes_sub main_call1_v0 rfl (by decide),
    writes_sub main_call1_c rfl (by decide),
    writes_sub main_call1_v1 rfl (by decide),
    writes_sub main_call1_v2 rfl (by decide),
    writes_sub main_call1_v3 rfl (by decide),
    writes_sub main_call1_v4 rfl (by decide),
    writes_sub main_call1_cst rfl (by decide),
    writes_sub main_call1_v5 rfl (by decide),
    writes_sub main_v32 rfl (by decide),
    writes_sub main_call2_v0 rfl (by decide),
    writes_sub main_call2_c rfl (by decide),
    writes_sub main_call2_v1 rfl (by decide),
    writes_sub main_call2_v2 rfl (by decide),
    writes_sub main_call2_v3 rfl (by decide),
    writes_sub main_call2_v4 rfl (by decide),
    writes_sub main_call2_cst rfl (by decide),
    writes_sub main_call2_v5 rfl (by decide),
    writes_sub main_v33 rfl (by decide),
    writes_sub main_v34 rfl (by decide),
    writes_sub main_v35 rfl (by decide),
    writes_sub main_v36 rfl (by decide),
    writes_sub main_v37 rfl (by decide),
    writes_sub main_v38 rfl (by decide),
    writes_sub main_c rfl (by decide),
    writes_sub main_v39 rfl (by decide),
    writes_sub main_v40 rfl (by decide),
    writes_sub main_v41 rfl (by decide),
    writes_sub main_v42 rfl (by decide),
    writes_sub main_cst_2 rfl (by decide),
    writes_sub main_v43 rfl (by decide),
    writes_sub main_v44 rfl (by decide),
    writes_sub main_v45 rfl (by decide),
    writes_sub main_call3_cst rfl (by decide),
    writes_sub main_call3_v0 rfl (by decide),
    writes_sub main_call3_v1 rfl (by decide),
    writes_sub main_call3_v2 rfl (by decide),
    writes_sub main_call3_c rfl (by decide),
    writes_sub main_call3_v3 rfl (by decide),
    writes_sub main_call3_v4 rfl (by decide),
    writes_sub main_call3_v5 rfl (by decide),
    writes_sub main_call3_v6 rfl (by decide),
    writes_sub main_call3_cst_0 rfl (by decide),
    writes_sub main_call3_call0_v0 rfl (by decide),
    writes_sub main_call3_call0_v1 rfl (by decide),
    writes_sub main_v46 rfl (by decide),
    writes_sub main_v47 rfl (by decide),
    writes_sub main_v48 rfl (by decide),
    writes_sub main_v49 rfl (by decide),
    writes_sub main_v50 rfl (by decide),
    writes_sub main_v51 rfl (by decide),
    writes_sub main_v52 rfl (by decide),
    writes_sub main_v53 rfl (by decide),
    writes_sub main_v54 rfl (by decide),
    writes_sub main_v55 rfl (by decide),
    writes_sub main_v56 rfl (by decide),
    writes_sub main_c_3 rfl (by decide),
    writes_sub main_v57 rfl (by decide),
    writes_sub main_v58 rfl (by decide)⟩

/-- A reference the line does not write keeps its contents. -/
theorem opsS0_keep (V : Valuation τ sig (Elt F)) {r : Ref sig .tc} (hr : r ∉ wS0) :
    after opsS0 V (Proc.devRef .tc r) = V (Proc.devRef .tc r) :=
  after_of_writes_sub opsS0 V opsS0_writes hr

end Cert.ReferenceIdeal.RefSide

end
-- ==== Proof.RefOpsS1.lean ====
/-
  The reference's host operations of Sylvester step 1 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS1 : List (HloOp τ sig (Elt F)) :=
  [
    StableHlo.unary main_v23 main_v59 ((extractStridedSlice S440 ![440] · slices_S3520_S440_440) : (⟨S3520, .f32⟩ : BufTy).Contents (Elt F) → (⟨S440, .f32⟩ : BufTy).Contents (Elt F)),
    StableHlo.unary main_v59 main_v60 ((extractStridedSlice S400 ![0] · slices_S440_S400_0) : (⟨S440, .f32⟩ : BufTy).Contents (Elt F) → (⟨S400, .f32⟩ : BufTy).Contents (Elt F)),
    StableHlo.reshape main_v60 main_v61 rfl shapeCasts_S400_S20x20,
    StableHlo.TRef.nullary main_call4.v0 (iotaInDim S20x20 32 0),
    StableHlo.TRef.nullary main_call4.c (constantI S_ 32 4294967295#32),
    StableHlo.TRef.unary main_call4.c main_call4.v1 (broadcastInDim S20x20 ![] bcast_S_S20x20),
    StableHlo.TRef.binary main_call4.v0 main_call4.v1 main_call4.v2 addi,
    StableHlo.TRef.nullary main_call4.v3 (iotaInDim S20x20 32 1),
    StableHlo.TRef.binary main_call4.v2 main_call4.v3 main_call4.v4 (cmpi .sge),
    StableHlo.TRef.nullary main_call4.cst (constant S_ .f32 0x00000000#32),
    StableHlo.TRef.unary main_call4.cst main_call4.v5 (broadcastInDim S20x20 ![] bcast_S_S20x20),
    StableHlo.TRef.ternary main_call4.v4 main_call4.v5 (.of main_v61) main_call4.v6 select,
    StableHlo.TRef.nullary main_call5.v0 (iotaInDim S20x20 32 0),
    StableHlo.TRef.nullary main_call5.c (constantI S_ 32 0#32),
    StableHlo.TRef.unary main_call5.c main_call5.v1 (broadcastInDim S20x20 ![] bcast_S_S20x20),
    StableHlo.TRef.binary main_call5.v0 main_call5.v1 main_call5.v2 addi,
    StableHlo.TRef.nullary main_call5.v3 (iotaInDim S20x20 32 1),
    StableHlo.TRef.binary main_call5.v2 main_call5.v3 main_call5.v4 (cmpi .sge),
    StableHlo.TRef.nullary main_call5.cst (constant S_ .f32 0x00000000#32),
    StableHlo.TRef.unary main_call5.cst main_call5.v5 (broadcastInDim S20x20 ![] bcast_S_S20x20),
    StableHlo.TRef.ternary main_call5.v4 (.of main_v61) main_call5.v5 main_call5.v6 select,
    StableHlo.unary main_v63 main_v64 ((transpose S20x20 [1, 0] · transposes_S20x20_S20x20_1_0) : (⟨S20x20, .f32⟩ : BufTy).Contents (Elt F) → (⟨S20x20, .f32⟩ : BufTy).Contents (Elt F)),
    StableHlo.unary main_v59 main_v65 ((extractStridedSlice S20 ![400] · slices_S440_S20_400) : (⟨S440, .f32⟩ : BufTy).Contents (Elt F) → (⟨S20, .f32⟩ : BufTy).Contents (Elt F)),
    StableHlo.unary main_v59 main_v66 ((extractStridedSlice S20 ![420] · slices_S440_S20_420) : (⟨S440, .f32⟩ : BufTy).Contents (Elt F) → (⟨S20, .f32⟩ : BufTy).Contents (Elt F)),
    StableHlo.nullary main_v67 (iotaInDim S20x20 32 0),
    StableHlo.nullary main_v68 (iotaInDim S20x20 32 1),
    StableHlo.nullary main_c_4 (constantI S_ 32 0#32),
    StableHlo.unary main_c_4 main_v69 (broadcastInDim S20x20 ![] bcast_S_S20x20 : (⟨S_, .i32⟩ : BufTy).Contents (Elt F) → (⟨S20x20, .i32⟩ : BufTy).Contents (Elt F)),
    StableHlo.binary main_v67 main_v69 main_v70 (addi : (⟨S20x20, .i32⟩ : BufTy).Contents (Elt F) → (⟨S20x20, .i32⟩ : BufTy).Contents (Elt F) → (⟨S20x20, .i32⟩ : BufTy).Contents (Elt F)),
    StableHlo.binary main_v70 main_v68 main_v71 (cmpi .eq : (⟨S20x20, .i32⟩ : BufTy).Contents (Elt F) → (⟨S20x20, .i32⟩ : BufTy).Contents (Elt F) → (⟨S20x20, .i1⟩ : BufTy).Contents (Elt F)),
    StableHlo.unary main_v71 main_v72 (uitofp .f32 : (⟨S20x20, .i1⟩ : BufTy).Contents (Elt F) → (⟨S20x20, .f32⟩ : BufTy).Contents (Elt F)),
    StableHlo.nullary main_cst_5 (constant S_ .f32 0x3F800000#32),
    StableHlo.unary main_cst_5 main_v73 (broadcastInDim S20x20 ![] bcast_S_S20x20 : (⟨S_, .f32⟩ : BufTy).Contents (Elt F) → (⟨S20x20, .f32⟩ : BufTy).Contents (Elt F)),
    StableHlo.binary main_v73 main_v72 main_v74 (subf : (⟨S20x20, .f32⟩ : BufTy).Contents (Elt F) → (⟨S20x20, .f32⟩ : BufTy).Contents (Elt F) → (⟨S20x20, .f32⟩ : BufTy).Contents (Elt F)),
    StableHlo.binary main_v64 main_v74 main_v75 (mulf : (⟨S20x20, .f32⟩ : BufTy).Contents (Elt F) → (⟨S20x20, .f32⟩ : BufTy).Contents (Elt F) → (⟨S20x20, .f32⟩ : BufTy).Contents (Elt F)),
    StableHlo.TRef.nullary main_call6.cst (constant S_ .f32 0x00000000#32),
    StableHlo.TRef.binary (.of main_v65) main_call6.cst main_call6.v0 (fun x v => pad S20 ![0] ![0] ![0] x v pads_S20_S20_000 h_S_),
    StableHlo.TRef.nullary main_call6.v1 (iotaInDim S20x20 32 0),
    StableHlo.TRef.nullary main_call6.v2 (iotaInDim S20x20 32 1),
    StableHlo.TRef.nullary main_call6.c (constantI S_ 32 0#32),
    StableHlo.TRef.unary main_call6.c main_call6.v3 (broadcastInDim S20x20 ![] bcast_S_S20x20),
    StableHlo.TRef.binary main_call6.v1 main_call6.v3 main_call6.v4 addi,
    StableHlo.TRef.binary main_call6.v4 main_call6.v2 main_call6.v5 (cmpi .eq),
    StableHlo.TRef.unary main_call6.v0 main_call6.v6 (broadcastInDim S20x1 ![0] bcast_S20_S20x1_0),
    StableHlo.TRef.nullary main_call6.cst_0 (constant S_ .f32 0x00000000#32),
    StableHlo.TRef.unary main_call6.v6 main_call6.call0.v0 (broadcastInDim S20x20 ![0, 1] bcast_S20x1_S20x20_0_1),
    StableHlo.TRef.unary main_call6.cst_0 main_call6.call0.v1 (broadcastInDim S20x20 ![] bcast_S_S20x20),
    StableHlo.TRef.ternary main_call6.v5 main_call6.call0.v0 main_call6.call0.v1 main_call6.call0.v2 select,
    StableHlo.binary main_v75 main_v76 main_v77 (addf : (⟨S20x20, .f32⟩ : BufTy).Contents (Elt F) → (⟨S20x20, .f32⟩ : BufTy).Contents (Elt F) → (⟨S20x20, .f32⟩ : BufTy).Contents (Elt F)),
    StableHlo.unary main_v58 main_v78 ((extractStridedSlice S16384x20 ![0, 0] · slices_S16384x64_S16384x20_0_0) : (⟨S16384x64, .f32⟩ : BufTy).Contents (Elt F) → (⟨S16384x20, .f32⟩ : BufTy).Contents (Elt F)),
    StableHlo.unary main_v77 main_v79 ((transpose S20x20 [1, 0] · transposes_S20x20_S20x20_1_0) : (⟨S20x20, .f32⟩ : BufTy).Contents (Elt F) → (⟨S20x20, .f32⟩ : BufTy).Contents (Elt F)),
    StableHlo.binary main_v78 main_v79 main_v80 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v66 main_v81 (broadcastInDim S1x20 ![1] bcast_S20_S1x20_1 : (⟨S20, .f32⟩ : BufTy).Contents (Elt F) → (⟨S1x20, .f32⟩ : BufTy).Contents (Elt F)),
    StableHlo.unary main_v81 main_v82 (broadcastInDim S16384x20 ![0, 1] bcast_S1x20_S16384x20_0_1 : (⟨S1x20, .f32⟩ : BufTy).Contents (Elt F) → (⟨S16384x20, .f32⟩ : BufTy).Contents (Elt F)),
    StableHlo.binary main_v80 main_v82 main_v83 (addf : (⟨S16384x20, .f32⟩ : BufTy).Contents (Elt F) → (⟨S16384x20, .f32⟩ : BufTy).Contents (Elt F) → (⟨S16384x20, .f32⟩ : BufTy).Contents (Elt F)),
    StableHlo.unary main_v83 main_v84 (Host.tanh : (⟨S16384x20, .f32⟩ : BufTy).Contents (Elt F) → (⟨S16384x20, .f32⟩ : BufTy).Contents (Elt F)),
    StableHlo.unary main_v62 main_v85 ((transpose S20x20 [1, 0] · transposes_S20x20_S20x20_1_0) : (⟨S20x20, .f32⟩ : BufTy).Contents (Elt F) → (⟨S20x20, .f32⟩ : BufTy).Contents (Elt F)),
    StableHlo.binary main_v84 main_v85 main_v86 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_6 (constantI S_ 32 0#32),
    StableHlo.unary main_c_6 main_v87 (broadcastInDim S1 ![] bcast_S_S1 : (⟨S_, .i32⟩ : BufTy).Contents (Elt F) → (⟨S1, .i32⟩ : BufTy).Contents (Elt F)),
    StableHlo.ternary main_v58 main_v87 main_v86 main_v88 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS1_sub : (opsS1 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS1_fresh : ∀ op ∈ (opsS1 : List (HloOp τ sig (Elt F))), op.fresh = ∅ := by
  intro _ h; (repeat (cases h with | head => rfl | tail _ h => ?_)); exact nomatch h

/-- The references the line writes. -/
abbrev wS1 : List (Ref sig .tc) :=
  [
    main_v59, main_v60, main_v61, main_call4_v0, main_call4_c, main_call4_v1, main_call4_v2, main_call4_v3,
    main_call4_v4, main_call4_cst, main_call4_v5, main_v62, main_call5_v0, main_call5_c, main_call5_v1, main_call5_v2,
    main_call5_v3, main_call5_v4, main_call5_cst, main_call5_v5, main_v63, main_v64, main_v65, main_v66,
    main_v67, main_v68, main_c_4, main_v69, main_v70, main_v71, main_v72, main_cst_5,
    main_v73, main_v74, main_v75, main_call6_cst, main_call6_v0, main_call6_v1, main_call6_v2, main_call6_c,
    main_call6_v3, main_call6_v4, main_call6_v5, main_call6_v6, main_call6_cst_0, main_call6_call0_v0, main_call6_call0_v1, main_v76,
    main_v77, main_v78, main_v79, main_v80, main_v81, main_v82, main_v83, main_v84,
    main_v85, main_v86, main_c_6, main_v87, main_v88 ]

theorem opsS1_writes : (opsS1 : List (HloOp τ sig (Elt F))).Forall fun op => op.writes ⊆ (wS1.map (Proc.devRef (τ := τ) .tc)).toFinset :=
  ⟨
    writes_sub main_v59 rfl (by decide),
    writes_sub main_v60 rfl (by decide),
    writes_sub main_v61 rfl (by decide),
    writes_sub main_call4_v0 rfl (by decide),
    writes_sub main_call4_c rfl (by decide),
    writes_sub main_call4_v1 rfl (by decide),
    writes_sub main_call4_v2 rfl (by decide),
    writes_sub main_call4_v3 rfl (by decide),
    writes_sub main_call4_v4 rfl (by decide),
    writes_sub main_call4_cst rfl (by decide),
    writes_sub main_call4_v5 rfl (by decide),
    writes_sub main_v62 rfl (by decide),
    writes_sub main_call5_v0 rfl (by decide),
    writes_sub main_call5_c rfl (by decide),
    writes_sub main_call5_v1 rfl (by decide),
    writes_sub main_call5_v2 rfl (by decide),
    writes_sub main_call5_v3 rfl (by decide),
    writes_sub main_call5_v4 rfl (by decide),
    writes_sub main_call5_cst rfl (by decide),
    writes_sub main_call5_v5 rfl (by decide),
    writes_sub main_v63 rfl (by decide),
    writes_sub main_v64 rfl (by decide),
    writes_sub main_v65 rfl (by decide),
    writes_sub main_v66 rfl (by decide),
    writes_sub main_v67 rfl (by decide),
    writes_sub main_v68 rfl (by decide),
    writes_sub main_c_4 rfl (by decide),
    writes_sub main_v69 rfl (by decide),
    writes_sub main_v70 rfl (by decide),
    writes_sub main_v71 rfl (by decide),
    writes_sub main_v72 rfl (by decide),
    writes_sub main_cst_5 rfl (by decide),
    writes_sub main_v73 rfl (by decide),
    writes_sub main_v74 rfl (by decide),
    writes_sub main_v75 rfl (by decide),
    writes_sub main_call6_cst rfl (by decide),
    writes_sub main_call6_v0 rfl (by decide),
    writes_sub main_call6_v1 rfl (by decide),
    writes_sub main_call6_v2 rfl (by decide),
    writes_sub main_call6_c rfl (by decide),
    writes_sub main_call6_v3 rfl (by decide),
    writes_sub main_call6_v4 rfl (by decide),
    writes_sub main_call6_v5 rfl (by decide),
    writes_sub main_call6_v6 rfl (by decide),
    writes_sub main_call6_cst_0 rfl (by decide),
    writes_sub main_call6_call0_v0 rfl (by decide),
    writes_sub main_call6_call0_v1 rfl (by decide),
    writes_sub main_v76 rfl (by decide),
    writes_sub main_v77 rfl (by decide),
    writes_sub main_v78 rfl (by decide),
    writes_sub main_v79 rfl (by decide),
    writes_sub main_v80 rfl (by decide),
    writes_sub main_v81 rfl (by decide),
    writes_sub main_v82 rfl (by decide),
    writes_sub main_v83 rfl (by decide),
    writes_sub main_v84 rfl (by decide),
    writes_sub main_v85 rfl (by decide),
    writes_sub main_v86 rfl (by decide),
    writes_sub main_c_6 rfl (by decide),
    writes_sub main_v87 rfl (by decide),
    writes_sub main_v88 rfl (by decide)⟩

/-- A reference the line does not write keeps its contents. -/
theorem opsS1_keep (V : Valuation τ sig (Elt F)) {r : Ref sig .tc} (hr : r ∉ wS1) :
    after opsS1 V (Proc.devRef .tc r) = V (Proc.devRef .tc r) :=
  after_of_writes_sub opsS1 V opsS1_writes hr

end Cert.ReferenceIdeal.RefSide

end
-- ==== Proof.RefOpsS2.lean ====
/-
  The reference's host operations of Sylvester step 2 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS2 : List (HloOp τ sig (Elt F)) :=
  [
    StableHlo.unary main_v23 main_v89 ((extractStridedSlice S440 ![880] · slices_S3520_S440_880) : (⟨S3520, .f32⟩ : BufTy).Contents (Elt F) → (⟨S440, .f32⟩ : BufTy).Contents (Elt F)),
    StableHlo.unary main_v89 main_v90 ((extractStridedSlice S400 ![0] · slices_S440_S400_0) : (⟨S440, .f32⟩ : BufTy).Contents (Elt F) → (⟨S400, .f32⟩ : BufTy).Contents (Elt F)),
    StableHlo.reshape main_v90 main_v91 rfl shapeCasts_S400_S20x20,
    StableHlo.TRef.nullary main_call7.v0 (iotaInDim S20x20 32 0),
    StableHlo.TRef.nullary main_call7.c (constantI S_ 32 4294967295#32),
    StableHlo.TRef.unary main_call7.c main_call7.v1 (broadcastInDim S20x20 ![] bcast_S_S20x20),
    StableHlo.TRef.binary main_call7.v0 main_call7.v1 main_call7.v2 addi,
    StableHlo.TRef.nullary main_call7.v3 (iotaInDim S20x20 32 1),
    StableHlo.TRef.binary main_call7.v2 main_call7.v3 main_call7.v4 (cmpi .sge),
    StableHlo.TRef.nullary main_call7.cst (constant S_ .f32 0x00000000#32),
    StableHlo.TRef.unary main_call7.cst main_call7.v5 (broadcastInDim S20x20 ![] bcast_S_S20x20),
    StableHlo.TRef.ternary main_call7.v4 main_call7.v5 (.of main_v91) main_call7.v6 select,
    StableHlo.TRef.nullary main_call8.v0 (iotaInDim S20x20 32 0),
    StableHlo.TRef.nullary main_call8.c (constantI S_ 32 0#32),
    StableHlo.TRef.unary main_call8.c main_call8.v1 (broadcastInDim S20x20 ![] bcast_S_S20x20),
    StableHlo.TRef.binary main_call8.v0 main_call8.v1 main_call8.v2 addi,
    StableHlo.TRef.nullary main_call8.v3 (iotaInDim S20x20 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S20x20 ![] bcast_S_S20x20),
    StableHlo.TRef.ternary main_call8.v4 (.of main_v91) main_call8.v5 main_call8.v6 select,
    StableHlo.unary main_v92 main_v94 ((transpose S20x20 [1, 0] · transposes_S20x20_S20x20_1_0) : (⟨S20x20, .f32⟩ : BufTy).Contents (Elt F) → (⟨S20x20, .f32⟩ : BufTy).Contents (Elt F)),
    StableHlo.unary main_v89 main_v95 ((extractStridedSlice S20 ![400] · slices_S440_S20_400) : (⟨S440, .f32⟩ : BufTy).Contents (Elt F) → (⟨S20, .f32⟩ : BufTy).Contents (Elt F)),
    StableHlo.unary main_v89 main_v96 ((extractStridedSlice S20 ![420] · slices_S440_S20_420) : (⟨S440, .f32⟩ : BufTy).Contents (Elt F) → (⟨S20, .f32⟩ : BufTy).Contents (Elt F)),
    StableHlo.nullary main_v97 (iotaInDim S20x20 32 0),
    StableHlo.nullary main_v98 (iotaInDim S20x20 32 1),
    StableHlo.nullary main_c_7 (constantI S_ 32 0#32),
    StableHlo.unary main_c_7 main_v99 (broadcastInDim S20x20 ![] bcast_S_S20x20 : (⟨S_, .i32⟩ : BufTy).Contents (Elt F) → (⟨S20x20, .i32⟩ : BufTy).Contents (Elt F)),
    StableHlo.binary main_v97 main_v99 main_v100 (addi : (⟨S20x20, .i32⟩ : BufTy).Contents (Elt F) → (⟨S20x20, .i32⟩ : BufTy).Contents (Elt F) → (⟨S20x20, .i32⟩ : BufTy).Contents (Elt F)),
    StableHlo.binary main_v100 main_v98 main_v101 (cmpi .eq : (⟨S20x20, .i32⟩ : BufTy).Contents (Elt F) → (⟨S20x20, .i32⟩ : BufTy).Contents (Elt F) → (⟨S20x20, .i1⟩ : BufTy).Contents (Elt F)),
    StableHlo.unary main_v101 main_v102 (uitofp .f32 : (⟨S20x20, .i1⟩ : BufTy).Contents (Elt F) → (⟨S20x20, .f32⟩ : BufTy).Contents (Elt F)),
    StableHlo.nullary main_cst_8 (constant S_ .f32 0x3F800000#32),
    StableHlo.unary main_cst_8 main_v103 (broadcastInDim S20x20 ![] bcast_S_S20x20 : (⟨S_, .f32⟩ : BufTy).Contents (Elt F) → (⟨S20x20, .f32⟩ : BufTy).Contents (Elt F)),
    StableHlo.binary main_v103 main_v102 main_v104 (subf : (⟨S20x20, .f32⟩ : BufTy).Contents (Elt F) → (⟨S20x20, .f32⟩ : BufTy).Contents (Elt F) → (⟨S20x20, .f32⟩ : BufTy).Contents (Elt F)),
    StableHlo.binary main_v93 main_v104 main_v105 (mulf : (⟨S20x20, .f32⟩ : BufTy).Contents (Elt F) → (⟨S20x20, .f32⟩ : BufTy).Contents (Elt F) → (⟨S20x20, .f32⟩ : BufTy).Contents (Elt F)),
    StableHlo.TRef.nullary main_call9.cst (constant S_ .f32 0x00000000#32),
    StableHlo.TRef.binary (.of main_v95) main_call9.cst main_call9.v0 (fun x v => pad S20 ![0] ![0] ![0] x v pads_S20_S20_000 h_S_),
    StableHlo.TRef.nullary main_call9.v1 (iotaInDim S20x20 32 0),
    StableHlo.TRef.nullary main_call9.v2 (iotaInDim S20x20 32 1),
    StableHlo.TRef.nullary main_call9.c (constantI S_ 32 0#32),
    StableHlo.TRef.unary main_call9.c main_call9.v3 (broadcastInDim S20x20 ![] bcast_S_S20x20),
    StableHlo.TRef.binary main_call9.v1 main_call9.v3 main_call9.v4 addi,
    StableHlo.TRef.binary main_call9.v4 main_call9.v2 main_call9.v5 (cmpi .eq),
    StableHlo.TRef.unary main_call9.v0 main_call9.v6 (broadcastInDim S20x1 ![0] bcast_S20_S20x1_0),
    StableHlo.TRef.nullary main_call9.cst_0 (constant S_ .f32 0x00000000#32),
    StableHlo.TRef.unary main_call9.v6 main_call9.call0.v0 (broadcastInDim S20x20 ![0, 1] bcast_S20x1_S20x20_0_1),
    StableHlo.TRef.unary main_call9.cst_0 main_call9.call0.v1 (broadcastInDim S20x20 ![] bcast_S_S20x20),
    StableHlo.TRef.ternary main_call9.v5 main_call9.call0.v0 main_call9.call0.v1 main_call9.call0.v2 select,
    StableHlo.binary main_v105 main_v106 main_v107 (addf : (⟨S20x20, .f32⟩ : BufTy).Contents (Elt F) → (⟨S20x20, .f32⟩ : BufTy).Contents (Elt F) → (⟨S20x20, .f32⟩ : BufTy).Contents (Elt F)),
    StableHlo.unary main_v88 main_v108 ((extractStridedSlice S16384x20 ![0, 0] · slices_S16384x64_S16384x20_0_0) : (⟨S16384x64, .f32⟩ : BufTy).Contents (Elt F) → (⟨S16384x20, .f32⟩ : BufTy).Contents (Elt F)),
    StableHlo.unary main_v107 main_v109 ((transpose S20x20 [1, 0] · transposes_S20x20_S20x20_1_0) : (⟨S20x20, .f32⟩ : BufTy).Contents (Elt F) → (⟨S20x20, .f32⟩ : BufTy).Contents (Elt F)),
    StableHlo.binary main_v108 main_v109 main_v110 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v96 main_v111 (broadcastInDim S1x20 ![1] bcast_S20_S1x20_1 : (⟨S20, .f32⟩ : BufTy).Contents (Elt F) → (⟨S1x20, .f32⟩ : BufTy).Contents (Elt F)),
    StableHlo.unary main_v111 main_v112 (broadcastInDim S16384x20 ![0, 1] bcast_S1x20_S16384x20_0_1 : (⟨S1x20, .f32⟩ : BufTy).Contents (Elt F) → (⟨S16384x20, .f32⟩ : BufTy).Contents (Elt F)),
    StableHlo.binary main_v110 main_v112 main_v113 (addf : (⟨S16384x20, .f32⟩ : BufTy).Contents (Elt F) → (⟨S16384x20, .f32⟩ : BufTy).Contents (Elt F) → (⟨S16384x20, .f32⟩ : BufTy).Contents (Elt F)),
    StableHlo.unary main_v113 main_v114 (Host.tanh : (⟨S16384x20, .f32⟩ : BufTy).Contents (Elt F) → (⟨S16384x20, .f32⟩ : BufTy).Contents (Elt F)),
    StableHlo.unary main_v94 main_v115 ((transpose S20x20 [1, 0] · transposes_S20x20_S20x20_1_0) : (⟨S20x20, .f32⟩ : BufTy).Contents (Elt F) → (⟨S20x20, .f32⟩ : BufTy).Contents (Elt F)),
    StableHlo.binary main_v114 main_v115 main_v116 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_9 (constantI S_ 32 0#32),
    StableHlo.unary main_c_9 main_v117 (broadcastInDim S1 ![] bcast_S_S1 : (⟨S_, .i32⟩ : BufTy).Contents (Elt F) → (⟨S1, .i32⟩ : BufTy).Contents (Elt F)),
    StableHlo.ternary main_v88 main_v117 main_v116 main_v118 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS2_sub : (opsS2 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS2_fresh : ∀ op ∈ (opsS2 : List (HloOp τ sig (Elt F))), op.fresh = ∅ := by
  intro _ h; (repeat (cases h with | head => rfl | tail _ h => ?_)); exact nomatch h

/-- The references the line writes. -/
abbrev wS2 : List (Ref sig .tc) :=
  [
    main_v89, main_v90, main_v91, main_call7_v0, main_call7_c, main_call7_v1, main_call7_v2, main_call7_v3,
    main_call7_v4, main_call7_cst, main_call7_v5, main_v92, main_call8_v0, main_call8_c, main_call8_v1, main_call8_v2,
    main_call8_v3, main_call8_v4, main_call8_cst, main_call8_v5, main_v93, main_v94, main_v95, main_v96,
    main_v97, main_v98, main_c_7, main_v99, main_v100, main_v101, main_v102, main_cst_8,
    main_v103, main_v104, main_v105, main_call9_cst, main_call9_v0, main_call9_v1, main_call9_v2, main_call9_c,
    main_call9_v3, main_call9_v4, main_call9_v5, main_call9_v6, main_call9_cst_0, main_call9_call0_v0, main_call9_call0_v1, main_v106,
    main_v107, main_v108, main_v109, main_v110, main_v111, main_v112, main_v113, main_v114,
    main_v115, main_v116, main_c_9, main_v117, main_v118 ]

theorem opsS2_writes : (opsS2 : List (HloOp τ sig (Elt F))).Forall fun op => op.writes ⊆ (wS2.map (Proc.devRef (τ := τ) .tc)).toFinset :=
  ⟨
    writes_sub main_v89 rfl (by decide),
    writes_sub main_v90 rfl (by decide),
    writes_sub main_v91 rfl (by decide),
    writes_sub main_call7_v0 rfl (by decide),
    writes_sub main_call7_c rfl (by decide),
    writes_sub main_call7_v1 rfl (by decide),
    writes_sub main_call7_v2 rfl (by decide),
    writes_sub main_call7_v3 rfl (by decide),
    writes_sub main_call7_v4 rfl (by decide),
    writes_sub main_call7_cst rfl (by decide),
    writes_sub main_call7_v5 rfl (by decide),
    writes_sub main_v92 rfl (by decide),
    writes_sub main_call8_v0 rfl (by decide),
    writes_sub main_call8_c rfl (by decide),
    writes_sub main_call8_v1 rfl (by decide),
    writes_sub main_call8_v2 rfl (by decide),
    writes_sub main_call8_v3 rfl (by decide),
    writes_sub main_call8_v4 rfl (by decide),
    writes_sub main_call8_cst rfl (by decide),
    writes_sub main_call8_v5 rfl (by decide),
    writes_sub main_v93 rfl (by decide),
    writes_sub main_v94 rfl (by decide),
    writes_sub main_v95 rfl (by decide),
    writes_sub main_v96 rfl (by decide),
    writes_sub main_v97 rfl (by decide),
    writes_sub main_v98 rfl (by decide),
    writes_sub main_c_7 rfl (by decide),
    writes_sub main_v99 rfl (by decide),
    writes_sub main_v100 rfl (by decide),
    writes_sub main_v101 rfl (by decide),
    writes_sub main_v102 rfl (by decide),
    writes_sub main_cst_8 rfl (by decide),
    writes_sub main_v103 rfl (by decide),
    writes_sub main_v104 rfl (by decide),
    writes_sub main_v105 rfl (by decide),
    writes_sub main_call9_cst rfl (by decide),
    writes_sub main_call9_v0 rfl (by decide),
    writes_sub main_call9_v1 rfl (by decide),
    writes_sub main_call9_v2 rfl (by decide),
    writes_sub main_call9_c rfl (by decide),
    writes_sub main_call9_v3 rfl (by decide),
    writes_sub main_call9_v4 rfl (by decide),
    writes_sub main_call9_v5 rfl (by decide),
    writes_sub main_call9_v6 rfl (by decide),
    writes_sub main_call9_cst_0 rfl (by decide),
    writes_sub main_call9_call0_v0 rfl (by decide),
    writes_sub main_call9_call0_v1 rfl (by decide),
    writes_sub main_v106 rfl (by decide),
    writes_sub main_v107 rfl (by decide),
    writes_sub main_v108 rfl (by decide),
    writes_sub main_v109 rfl (by decide),
    writes_sub main_v110 rfl (by decide),
    writes_sub main_v111 rfl (by decide),
    writes_sub main_v112 rfl (by decide),
    writes_sub main_v113 rfl (by decide),
    writes_sub main_v114 rfl (by decide),
    writes_sub main_v115 rfl (by decide),
    writes_sub main_v116 rfl (by decide),
    writes_sub main_c_9 rfl (by decide),
    writes_sub main_v117 rfl (by decide),
    writes_sub main_v118 rfl (by decide)⟩

/-- A reference the line does not write keeps its contents. -/
theorem opsS2_keep (V : Valuation τ sig (Elt F)) {r : Ref sig .tc} (hr : r ∉ wS2) :
    after opsS2 V (Proc.devRef .tc r) = V (Proc.devRef .tc r) :=
  after_of_writes_sub opsS2 V opsS2_writes hr

end Cert.ReferenceIdeal.RefSide

end
-- ==== Proof.RefOpsS3.lean ====
/-
  The reference's host operations of Sylvester step 3 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS3 : List (HloOp τ sig (Elt F)) :=
  [
    StableHlo.unary main_v23 main_v119 ((extractStridedSlice S440 ![1320] · slices_S3520_S440_1320) : (⟨S3520, .f32⟩ : BufTy).Contents (Elt F) → (⟨S440, .f32⟩ : BufTy).Contents (Elt F)),
    StableHlo.unary main_v119 main_v120 ((extractStridedSlice S400 ![0] · slices_S440_S400_0) : (⟨S440, .f32⟩ : BufTy).Contents (Elt F) → (⟨S400, .f32⟩ : BufTy).Contents (Elt F)),
    StableHlo.reshape main_v120 main_v121 rfl shapeCasts_S400_S20x20,
    StableHlo.TRef.nullary main_call10.v0 (iotaInDim S20x20 32 0),
    StableHlo.TRef.nullary main_call10.c (constantI S_ 32 4294967295#32),
    StableHlo.TRef.unary main_call10.c main_call10.v1 (broadcastInDim S20x20 ![] bcast_S_S20x20),
    StableHlo.TRef.binary main_call10.v0 main_call10.v1 main_call10.v2 addi,
    StableHlo.TRef.nullary main_call10.v3 (iotaInDim S20x20 32 1),
    StableHlo.TRef.binary main_call10.v2 main_call10.v3 main_call10.v4 (cmpi .sge),
    StableHlo.TRef.nullary main_call10.cst (constant S_ .f32 0x00000000#32),
    StableHlo.TRef.unary main_call10.cst main_call10.v5 (broadcastInDim S20x20 ![] bcast_S_S20x20),
    StableHlo.TRef.ternary main_call10.v4 main_call10.v5 (.of main_v121) main_call10.v6 select,
    StableHlo.TRef.nullary main_call11.v0 (iotaInDim S20x20 32 0),
    StableHlo.TRef.nullary main_call11.c (constantI S_ 32 0#32),
    StableHlo.TRef.unary main_call11.c main_call11.v1 (broadcastInDim S20x20 ![] bcast_S_S20x20),
    StableHlo.TRef.binary main_call11.v0 main_call11.v1 main_call11.v2 addi,
    StableHlo.TRef.nullary main_call11.v3 (iotaInDim S20x20 32 1),
    StableHlo.TRef.binary main_call11.v2 main_call11.v3 main_call11.v4 (cmpi .sge),
    StableHlo.TRef.nullary main_call11.cst (constant S_ .f32 0x00000000#32),
    StableHlo.TRef.unary main_call11.cst main_call11.v5 (broadcastInDim S20x20 ![] bcast_S_S20x20),
    StableHlo.TRef.ternary main_call11.v4 (.of main_v121) main_call11.v5 main_call11.v6 select,
    StableHlo.unary main_v123 main_v124 ((transpose S20x20 [1, 0] · transposes_S20x20_S20x20_1_0) : (⟨S20x20, .f32⟩ : BufTy).Contents (Elt F) → (⟨S20x20, .f32⟩ : BufTy).Contents (Elt F)),
    StableHlo.unary main_v119 main_v125 ((extractStridedSlice S20 ![400] · slices_S440_S20_400) : (⟨S440, .f32⟩ : BufTy).Contents (Elt F) → (⟨S20, .f32⟩ : BufTy).Contents (Elt F)),
    StableHlo.unary main_v119 main_v126 ((extractStridedSlice S20 ![420] · slices_S440_S20_420) : (⟨S440, .f32⟩ : BufTy).Contents (Elt F) → (⟨S20, .f32⟩ : BufTy).Contents (Elt F)),
    StableHlo.nullary main_v127 (iotaInDim S20x20 32 0),
    StableHlo.nullary main_v128 (iotaInDim S20x20 32 1),
    StableHlo.nullary main_c_10 (constantI S_ 32 0#32),
    StableHlo.unary main_c_10 main_v129 (broadcastInDim S20x20 ![] bcast_S_S20x20 : (⟨S_, .i32⟩ : BufTy).Contents (Elt F) → (⟨S20x20, .i32⟩ : BufTy).Contents (Elt F)),
    StableHlo.binary main_v127 main_v129 main_v130 (addi : (⟨S20x20, .i32⟩ : BufTy).Contents (Elt F) → (⟨S20x20, .i32⟩ : BufTy).Contents (Elt F) → (⟨S20x20, .i32⟩ : BufTy).Contents (Elt F)),
    StableHlo.binary main_v130 main_v128 main_v131 (cmpi .eq : (⟨S20x20, .i32⟩ : BufTy).Contents (Elt F) → (⟨S20x20, .i32⟩ : BufTy).Contents (Elt F) → (⟨S20x20, .i1⟩ : BufTy).Contents (Elt F)),
    StableHlo.unary main_v131 main_v132 (uitofp .f32 : (⟨S20x20, .i1⟩ : BufTy).Contents (Elt F) → (⟨S20x20, .f32⟩ : BufTy).Contents (Elt F)),
    StableHlo.nullary main_cst_11 (constant S_ .f32 0x3F800000#32),
    StableHlo.unary main_cst_11 main_v133 (broadcastInDim S20x20 ![] bcast_S_S20x20 : (⟨S_, .f32⟩ : BufTy).Contents (Elt F) → (⟨S20x20, .f32⟩ : BufTy).Contents (Elt F)),
    StableHlo.binary main_v133 main_v132 main_v134 (subf : (⟨S20x20, .f32⟩ : BufTy).Contents (Elt F) → (⟨S20x20, .f32⟩ : BufTy).Contents (Elt F) → (⟨S20x20, .f32⟩ : BufTy).Contents (Elt F)),
    StableHlo.binary main_v124 main_v134 main_v135 (mulf : (⟨S20x20, .f32⟩ : BufTy).Contents (Elt F) → (⟨S20x20, .f32⟩ : BufTy).Contents (Elt F) → (⟨S20x20, .f32⟩ : BufTy).Contents (Elt F)),
    StableHlo.TRef.nullary main_call12.cst (constant S_ .f32 0x00000000#32),
    StableHlo.TRef.binary (.of main_v125) main_call12.cst main_call12.v0 (fun x v => pad S20 ![0] ![0] ![0] x v pads_S20_S20_000 h_S_),
    StableHlo.TRef.nullary main_call12.v1 (iotaInDim S20x20 32 0),
    StableHlo.TRef.nullary main_call12.v2 (iotaInDim S20x20 32 1),
    StableHlo.TRef.nullary main_call12.c (constantI S_ 32 0#32),
    StableHlo.TRef.unary main_call12.c main_call12.v3 (broadcastInDim S20x20 ![] bcast_S_S20x20),
    StableHlo.TRef.binary main_call12.v1 main_call12.v3 main_call12.v4 addi,
    StableHlo.TRef.binary main_call12.v4 main_call12.v2 main_call12.v5 (cmpi .eq),
    StableHlo.TRef.unary main_call12.v0 main_call12.v6 (broadcastInDim S20x1 ![0] bcast_S20_S20x1_0),
    StableHlo.TRef.nullary main_call12.cst_0 (constant S_ .f32 0x00000000#32),
    StableHlo.TRef.unary main_call12.v6 main_call12.call0.v0 (broadcastInDim S20x20 ![0, 1] bcast_S20x1_S20x20_0_1),
    StableHlo.TRef.unary main_call12.cst_0 main_call12.call0.v1 (broadcastInDim S20x20 ![] bcast_S_S20x20),
    StableHlo.TRef.ternary main_call12.v5 main_call12.call0.v0 main_call12.call0.v1 main_call12.call0.v2 select,
    StableHlo.binary main_v135 main_v136 main_v137 (addf : (⟨S20x20, .f32⟩ : BufTy).Contents (Elt F) → (⟨S20x20, .f32⟩ : BufTy).Contents (Elt F) → (⟨S20x20, .f32⟩ : BufTy).Contents (Elt F)),
    StableHlo.unary main_v118 main_v138 ((extractStridedSlice S16384x20 ![0, 0] · slices_S16384x64_S16384x20_0_0) : (⟨S16384x64, .f32⟩ : BufTy).Contents (Elt F) → (⟨S16384x20, .f32⟩ : BufTy).Contents (Elt F)),
    StableHlo.unary main_v137 main_v139 ((transpose S20x20 [1, 0] · transposes_S20x20_S20x20_1_0) : (⟨S20x20, .f32⟩ : BufTy).Contents (Elt F) → (⟨S20x20, .f32⟩ : BufTy).Contents (Elt F)),
    StableHlo.binary main_v138 main_v139 main_v140 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v126 main_v141 (broadcastInDim S1x20 ![1] bcast_S20_S1x20_1 : (⟨S20, .f32⟩ : BufTy).Contents (Elt F) → (⟨S1x20, .f32⟩ : BufTy).Contents (Elt F)),
    StableHlo.unary main_v141 main_v142 (broadcastInDim S16384x20 ![0, 1] bcast_S1x20_S16384x20_0_1 : (⟨S1x20, .f32⟩ : BufTy).Contents (Elt F) → (⟨S16384x20, .f32⟩ : BufTy).Contents (Elt F)),
    StableHlo.binary main_v140 main_v142 main_v143 (addf : (⟨S16384x20, .f32⟩ : BufTy).Contents (Elt F) → (⟨S16384x20, .f32⟩ : BufTy).Contents (Elt F) → (⟨S16384x20, .f32⟩ : BufTy).Contents (Elt F)),
    StableHlo.unary main_v143 main_v144 (Host.tanh : (⟨S16384x20, .f32⟩ : BufTy).Contents (Elt F) → (⟨S16384x20, .f32⟩ : BufTy).Contents (Elt F)),
    StableHlo.unary main_v122 main_v145 ((transpose S20x20 [1, 0] · transposes_S20x20_S20x20_1_0) : (⟨S20x20, .f32⟩ : BufTy).Contents (Elt F) → (⟨S20x20, .f32⟩ : BufTy).Contents (Elt F)),
    StableHlo.binary main_v144 main_v145 main_v146 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_12 (constantI S_ 32 0#32),
    StableHlo.unary main_c_12 main_v147 (broadcastInDim S1 ![] bcast_S_S1 : (⟨S_, .i32⟩ : BufTy).Contents (Elt F) → (⟨S1, .i32⟩ : BufTy).Contents (Elt F)),
    StableHlo.ternary main_v118 main_v147 main_v146 main_v148 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS3_sub : (opsS3 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS3_fresh : ∀ op ∈ (opsS3 : List (HloOp τ sig (Elt F))), op.fresh = ∅ := by
  intro _ h; (repeat (cases h with | head => rfl | tail _ h => ?_)); exact nomatch h

/-- The references the line writes. -/
abbrev wS3 : List (Ref sig .tc) :=
  [
    main_v119, main_v120, main_v121, main_call10_v0, main_call10_c, main_call10_v1, main_call10_v2, main_call10_v3,
    main_call10_v4, main_call10_cst, main_call10_v5, main_v122, main_call11_v0, main_call11_c, main_call11_v1, main_call11_v2,
    main_call11_v3, main_call11_v4, main_call11_cst, main_call11_v5, main_v123, main_v124, main_v125, main_v126,
    main_v127, main_v128, main_c_10, main_v129, main_v130, main_v131, main_v132, main_cst_11,
    main_v133, main_v134, main_v135, main_call12_cst, main_call12_v0, main_call12_v1, main_call12_v2, main_call12_c,
    main_call12_v3, main_call12_v4, main_call12_v5, main_call12_v6, main_call12_cst_0, main_call12_call0_v0, main_call12_call0_v1, main_v136,
    main_v137, main_v138, main_v139, main_v140, main_v141, main_v142, main_v143, main_v144,
    main_v145, main_v146, main_c_12, main_v147, main_v148 ]

theorem opsS3_writes : (opsS3 : List (HloOp τ sig (Elt F))).Forall fun op => op.writes ⊆ (wS3.map (Proc.devRef (τ := τ) .tc)).toFinset :=
  ⟨
    writes_sub main_v119 rfl (by decide),
    writes_sub main_v120 rfl (by decide),
    writes_sub main_v121 rfl (by decide),
    writes_sub main_call10_v0 rfl (by decide),
    writes_sub main_call10_c rfl (by decide),
    writes_sub main_call10_v1 rfl (by decide),
    writes_sub main_call10_v2 rfl (by decide),
    writes_sub main_call10_v3 rfl (by decide),
    writes_sub main_call10_v4 rfl (by decide),
    writes_sub main_call10_cst rfl (by decide),
    writes_sub main_call10_v5 rfl (by decide),
    writes_sub main_v122 rfl (by decide),
    writes_sub main_call11_v0 rfl (by decide),
    writes_sub main_call11_c rfl (by decide),
    writes_sub main_call11_v1 rfl (by decide),
    writes_sub main_call11_v2 rfl (by decide),
    writes_sub main_call11_v3 rfl (by decide),
    writes_sub main_call11_v4 rfl (by decide),
    writes_sub main_call11_cst rfl (by decide),
    writes_sub main_call11_v5 rfl (by decide),
    writes_sub main_v123 rfl (by decide),
    writes_sub main_v124 rfl (by decide),
    writes_sub main_v125 rfl (by decide),
    writes_sub main_v126 rfl (by decide),
    writes_sub main_v127 rfl (by decide),
    writes_sub main_v128 rfl (by decide),
    writes_sub main_c_10 rfl (by decide),
    writes_sub main_v129 rfl (by decide),
    writes_sub main_v130 rfl (by decide),
    writes_sub main_v131 rfl (by decide),
    writes_sub main_v132 rfl (by decide),
    writes_sub main_cst_11 rfl (by decide),
    writes_sub main_v133 rfl (by decide),
    writes_sub main_v134 rfl (by decide),
    writes_sub main_v135 rfl (by decide),
    writes_sub main_call12_cst rfl (by decide),
    writes_sub main_call12_v0 rfl (by decide),
    writes_sub main_call12_v1 rfl (by decide),
    writes_sub main_call12_v2 rfl (by decide),
    writes_sub main_call12_c rfl (by decide),
    writes_sub main_call12_v3 rfl (by decide),
    writes_sub main_call12_v4 rfl (by decide),
    writes_sub main_call12_v5 rfl (by decide),
    writes_sub main_call12_v6 rfl (by decide),
    writes_sub main_call12_cst_0 rfl (by decide),
    writes_sub main_call12_call0_v0 rfl (by decide),
    writes_sub main_call12_call0_v1 rfl (by decide),
    writes_sub main_v136 rfl (by decide),
    writes_sub main_v137 rfl (by decide),
    writes_sub main_v138 rfl (by decide),
    writes_sub main_v139 rfl (by decide),
    writes_sub main_v140 rfl (by decide),
    writes_sub main_v141 rfl (by decide),
    writes_sub main_v142 rfl (by decide),
    writes_sub main_v143 rfl (by decide),
    writes_sub main_v144 rfl (by decide),
    writes_sub main_v145 rfl (by decide),
    writes_sub main_v146 rfl (by decide),
    writes_sub main_c_12 rfl (by decide),
    writes_sub main_v147 rfl (by decide),
    writes_sub main_v148 rfl (by decide)⟩

/-- A reference the line does not write keeps its contents. -/
theorem opsS3_keep (V : Valuation τ sig (Elt F)) {r : Ref sig .tc} (hr : r ∉ wS3) :
    after opsS3 V (Proc.devRef .tc r) = V (Proc.devRef .tc r) :=
  after_of_writes_sub opsS3 V opsS3_writes hr

end Cert.ReferenceIdeal.RefSide

end
-- ==== Proof.RefOpsS4.lean ====
/-
  The reference's host operations of Sylvester step 4 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS4 : List (HloOp τ sig (Elt F)) :=
  [
    StableHlo.unary main_v23 main_v149 ((extractStridedSlice S440 ![1760] · slices_S3520_S440_1760) : (⟨S3520, .f32⟩ : BufTy).Contents (Elt F) → (⟨S440, .f32⟩ : BufTy).Contents (Elt F)),
    StableHlo.unary main_v149 main_v150 ((extractStridedSlice S400 ![0] · slices_S440_S400_0) : (⟨S440, .f32⟩ : BufTy).Contents (Elt F) → (⟨S400, .f32⟩ : BufTy).Contents (Elt F)),
    StableHlo.reshape main_v150 main_v151 rfl shapeCasts_S400_S20x20,
    StableHlo.TRef.nullary main_call13.v0 (iotaInDim S20x20 32 0),
    StableHlo.TRef.nullary main_call13.c (constantI S_ 32 4294967295#32),
    StableHlo.TRef.unary main_call13.c main_call13.v1 (broadcastInDim S20x20 ![] bcast_S_S20x20),
    StableHlo.TRef.binary main_call13.v0 main_call13.v1 main_call13.v2 addi,
    StableHlo.TRef.nullary main_call13.v3 (iotaInDim S20x20 32 1),
    StableHlo.TRef.binary main_call13.v2 main_call13.v3 main_call13.v4 (cmpi .sge),
    StableHlo.TRef.nullary main_call13.cst (constant S_ .f32 0x00000000#32),
    StableHlo.TRef.unary main_call13.cst main_call13.v5 (broadcastInDim S20x20 ![] bcast_S_S20x20),
    StableHlo.TRef.ternary main_call13.v4 main_call13.v5 (.of main_v151) main_call13.v6 select,
    StableHlo.TRef.nullary main_call14.v0 (iotaInDim S20x20 32 0),
    StableHlo.TRef.nullary main_call14.c (constantI S_ 32 0#32),
    StableHlo.TRef.unary main_call14.c main_call14.v1 (broadcastInDim S20x20 ![] bcast_S_S20x20),
    StableHlo.TRef.binary main_call14.v0 main_call14.v1 main_call14.v2 addi,
    StableHlo.TRef.nullary main_call14.v3 (iotaInDim S20x20 32 1),
    StableHlo.TRef.binary main_call14.v2 main_call14.v3 main_call14.v4 (cmpi .sge),
    StableHlo.TRef.nullary main_call14.cst (constant S_ .f32 0x00000000#32),
    StableHlo.TRef.unary main_call14.cst main_call14.v5 (broadcastInDim S20x20 ![] bcast_S_S20x20),
    StableHlo.TRef.ternary main_call14.v4 (.of main_v151) main_call14.v5 main_call14.v6 select,
    StableHlo.unary main_v152 main_v154 ((transpose S20x20 [1, 0] · transposes_S20x20_S20x20_1_0) : (⟨S20x20, .f32⟩ : BufTy).Contents (Elt F) → (⟨S20x20, .f32⟩ : BufTy).Contents (Elt F)),
    StableHlo.unary main_v149 main_v155 ((extractStridedSlice S20 ![400] · slices_S440_S20_400) : (⟨S440, .f32⟩ : BufTy).Contents (Elt F) → (⟨S20, .f32⟩ : BufTy).Contents (Elt F)),
    StableHlo.unary main_v149 main_v156 ((extractStridedSlice S20 ![420] · slices_S440_S20_420) : (⟨S440, .f32⟩ : BufTy).Contents (Elt F) → (⟨S20, .f32⟩ : BufTy).Contents (Elt F)),
    StableHlo.nullary main_v157 (iotaInDim S20x20 32 0),
    StableHlo.nullary main_v158 (iotaInDim S20x20 32 1),
    StableHlo.nullary main_c_13 (constantI S_ 32 0#32),
    StableHlo.unary main_c_13 main_v159 (broadcastInDim S20x20 ![] bcast_S_S20x20 : (⟨S_, .i32⟩ : BufTy).Contents (Elt F) → (⟨S20x20, .i32⟩ : BufTy).Contents (Elt F)),
    StableHlo.binary main_v157 main_v159 main_v160 (addi : (⟨S20x20, .i32⟩ : BufTy).Contents (Elt F) → (⟨S20x20, .i32⟩ : BufTy).Contents (Elt F) → (⟨S20x20, .i32⟩ : BufTy).Contents (Elt F)),
    StableHlo.binary main_v160 main_v158 main_v161 (cmpi .eq : (⟨S20x20, .i32⟩ : BufTy).Contents (Elt F) → (⟨S20x20, .i32⟩ : BufTy).Contents (Elt F) → (⟨S20x20, .i1⟩ : BufTy).Contents (Elt F)),
    StableHlo.unary main_v161 main_v162 (uitofp .f32 : (⟨S20x20, .i1⟩ : BufTy).Contents (Elt F) → (⟨S20x20, .f32⟩ : BufTy).Contents (Elt F)),
    StableHlo.nullary main_cst_14 (constant S_ .f32 0x3F800000#32),
    StableHlo.unary main_cst_14 main_v163 (broadcastInDim S20x20 ![] bcast_S_S20x20 : (⟨S_, .f32⟩ : BufTy).Contents (Elt F) → (⟨S20x20, .f32⟩ : BufTy).Contents (Elt F)),
    StableHlo.binary main_v163 main_v162 main_v164 (subf : (⟨S20x20, .f32⟩ : BufTy).Contents (Elt F) → (⟨S20x20, .f32⟩ : BufTy).Contents (Elt F) → (⟨S20x20, .f32⟩ : BufTy).Contents (Elt F)),
    StableHlo.binary main_v153 main_v164 main_v165 (mulf : (⟨S20x20, .f32⟩ : BufTy).Contents (Elt F) → (⟨S20x20, .f32⟩ : BufTy).Contents (Elt F) → (⟨S20x20, .f32⟩ : BufTy).Contents (Elt F)),
    StableHlo.TRef.nullary main_call15.cst (constant S_ .f32 0x00000000#32),
    StableHlo.TRef.binary (.of main_v155) main_call15.cst main_call15.v0 (fun x v => pad S20 ![0] ![0] ![0] x v pads_S20_S20_000 h_S_),
    StableHlo.TRef.nullary main_call15.v1 (iotaInDim S20x20 32 0),
    StableHlo.TRef.nullary main_call15.v2 (iotaInDim S20x20 32 1),
    StableHlo.TRef.nullary main_call15.c (constantI S_ 32 0#32),
    StableHlo.TRef.unary main_call15.c main_call15.v3 (broadcastInDim S20x20 ![] bcast_S_S20x20),
    StableHlo.TRef.binary main_call15.v1 main_call15.v3 main_call15.v4 addi,
    StableHlo.TRef.binary main_call15.v4 main_call15.v2 main_call15.v5 (cmpi .eq),
    StableHlo.TRef.unary main_call15.v0 main_call15.v6 (broadcastInDim S20x1 ![0] bcast_S20_S20x1_0),
    StableHlo.TRef.nullary main_call15.cst_0 (constant S_ .f32 0x00000000#32),
    StableHlo.TRef.unary main_call15.v6 main_call15.call0.v0 (broadcastInDim S20x20 ![0, 1] bcast_S20x1_S20x20_0_1),
    StableHlo.TRef.unary main_call15.cst_0 main_call15.call0.v1 (broadcastInDim S20x20 ![] bcast_S_S20x20),
    StableHlo.TRef.ternary main_call15.v5 main_call15.call0.v0 main_call15.call0.v1 main_call15.call0.v2 select,
    StableHlo.binary main_v165 main_v166 main_v167 (addf : (⟨S20x20, .f32⟩ : BufTy).Contents (Elt F) → (⟨S20x20, .f32⟩ : BufTy).Contents (Elt F) → (⟨S20x20, .f32⟩ : BufTy).Contents (Elt F)),
    StableHlo.unary main_v148 main_v168 ((extractStridedSlice S16384x20 ![0, 0] · slices_S16384x64_S16384x20_0_0) : (⟨S16384x64, .f32⟩ : BufTy).Contents (Elt F) → (⟨S16384x20, .f32⟩ : BufTy).Contents (Elt F)),
    StableHlo.unary main_v167 main_v169 ((transpose S20x20 [1, 0] · transposes_S20x20_S20x20_1_0) : (⟨S20x20, .f32⟩ : BufTy).Contents (Elt F) → (⟨S20x20, .f32⟩ : BufTy).Contents (Elt F)),
    StableHlo.binary main_v168 main_v169 main_v170 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v156 main_v171 (broadcastInDim S1x20 ![1] bcast_S20_S1x20_1 : (⟨S20, .f32⟩ : BufTy).Contents (Elt F) → (⟨S1x20, .f32⟩ : BufTy).Contents (Elt F)),
    StableHlo.unary main_v171 main_v172 (broadcastInDim S16384x20 ![0, 1] bcast_S1x20_S16384x20_0_1 : (⟨S1x20, .f32⟩ : BufTy).Contents (Elt F) → (⟨S16384x20, .f32⟩ : BufTy).Contents (Elt F)),
    StableHlo.binary main_v170 main_v172 main_v173 (addf : (⟨S16384x20, .f32⟩ : BufTy).Contents (Elt F) → (⟨S16384x20, .f32⟩ : BufTy).Contents (Elt F) → (⟨S16384x20, .f32⟩ : BufTy).Contents (Elt F)),
    StableHlo.unary main_v173 main_v174 (Host.tanh : (⟨S16384x20, .f32⟩ : BufTy).Contents (Elt F) → (⟨S16384x20, .f32⟩ : BufTy).Contents (Elt F)),
    StableHlo.unary main_v154 main_v175 ((transpose S20x20 [1, 0] · transposes_S20x20_S20x20_1_0) : (⟨S20x20, .f32⟩ : BufTy).Contents (Elt F) → (⟨S20x20, .f32⟩ : BufTy).Contents (Elt F)),
    StableHlo.binary main_v174 main_v175 main_v176 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_15 (constantI S_ 32 0#32),
    StableHlo.unary main_c_15 main_v177 (broadcastInDim S1 ![] bcast_S_S1 : (⟨S_, .i32⟩ : BufTy).Contents (Elt F) → (⟨S1, .i32⟩ : BufTy).Contents (Elt F)),
    StableHlo.ternary main_v148 main_v177 main_v176 main_v178 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS4_sub : (opsS4 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS4_fresh : ∀ op ∈ (opsS4 : List (HloOp τ sig (Elt F))), op.fresh = ∅ := by
  intro _ h; (repeat (cases h with | head => rfl | tail _ h => ?_)); exact nomatch h

/-- The references the line writes. -/
abbrev wS4 : List (Ref sig .tc) :=
  [
    main_v149, main_v150, main_v151, main_call13_v0, main_call13_c, main_call13_v1, main_call13_v2, main_call13_v3,
    main_call13_v4, main_call13_cst, main_call13_v5, main_v152, main_call14_v0, main_call14_c, main_call14_v1, main_call14_v2,
    main_call14_v3, main_call14_v4, main_call14_cst, main_call14_v5, main_v153, main_v154, main_v155, main_v156,
    main_v157, main_v158, main_c_13, main_v159, main_v160, main_v161, main_v162, main_cst_14,
    main_v163, main_v164, main_v165, main_call15_cst, main_call15_v0, main_call15_v1, main_call15_v2, main_call15_c,
    main_call15_v3, main_call15_v4, main_call15_v5, main_call15_v6, main_call15_cst_0, main_call15_call0_v0, main_call15_call0_v1, main_v166,
    main_v167, main_v168, main_v169, main_v170, main_v171, main_v172, main_v173, main_v174,
    main_v175, main_v176, main_c_15, main_v177, main_v178 ]

theorem opsS4_writes : (opsS4 : List (HloOp τ sig (Elt F))).Forall fun op => op.writes ⊆ (wS4.map (Proc.devRef (τ := τ) .tc)).toFinset :=
  ⟨
    writes_sub main_v149 rfl (by decide),
    writes_sub main_v150 rfl (by decide),
    writes_sub main_v151 rfl (by decide),
    writes_sub main_call13_v0 rfl (by decide),
    writes_sub main_call13_c rfl (by decide),
    writes_sub main_call13_v1 rfl (by decide),
    writes_sub main_call13_v2 rfl (by decide),
    writes_sub main_call13_v3 rfl (by decide),
    writes_sub main_call13_v4 rfl (by decide),
    writes_sub main_call13_cst rfl (by decide),
    writes_sub main_call13_v5 rfl (by decide),
    writes_sub main_v152 rfl (by decide),
    writes_sub main_call14_v0 rfl (by decide),
    writes_sub main_call14_c rfl (by decide),
    writes_sub main_call14_v1 rfl (by decide),
    writes_sub main_call14_v2 rfl (by decide),
    writes_sub main_call14_v3 rfl (by decide),
    writes_sub main_call14_v4 rfl (by decide),
    writes_sub main_call14_cst rfl (by decide),
    writes_sub main_call14_v5 rfl (by decide),
    writes_sub main_v153 rfl (by decide),
    writes_sub main_v154 rfl (by decide),
    writes_sub main_v155 rfl (by decide),
    writes_sub main_v156 rfl (by decide),
    writes_sub main_v157 rfl (by decide),
    writes_sub main_v158 rfl (by decide),
    writes_sub main_c_13 rfl (by decide),
    writes_sub main_v159 rfl (by decide),
    writes_sub main_v160 rfl (by decide),
    writes_sub main_v161 rfl (by decide),
    writes_sub main_v162 rfl (by decide),
    writes_sub main_cst_14 rfl (by decide),
    writes_sub main_v163 rfl (by decide),
    writes_sub main_v164 rfl (by decide),
    writes_sub main_v165 rfl (by decide),
    writes_sub main_call15_cst rfl (by decide),
    writes_sub main_call15_v0 rfl (by decide),
    writes_sub main_call15_v1 rfl (by decide),
    writes_sub main_call15_v2 rfl (by decide),
    writes_sub main_call15_c rfl (by decide),
    writes_sub main_call15_v3 rfl (by decide),
    writes_sub main_call15_v4 rfl (by decide),
    writes_sub main_call15_v5 rfl (by decide),
    writes_sub main_call15_v6 rfl (by decide),
    writes_sub main_call15_cst_0 rfl (by decide),
    writes_sub main_call15_call0_v0 rfl (by decide),
    writes_sub main_call15_call0_v1 rfl (by decide),
    writes_sub main_v166 rfl (by decide),
    writes_sub main_v167 rfl (by decide),
    writes_sub main_v168 rfl (by decide),
    writes_sub main_v169 rfl (by decide),
    writes_sub main_v170 rfl (by decide),
    writes_sub main_v171 rfl (by decide),
    writes_sub main_v172 rfl (by decide),
    writes_sub main_v173 rfl (by decide),
    writes_sub main_v174 rfl (by decide),
    writes_sub main_v175 rfl (by decide),
    writes_sub main_v176 rfl (by decide),
    writes_sub main_c_15 rfl (by decide),
    writes_sub main_v177 rfl (by decide),
    writes_sub main_v178 rfl (by decide)⟩

/-- A reference the line does not write keeps its contents. -/
theorem opsS4_keep (V : Valuation τ sig (Elt F)) {r : Ref sig .tc} (hr : r ∉ wS4) :
    after opsS4 V (Proc.devRef .tc r) = V (Proc.devRef .tc r) :=
  after_of_writes_sub opsS4 V opsS4_writes hr

end Cert.ReferenceIdeal.RefSide

end
-- ==== Proof.RefOpsS5.lean ====
/-
  The reference's host operations of Sylvester step 5 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS5 : List (HloOp τ sig (Elt F)) :=
  [
    StableHlo.unary main_v23 main_v179 ((extractStridedSlice S440 ![2200] · slices_S3520_S440_2200) : (⟨S3520, .f32⟩ : BufTy).Contents (Elt F) → (⟨S440, .f32⟩ : BufTy).Contents (Elt F)),
    StableHlo.unary main_v179 main_v180 ((extractStridedSlice S400 ![0] · slices_S440_S400_0) : (⟨S440, .f32⟩ : BufTy).Contents (Elt F) → (⟨S400, .f32⟩ : BufTy).Contents (Elt F)),
    StableHlo.reshape main_v180 main_v181 rfl shapeCasts_S400_S20x20,
    StableHlo.TRef.nullary main_call16.v0 (iotaInDim S20x20 32 0),
    StableHlo.TRef.nullary main_call16.c (constantI S_ 32 4294967295#32),
    StableHlo.TRef.unary main_call16.c main_call16.v1 (broadcastInDim S20x20 ![] bcast_S_S20x20),
    StableHlo.TRef.binary main_call16.v0 main_call16.v1 main_call16.v2 addi,
    StableHlo.TRef.nullary main_call16.v3 (iotaInDim S20x20 32 1),
    StableHlo.TRef.binary main_call16.v2 main_call16.v3 main_call16.v4 (cmpi .sge),
    StableHlo.TRef.nullary main_call16.cst (constant S_ .f32 0x00000000#32),
    StableHlo.TRef.unary main_call16.cst main_call16.v5 (broadcastInDim S20x20 ![] bcast_S_S20x20),
    StableHlo.TRef.ternary main_call16.v4 main_call16.v5 (.of main_v181) main_call16.v6 select,
    StableHlo.TRef.nullary main_call17.v0 (iotaInDim S20x20 32 0),
    StableHlo.TRef.nullary main_call17.c (constantI S_ 32 0#32),
    StableHlo.TRef.unary main_call17.c main_call17.v1 (broadcastInDim S20x20 ![] bcast_S_S20x20),
    StableHlo.TRef.binary main_call17.v0 main_call17.v1 main_call17.v2 addi,
    StableHlo.TRef.nullary main_call17.v3 (iotaInDim S20x20 32 1),
    StableHlo.TRef.binary main_call17.v2 main_call17.v3 main_call17.v4 (cmpi .sge),
    StableHlo.TRef.nullary main_call17.cst (constant S_ .f32 0x00000000#32),
    StableHlo.TRef.unary main_call17.cst main_call17.v5 (broadcastInDim S20x20 ![] bcast_S_S20x20),
    StableHlo.TRef.ternary main_call17.v4 (.of main_v181) main_call17.v5 main_call17.v6 select,
    StableHlo.unary main_v183 main_v184 ((transpose S20x20 [1, 0] · transposes_S20x20_S20x20_1_0) : (⟨S20x20, .f32⟩ : BufTy).Contents (Elt F) → (⟨S20x20, .f32⟩ : BufTy).Contents (Elt F)),
    StableHlo.unary main_v179 main_v185 ((extractStridedSlice S20 ![400] · slices_S440_S20_400) : (⟨S440, .f32⟩ : BufTy).Contents (Elt F) → (⟨S20, .f32⟩ : BufTy).Contents (Elt F)),
    StableHlo.unary main_v179 main_v186 ((extractStridedSlice S20 ![420] · slices_S440_S20_420) : (⟨S440, .f32⟩ : BufTy).Contents (Elt F) → (⟨S20, .f32⟩ : BufTy).Contents (Elt F)),
    StableHlo.nullary main_v187 (iotaInDim S20x20 32 0),
    StableHlo.nullary main_v188 (iotaInDim S20x20 32 1),
    StableHlo.nullary main_c_16 (constantI S_ 32 0#32),
    StableHlo.unary main_c_16 main_v189 (broadcastInDim S20x20 ![] bcast_S_S20x20 : (⟨S_, .i32⟩ : BufTy).Contents (Elt F) → (⟨S20x20, .i32⟩ : BufTy).Contents (Elt F)),
    StableHlo.binary main_v187 main_v189 main_v190 (addi : (⟨S20x20, .i32⟩ : BufTy).Contents (Elt F) → (⟨S20x20, .i32⟩ : BufTy).Contents (Elt F) → (⟨S20x20, .i32⟩ : BufTy).Contents (Elt F)),
    StableHlo.binary main_v190 main_v188 main_v191 (cmpi .eq : (⟨S20x20, .i32⟩ : BufTy).Contents (Elt F) → (⟨S20x20, .i32⟩ : BufTy).Contents (Elt F) → (⟨S20x20, .i1⟩ : BufTy).Contents (Elt F)),
    StableHlo.unary main_v191 main_v192 (uitofp .f32 : (⟨S20x20, .i1⟩ : BufTy).Contents (Elt F) → (⟨S20x20, .f32⟩ : BufTy).Contents (Elt F)),
    StableHlo.nullary main_cst_17 (constant S_ .f32 0x3F800000#32),
    StableHlo.unary main_cst_17 main_v193 (broadcastInDim S20x20 ![] bcast_S_S20x20 : (⟨S_, .f32⟩ : BufTy).Contents (Elt F) → (⟨S20x20, .f32⟩ : BufTy).Contents (Elt F)),
    StableHlo.binary main_v193 main_v192 main_v194 (subf : (⟨S20x20, .f32⟩ : BufTy).Contents (Elt F) → (⟨S20x20, .f32⟩ : BufTy).Contents (Elt F) → (⟨S20x20, .f32⟩ : BufTy).Contents (Elt F)),
    StableHlo.binary main_v184 main_v194 main_v195 (mulf : (⟨S20x20, .f32⟩ : BufTy).Contents (Elt F) → (⟨S20x20, .f32⟩ : BufTy).Contents (Elt F) → (⟨S20x20, .f32⟩ : BufTy).Contents (Elt F)),
    StableHlo.TRef.nullary main_call18.cst (constant S_ .f32 0x00000000#32),
    StableHlo.TRef.binary (.of main_v185) main_call18.cst main_call18.v0 (fun x v => pad S20 ![0] ![0] ![0] x v pads_S20_S20_000 h_S_),
    StableHlo.TRef.nullary main_call18.v1 (iotaInDim S20x20 32 0),
    StableHlo.TRef.nullary main_call18.v2 (iotaInDim S20x20 32 1),
    StableHlo.TRef.nullary main_call18.c (constantI S_ 32 0#32),
    StableHlo.TRef.unary main_call18.c main_call18.v3 (broadcastInDim S20x20 ![] bcast_S_S20x20),
    StableHlo.TRef.binary main_call18.v1 main_call18.v3 main_call18.v4 addi,
    StableHlo.TRef.binary main_call18.v4 main_call18.v2 main_call18.v5 (cmpi .eq),
    StableHlo.TRef.unary main_call18.v0 main_call18.v6 (broadcastInDim S20x1 ![0] bcast_S20_S20x1_0),
    StableHlo.TRef.nullary main_call18.cst_0 (constant S_ .f32 0x00000000#32),
    StableHlo.TRef.unary main_call18.v6 main_call18.call0.v0 (broadcastInDim S20x20 ![0, 1] bcast_S20x1_S20x20_0_1),
    StableHlo.TRef.unary main_call18.cst_0 main_call18.call0.v1 (broadcastInDim S20x20 ![] bcast_S_S20x20),
    StableHlo.TRef.ternary main_call18.v5 main_call18.call0.v0 main_call18.call0.v1 main_call18.call0.v2 select,
    StableHlo.binary main_v195 main_v196 main_v197 (addf : (⟨S20x20, .f32⟩ : BufTy).Contents (Elt F) → (⟨S20x20, .f32⟩ : BufTy).Contents (Elt F) → (⟨S20x20, .f32⟩ : BufTy).Contents (Elt F)),
    StableHlo.unary main_v178 main_v198 ((extractStridedSlice S16384x20 ![0, 0] · slices_S16384x64_S16384x20_0_0) : (⟨S16384x64, .f32⟩ : BufTy).Contents (Elt F) → (⟨S16384x20, .f32⟩ : BufTy).Contents (Elt F)),
    StableHlo.unary main_v197 main_v199 ((transpose S20x20 [1, 0] · transposes_S20x20_S20x20_1_0) : (⟨S20x20, .f32⟩ : BufTy).Contents (Elt F) → (⟨S20x20, .f32⟩ : BufTy).Contents (Elt F)),
    StableHlo.binary main_v198 main_v199 main_v200 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v186 main_v201 (broadcastInDim S1x20 ![1] bcast_S20_S1x20_1 : (⟨S20, .f32⟩ : BufTy).Contents (Elt F) → (⟨S1x20, .f32⟩ : BufTy).Contents (Elt F)),
    StableHlo.unary main_v201 main_v202 (broadcastInDim S16384x20 ![0, 1] bcast_S1x20_S16384x20_0_1 : (⟨S1x20, .f32⟩ : BufTy).Contents (Elt F) → (⟨S16384x20, .f32⟩ : BufTy).Contents (Elt F)),
    StableHlo.binary main_v200 main_v202 main_v203 (addf : (⟨S16384x20, .f32⟩ : BufTy).Contents (Elt F) → (⟨S16384x20, .f32⟩ : BufTy).Contents (Elt F) → (⟨S16384x20, .f32⟩ : BufTy).Contents (Elt F)),
    StableHlo.unary main_v203 main_v204 (Host.tanh : (⟨S16384x20, .f32⟩ : BufTy).Contents (Elt F) → (⟨S16384x20, .f32⟩ : BufTy).Contents (Elt F)),
    StableHlo.unary main_v182 main_v205 ((transpose S20x20 [1, 0] · transposes_S20x20_S20x20_1_0) : (⟨S20x20, .f32⟩ : BufTy).Contents (Elt F) → (⟨S20x20, .f32⟩ : BufTy).Contents (Elt F)),
    StableHlo.binary main_v204 main_v205 main_v206 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_18 (constantI S_ 32 0#32),
    StableHlo.unary main_c_18 main_v207 (broadcastInDim S1 ![] bcast_S_S1 : (⟨S_, .i32⟩ : BufTy).Contents (Elt F) → (⟨S1, .i32⟩ : BufTy).Contents (Elt F)),
    StableHlo.ternary main_v178 main_v207 main_v206 main_v208 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS5_sub : (opsS5 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS5_fresh : ∀ op ∈ (opsS5 : List (HloOp τ sig (Elt F))), op.fresh = ∅ := by
  intro _ h; (repeat (cases h with | head => rfl | tail _ h => ?_)); exact nomatch h

/-- The references the line writes. -/
abbrev wS5 : List (Ref sig .tc) :=
  [
    main_v179, main_v180, main_v181, main_call16_v0, main_call16_c, main_call16_v1, main_call16_v2, main_call16_v3,
    main_call16_v4, main_call16_cst, main_call16_v5, main_v182, main_call17_v0, main_call17_c, main_call17_v1, main_call17_v2,
    main_call17_v3, main_call17_v4, main_call17_cst, main_call17_v5, main_v183, main_v184, main_v185, main_v186,
    main_v187, main_v188, main_c_16, main_v189, main_v190, main_v191, main_v192, main_cst_17,
    main_v193, main_v194, main_v195, main_call18_cst, main_call18_v0, main_call18_v1, main_call18_v2, main_call18_c,
    main_call18_v3, main_call18_v4, main_call18_v5, main_call18_v6, main_call18_cst_0, main_call18_call0_v0, main_call18_call0_v1, main_v196,
    main_v197, main_v198, main_v199, main_v200, main_v201, main_v202, main_v203, main_v204,
    main_v205, main_v206, main_c_18, main_v207, main_v208 ]

theorem opsS5_writes : (opsS5 : List (HloOp τ sig (Elt F))).Forall fun op => op.writes ⊆ (wS5.map (Proc.devRef (τ := τ) .tc)).toFinset :=
  ⟨
    writes_sub main_v179 rfl (by decide),
    writes_sub main_v180 rfl (by decide),
    writes_sub main_v181 rfl (by decide),
    writes_sub main_call16_v0 rfl (by decide),
    writes_sub main_call16_c rfl (by decide),
    writes_sub main_call16_v1 rfl (by decide),
    writes_sub main_call16_v2 rfl (by decide),
    writes_sub main_call16_v3 rfl (by decide),
    writes_sub main_call16_v4 rfl (by decide),
    writes_sub main_call16_cst rfl (by decide),
    writes_sub main_call16_v5 rfl (by decide),
    writes_sub main_v182 rfl (by decide),
    writes_sub main_call17_v0 rfl (by decide),
    writes_sub main_call17_c rfl (by decide),
    writes_sub main_call17_v1 rfl (by decide),
    writes_sub main_call17_v2 rfl (by decide),
    writes_sub main_call17_v3 rfl (by decide),
    writes_sub main_call17_v4 rfl (by decide),
    writes_sub main_call17_cst rfl (by decide),
    writes_sub main_call17_v5 rfl (by decide),
    writes_sub main_v183 rfl (by decide),
    writes_sub main_v184 rfl (by decide),
    writes_sub main_v185 rfl (by decide),
    writes_sub main_v186 rfl (by decide),
    writes_sub main_v187 rfl (by decide),
    writes_sub main_v188 rfl (by decide),
    writes_sub main_c_16 rfl (by decide),
    writes_sub main_v189 rfl (by decide),
    writes_sub main_v190 rfl (by decide),
    writes_sub main_v191 rfl (by decide),
    writes_sub main_v192 rfl (by decide),
    writes_sub main_cst_17 rfl (by decide),
    writes_sub main_v193 rfl (by decide),
    writes_sub main_v194 rfl (by decide),
    writes_sub main_v195 rfl (by decide),
    writes_sub main_call18_cst rfl (by decide),
    writes_sub main_call18_v0 rfl (by decide),
    writes_sub main_call18_v1 rfl (by decide),
    writes_sub main_call18_v2 rfl (by decide),
    writes_sub main_call18_c rfl (by decide),
    writes_sub main_call18_v3 rfl (by decide),
    writes_sub main_call18_v4 rfl (by decide),
    writes_sub main_call18_v5 rfl (by decide),
    writes_sub main_call18_v6 rfl (by decide),
    writes_sub main_call18_cst_0 rfl (by decide),
    writes_sub main_call18_call0_v0 rfl (by decide),
    writes_sub main_call18_call0_v1 rfl (by decide),
    writes_sub main_v196 rfl (by decide),
    writes_sub main_v197 rfl (by decide),
    writes_sub main_v198 rfl (by decide),
    writes_sub main_v199 rfl (by decide),
    writes_sub main_v200 rfl (by decide),
    writes_sub main_v201 rfl (by decide),
    writes_sub main_v202 rfl (by decide),
    writes_sub main_v203 rfl (by decide),
    writes_sub main_v204 rfl (by decide),
    writes_sub main_v205 rfl (by decide),
    writes_sub main_v206 rfl (by decide),
    writes_sub main_c_18 rfl (by decide),
    writes_sub main_v207 rfl (by decide),
    writes_sub main_v208 rfl (by decide)⟩

/-- A reference the line does not write keeps its contents. -/
theorem opsS5_keep (V : Valuation τ sig (Elt F)) {r : Ref sig .tc} (hr : r ∉ wS5) :
    after opsS5 V (Proc.devRef .tc r) = V (Proc.devRef .tc r) :=
  after_of_writes_sub opsS5 V opsS5_writes hr

end Cert.ReferenceIdeal.RefSide

end
-- ==== Proof.RefOpsS6.lean ====
/-
  The reference's host operations of Sylvester step 6 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS6 : List (HloOp τ sig (Elt F)) :=
  [
    StableHlo.unary main_v23 main_v209 ((extractStridedSlice S440 ![2640] · slices_S3520_S440_2640) : (⟨S3520, .f32⟩ : BufTy).Contents (Elt F) → (⟨S440, .f32⟩ : BufTy).Contents (Elt F)),
    StableHlo.unary main_v209 main_v210 ((extractStridedSlice S400 ![0] · slices_S440_S400_0) : (⟨S440, .f32⟩ : BufTy).Contents (Elt F) → (⟨S400, .f32⟩ : BufTy).Contents (Elt F)),
    StableHlo.reshape main_v210 main_v211 rfl shapeCasts_S400_S20x20,
    StableHlo.TRef.nullary main_call19.v0 (iotaInDim S20x20 32 0),
    StableHlo.TRef.nullary main_call19.c (constantI S_ 32 4294967295#32),
    StableHlo.TRef.unary main_call19.c main_call19.v1 (broadcastInDim S20x20 ![] bcast_S_S20x20),
    StableHlo.TRef.binary main_call19.v0 main_call19.v1 main_call19.v2 addi,
    StableHlo.TRef.nullary main_call19.v3 (iotaInDim S20x20 32 1),
    StableHlo.TRef.binary main_call19.v2 main_call19.v3 main_call19.v4 (cmpi .sge),
    StableHlo.TRef.nullary main_call19.cst (constant S_ .f32 0x00000000#32),
    StableHlo.TRef.unary main_call19.cst main_call19.v5 (broadcastInDim S20x20 ![] bcast_S_S20x20),
    StableHlo.TRef.ternary main_call19.v4 main_call19.v5 (.of main_v211) main_call19.v6 select,
    StableHlo.TRef.nullary main_call20.v0 (iotaInDim S20x20 32 0),
    StableHlo.TRef.nullary main_call20.c (constantI S_ 32 0#32),
    StableHlo.TRef.unary main_call20.c main_call20.v1 (broadcastInDim S20x20 ![] bcast_S_S20x20),
    StableHlo.TRef.binary main_call20.v0 main_call20.v1 main_call20.v2 addi,
    StableHlo.TRef.nullary main_call20.v3 (iotaInDim S20x20 32 1),
    StableHlo.TRef.binary main_call20.v2 main_call20.v3 main_call20.v4 (cmpi .sge),
    StableHlo.TRef.nullary main_call20.cst (constant S_ .f32 0x00000000#32),
    StableHlo.TRef.unary main_call20.cst main_call20.v5 (broadcastInDim S20x20 ![] bcast_S_S20x20),
    StableHlo.TRef.ternary main_call20.v4 (.of main_v211) main_call20.v5 main_call20.v6 select,
    StableHlo.unary main_v212 main_v214 ((transpose S20x20 [1, 0] · transposes_S20x20_S20x20_1_0) : (⟨S20x20, .f32⟩ : BufTy).Contents (Elt F) → (⟨S20x20, .f32⟩ : BufTy).Contents (Elt F)),
    StableHlo.unary main_v209 main_v215 ((extractStridedSlice S20 ![400] · slices_S440_S20_400) : (⟨S440, .f32⟩ : BufTy).Contents (Elt F) → (⟨S20, .f32⟩ : BufTy).Contents (Elt F)),
    StableHlo.unary main_v209 main_v216 ((extractStridedSlice S20 ![420] · slices_S440_S20_420) : (⟨S440, .f32⟩ : BufTy).Contents (Elt F) → (⟨S20, .f32⟩ : BufTy).Contents (Elt F)),
    StableHlo.nullary main_v217 (iotaInDim S20x20 32 0),
    StableHlo.nullary main_v218 (iotaInDim S20x20 32 1),
    StableHlo.nullary main_c_19 (constantI S_ 32 0#32),
    StableHlo.unary main_c_19 main_v219 (broadcastInDim S20x20 ![] bcast_S_S20x20 : (⟨S_, .i32⟩ : BufTy).Contents (Elt F) → (⟨S20x20, .i32⟩ : BufTy).Contents (Elt F)),
    StableHlo.binary main_v217 main_v219 main_v220 (addi : (⟨S20x20, .i32⟩ : BufTy).Contents (Elt F) → (⟨S20x20, .i32⟩ : BufTy).Contents (Elt F) → (⟨S20x20, .i32⟩ : BufTy).Contents (Elt F)),
    StableHlo.binary main_v220 main_v218 main_v221 (cmpi .eq : (⟨S20x20, .i32⟩ : BufTy).Contents (Elt F) → (⟨S20x20, .i32⟩ : BufTy).Contents (Elt F) → (⟨S20x20, .i1⟩ : BufTy).Contents (Elt F)),
    StableHlo.unary main_v221 main_v222 (uitofp .f32 : (⟨S20x20, .i1⟩ : BufTy).Contents (Elt F) → (⟨S20x20, .f32⟩ : BufTy).Contents (Elt F)),
    StableHlo.nullary main_cst_20 (constant S_ .f32 0x3F800000#32),
    StableHlo.unary main_cst_20 main_v223 (broadcastInDim S20x20 ![] bcast_S_S20x20 : (⟨S_, .f32⟩ : BufTy).Contents (Elt F) → (⟨S20x20, .f32⟩ : BufTy).Contents (Elt F)),
    StableHlo.binary main_v223 main_v222 main_v224 (subf : (⟨S20x20, .f32⟩ : BufTy).Contents (Elt F) → (⟨S20x20, .f32⟩ : BufTy).Contents (Elt F) → (⟨S20x20, .f32⟩ : BufTy).Contents (Elt F)),
    StableHlo.binary main_v213 main_v224 main_v225 (mulf : (⟨S20x20, .f32⟩ : BufTy).Contents (Elt F) → (⟨S20x20, .f32⟩ : BufTy).Contents (Elt F) → (⟨S20x20, .f32⟩ : BufTy).Contents (Elt F)),
    StableHlo.TRef.nullary main_call21.cst (constant S_ .f32 0x00000000#32),
    StableHlo.TRef.binary (.of main_v215) main_call21.cst main_call21.v0 (fun x v => pad S20 ![0] ![0] ![0] x v pads_S20_S20_000 h_S_),
    StableHlo.TRef.nullary main_call21.v1 (iotaInDim S20x20 32 0),
    StableHlo.TRef.nullary main_call21.v2 (iotaInDim S20x20 32 1),
    StableHlo.TRef.nullary main_call21.c (constantI S_ 32 0#32),
    StableHlo.TRef.unary main_call21.c main_call21.v3 (broadcastInDim S20x20 ![] bcast_S_S20x20),
    StableHlo.TRef.binary main_call21.v1 main_call21.v3 main_call21.v4 addi,
    StableHlo.TRef.binary main_call21.v4 main_call21.v2 main_call21.v5 (cmpi .eq),
    StableHlo.TRef.unary main_call21.v0 main_call21.v6 (broadcastInDim S20x1 ![0] bcast_S20_S20x1_0),
    StableHlo.TRef.nullary main_call21.cst_0 (constant S_ .f32 0x00000000#32),
    StableHlo.TRef.unary main_call21.v6 main_call21.call0.v0 (broadcastInDim S20x20 ![0, 1] bcast_S20x1_S20x20_0_1),
    StableHlo.TRef.unary main_call21.cst_0 main_call21.call0.v1 (broadcastInDim S20x20 ![] bcast_S_S20x20),
    StableHlo.TRef.ternary main_call21.v5 main_call21.call0.v0 main_call21.call0.v1 main_call21.call0.v2 select,
    StableHlo.binary main_v225 main_v226 main_v227 (addf : (⟨S20x20, .f32⟩ : BufTy).Contents (Elt F) → (⟨S20x20, .f32⟩ : BufTy).Contents (Elt F) → (⟨S20x20, .f32⟩ : BufTy).Contents (Elt F)),
    StableHlo.unary main_v208 main_v228 ((extractStridedSlice S16384x20 ![0, 0] · slices_S16384x64_S16384x20_0_0) : (⟨S16384x64, .f32⟩ : BufTy).Contents (Elt F) → (⟨S16384x20, .f32⟩ : BufTy).Contents (Elt F)),
    StableHlo.unary main_v227 main_v229 ((transpose S20x20 [1, 0] · transposes_S20x20_S20x20_1_0) : (⟨S20x20, .f32⟩ : BufTy).Contents (Elt F) → (⟨S20x20, .f32⟩ : BufTy).Contents (Elt F)),
    StableHlo.binary main_v228 main_v229 main_v230 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v216 main_v231 (broadcastInDim S1x20 ![1] bcast_S20_S1x20_1 : (⟨S20, .f32⟩ : BufTy).Contents (Elt F) → (⟨S1x20, .f32⟩ : BufTy).Contents (Elt F)),
    StableHlo.unary main_v231 main_v232 (broadcastInDim S16384x20 ![0, 1] bcast_S1x20_S16384x20_0_1 : (⟨S1x20, .f32⟩ : BufTy).Contents (Elt F) → (⟨S16384x20, .f32⟩ : BufTy).Contents (Elt F)),
    StableHlo.binary main_v230 main_v232 main_v233 (addf : (⟨S16384x20, .f32⟩ : BufTy).Contents (Elt F) → (⟨S16384x20, .f32⟩ : BufTy).Contents (Elt F) → (⟨S16384x20, .f32⟩ : BufTy).Contents (Elt F)),
    StableHlo.unary main_v233 main_v234 (Host.tanh : (⟨S16384x20, .f32⟩ : BufTy).Contents (Elt F) → (⟨S16384x20, .f32⟩ : BufTy).Contents (Elt F)),
    StableHlo.unary main_v214 main_v235 ((transpose S20x20 [1, 0] · transposes_S20x20_S20x20_1_0) : (⟨S20x20, .f32⟩ : BufTy).Contents (Elt F) → (⟨S20x20, .f32⟩ : BufTy).Contents (Elt F)),
    StableHlo.binary main_v234 main_v235 main_v236 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_21 (constantI S_ 32 0#32),
    StableHlo.unary main_c_21 main_v237 (broadcastInDim S1 ![] bcast_S_S1 : (⟨S_, .i32⟩ : BufTy).Contents (Elt F) → (⟨S1, .i32⟩ : BufTy).Contents (Elt F)),
    StableHlo.ternary main_v208 main_v237 main_v236 main_v238 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS6_sub : (opsS6 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS6_fresh : ∀ op ∈ (opsS6 : List (HloOp τ sig (Elt F))), op.fresh = ∅ := by
  intro _ h; (repeat (cases h with | head => rfl | tail _ h => ?_)); exact nomatch h

/-- The references the line writes. -/
abbrev wS6 : List (Ref sig .tc) :=
  [
    main_v209, main_v210, main_v211, main_call19_v0, main_call19_c, main_call19_v1, main_call19_v2, main_call19_v3,
    main_call19_v4, main_call19_cst, main_call19_v5, main_v212, main_call20_v0, main_call20_c, main_call20_v1, main_call20_v2,
    main_call20_v3, main_call20_v4, main_call20_cst, main_call20_v5, main_v213, main_v214, main_v215, main_v216,
    main_v217, main_v218, main_c_19, main_v219, main_v220, main_v221, main_v222, main_cst_20,
    main_v223, main_v224, main_v225, main_call21_cst, main_call21_v0, main_call21_v1, main_call21_v2, main_call21_c,
    main_call21_v3, main_call21_v4, main_call21_v5, main_call21_v6, main_call21_cst_0, main_call21_call0_v0, main_call21_call0_v1, main_v226,
    main_v227, main_v228, main_v229, main_v230, main_v231, main_v232, main_v233, main_v234,
    main_v235, main_v236, main_c_21, main_v237, main_v238 ]

theorem opsS6_writes : (opsS6 : List (HloOp τ sig (Elt F))).Forall fun op => op.writes ⊆ (wS6.map (Proc.devRef (τ := τ) .tc)).toFinset :=
  ⟨
    writes_sub main_v209 rfl (by decide),
    writes_sub main_v210 rfl (by decide),
    writes_sub main_v211 rfl (by decide),
    writes_sub main_call19_v0 rfl (by decide),
    writes_sub main_call19_c rfl (by decide),
    writes_sub main_call19_v1 rfl (by decide),
    writes_sub main_call19_v2 rfl (by decide),
    writes_sub main_call19_v3 rfl (by decide),
    writes_sub main_call19_v4 rfl (by decide),
    writes_sub main_call19_cst rfl (by decide),
    writes_sub main_call19_v5 rfl (by decide),
    writes_sub main_v212 rfl (by decide),
    writes_sub main_call20_v0 rfl (by decide),
    writes_sub main_call20_c rfl (by decide),
    writes_sub main_call20_v1 rfl (by decide),
    writes_sub main_call20_v2 rfl (by decide),
    writes_sub main_call20_v3 rfl (by decide),
    writes_sub main_call20_v4 rfl (by decide),
    writes_sub main_call20_cst rfl (by decide),
    writes_sub main_call20_v5 rfl (by decide),
    writes_sub main_v213 rfl (by decide),
    writes_sub main_v214 rfl (by decide),
    writes_sub main_v215 rfl (by decide),
    writes_sub main_v216 rfl (by decide),
    writes_sub main_v217 rfl (by decide),
    writes_sub main_v218 rfl (by decide),
    writes_sub main_c_19 rfl (by decide),
    writes_sub main_v219 rfl (by decide),
    writes_sub main_v220 rfl (by decide),
    writes_sub main_v221 rfl (by decide),
    writes_sub main_v222 rfl (by decide),
    writes_sub main_cst_20 rfl (by decide),
    writes_sub main_v223 rfl (by decide),
    writes_sub main_v224 rfl (by decide),
    writes_sub main_v225 rfl (by decide),
    writes_sub main_call21_cst rfl (by decide),
    writes_sub main_call21_v0 rfl (by decide),
    writes_sub main_call21_v1 rfl (by decide),
    writes_sub main_call21_v2 rfl (by decide),
    writes_sub main_call21_c rfl (by decide),
    writes_sub main_call21_v3 rfl (by decide),
    writes_sub main_call21_v4 rfl (by decide),
    writes_sub main_call21_v5 rfl (by decide),
    writes_sub main_call21_v6 rfl (by decide),
    writes_sub main_call21_cst_0 rfl (by decide),
    writes_sub main_call21_call0_v0 rfl (by decide),
    writes_sub main_call21_call0_v1 rfl (by decide),
    writes_sub main_v226 rfl (by decide),
    writes_sub main_v227 rfl (by decide),
    writes_sub main_v228 rfl (by decide),
    writes_sub main_v229 rfl (by decide),
    writes_sub main_v230 rfl (by decide),
    writes_sub main_v231 rfl (by decide),
    writes_sub main_v232 rfl (by decide),
    writes_sub main_v233 rfl (by decide),
    writes_sub main_v234 rfl (by decide),
    writes_sub main_v235 rfl (by decide),
    writes_sub main_v236 rfl (by decide),
    writes_sub main_c_21 rfl (by decide),
    writes_sub main_v237 rfl (by decide),
    writes_sub main_v238 rfl (by decide)⟩

/-- A reference the line does not write keeps its contents. -/
theorem opsS6_keep (V : Valuation τ sig (Elt F)) {r : Ref sig .tc} (hr : r ∉ wS6) :
    after opsS6 V (Proc.devRef .tc r) = V (Proc.devRef .tc r) :=
  after_of_writes_sub opsS6 V opsS6_writes hr

end Cert.ReferenceIdeal.RefSide

end
-- ==== Proof.RefOpsS7.lean ====
/-
  The reference's host operations of Sylvester step 7 (its 440 parameters cut out of the averaged ones, the two triangles, the diagonal, the two products around tanh, the update added to the first twenty columns), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 61 operations, in order. -/
abbrev opsS7 : List (HloOp τ sig (Elt F)) :=
  [
    StableHlo.unary main_v23 main_v239 ((extractStridedSlice S440 ![3080] · slices_S3520_S440_3080) : (⟨S3520, .f32⟩ : BufTy).Contents (Elt F) → (⟨S440, .f32⟩ : BufTy).Contents (Elt F)),
    StableHlo.unary main_v239 main_v240 ((extractStridedSlice S400 ![0] · slices_S440_S400_0) : (⟨S440, .f32⟩ : BufTy).Contents (Elt F) → (⟨S400, .f32⟩ : BufTy).Contents (Elt F)),
    StableHlo.reshape main_v240 main_v241 rfl shapeCasts_S400_S20x20,
    StableHlo.TRef.nullary main_call22.v0 (iotaInDim S20x20 32 0),
    StableHlo.TRef.nullary main_call22.c (constantI S_ 32 4294967295#32),
    StableHlo.TRef.unary main_call22.c main_call22.v1 (broadcastInDim S20x20 ![] bcast_S_S20x20),
    StableHlo.TRef.binary main_call22.v0 main_call22.v1 main_call22.v2 addi,
    StableHlo.TRef.nullary main_call22.v3 (iotaInDim S20x20 32 1),
    StableHlo.TRef.binary main_call22.v2 main_call22.v3 main_call22.v4 (cmpi .sge),
    StableHlo.TRef.nullary main_call22.cst (constant S_ .f32 0x00000000#32),
    StableHlo.TRef.unary main_call22.cst main_call22.v5 (broadcastInDim S20x20 ![] bcast_S_S20x20),
    StableHlo.TRef.ternary main_call22.v4 main_call22.v5 (.of main_v241) main_call22.v6 select,
    StableHlo.TRef.nullary main_call23.v0 (iotaInDim S20x20 32 0),
    StableHlo.TRef.nullary main_call23.c (constantI S_ 32 0#32),
    StableHlo.TRef.unary main_call23.c main_call23.v1 (broadcastInDim S20x20 ![] bcast_S_S20x20),
    StableHlo.TRef.binary main_call23.v0 main_call23.v1 main_call23.v2 addi,
    StableHlo.TRef.nullary main_call23.v3 (iotaInDim S20x20 32 1),
    StableHlo.TRef.binary main_call23.v2 main_call23.v3 main_call23.v4 (cmpi .sge),
    StableHlo.TRef.nullary main_call23.cst (constant S_ .f32 0x00000000#32),
    StableHlo.TRef.unary main_call23.cst main_call23.v5 (broadcastInDim S20x20 ![] bcast_S_S20x20),
    StableHlo.TRef.ternary main_call23.v4 (.of main_v241) main_call23.v5 main_call23.v6 select,
    StableHlo.unary main_v243 main_v244 ((transpose S20x20 [1, 0] · transposes_S20x20_S20x20_1_0) : (⟨S20x20, .f32⟩ : BufTy).Contents (Elt F) → (⟨S20x20, .f32⟩ : BufTy).Contents (Elt F)),
    StableHlo.unary main_v239 main_v245 ((extractStridedSlice S20 ![400] · slices_S440_S20_400) : (⟨S440, .f32⟩ : BufTy).Contents (Elt F) → (⟨S20, .f32⟩ : BufTy).Contents (Elt F)),
    StableHlo.unary main_v239 main_v246 ((extractStridedSlice S20 ![420] · slices_S440_S20_420) : (⟨S440, .f32⟩ : BufTy).Contents (Elt F) → (⟨S20, .f32⟩ : BufTy).Contents (Elt F)),
    StableHlo.nullary main_v247 (iotaInDim S20x20 32 0),
    StableHlo.nullary main_v248 (iotaInDim S20x20 32 1),
    StableHlo.nullary main_c_22 (constantI S_ 32 0#32),
    StableHlo.unary main_c_22 main_v249 (broadcastInDim S20x20 ![] bcast_S_S20x20 : (⟨S_, .i32⟩ : BufTy).Contents (Elt F) → (⟨S20x20, .i32⟩ : BufTy).Contents (Elt F)),
    StableHlo.binary main_v247 main_v249 main_v250 (addi : (⟨S20x20, .i32⟩ : BufTy).Contents (Elt F) → (⟨S20x20, .i32⟩ : BufTy).Contents (Elt F) → (⟨S20x20, .i32⟩ : BufTy).Contents (Elt F)),
    StableHlo.binary main_v250 main_v248 main_v251 (cmpi .eq : (⟨S20x20, .i32⟩ : BufTy).Contents (Elt F) → (⟨S20x20, .i32⟩ : BufTy).Contents (Elt F) → (⟨S20x20, .i1⟩ : BufTy).Contents (Elt F)),
    StableHlo.unary main_v251 main_v252 (uitofp .f32 : (⟨S20x20, .i1⟩ : BufTy).Contents (Elt F) → (⟨S20x20, .f32⟩ : BufTy).Contents (Elt F)),
    StableHlo.nullary main_cst_23 (constant S_ .f32 0x3F800000#32),
    StableHlo.unary main_cst_23 main_v253 (broadcastInDim S20x20 ![] bcast_S_S20x20 : (⟨S_, .f32⟩ : BufTy).Contents (Elt F) → (⟨S20x20, .f32⟩ : BufTy).Contents (Elt F)),
    StableHlo.binary main_v253 main_v252 main_v254 (subf : (⟨S20x20, .f32⟩ : BufTy).Contents (Elt F) → (⟨S20x20, .f32⟩ : BufTy).Contents (Elt F) → (⟨S20x20, .f32⟩ : BufTy).Contents (Elt F)),
    StableHlo.binary main_v244 main_v254 main_v255 (mulf : (⟨S20x20, .f32⟩ : BufTy).Contents (Elt F) → (⟨S20x20, .f32⟩ : BufTy).Contents (Elt F) → (⟨S20x20, .f32⟩ : BufTy).Contents (Elt F)),
    StableHlo.TRef.nullary main_call24.cst (constant S_ .f32 0x00000000#32),
    StableHlo.TRef.binary (.of main_v245) main_call24.cst main_call24.v0 (fun x v => pad S20 ![0] ![0] ![0] x v pads_S20_S20_000 h_S_),
    StableHlo.TRef.nullary main_call24.v1 (iotaInDim S20x20 32 0),
    StableHlo.TRef.nullary main_call24.v2 (iotaInDim S20x20 32 1),
    StableHlo.TRef.nullary main_call24.c (constantI S_ 32 0#32),
    StableHlo.TRef.unary main_call24.c main_call24.v3 (broadcastInDim S20x20 ![] bcast_S_S20x20),
    StableHlo.TRef.binary main_call24.v1 main_call24.v3 main_call24.v4 addi,
    StableHlo.TRef.binary main_call24.v4 main_call24.v2 main_call24.v5 (cmpi .eq),
    StableHlo.TRef.unary main_call24.v0 main_call24.v6 (broadcastInDim S20x1 ![0] bcast_S20_S20x1_0),
    StableHlo.TRef.nullary main_call24.cst_0 (constant S_ .f32 0x00000000#32),
    StableHlo.TRef.unary main_call24.v6 main_call24.call0.v0 (broadcastInDim S20x20 ![0, 1] bcast_S20x1_S20x20_0_1),
    StableHlo.TRef.unary main_call24.cst_0 main_call24.call0.v1 (broadcastInDim S20x20 ![] bcast_S_S20x20),
    StableHlo.TRef.ternary main_call24.v5 main_call24.call0.v0 main_call24.call0.v1 main_call24.call0.v2 select,
    StableHlo.binary main_v255 main_v256 main_v257 (addf : (⟨S20x20, .f32⟩ : BufTy).Contents (Elt F) → (⟨S20x20, .f32⟩ : BufTy).Contents (Elt F) → (⟨S20x20, .f32⟩ : BufTy).Contents (Elt F)),
    StableHlo.unary main_v238 main_v258 ((extractStridedSlice S16384x20 ![0, 0] · slices_S16384x64_S16384x20_0_0) : (⟨S16384x64, .f32⟩ : BufTy).Contents (Elt F) → (⟨S16384x20, .f32⟩ : BufTy).Contents (Elt F)),
    StableHlo.unary main_v257 main_v259 ((transpose S20x20 [1, 0] · transposes_S20x20_S20x20_1_0) : (⟨S20x20, .f32⟩ : BufTy).Contents (Elt F) → (⟨S20x20, .f32⟩ : BufTy).Contents (Elt F)),
    StableHlo.binary main_v258 main_v259 main_v260 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v246 main_v261 (broadcastInDim S1x20 ![1] bcast_S20_S1x20_1 : (⟨S20, .f32⟩ : BufTy).Contents (Elt F) → (⟨S1x20, .f32⟩ : BufTy).Contents (Elt F)),
    StableHlo.unary main_v261 main_v262 (broadcastInDim S16384x20 ![0, 1] bcast_S1x20_S16384x20_0_1 : (⟨S1x20, .f32⟩ : BufTy).Contents (Elt F) → (⟨S16384x20, .f32⟩ : BufTy).Contents (Elt F)),
    StableHlo.binary main_v260 main_v262 main_v263 (addf : (⟨S16384x20, .f32⟩ : BufTy).Contents (Elt F) → (⟨S16384x20, .f32⟩ : BufTy).Contents (Elt F) → (⟨S16384x20, .f32⟩ : BufTy).Contents (Elt F)),
    StableHlo.unary main_v263 main_v264 (Host.tanh : (⟨S16384x20, .f32⟩ : BufTy).Contents (Elt F) → (⟨S16384x20, .f32⟩ : BufTy).Contents (Elt F)),
    StableHlo.unary main_v242 main_v265 ((transpose S20x20 [1, 0] · transposes_S20x20_S20x20_1_0) : (⟨S20x20, .f32⟩ : BufTy).Contents (Elt F) → (⟨S20x20, .f32⟩ : BufTy).Contents (Elt F)),
    StableHlo.binary main_v264 main_v265 main_v266 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_24 (constantI S_ 32 0#32),
    StableHlo.unary main_c_24 main_v267 (broadcastInDim S1 ![] bcast_S_S1 : (⟨S_, .i32⟩ : BufTy).Contents (Elt F) → (⟨S1, .i32⟩ : BufTy).Contents (Elt F)),
    StableHlo.ternary main_v238 main_v267 main_v266 main_v268 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

theorem opsS7_sub : (opsS7 : List (HloOp τ sig (Elt F))).Forall fun op => op.bufs ⊆ tcRefs τ sig :=
  ⟨
    unary_bufs_sub .., unary_bufs_sub .., reshape_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., nullary_bufs_sub .., unary_bufs_sub .., binary_bufs_sub .., nullary_bufs_sub .., binary_bufs_sub ..,
    nullary_bufs_sub .., unary_bufs_sub .., ternary_bufs_sub .., unary_bufs_sub .., unary_bufs_sub .., unary_bufs_sub ..,
    nullary_bufs_sub .., nullary_bufs_sub .., nullary_bufs_sub .., unary_bufs_sub .., binary_bufs_sub .., binary_bufs_sub ..,
    unary_bufs_sub .., nullary_bufs_sub .., unary_bufs_sub .., binary_bufs_sub .., binary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    ternary_bufs_sub ..⟩

theorem opsS7_fresh : ∀ op ∈ (opsS7 : List (HloOp τ sig (Elt F))), op.fresh = ∅ := by
  intro _ h; (repeat (cases h with | head => rfl | tail _ h => ?_)); exact nomatch h

/-- The references the line writes. -/
abbrev wS7 : List (Ref sig .tc) :=
  [
    main_v239, main_v240, main_v241, main_call22_v0, main_call22_c, main_call22_v1, main_call22_v2, main_call22_v3,
    main_call22_v4, main_call22_cst, main_call22_v5, main_v242, main_call23_v0, main_call23_c, main_call23_v1, main_call23_v2,
    main_call23_v3, main_call23_v4, main_call23_cst, main_call23_v5, main_v243, main_v244, main_v245, main_v246,
    main_v247, main_v248, main_c_22, main_v249, main_v250, main_v251, main_v252, main_cst_23,
    main_v253, main_v254, main_v255, main_call24_cst, main_call24_v0, main_call24_v1, main_call24_v2, main_call24_c,
    main_call24_v3, main_call24_v4, main_call24_v5, main_call24_v6, main_call24_cst_0, main_call24_call0_v0, main_call24_call0_v1, main_v256,
    main_v257, main_v258, main_v259, main_v260, main_v261, main_v262, main_v263, main_v264,
    main_v265, main_v266, main_c_24, main_v267, main_v268 ]

theorem opsS7_writes : (opsS7 : List (HloOp τ sig (Elt F))).Forall fun op => op.writes ⊆ (wS7.map (Proc.devRef (τ := τ) .tc)).toFinset :=
  ⟨
    writes_sub main_v239 rfl (by decide),
    writes_sub main_v240 rfl (by decide),
    writes_sub main_v241 rfl (by decide),
    writes_sub main_call22_v0 rfl (by decide),
    writes_sub main_call22_c rfl (by decide),
    writes_sub main_call22_v1 rfl (by decide),
    writes_sub main_call22_v2 rfl (by decide),
    writes_sub main_call22_v3 rfl (by decide),
    writes_sub main_call22_v4 rfl (by decide),
    writes_sub main_call22_cst rfl (by decide),
    writes_sub main_call22_v5 rfl (by decide),
    writes_sub main_v242 rfl (by decide),
    writes_sub main_call23_v0 rfl (by decide),
    writes_sub main_call23_c rfl (by decide),
    writes_sub main_call23_v1 rfl (by decide),
    writes_sub main_call23_v2 rfl (by decide),
    writes_sub main_call23_v3 rfl (by decide),
    writes_sub main_call23_v4 rfl (by decide),
    writes_sub main_call23_cst rfl (by decide),
    writes_sub main_call23_v5 rfl (by decide),
    writes_sub main_v243 rfl (by decide),
    writes_sub main_v244 rfl (by decide),
    writes_sub main_v245 rfl (by decide),
    writes_sub main_v246 rfl (by decide),
    writes_sub main_v247 rfl (by decide),
    writes_sub main_v248 rfl (by decide),
    writes_sub main_c_22 rfl (by decide),
    writes_sub main_v249 rfl (by decide),
    writes_sub main_v250 rfl (by decide),
    writes_sub main_v251 rfl (by decide),
    writes_sub main_v252 rfl (by decide),
    writes_sub main_cst_23 rfl (by decide),
    writes_sub main_v253 rfl (by decide),
    writes_sub main_v254 rfl (by decide),
    writes_sub main_v255 rfl (by decide),
    writes_sub main_call24_cst rfl (by decide),
    writes_sub main_call24_v0 rfl (by decide),
    writes_sub main_call24_v1 rfl (by decide),
    writes_sub main_call24_v2 rfl (by decide),
    writes_sub main_call24_c rfl (by decide),
    writes_sub main_call24_v3 rfl (by decide),
    writes_sub main_call24_v4 rfl (by decide),
    writes_sub main_call24_v5 rfl (by decide),
    writes_sub main_call24_v6 rfl (by decide),
    writes_sub main_call24_cst_0 rfl (by decide),
    writes_sub main_call24_call0_v0 rfl (by decide),
    writes_sub main_call24_call0_v1 rfl (by decide),
    writes_sub main_v256 rfl (by decide),
    writes_sub main_v257 rfl (by decide),
    writes_sub main_v258 rfl (by decide),
    writes_sub main_v259 rfl (by decide),
    writes_sub main_v260 rfl (by decide),
    writes_sub main_v261 rfl (by decide),
    writes_sub main_v262 rfl (by decide),
    writes_sub main_v263 rfl (by decide),
    writes_sub main_v264 rfl (by decide),
    writes_sub main_v265 rfl (by decide),
    writes_sub main_v266 rfl (by decide),
    writes_sub main_c_24 rfl (by decide),
    writes_sub main_v267 rfl (by decide),
    writes_sub main_v268 rfl (by decide)⟩

/-- A reference the line does not write keeps its contents. -/
theorem opsS7_keep (V : Valuation τ sig (Elt F)) {r : Ref sig .tc} (hr : r ∉ wS7) :
    after opsS7 V (Proc.devRef .tc r) = V (Proc.devRef .tc r) :=
  after_of_writes_sub opsS7 V opsS7_writes hr

end Cert.ReferenceIdeal.RefSide

end
-- ==== Proof.RefOpsDec.lean ====
/-
  The reference's host operations of the decoder (two linear layers with a cut at zero between them), in order, as a list; every one touches TensorCore
  references only and determines its result; the list of the references they write, and that a reference outside it keeps
  its contents through the line.
-/
import proofs.«112810_j2207613190724_2_alg».proof.Proof.Gen.ReferenceIdeal
import Idealize.ShloMosaic.Lib.StableHlo.Run
import proofs.«112810_j2207613190724_2_alg».proof.Proof.RefLib

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The 13 operations, in order. -/
abbrev opsDec : List (HloOp τ sig (Elt F)) :=
  [
    StableHlo.unary main_arg10 main_v269 ((transpose S64x400 [1, 0] · transposes_S400x64_S64x400_1_0) : (⟨S400x64, .f32⟩ : BufTy).Contents (Elt F) → (⟨S64x400, .f32⟩ : BufTy).Contents (Elt F)),
    StableHlo.binary main_v268 main_v269 main_v270 ((fun l r => Host.dotGeneral dot_S16384x64_S64x400_S16384x400_1_0_0_1_n_n none l r) : (⟨S16384x64, .f32⟩ : BufTy).Contents (Elt F) → (⟨S64x400, .f32⟩ : BufTy).Contents (Elt F) → (⟨S16384x400, .f32⟩ : BufTy).Contents (Elt F)),
    StableHlo.unary main_arg11 main_v271 (broadcastInDim S1x400 ![1] bcast_S400_S1x400_1 : (⟨S400, .f32⟩ : BufTy).Contents (Elt F) → (⟨S1x400, .f32⟩ : BufTy).Contents (Elt F)),
    StableHlo.unary main_v271 main_v272 (broadcastInDim S16384x400 ![0, 1] bcast_S1x400_S16384x400_0_1 : (⟨S1x400, .f32⟩ : BufTy).Contents (Elt F) → (⟨S16384x400, .f32⟩ : BufTy).Contents (Elt F)),
    StableHlo.binary main_v270 main_v272 main_v273 (addf : (⟨S16384x400, .f32⟩ : BufTy).Contents (Elt F) → (⟨S16384x400, .f32⟩ : BufTy).Contents (Elt F) → (⟨S16384x400, .f32⟩ : BufTy).Contents (Elt F)),
    StableHlo.TRef.nullary main_call25.cst (constant S_ .f32 0x00000000#32),
    StableHlo.TRef.unary main_call25.cst main_call25.v0 (broadcastInDim S16384x400 ![] bcast_S_S16384x400),
    StableHlo.TRef.binary (.of main_v273) main_call25.v0 main_call25.v1 maximumf,
    StableHlo.unary main_arg12 main_v275 ((transpose S400x4096 [1, 0] · transposes_S4096x400_S400x4096_1_0) : (⟨S4096x400, .f32⟩ : BufTy).Contents (Elt F) → (⟨S400x4096, .f32⟩ : BufTy).Contents (Elt F)),
    StableHlo.binary main_v274 main_v275 main_v276 ((fun l r => Host.dotGeneral dot_S16384x400_S400x4096_S16384x4096_1_0_0_1_n_n none l r) : (⟨S16384x400, .f32⟩ : BufTy).Contents (Elt F) → (⟨S400x4096, .f32⟩ : BufTy).Contents (Elt F) → (⟨S16384x4096, .f32⟩ : BufTy).Contents (Elt F)),
    StableHlo.unary main_arg13 main_v277 (broadcastInDim S1x4096 ![1] bcast_S4096_S1x4096_1 : (⟨S4096, .f32⟩ : BufTy).Contents (Elt F) → (⟨S1x4096, .f32⟩ : BufTy).Contents (Elt F)),
    StableHlo.unary main_v277 main_v278 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v276 main_v278 main_v279 (addf : (⟨S16384x4096, .f32⟩ : BufTy).Contents (Elt F) → (⟨S16384x4096, .f32⟩ : BufTy).Contents (Elt F) → (⟨S16384x4096, .f32⟩ : BufTy).Contents (Elt F)) ]

theorem opsDec_sub : (opsDec : List (HloOp τ sig (Elt F))).Forall fun op => op.bufs ⊆ tcRefs τ sig :=
  ⟨
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩

theorem opsDec_fresh : ∀ op ∈ (opsDec : List (HloOp τ sig (Elt F))), op.fresh = ∅ := by
  intro _ h; (repeat (cases h with | head => rfl | tail _ h => ?_)); exact nomatch h

/-- The references the line writes. -/
abbrev wDec : List (Ref sig .tc) :=
  [
    main_v269, main_v270, main_v271, main_v272, main_v273, main_call25_cst, main_call25_v0, main_v274,
    main_v275, main_v276, main_v277, main_v278, main_v279 ]

theorem opsDec_writes : (opsDec : List (HloOp τ sig (Elt F))).Forall fun op => op.writes ⊆ (wDec.map (Proc.devRef (τ := τ) .tc)).toFinset :=
  ⟨
    writes_sub main_v269 rfl (by decide),
    writes_sub main_v270 rfl (by decide),
    writes_sub main_v271 rfl (by decide),
    writes_sub main_v272 rfl (by decide),
    writes_sub main_v273 rfl (by decide),
    writes_sub main_call25_cst rfl (by decide),
    writes_sub main_call25_v0 rfl (by decide),
    writes_sub main_v274 rfl (by decide),
    writes_sub main_v275 rfl (by decide),
    writes_sub main_v276 rfl (by decide),
    writes_sub main_v277 rfl (by decide),
    writes_sub main_v278 rfl (by decide),
    writes_sub main_v279 rfl (by decide)⟩

/-- A reference the line does not write keeps its contents. -/
theorem opsDec_keep (V : Valuation τ sig (Elt F)) {r : Ref sig .tc} (hr : r ∉ wDec) :
    after opsDec V (Proc.devRef .tc r) = V (Proc.devRef .tc r) :=
  after_of_writes_sub opsDec V opsDec_writes hr

end Cert.ReferenceIdeal.RefSide

end
-- ==== Proof.RefMain.lean ====
/-
  The reference's @main is the straight line of its 535 host operations (each call replaced by the called function's
  operations over that call's buffers): the encoder's line, the eight Sylvester steps' lines, the decoder's line. Every
  weakly fair execution terminates with each TensorCore buffer at the line's fold over the launch contents; a reference
  no line writes keeps its contents.
-/
import proofs.«112810_j2207613190724_2_alg».proof.Proof.Gen.ReferenceIdeal
import Idealize.ShloMosaic.Lib.StableHlo.Run
import proofs.«112810_j2207613190724_2_alg».proof.Proof.RefLib
import proofs.«112810_j2207613190724_2_alg».proof.Proof.RefWin0
import proofs.«112810_j2207613190724_2_alg».proof.Proof.RefWin1
import proofs.«112810_j2207613190724_2_alg».proof.Proof.RefWin2
import proofs.«112810_j2207613190724_2_alg».proof.Proof.RefWin3
import proofs.«112810_j2207613190724_2_alg».proof.Proof.RefWin4
import proofs.«112810_j2207613190724_2_alg».proof.Proof.RefWin5
import proofs.«112810_j2207613190724_2_alg».proof.Proof.RefOpsEnc
import proofs.«112810_j2207613190724_2_alg».proof.Proof.RefOpsS0
import proofs.«112810_j2207613190724_2_alg».proof.Proof.RefOpsS1
import proofs.«112810_j2207613190724_2_alg».proof.Proof.RefOpsS2
import proofs.«112810_j2207613190724_2_alg».proof.Proof.RefOpsS3
import proofs.«112810_j2207613190724_2_alg».proof.Proof.RefOpsS4
import proofs.«112810_j2207613190724_2_alg».proof.Proof.RefOpsS5
import proofs.«112810_j2207613190724_2_alg».proof.Proof.RefOpsS6
import proofs.«112810_j2207613190724_2_alg».proof.Proof.RefOpsS7
import proofs.«112810_j2207613190724_2_alg».proof.Proof.RefOpsDec

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- All the operations: the ten lines in order. -/
abbrev ops : List (HloOp τ sig (Elt F)) := opsEnc ++ (opsS0 ++ (opsS1 ++ (opsS2 ++ (opsS3 ++ (opsS4 ++ (opsS5 ++ (opsS6 ++ (opsS7 ++ (opsDec)))))))))

set_option maxRecDepth 8192 in
/-- The six windows of @main, concatenated, are the ten lines, concatenated: the same list cut at other places. -/
theorem wins_eq : (win0 ++ (win1 ++ (win2 ++ (win3 ++ (win4 ++ (win5))))) : List (HloOp τ sig (Elt F))) = ops := rfl

/-- @main is the straight line of all the operations. -/
theorem main_eq (c : Dev nD) : main (F := F) c = seq ops := by
  rw [← wins_eq]
  simp only [main, part0_eq, part1_eq, part2_eq, part3_eq, part4_eq, part5_eq, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app opsEnc_sub (forall_app opsS0_sub (forall_app opsS1_sub (forall_app opsS2_sub (forall_app opsS3_sub (forall_app opsS4_sub (forall_app opsS5_sub (forall_app opsS6_sub (forall_app opsS7_sub (opsDec_sub)))))))))

theorem ops_fresh : ∀ op ∈ (ops : List (HloOp τ sig (Elt F))), op.fresh = ∅ :=
  mem_app opsEnc_fresh (mem_app opsS0_fresh (mem_app opsS1_fresh (mem_app opsS2_fresh (mem_app opsS3_fresh (mem_app opsS4_fresh (mem_app opsS5_fresh (mem_app opsS6_fresh (mem_app opsS7_fresh (opsDec_fresh)))))))))

/-- From any memory with zero counters every weakly fair execution of @main terminates, and every TensorCore buffer ends
    at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A reference none of the ten lines writes keeps its contents through all the operations. -/
theorem ops_keep (V : Valuation τ sig (Elt F)) {r : Ref sig .tc}
    (h0 : r ∉ wEnc) (h1 : r ∉ wS0) (h2 : r ∉ wS1) (h3 : r ∉ wS2) (h4 : r ∉ wS3) (h5 : r ∉ wS4) (h6 : r ∉ wS5) (h7 : r ∉ wS6) (h8 : r ∉ wS7) (h9 : r ∉ wDec) :
    after ops V (Proc.devRef .tc r) = V (Proc.devRef .tc r) := by
  simp only [ops, after_app]
  rw [opsDec_keep _ h9, opsS7_keep _ h8, opsS6_keep _ h7, opsS5_keep _ h6, opsS4_keep _ h5, opsS3_keep _ h4, opsS2_keep _ h3, opsS1_keep _ h2, opsS0_keep _ h1, opsEnc_keep _ h0]

end Cert.ReferenceIdeal.RefSide

end
-- ==== Proof.RefAlgDefs.lean ====
/-
  The reference network's stages as functions of the arrays they read, each the composition of the host's
  array operations in the order the reference applies them: the hidden layer, a head, the averaged flow
  parameters, the latent start, one Sylvester step of either parity over the step's 440 parameters, the decoder.
-/
import proofs.«112810_j2207613190724_2_alg».proof.ReferenceIdeal
import Idealize.ShloMosaic.PureOps.Ideal

set_option synthInstance.maxSize 4096

noncomputable section

namespace Cert.ReferenceIdeal.RefAlg

open Cert.ReferenceIdeal Idealize.ShloMosaic

variable {F : FTy → Type} [FloatOps F] [Facts₀]
open Facts₀

/-- The contents of an array of shape s and element type e over the float values F. -/
abbrev T (F : FTy → Type) (s : Shape) (e : EltTy) := (⟨s, e⟩ : BufTy).Contents (Elt F)

/-- The cut at zero of a 16384x400 array. -/
def reluT (x : T F S16384x400 .f32) : T F S16384x400 .f32 :=
  (maximumf x (broadcastInDim S16384x400 ![] bcast_S_S16384x400 (constant S_ .f32 0x00000000#32 : T F S_ .f32) : T F S16384x400 .f32) : T F S16384x400 .f32)

/-- The upper triangle of a 20x20 block: zero where the row index minus one is at least the column index. -/
def triuT (R : T F S20x20 .f32) : T F S20x20 .f32 :=
  (select (cmpi .sge (addi (iotaInDim S20x20 32 0 : T F S20x20 .i32) (broadcastInDim S20x20 ![] bcast_S_S20x20 (constantI S_ 32 4294967295#32 : T F S_ .i32) : T F S20x20 .i32) : T F S20x20 .i32) (iotaInDim S20x20 32 1 : T F S20x20 .i32) : T F S20x20 .i1) (broadcastInDim S20x20 ![] bcast_S_S20x20 (constant S_ .f32 0x00000000#32 : T F S_ .f32) : T F S20x20 .f32) R : T F S20x20 .f32)

/-- The lower triangle of a 20x20 block: the block where the row index is at least the column index, zero elsewhere. -/
def trilT (R : T F S20x20 .f32) : T F S20x20 .f32 :=
  (select (cmpi .sge (addi (iotaInDim S20x20 32 0 : T F S20x20 .i32) (broadcastInDim S20x20 ![] bcast_S_S20x20 (constantI S_ 32 0#32 : T F S_ .i32) : T F S20x20 .i32) : T F S20x20 .i32) (iotaInDim S20x20 32 1 : T F S20x20 .i32) : T F S20x20 .i1) R (broadcastInDim S20x20 ![] bcast_S_S20x20 (constant S_ .f32 0x00000000#32 : T F S_ .f32) : T F S20x20 .f32) : T F S20x20 .f32)

/-- The diagonal 20x20 array of a vector of twenty entries. -/
def diagT (v : T F S20 .f32) : T F S20x20 .f32 :=
  (select (cmpi .eq (addi (iotaInDim S20x20 32 0 : T F S20x20 .i32) (broadcastInDim S20x20 ![] bcast_S_S20x20 (constantI S_ 32 0#32 : T F S_ .i32) : T F S20x20 .i32) : T F S20x20 .i32) (iotaInDim S20x20 32 1 : T F S20x20 .i32) : T F S20x20 .i1) (broadcastInDim S20x20 ![0, 1] bcast_S20x1_S20x20_0_1 (broadcastInDim S20x1 ![0] bcast_S20_S20x1_0 (pad S20 ![0] ![0] ![0] v (constant S_ .f32 0x00000000#32 : T F S_ .f32) pads_S20_S20_000 h_S_ : T F S20 .f32) : T F S20x1 .f32) : T F S20x20 .f32) (broadcastInDim S20x20 ![] bcast_S_S20x20 (constant S_ .f32 0x00000000#32 : T F S_ .f32) : T F S20x20 .f32) : T F S20x20 .f32)

/-- One minus the identity pattern: zero on the diagonal, one off it. -/
def offDiagT : T F S20x20 .f32 :=
  (subf (broadcastInDim S20x20 ![] bcast_S_S20x20 (constant S_ .f32 0x3F800000#32 : T F S_ .f32) : T F S20x20 .f32) (uitofp .f32 (cmpi .eq (addi (iotaInDim S20x20 32 0 : T F S20x20 .i32) (broadcastInDim S20x20 ![] bcast_S_S20x20 (constantI S_ 32 0#32 : T F S_ .i32) : T F S20x20 .i32) : T F S20x20 .i32) (iotaInDim S20x20 32 1 : T F S20x20 .i32) : T F S20x20 .i1) : T F S20x20 .f32) : T F S20x20 .f32)

/-- The hidden layer: x W1^T + b1, cut at zero. -/
def hidT (x : T F S16384x4096 .f32) (W1 : T F S400x4096 .f32) (b1 : T F S400 .f32) : T F S16384x400 .f32 :=
  reluT (addf (Host.dotGeneral dot_S16384x4096_S4096x400_S16384x400_1_0_0_1_n_n none x (transpose S4096x400 [1, 0] W1 transposes_S400x4096_S4096x400_1_0 : T F S4096x400 .f32) : T F S16384x400 .f32) (broadcastInDim S16384x400 ![0, 1] bcast_S1x400_S16384x400_0_1 (broadcastInDim S1x400 ![1] bcast_S400_S1x400_1 b1 : T F S1x400 .f32) : T F S16384x400 .f32) : T F S16384x400 .f32)

/-- A head of 64 columns: h W^T + b. -/
def head64T (h : T F S16384x400 .f32) (W : T F S64x400 .f32) (b : T F S64 .f32) : T F S16384x64 .f32 :=
  (addf (Host.dotGeneral dot_S16384x400_S400x64_S16384x64_1_0_0_1_n_n none h (transpose S400x64 [1, 0] W transposes_S64x400_S400x64_1_0 : T F S400x64 .f32) : T F S16384x64 .f32) (broadcastInDim S16384x64 ![0, 1] bcast_S1x64_S16384x64_0_1 (broadcastInDim S1x64 ![1] bcast_S64_S1x64_1 b : T F S1x64 .f32) : T F S16384x64 .f32) : T F S16384x64 .f32)

/-- The averaged flow parameters: the third head summed over the batch, divided by the word of 16384. -/
def fpT (h : T F S16384x400 .f32) (W23 : T F S3520x400 .f32) (b23 : T F S3520 .f32) : T F S3520 .f32 :=
  (Host.divf (Host.reduceAdd (addf (Host.dotGeneral dot_S16384x400_S400x3520_S16384x3520_1_0_0_1_n_n none h (transpose S400x3520 [1, 0] W23 transposes_S3520x400_S400x3520_1_0 : T F S400x3520 .f32) : T F S16384x3520 .f32) (broadcastInDim S16384x3520 ![0, 1] bcast_S1x3520_S16384x3520_0_1 (broadcastInDim S1x3520 ![1] bcast_S3520_S1x3520_1 b23 : T F S1x3520 .f32) : T F S16384x3520 .f32) : T F S16384x3520 .f32) (constant S_ .f32 0x00000000#32 : T F S_ .f32) reducesTo_S16384x3520_S3520_d0 h_S_ : T F S3520 .f32) (broadcastInDim S3520 ![] bcast_S_S3520 (constant S_ .f32 0x46800000#32 : T F S_ .f32) : T F S3520 .f32) : T F S3520 .f32)

/-- The latent start: eps * exp (lv / 2) + mu. -/
def z0T (eps lv mu : T F S16384x64 .f32) : T F S16384x64 .f32 :=
  (addf (mulf eps (Host.exp (mulf (broadcastInDim S16384x64 ![] bcast_S_S16384x64 (constant S_ .f32 0x3F000000#32 : T F S_ .f32) : T F S16384x64 .f32) lv : T F S16384x64 .f32) : T F S16384x64 .f32) : T F S16384x64 .f32) mu : T F S16384x64 .f32)

/-- A Sylvester step of even index on the latent array, from the step's 440 parameters. -/
def stepEvenT (z : T F S16384x64 .f32) (p : T F S440 .f32) : T F S16384x64 .f32 :=
  (Host.scatter scatter_S16384x64_S1_S16384x20_01_n_1_0 FloatOps.addf z (broadcastInDim S1 ![] bcast_S_S1 (constantI S_ 32 0#32 : T F S_ .i32) : T F S1 .i32) (Host.dotGeneral dot_S16384x20_S20x20_S16384x20_1_0_0_1_n_n none (Host.tanh (addf (Host.dotGeneral dot_S16384x20_S20x20_S16384x20_1_0_0_1_n_n none (extractStridedSlice S16384x20 ![0, 0] z slices_S16384x64_S16384x20_0_0 : T F S16384x20 .f32) (transpose S20x20 [1, 0] (addf (mulf (trilT (shapeCast S20x20 (extractStridedSlice S400 ![0] p slices_S440_S400_0 : T F S400 .f32) shapeCasts_S400_S20x20 : T F S20x20 .f32)) offDiagT : T F S20x20 .f32) (diagT (extractStridedSlice S20 ![400] p slices_S440_S20_400 : T F S20 .f32)) : T F S20x20 .f32) transposes_S20x20_S20x20_1_0 : T F S20x20 .f32) : T F S16384x20 .f32) (broadcastInDim S16384x20 ![0, 1] bcast_S1x20_S16384x20_0_1 (broadcastInDim S1x20 ![1] bcast_S20_S1x20_1 (extractStridedSlice S20 ![420] p slices_S440_S20_420 : T F S20 .f32) : T F S1x20 .f32) : T F S16384x20 .f32) : T F S16384x20 .f32) : T F S16384x20 .f32) (transpose S20x20 [1, 0] (transpose S20x20 [1, 0] (triuT (shapeCast S20x20 (extractStridedSlice S400 ![0] p slices_S440_S400_0 : T F S400 .f32) shapeCasts_S400_S20x20 : T F S20x20 .f32)) transposes_S20x20_S20x20_1_0 : T F S20x20 .f32) transposes_S20x20_S20x20_1_0 : T F S20x20 .f32) : T F S16384x20 .f32) : T F S16384x64 .f32)

/-- A Sylvester step of odd index on the latent array, from the step's 440 parameters. -/
def stepOddT (z : T F S16384x64 .f32) (p : T F S440 .f32) : T F S16384x64 .f32 :=
  (Host.scatter scatter_S16384x64_S1_S16384x20_01_n_1_0 FloatOps.addf z (broadcastInDim S1 ![] bcast_S_S1 (constantI S_ 32 0#32 : T F S_ .i32) : T F S1 .i32) (Host.dotGeneral dot_S16384x20_S20x20_S16384x20_1_0_0_1_n_n none (Host.tanh (addf (Host.dotGeneral dot_S16384x20_S20x20_S16384x20_1_0_0_1_n_n none (extractStridedSlice S16384x20 ![0, 0] z slices_S16384x64_S16384x20_0_0 : T F S16384x20 .f32) (transpose S20x20 [1, 0] (addf (mulf (transpose S20x20 [1, 0] (trilT (shapeCast S20x20 (extractStridedSlice S400 ![0] p slices_S440_S400_0 : T F S400 .f32) shapeCasts_S400_S20x20 : T F S20x20 .f32)) transposes_S20x20_S20x20_1_0 : T F S20x20 .f32) offDiagT : T F S20x20 .f32) (diagT (extractStridedSlice S20 ![400] p slices_S440_S20_400 : T F S20 .f32)) : T F S20x20 .f32) transposes_S20x20_S20x20_1_0 : T F S20x20 .f32) : T F S16384x20 .f32) (broadcastInDim S16384x20 ![0, 1] bcast_S1x20_S16384x20_0_1 (broadcastInDim S1x20 ![1] bcast_S20_S1x20_1 (extractStridedSlice S20 ![420] p slices_S440_S20_420 : T F S20 .f32) : T F S1x20 .f32) : T F S16384x20 .f32) : T F S16384x20 .f32) : T F S16384x20 .f32) (transpose S20x20 [1, 0] (triuT (shapeCast S20x20 (extractStridedSlice S400 ![0] p slices_S440_S400_0 : T F S400 .f32) shapeCasts_S400_S20x20 : T F S20x20 .f32)) transposes_S20x20_S20x20_1_0 : T F S20x20 .f32) : T F S16384x20 .f32) : T F S16384x64 .f32)

/-- The decoder: two linear layers with a cut at zero between them. -/
def decT (z : T F S16384x64 .f32) (W3 : T F S400x64 .f32) (b3 : T F S400 .f32) (W4 : T F S4096x400 .f32) (b4 : T F S4096 .f32) : T F S16384x4096 .f32 :=
  (addf (Host.dotGeneral dot_S16384x400_S400x4096_S16384x4096_1_0_0_1_n_n none (reluT (addf (Host.dotGeneral dot_S16384x64_S64x400_S16384x400_1_0_0_1_n_n none z (transpose S64x400 [1, 0] W3 transposes_S400x64_S64x400_1_0 : T F S64x400 .f32) : T F S16384x400 .f32) (broadcastInDim S16384x400 ![0, 1] bcast_S1x400_S16384x400_0_1 (broadcastInDim S1x400 ![1] bcast_S400_S1x400_1 b3 : T F S1x400 .f32) : T F S16384x400 .f32) : T F S16384x400 .f32)) (transpose S400x4096 [1, 0] W4 transposes_S4096x400_S400x4096_1_0 : T F S400x4096 .f32) : T F S16384x4096 .f32) (broadcastInDim S16384x4096 ![0, 1] bcast_S1x4096_S16384x4096_0_1 (broadcastInDim S1x4096 ![1] bcast_S4096_S1x4096_1 b4 : T F S1x4096 .f32) : T F S16384x4096 .f32) : T F S16384x4096 .f32)

end Cert.ReferenceIdeal.RefAlg

end
-- ==== Proof.RefValEnc.lean ====
/-
  What the line of the encoder (the hidden layer, the three heads, the batch mean of the flow parameters, the latent start) leaves in its result buffers, as the stage's function of the buffers it read.
-/
import proofs.«112810_j2207613190724_2_alg».proof.Proof.RefOpsEnc
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem enc_v10 (V : Valuation τ sig (Elt Ideal)) :
    after (opsEnc (F := Ideal)) V (main_v10 : DevRef τ sig)
      = RefAlg.head64T (RefAlg.hidT (V (main_arg0 : DevRef τ sig)) (V (main_arg2 : DevRef τ sig)) (V (main_arg3 : DevRef τ sig))) (V (main_arg4 : DevRef τ sig)) (V (main_arg5 : DevRef τ sig)) := by
  simp only [after_cons, after_nil]
  rfl

set_option maxRecDepth 16384 in
set_option maxHeartbeats 2000000 in
theorem enc_v15 (V : Valuation τ sig (Elt Ideal)) :
    after (opsEnc (F := Ideal)) V (main_v15 : DevRef τ sig)
      = RefAlg.head64T (RefAlg.hidT (V (main_arg0 : DevRef τ sig)) (V (main_arg2 : DevRef τ sig)) (V (main_arg3 : DevRef τ sig))) (V (main_arg6 : DevRef τ sig)) (V (main_arg7 : DevRef τ sig)) := by
  simp only [after_cons, after_nil]
  rfl

set_option maxRecDepth 16384 in
set_option maxHeartbeats 2000000 in
theorem enc_v23 (V : Valuation τ sig (Elt Ideal)) :
    after (opsEnc (F := Ideal)) V (main_v23 : DevRef τ sig)
      = RefAlg.fpT (RefAlg.hidT (V (main_arg0 : DevRef τ sig)) (V (main_arg2 : DevRef τ sig)) (V (main_arg3 : DevRef τ sig))) (V (main_arg8 : DevRef τ sig)) (V (main_arg9 : DevRef τ sig)) := by
  simp only [after_cons, after_nil]
  rfl

set_option maxRecDepth 16384 in
set_option maxHeartbeats 2000000 in
theorem enc_v28 (V : Valuation τ sig (Elt Ideal)) :
    after (opsEnc (F := Ideal)) V (main_v28 : DevRef τ sig)
      = RefAlg.z0T (V (main_arg1 : DevRef τ sig)) (RefAlg.head64T (RefAlg.hidT (V (main_arg0 : DevRef τ sig)) (V (main_arg2 : DevRef τ sig)) (V (main_arg3 : DevRef τ sig))) (V (main_arg6 : DevRef τ sig)) (V (main_arg7 : DevRef τ sig))) (RefAlg.head64T (RefAlg.hidT (V (main_arg0 : DevRef τ sig)) (V (main_arg2 : DevRef τ sig)) (V (main_arg3 : DevRef τ sig))) (V (main_arg4 : DevRef τ sig)) (V (main_arg5 : DevRef τ sig))) := by
  simp only [after_cons, after_nil]
  rfl

end Cert.ReferenceIdeal.RefSide

end
-- ==== Proof.RefValS0.lean ====
/-
  What the line of Sylvester step 0 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS0
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS0P : List (HloOp τ sig (Elt F)) :=
  [
    StableHlo.unary main_v23 main_v29 ((extractStridedSlice S440 ![0] · slices_S3520_S440_0) : (⟨S3520, .f32⟩ : BufTy).Contents (Elt F) → (⟨S440, .f32⟩ : BufTy).Contents (Elt F)),
    StableHlo.unary main_v29 main_v30 ((extractStridedSlice S400 ![0] · slices_S440_S400_0) : (⟨S440, .f32⟩ : BufTy).Contents (Elt F) → (⟨S400, .f32⟩ : BufTy).Contents (Elt F)),
    StableHlo.reshape main_v30 main_v31 rfl shapeCasts_S400_S20x20,
    StableHlo.nullary main_call1_v0 (iotaInDim S20x20 32 0 : (⟨S20x20, .i32⟩ : BufTy).Contents (Elt F)),
    StableHlo.nullary main_call1_c (constantI S_ 32 4294967295#32 : (⟨S_, .i32⟩ : BufTy).Contents (Elt F)),
    StableHlo.unary main_call1_c main_call1_v1 (broadcastInDim S20x20 ![] bcast_S_S20x20 : (⟨S_, .i32⟩ : BufTy).Contents (Elt F) → (⟨S20x20, .i32⟩ : BufTy).Contents (Elt F)),
    StableHlo.binary main_call1_v0 main_call1_v1 main_call1_v2 (addi : (⟨S20x20, .i32⟩ : BufTy).Contents (Elt F) → (⟨S20x20, .i32⟩ : BufTy).Contents (Elt F) → (⟨S20x20, .i32⟩ : BufTy).Contents (Elt F)),
    StableHlo.nullary main_call1_v3 (iotaInDim S20x20 32 1 : (⟨S20x20, .i32⟩ : BufTy).Contents (Elt F)),
    StableHlo.binary main_call1_v2 main_call1_v3 main_call1_v4 (cmpi .sge : (⟨S20x20, .i32⟩ : BufTy).Contents (Elt F) → (⟨S20x20, .i32⟩ : BufTy).Contents (Elt F) → (⟨S20x20, .i1⟩ : BufTy).Contents (Elt F)),
    StableHlo.nullary main_call1_cst (constant S_ .f32 0x00000000#32 : (⟨S_, .f32⟩ : BufTy).Contents (Elt F)),
    StableHlo.unary main_call1_cst main_call1_v5 (broadcastInDim S20x20 ![] bcast_S_S20x20 : (⟨S_, .f32⟩ : BufTy).Contents (Elt F) → (⟨S20x20, .f32⟩ : BufTy).Contents (Elt F)),
    StableHlo.ternary main_call1_v4 main_call1_v5 main_v31 main_v32 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call2_v0 (iotaInDim S20x20 32 0 : (⟨S20x20, .i32⟩ : BufTy).Contents (Elt F)),
    StableHlo.nullary main_call2_c (constantI S_ 32 0#32 : (⟨S_, .i32⟩ : BufTy).Contents (Elt F)),
    StableHlo.unary main_call2_c main_call2_v1 (broadcastInDim S20x20 ![] bcast_S_S20x20 : (⟨S_, .i32⟩ : BufTy).Contents (Elt F) → (⟨S20x20, .i32⟩ : BufTy).Contents (Elt F)),
    StableHlo.binary main_call2_v0 main_call2_v1 main_call2_v2 (addi : (⟨S20x20, .i32⟩ : BufTy).Contents (Elt F) → (⟨S20x20, .i32⟩ : BufTy).Contents (Elt F) → (⟨S20x20, .i32⟩ : BufTy).Contents (Elt F)),
    StableHlo.nullary main_call2_v3 (iotaInDim S20x20 32 1 : (⟨S20x20, .i32⟩ : BufTy).Contents (Elt F)),
    StableHlo.binary main_call2_v2 main_call2_v3 main_call2_v4 (cmpi .sge : (⟨S20x20, .i32⟩ : BufTy).Contents (Elt F) → (⟨S20x20, .i32⟩ : BufTy).Contents (Elt F) → (⟨S20x20, .i1⟩ : BufTy).Contents (Elt F)),
    StableHlo.nullary main_call2_cst (constant S_ .f32 0x00000000#32 : (⟨S_, .f32⟩ : BufTy).Contents (Elt F)),
    StableHlo.unary main_call2_cst main_call2_v5 (broadcastInDim S20x20 ![] bcast_S_S20x20 : (⟨S_, .f32⟩ : BufTy).Contents (Elt F) → (⟨S20x20, .f32⟩ : BufTy).Contents (Elt F)),
    StableHlo.ternary main_call2_v4 main_v31 main_call2_v5 main_v33 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v32 main_v34 ((transpose S20x20 [1, 0] · transposes_S20x20_S20x20_1_0) : (⟨S20x20, .f32⟩ : BufTy).Contents (Elt F) → (⟨S20x20, .f32⟩ : BufTy).Contents (Elt F)),
    StableHlo.unary main_v29 main_v35 ((extractStridedSlice S20 ![400] · slices_S440_S20_400) : (⟨S440, .f32⟩ : BufTy).Contents (Elt F) → (⟨S20, .f32⟩ : BufTy).Contents (Elt F)),
    StableHlo.unary main_v29 main_v36 ((extractStridedSlice S20 ![420] · slices_S440_S20_420) : (⟨S440, .f32⟩ : BufTy).Contents (Elt F) → (⟨S20, .f32⟩ : BufTy).Contents (Elt F)),
    StableHlo.nullary main_v37 (iotaInDim S20x20 32 0),
    StableHlo.nullary main_v38 (iotaInDim S20x20 32 1),
    StableHlo.nullary main_c (constantI S_ 32 0#32),
    StableHlo.unary main_c main_v39 (broadcastInDim S20x20 ![] bcast_S_S20x20 : (⟨S_, .i32⟩ : BufTy).Contents (Elt F) → (⟨S20x20, .i32⟩ : BufTy).Contents (Elt F)),
    StableHlo.binary main_v37 main_v39 main_v40 (addi : (⟨S20x20, .i32⟩ : BufTy).Contents (Elt F) → (⟨S20x20, .i32⟩ : BufTy).Contents (Elt F) → (⟨S20x20, .i32⟩ : BufTy).Contents (Elt F)),
    StableHlo.binary main_v40 main_v38 main_v41 (cmpi .eq : (⟨S20x20, .i32⟩ : BufTy).Contents (Elt F) → (⟨S20x20, .i32⟩ : BufTy).Contents (Elt F) → (⟨S20x20, .i1⟩ : BufTy).Contents (Elt F)),
    StableHlo.unary main_v41 main_v42 (uitofp .f32 : (⟨S20x20, .i1⟩ : BufTy).Contents (Elt F) → (⟨S20x20, .f32⟩ : BufTy).Contents (Elt F)),
    StableHlo.nullary main_cst_2 (constant S_ .f32 0x3F800000#32),
    StableHlo.unary main_cst_2 main_v43 (broadcastInDim S20x20 ![] bcast_S_S20x20 : (⟨S_, .f32⟩ : BufTy).Contents (Elt F) → (⟨S20x20, .f32⟩ : BufTy).Contents (Elt F)),
    StableHlo.binary main_v43 main_v42 main_v44 (subf : (⟨S20x20, .f32⟩ : BufTy).Contents (Elt F) → (⟨S20x20, .f32⟩ : BufTy).Contents (Elt F) → (⟨S20x20, .f32⟩ : BufTy).Contents (Elt F)),
    StableHlo.binary main_v33 main_v44 main_v45 (mulf : (⟨S20x20, .f32⟩ : BufTy).Contents (Elt F) → (⟨S20x20, .f32⟩ : BufTy).Contents (Elt F) → (⟨S20x20, .f32⟩ : BufTy).Contents (Elt F)),
    StableHlo.nullary main_call3_cst (constant S_ .f32 0x00000000#32 : (⟨S_, .f32⟩ : BufTy).Contents (Elt F)),
    StableHlo.binary main_v35 main_call3_cst main_call3_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call3_v1 (iotaInDim S20x20 32 0 : (⟨S20x20, .i32⟩ : BufTy).Contents (Elt F)),
    StableHlo.nullary main_call3_v2 (iotaInDim S20x20 32 1 : (⟨S20x20, .i32⟩ : BufTy).Contents (Elt F)),
    StableHlo.nullary main_call3_c (constantI S_ 32 0#32 : (⟨S_, .i32⟩ : BufTy).Contents (Elt F)),
    StableHlo.unary main_call3_c main_call3_v3 (broadcastInDim S20x20 ![] bcast_S_S20x20 : (⟨S_, .i32⟩ : BufTy).Contents (Elt F) → (⟨S20x20, .i32⟩ : BufTy).Contents (Elt F)),
    StableHlo.binary main_call3_v1 main_call3_v3 main_call3_v4 (addi : (⟨S20x20, .i32⟩ : BufTy).Contents (Elt F) → (⟨S20x20, .i32⟩ : BufTy).Contents (Elt F) → (⟨S20x20, .i32⟩ : BufTy).Contents (Elt F)),
    StableHlo.binary main_call3_v4 main_call3_v2 main_call3_v5 (cmpi .eq : (⟨S20x20, .i32⟩ : BufTy).Contents (Elt F) → (⟨S20x20, .i32⟩ : BufTy).Contents (Elt F) → (⟨S20x20, .i1⟩ : BufTy).Contents (Elt F)),
    StableHlo.unary main_call3_v0 main_call3_v6 (broadcastInDim S20x1 ![0] bcast_S20_S20x1_0 : (⟨S20, .f32⟩ : BufTy).Contents (Elt F) → (⟨S20x1, .f32⟩ : BufTy).Contents (Elt F)),
    StableHlo.nullary main_call3_cst_0 (constant S_ .f32 0x00000000#32 : (⟨S_, .f32⟩ : BufTy).Contents (Elt F)),
    StableHlo.unary main_call3_v6 main_call3_call0_v0 (broadcastInDim S20x20 ![0, 1] bcast_S20x1_S20x20_0_1 : (⟨S20x1, .f32⟩ : BufTy).Contents (Elt F) → (⟨S20x20, .f32⟩ : BufTy).Contents (Elt F)),
    StableHlo.unary main_call3_cst_0 main_call3_call0_v1 (broadcastInDim S20x20 ![] bcast_S_S20x20 : (⟨S_, .f32⟩ : BufTy).Contents (Elt F) → (⟨S20x20, .f32⟩ : BufTy).Contents (Elt F)),
    StableHlo.ternary main_call3_v5 main_call3_call0_v0 main_call3_call0_v1 main_v46 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v45 main_v46 main_v47 (addf : (⟨S20x20, .f32⟩ : BufTy).Contents (Elt F) → (⟨S20x20, .f32⟩ : BufTy).Contents (Elt F) → (⟨S20x20, .f32⟩ : BufTy).Contents (Elt F)),
    StableHlo.unary main_v28 main_v48 ((extractStridedSlice S16384x20 ![0, 0] · slices_S16384x64_S16384x20_0_0) : (⟨S16384x64, .f32⟩ : BufTy).Contents (Elt F) → (⟨S16384x20, .f32⟩ : BufTy).Contents (Elt F)),
    StableHlo.unary main_v47 main_v49 ((transpose S20x20 [1, 0] · transposes_S20x20_S20x20_1_0) : (⟨S20x20, .f32⟩ : BufTy).Contents (Elt F) → (⟨S20x20, .f32⟩ : BufTy).Contents (Elt F)),
    StableHlo.binary main_v48 main_v49 main_v50 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v36 main_v51 (broadcastInDim S1x20 ![1] bcast_S20_S1x20_1 : (⟨S20, .f32⟩ : BufTy).Contents (Elt F) → (⟨S1x20, .f32⟩ : BufTy).Contents (Elt F)),
    StableHlo.unary main_v51 main_v52 (broadcastInDim S16384x20 ![0, 1] bcast_S1x20_S16384x20_0_1 : (⟨S1x20, .f32⟩ : BufTy).Contents (Elt F) → (⟨S16384x20, .f32⟩ : BufTy).Contents (Elt F)),
    StableHlo.binary main_v50 main_v52 main_v53 (addf : (⟨S16384x20, .f32⟩ : BufTy).Contents (Elt F) → (⟨S16384x20, .f32⟩ : BufTy).Contents (Elt F) → (⟨S16384x20, .f32⟩ : BufTy).Contents (Elt F)),
    StableHlo.unary main_v53 main_v54 (Host.tanh : (⟨S16384x20, .f32⟩ : BufTy).Contents (Elt F) → (⟨S16384x20, .f32⟩ : BufTy).Contents (Elt F)),
    StableHlo.unary main_v34 main_v55 ((transpose S20x20 [1, 0] · transposes_S20x20_S20x20_1_0) : (⟨S20x20, .f32⟩ : BufTy).Contents (Elt F) → (⟨S20x20, .f32⟩ : BufTy).Contents (Elt F)),
    StableHlo.binary main_v54 main_v55 main_v56 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_3 (constantI S_ 32 0#32),
    StableHlo.unary main_c_3 main_v57 (broadcastInDim S1 ![] bcast_S_S1 : (⟨S_, .i32⟩ : BufTy).Contents (Elt F) → (⟨S1, .i32⟩ : BufTy).Contents (Elt F)),
    StableHlo.ternary main_v28 main_v57 main_v56 main_v58 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS0_plain : (opsS0 : List (HloOp τ sig (Elt F))) = opsS0P := rfl

/-- The reshape of the step's first 400 parameters to a 20x20 block, read at its result buffer. -/
theorem s0_reshape (V : Valuation τ sig (Elt F)) (hx hy) :
    (StableHlo.reshape (τ := τ) (Val := Elt F) main_v30 main_v31 rfl shapeCasts_S400_S20x20 hx hy).result V (no_index (Proc.devRef .tc main_v31))
      = shapeCast S20x20 (V (Proc.devRef .tc main_v30) : RefAlg.T F S400 .f32) shapeCasts_S400_S20x20 := by
  rw [reshape_result]; rfl

set_option maxRecDepth 65536 in
set_option maxHeartbeats 4000000 in
theorem s0_val (V : Valuation τ sig (Elt F)) :
    after (opsS0 (F := F)) V (main_v58 : DevRef τ sig)
      = RefAlg.stepEvenT (V (main_v28 : DevRef τ sig)) (extractStridedSlice S440 ![0] (V (main_v23 : DevRef τ sig)) slices_S3520_S440_0) := by
  rw [opsS0_plain]
  unfold RefAlg.stepEvenT RefAlg.triuT RefAlg.trilT RefAlg.diagT RefAlg.offDiagT
  simp (disch := decide) only [after_cons, after_nil, s0_reshape, nullary_result', unary_result', binary_result', ternary_result',
    nullary_result_ne', unary_result_ne', binary_result_ne', ternary_result_ne', reshape_result_ne']

end Cert.ReferenceIdeal.RefSide

end
-- ==== Proof.RefValS1.lean ====
/-
  What the line of Sylvester step 1 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS1
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS1P : List (HloOp τ sig (Elt F)) :=
  [
    StableHlo.unary main_v23 main_v59 ((extractStridedSlice S440 ![440] · slices_S3520_S440_440) : (⟨S3520, .f32⟩ : BufTy).Contents (Elt F) → (⟨S440, .f32⟩ : BufTy).Contents (Elt F)),
    StableHlo.unary main_v59 main_v60 ((extractStridedSlice S400 ![0] · slices_S440_S400_0) : (⟨S440, .f32⟩ : BufTy).Contents (Elt F) → (⟨S400, .f32⟩ : BufTy).Contents (Elt F)),
    StableHlo.reshape main_v60 main_v61 rfl shapeCasts_S400_S20x20,
    StableHlo.nullary main_call4_v0 (iotaInDim S20x20 32 0 : (⟨S20x20, .i32⟩ : BufTy).Contents (Elt F)),
    StableHlo.nullary main_call4_c (constantI S_ 32 4294967295#32 : (⟨S_, .i32⟩ : BufTy).Contents (Elt F)),
    StableHlo.unary main_call4_c main_call4_v1 (broadcastInDim S20x20 ![] bcast_S_S20x20 : (⟨S_, .i32⟩ : BufTy).Contents (Elt F) → (⟨S20x20, .i32⟩ : BufTy).Contents (Elt F)),
    StableHlo.binary main_call4_v0 main_call4_v1 main_call4_v2 (addi : (⟨S20x20, .i32⟩ : BufTy).Contents (Elt F) → (⟨S20x20, .i32⟩ : BufTy).Contents (Elt F) → (⟨S20x20, .i32⟩ : BufTy).Contents (Elt F)),
    StableHlo.nullary main_call4_v3 (iotaInDim S20x20 32 1 : (⟨S20x20, .i32⟩ : BufTy).Contents (Elt F)),
    StableHlo.binary main_call4_v2 main_call4_v3 main_call4_v4 (cmpi .sge : (⟨S20x20, .i32⟩ : BufTy).Contents (Elt F) → (⟨S20x20, .i32⟩ : BufTy).Contents (Elt F) → (⟨S20x20, .i1⟩ : BufTy).Contents (Elt F)),
    StableHlo.nullary main_call4_cst (constant S_ .f32 0x00000000#32 : (⟨S_, .f32⟩ : BufTy).Contents (Elt F)),
    StableHlo.unary main_call4_cst main_call4_v5 (broadcastInDim S20x20 ![] bcast_S_S20x20 : (⟨S_, .f32⟩ : BufTy).Contents (Elt F) → (⟨S20x20, .f32⟩ : BufTy).Contents (Elt F)),
    StableHlo.ternary main_call4_v4 main_call4_v5 main_v61 main_v62 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call5_v0 (iotaInDim S20x20 32 0 : (⟨S20x20, .i32⟩ : BufTy).Contents (Elt F)),
    StableHlo.nullary main_call5_c (constantI S_ 32 0#32 : (⟨S_, .i32⟩ : BufTy).Contents (Elt F)),
    StableHlo.unary main_call5_c main_call5_v1 (broadcastInDim S20x20 ![] bcast_S_S20x20 : (⟨S_, .i32⟩ : BufTy).Contents (Elt F) → (⟨S20x20, .i32⟩ : BufTy).Contents (Elt F)),
    StableHlo.binary main_call5_v0 main_call5_v1 main_call5_v2 (addi : (⟨S20x20, .i32⟩ : BufTy).Contents (Elt F) → (⟨S20x20, .i32⟩ : BufTy).Contents (Elt F) → (⟨S20x20, .i32⟩ : BufTy).Contents (Elt F)),
    StableHlo.nullary main_call5_v3 (iotaInDim S20x20 32 1 : (⟨S20x20, .i32⟩ : BufTy).Contents (Elt F)),
    StableHlo.binary main_call5_v2 main_call5_v3 main_call5_v4 (cmpi .sge : (⟨S20x20, .i32⟩ : BufTy).Contents (Elt F) → (⟨S20x20, .i32⟩ : BufTy).Contents (Elt F) → (⟨S20x20, .i1⟩ : BufTy).Contents (Elt F)),
    StableHlo.nullary main_call5_cst (constant S_ .f32 0x00000000#32 : (⟨S_, .f32⟩ : BufTy).Contents (Elt F)),
    StableHlo.unary main_call5_cst main_call5_v5 (broadcastInDim S20x20 ![] bcast_S_S20x20 : (⟨S_, .f32⟩ : BufTy).Contents (Elt F) → (⟨S20x20, .f32⟩ : BufTy).Contents (Elt F)),
    StableHlo.ternary main_call5_v4 main_v61 main_call5_v5 main_v63 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v63 main_v64 ((transpose S20x20 [1, 0] · transposes_S20x20_S20x20_1_0) : (⟨S20x20, .f32⟩ : BufTy).Contents (Elt F) → (⟨S20x20, .f32⟩ : BufTy).Contents (Elt F)),
    StableHlo.unary main_v59 main_v65 ((extractStridedSlice S20 ![400] · slices_S440_S20_400) : (⟨S440, .f32⟩ : BufTy).Contents (Elt F) → (⟨S20, .f32⟩ : BufTy).Contents (Elt F)),
    StableHlo.unary main_v59 main_v66 ((extractStridedSlice S20 ![420] · slices_S440_S20_420) : (⟨S440, .f32⟩ : BufTy).Contents (Elt F) → (⟨S20, .f32⟩ : BufTy).Contents (Elt F)),
    StableHlo.nullary main_v67 (iotaInDim S20x20 32 0),
    StableHlo.nullary main_v68 (iotaInDim S20x20 32 1),
    StableHlo.nullary main_c_4 (constantI S_ 32 0#32),
    StableHlo.unary main_c_4 main_v69 (broadcastInDim S20x20 ![] bcast_S_S20x20 : (⟨S_, .i32⟩ : BufTy).Contents (Elt F) → (⟨S20x20, .i32⟩ : BufTy).Contents (Elt F)),
    StableHlo.binary main_v67 main_v69 main_v70 (addi : (⟨S20x20, .i32⟩ : BufTy).Contents (Elt F) → (⟨S20x20, .i32⟩ : BufTy).Contents (Elt F) → (⟨S20x20, .i32⟩ : BufTy).Contents (Elt F)),
    StableHlo.binary main_v70 main_v68 main_v71 (cmpi .eq : (⟨S20x20, .i32⟩ : BufTy).Contents (Elt F) → (⟨S20x20, .i32⟩ : BufTy).Contents (Elt F) → (⟨S20x20, .i1⟩ : BufTy).Contents (Elt F)),
    StableHlo.unary main_v71 main_v72 (uitofp .f32 : (⟨S20x20, .i1⟩ : BufTy).Contents (Elt F) → (⟨S20x20, .f32⟩ : BufTy).Contents (Elt F)),
    StableHlo.nullary main_cst_5 (constant S_ .f32 0x3F800000#32),
    StableHlo.unary main_cst_5 main_v73 (broadcastInDim S20x20 ![] bcast_S_S20x20 : (⟨S_, .f32⟩ : BufTy).Contents (Elt F) → (⟨S20x20, .f32⟩ : BufTy).Contents (Elt F)),
    StableHlo.binary main_v73 main_v72 main_v74 (subf : (⟨S20x20, .f32⟩ : BufTy).Contents (Elt F) → (⟨S20x20, .f32⟩ : BufTy).Contents (Elt F) → (⟨S20x20, .f32⟩ : BufTy).Contents (Elt F)),
    StableHlo.binary main_v64 main_v74 main_v75 (mulf : (⟨S20x20, .f32⟩ : BufTy).Contents (Elt F) → (⟨S20x20, .f32⟩ : BufTy).Contents (Elt F) → (⟨S20x20, .f32⟩ : BufTy).Contents (Elt F)),
    StableHlo.nullary main_call6_cst (constant S_ .f32 0x00000000#32 : (⟨S_, .f32⟩ : BufTy).Contents (Elt F)),
    StableHlo.binary main_v65 main_call6_cst main_call6_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call6_v1 (iotaInDim S20x20 32 0 : (⟨S20x20, .i32⟩ : BufTy).Contents (Elt F)),
    StableHlo.nullary main_call6_v2 (iotaInDim S20x20 32 1 : (⟨S20x20, .i32⟩ : BufTy).Contents (Elt F)),
    StableHlo.nullary main_call6_c (constantI S_ 32 0#32 : (⟨S_, .i32⟩ : BufTy).Contents (Elt F)),
    StableHlo.unary main_call6_c main_call6_v3 (broadcastInDim S20x20 ![] bcast_S_S20x20 : (⟨S_, .i32⟩ : BufTy).Contents (Elt F) → (⟨S20x20, .i32⟩ : BufTy).Contents (Elt F)),
    StableHlo.binary main_call6_v1 main_call6_v3 main_call6_v4 (addi : (⟨S20x20, .i32⟩ : BufTy).Contents (Elt F) → (⟨S20x20, .i32⟩ : BufTy).Contents (Elt F) → (⟨S20x20, .i32⟩ : BufTy).Contents (Elt F)),
    StableHlo.binary main_call6_v4 main_call6_v2 main_call6_v5 (cmpi .eq : (⟨S20x20, .i32⟩ : BufTy).Contents (Elt F) → (⟨S20x20, .i32⟩ : BufTy).Contents (Elt F) → (⟨S20x20, .i1⟩ : BufTy).Contents (Elt F)),
    StableHlo.unary main_call6_v0 main_call6_v6 (broadcastInDim S20x1 ![0] bcast_S20_S20x1_0 : (⟨S20, .f32⟩ : BufTy).Contents (Elt F) → (⟨S20x1, .f32⟩ : BufTy).Contents (Elt F)),
    StableHlo.nullary main_call6_cst_0 (constant S_ .f32 0x00000000#32 : (⟨S_, .f32⟩ : BufTy).Contents (Elt F)),
    StableHlo.unary main_call6_v6 main_call6_call0_v0 (broadcastInDim S20x20 ![0, 1] bcast_S20x1_S20x20_0_1 : (⟨S20x1, .f32⟩ : BufTy).Contents (Elt F) → (⟨S20x20, .f32⟩ : BufTy).Contents (Elt F)),
    StableHlo.unary main_call6_cst_0 main_call6_call0_v1 (broadcastInDim S20x20 ![] bcast_S_S20x20 : (⟨S_, .f32⟩ : BufTy).Contents (Elt F) → (⟨S20x20, .f32⟩ : BufTy).Contents (Elt F)),
    StableHlo.ternary main_call6_v5 main_call6_call0_v0 main_call6_call0_v1 main_v76 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v75 main_v76 main_v77 (addf : (⟨S20x20, .f32⟩ : BufTy).Contents (Elt F) → (⟨S20x20, .f32⟩ : BufTy).Contents (Elt F) → (⟨S20x20, .f32⟩ : BufTy).Contents (Elt F)),
    StableHlo.unary main_v58 main_v78 ((extractStridedSlice S16384x20 ![0, 0] · slices_S16384x64_S16384x20_0_0) : (⟨S16384x64, .f32⟩ : BufTy).Contents (Elt F) → (⟨S16384x20, .f32⟩ : BufTy).Contents (Elt F)),
    StableHlo.unary main_v77 main_v79 ((transpose S20x20 [1, 0] · transposes_S20x20_S20x20_1_0) : (⟨S20x20, .f32⟩ : BufTy).Contents (Elt F) → (⟨S20x20, .f32⟩ : BufTy).Contents (Elt F)),
    StableHlo.binary main_v78 main_v79 main_v80 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v66 main_v81 (broadcastInDim S1x20 ![1] bcast_S20_S1x20_1 : (⟨S20, .f32⟩ : BufTy).Contents (Elt F) → (⟨S1x20, .f32⟩ : BufTy).Contents (Elt F)),
    StableHlo.unary main_v81 main_v82 (broadcastInDim S16384x20 ![0, 1] bcast_S1x20_S16384x20_0_1 : (⟨S1x20, .f32⟩ : BufTy).Contents (Elt F) → (⟨S16384x20, .f32⟩ : BufTy).Contents (Elt F)),
    StableHlo.binary main_v80 main_v82 main_v83 (addf : (⟨S16384x20, .f32⟩ : BufTy).Contents (Elt F) → (⟨S16384x20, .f32⟩ : BufTy).Contents (Elt F) → (⟨S16384x20, .f32⟩ : BufTy).Contents (Elt F)),
    StableHlo.unary main_v83 main_v84 (Host.tanh : (⟨S16384x20, .f32⟩ : BufTy).Contents (Elt F) → (⟨S16384x20, .f32⟩ : BufTy).Contents (Elt F)),
    StableHlo.unary main_v62 main_v85 ((transpose S20x20 [1, 0] · transposes_S20x20_S20x20_1_0) : (⟨S20x20, .f32⟩ : BufTy).Contents (Elt F) → (⟨S20x20, .f32⟩ : BufTy).Contents (Elt F)),
    StableHlo.binary main_v84 main_v85 main_v86 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_6 (constantI S_ 32 0#32),
    StableHlo.unary main_c_6 main_v87 (broadcastInDim S1 ![] bcast_S_S1 : (⟨S_, .i32⟩ : BufTy).Contents (Elt F) → (⟨S1, .i32⟩ : BufTy).Contents (Elt F)),
    StableHlo.ternary main_v58 main_v87 main_v86 main_v88 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS1_plain : (opsS1 : List (HloOp τ sig (Elt F))) = opsS1P := rfl

/-- The reshape of the step's first 400 parameters to a 20x20 block, read at its result buffer. -/
theorem s1_reshape (V : Valuation τ sig (Elt F)) (hx hy) :
    (StableHlo.reshape (τ := τ) (Val := Elt F) main_v60 main_v61 rfl shapeCasts_S400_S20x20 hx hy).result V (no_index (Proc.devRef .tc main_v61))
      = shapeCast S20x20 (V (Proc.devRef .tc main_v60) : RefAlg.T F S400 .f32) shapeCasts_S400_S20x20 := by
  rw [reshape_result]; rfl

set_option maxRecDepth 65536 in
set_option maxHeartbeats 4000000 in
theorem s1_val (V : Valuation τ sig (Elt F)) :
    after (opsS1 (F := F)) V (main_v88 : DevRef τ sig)
      = RefAlg.stepOddT (V (main_v58 : DevRef τ sig)) (extractStridedSlice S440 ![440] (V (main_v23 : DevRef τ sig)) slices_S3520_S440_440) := by
  rw [opsS1_plain]
  unfold RefAlg.stepOddT RefAlg.triuT RefAlg.trilT RefAlg.diagT RefAlg.offDiagT
  simp (disch := decide) only [after_cons, after_nil, s1_reshape, nullary_result', unary_result', binary_result', ternary_result',
    nullary_result_ne', unary_result_ne', binary_result_ne', ternary_result_ne', reshape_result_ne']

end Cert.ReferenceIdeal.RefSide

end
-- ==== Proof.RefValS2.lean ====
/-
  What the line of Sylvester step 2 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS2
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS2P : List (HloOp τ sig (Elt F)) :=
  [
    StableHlo.unary main_v23 main_v89 ((extractStridedSlice S440 ![880] · slices_S3520_S440_880) : (⟨S3520, .f32⟩ : BufTy).Contents (Elt F) → (⟨S440, .f32⟩ : BufTy).Contents (Elt F)),
    StableHlo.unary main_v89 main_v90 ((extractStridedSlice S400 ![0] · slices_S440_S400_0) : (⟨S440, .f32⟩ : BufTy).Contents (Elt F) → (⟨S400, .f32⟩ : BufTy).Contents (Elt F)),
    StableHlo.reshape main_v90 main_v91 rfl shapeCasts_S400_S20x20,
    StableHlo.nullary main_call7_v0 (iotaInDim S20x20 32 0 : (⟨S20x20, .i32⟩ : BufTy).Contents (Elt F)),
    StableHlo.nullary main_call7_c (constantI S_ 32 4294967295#32 : (⟨S_, .i32⟩ : BufTy).Contents (Elt F)),
    StableHlo.unary main_call7_c main_call7_v1 (broadcastInDim S20x20 ![] bcast_S_S20x20 : (⟨S_, .i32⟩ : BufTy).Contents (Elt F) → (⟨S20x20, .i32⟩ : BufTy).Contents (Elt F)),
    StableHlo.binary main_call7_v0 main_call7_v1 main_call7_v2 (addi : (⟨S20x20, .i32⟩ : BufTy).Contents (Elt F) → (⟨S20x20, .i32⟩ : BufTy).Contents (Elt F) → (⟨S20x20, .i32⟩ : BufTy).Contents (Elt F)),
    StableHlo.nullary main_call7_v3 (iotaInDim S20x20 32 1 : (⟨S20x20, .i32⟩ : BufTy).Contents (Elt F)),
    StableHlo.binary main_call7_v2 main_call7_v3 main_call7_v4 (cmpi .sge : (⟨S20x20, .i32⟩ : BufTy).Contents (Elt F) → (⟨S20x20, .i32⟩ : BufTy).Contents (Elt F) → (⟨S20x20, .i1⟩ : BufTy).Contents (Elt F)),
    StableHlo.nullary main_call7_cst (constant S_ .f32 0x00000000#32 : (⟨S_, .f32⟩ : BufTy).Contents (Elt F)),
    StableHlo.unary main_call7_cst main_call7_v5 (broadcastInDim S20x20 ![] bcast_S_S20x20 : (⟨S_, .f32⟩ : BufTy).Contents (Elt F) → (⟨S20x20, .f32⟩ : BufTy).Contents (Elt F)),
    StableHlo.ternary main_call7_v4 main_call7_v5 main_v91 main_v92 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call8_v0 (iotaInDim S20x20 32 0 : (⟨S20x20, .i32⟩ : BufTy).Contents (Elt F)),
    StableHlo.nullary main_call8_c (constantI S_ 32 0#32 : (⟨S_, .i32⟩ : BufTy).Contents (Elt F)),
    StableHlo.unary main_call8_c main_call8_v1 (broadcastInDim S20x20 ![] bcast_S_S20x20 : (⟨S_, .i32⟩ : BufTy).Contents (Elt F) → (⟨S20x20, .i32⟩ : BufTy).Contents (Elt F)),
    StableHlo.binary main_call8_v0 main_call8_v1 main_call8_v2 (addi : (⟨S20x20, .i32⟩ : BufTy).Contents (Elt F) → (⟨S20x20, .i32⟩ : BufTy).Contents (Elt F) → (⟨S20x20, .i32⟩ : BufTy).Contents (Elt F)),
    StableHlo.nullary main_call8_v3 (iotaInDim S20x20 32 1 : (⟨S20x20, .i32⟩ : BufTy).Contents (Elt F)),
    StableHlo.binary main_call8_v2 main_call8_v3 main_call8_v4 (cmpi .sge : (⟨S20x20, .i32⟩ : BufTy).Contents (Elt F) → (⟨S20x20, .i32⟩ : BufTy).Contents (Elt F) → (⟨S20x20, .i1⟩ : BufTy).Contents (Elt F)),
    StableHlo.nullary main_call8_cst (constant S_ .f32 0x00000000#32 : (⟨S_, .f32⟩ : BufTy).Contents (Elt F)),
    StableHlo.unary main_call8_cst main_call8_v5 (broadcastInDim S20x20 ![] bcast_S_S20x20 : (⟨S_, .f32⟩ : BufTy).Contents (Elt F) → (⟨S20x20, .f32⟩ : BufTy).Contents (Elt F)),
    StableHlo.ternary main_call8_v4 main_v91 main_call8_v5 main_v93 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v92 main_v94 ((transpose S20x20 [1, 0] · transposes_S20x20_S20x20_1_0) : (⟨S20x20, .f32⟩ : BufTy).Contents (Elt F) → (⟨S20x20, .f32⟩ : BufTy).Contents (Elt F)),
    StableHlo.unary main_v89 main_v95 ((extractStridedSlice S20 ![400] · slices_S440_S20_400) : (⟨S440, .f32⟩ : BufTy).Contents (Elt F) → (⟨S20, .f32⟩ : BufTy).Contents (Elt F)),
    StableHlo.unary main_v89 main_v96 ((extractStridedSlice S20 ![420] · slices_S440_S20_420) : (⟨S440, .f32⟩ : BufTy).Contents (Elt F) → (⟨S20, .f32⟩ : BufTy).Contents (Elt F)),
    StableHlo.nullary main_v97 (iotaInDim S20x20 32 0),
    StableHlo.nullary main_v98 (iotaInDim S20x20 32 1),
    StableHlo.nullary main_c_7 (constantI S_ 32 0#32),
    StableHlo.unary main_c_7 main_v99 (broadcastInDim S20x20 ![] bcast_S_S20x20 : (⟨S_, .i32⟩ : BufTy).Contents (Elt F) → (⟨S20x20, .i32⟩ : BufTy).Contents (Elt F)),
    StableHlo.binary main_v97 main_v99 main_v100 (addi : (⟨S20x20, .i32⟩ : BufTy).Contents (Elt F) → (⟨S20x20, .i32⟩ : BufTy).Contents (Elt F) → (⟨S20x20, .i32⟩ : BufTy).Contents (Elt F)),
    StableHlo.binary main_v100 main_v98 main_v101 (cmpi .eq : (⟨S20x20, .i32⟩ : BufTy).Contents (Elt F) → (⟨S20x20, .i32⟩ : BufTy).Contents (Elt F) → (⟨S20x20, .i1⟩ : BufTy).Contents (Elt F)),
    StableHlo.unary main_v101 main_v102 (uitofp .f32 : (⟨S20x20, .i1⟩ : BufTy).Contents (Elt F) → (⟨S20x20, .f32⟩ : BufTy).Contents (Elt F)),
    StableHlo.nullary main_cst_8 (constant S_ .f32 0x3F800000#32),
    StableHlo.unary main_cst_8 main_v103 (broadcastInDim S20x20 ![] bcast_S_S20x20 : (⟨S_, .f32⟩ : BufTy).Contents (Elt F) → (⟨S20x20, .f32⟩ : BufTy).Contents (Elt F)),
    StableHlo.binary main_v103 main_v102 main_v104 (subf : (⟨S20x20, .f32⟩ : BufTy).Contents (Elt F) → (⟨S20x20, .f32⟩ : BufTy).Contents (Elt F) → (⟨S20x20, .f32⟩ : BufTy).Contents (Elt F)),
    StableHlo.binary main_v93 main_v104 main_v105 (mulf : (⟨S20x20, .f32⟩ : BufTy).Contents (Elt F) → (⟨S20x20, .f32⟩ : BufTy).Contents (Elt F) → (⟨S20x20, .f32⟩ : BufTy).Contents (Elt F)),
    StableHlo.nullary main_call9_cst (constant S_ .f32 0x00000000#32 : (⟨S_, .f32⟩ : BufTy).Contents (Elt F)),
    StableHlo.binary main_v95 main_call9_cst main_call9_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call9_v1 (iotaInDim S20x20 32 0 : (⟨S20x20, .i32⟩ : BufTy).Contents (Elt F)),
    StableHlo.nullary main_call9_v2 (iotaInDim S20x20 32 1 : (⟨S20x20, .i32⟩ : BufTy).Contents (Elt F)),
    StableHlo.nullary main_call9_c (constantI S_ 32 0#32 : (⟨S_, .i32⟩ : BufTy).Contents (Elt F)),
    StableHlo.unary main_call9_c main_call9_v3 (broadcastInDim S20x20 ![] bcast_S_S20x20 : (⟨S_, .i32⟩ : BufTy).Contents (Elt F) → (⟨S20x20, .i32⟩ : BufTy).Contents (Elt F)),
    StableHlo.binary main_call9_v1 main_call9_v3 main_call9_v4 (addi : (⟨S20x20, .i32⟩ : BufTy).Contents (Elt F) → (⟨S20x20, .i32⟩ : BufTy).Contents (Elt F) → (⟨S20x20, .i32⟩ : BufTy).Contents (Elt F)),
    StableHlo.binary main_call9_v4 main_call9_v2 main_call9_v5 (cmpi .eq : (⟨S20x20, .i32⟩ : BufTy).Contents (Elt F) → (⟨S20x20, .i32⟩ : BufTy).Contents (Elt F) → (⟨S20x20, .i1⟩ : BufTy).Contents (Elt F)),
    StableHlo.unary main_call9_v0 main_call9_v6 (broadcastInDim S20x1 ![0] bcast_S20_S20x1_0 : (⟨S20, .f32⟩ : BufTy).Contents (Elt F) → (⟨S20x1, .f32⟩ : BufTy).Contents (Elt F)),
    StableHlo.nullary main_call9_cst_0 (constant S_ .f32 0x00000000#32 : (⟨S_, .f32⟩ : BufTy).Contents (Elt F)),
    StableHlo.unary main_call9_v6 main_call9_call0_v0 (broadcastInDim S20x20 ![0, 1] bcast_S20x1_S20x20_0_1 : (⟨S20x1, .f32⟩ : BufTy).Contents (Elt F) → (⟨S20x20, .f32⟩ : BufTy).Contents (Elt F)),
    StableHlo.unary main_call9_cst_0 main_call9_call0_v1 (broadcastInDim S20x20 ![] bcast_S_S20x20 : (⟨S_, .f32⟩ : BufTy).Contents (Elt F) → (⟨S20x20, .f32⟩ : BufTy).Contents (Elt F)),
    StableHlo.ternary main_call9_v5 main_call9_call0_v0 main_call9_call0_v1 main_v106 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v105 main_v106 main_v107 (addf : (⟨S20x20, .f32⟩ : BufTy).Contents (Elt F) → (⟨S20x20, .f32⟩ : BufTy).Contents (Elt F) → (⟨S20x20, .f32⟩ : BufTy).Contents (Elt F)),
    StableHlo.unary main_v88 main_v108 ((extractStridedSlice S16384x20 ![0, 0] · slices_S16384x64_S16384x20_0_0) : (⟨S16384x64, .f32⟩ : BufTy).Contents (Elt F) → (⟨S16384x20, .f32⟩ : BufTy).Contents (Elt F)),
    StableHlo.unary main_v107 main_v109 ((transpose S20x20 [1, 0] · transposes_S20x20_S20x20_1_0) : (⟨S20x20, .f32⟩ : BufTy).Contents (Elt F) → (⟨S20x20, .f32⟩ : BufTy).Contents (Elt F)),
    StableHlo.binary main_v108 main_v109 main_v110 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v96 main_v111 (broadcastInDim S1x20 ![1] bcast_S20_S1x20_1 : (⟨S20, .f32⟩ : BufTy).Contents (Elt F) → (⟨S1x20, .f32⟩ : BufTy).Contents (Elt F)),
    StableHlo.unary main_v111 main_v112 (broadcastInDim S16384x20 ![0, 1] bcast_S1x20_S16384x20_0_1 : (⟨S1x20, .f32⟩ : BufTy).Contents (Elt F) → (⟨S16384x20, .f32⟩ : BufTy).Contents (Elt F)),
    StableHlo.binary main_v110 main_v112 main_v113 (addf : (⟨S16384x20, .f32⟩ : BufTy).Contents (Elt F) → (⟨S16384x20, .f32⟩ : BufTy).Contents (Elt F) → (⟨S16384x20, .f32⟩ : BufTy).Contents (Elt F)),
    StableHlo.unary main_v113 main_v114 (Host.tanh : (⟨S16384x20, .f32⟩ : BufTy).Contents (Elt F) → (⟨S16384x20, .f32⟩ : BufTy).Contents (Elt F)),
    StableHlo.unary main_v94 main_v115 ((transpose S20x20 [1, 0] · transposes_S20x20_S20x20_1_0) : (⟨S20x20, .f32⟩ : BufTy).Contents (Elt F) → (⟨S20x20, .f32⟩ : BufTy).Contents (Elt F)),
    StableHlo.binary main_v114 main_v115 main_v116 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_9 (constantI S_ 32 0#32),
    StableHlo.unary main_c_9 main_v117 (broadcastInDim S1 ![] bcast_S_S1 : (⟨S_, .i32⟩ : BufTy).Contents (Elt F) → (⟨S1, .i32⟩ : BufTy).Contents (Elt F)),
    StableHlo.ternary main_v88 main_v117 main_v116 main_v118 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS2_plain : (opsS2 : List (HloOp τ sig (Elt F))) = opsS2P := rfl

/-- The reshape of the step's first 400 parameters to a 20x20 block, read at its result buffer. -/
theorem s2_reshape (V : Valuation τ sig (Elt F)) (hx hy) :
    (StableHlo.reshape (τ := τ) (Val := Elt F) main_v90 main_v91 rfl shapeCasts_S400_S20x20 hx hy).result V (no_index (Proc.devRef .tc main_v91))
      = shapeCast S20x20 (V (Proc.devRef .tc main_v90) : RefAlg.T F S400 .f32) shapeCasts_S400_S20x20 := by
  rw [reshape_result]; rfl

set_option maxRecDepth 65536 in
set_option maxHeartbeats 4000000 in
theorem s2_val (V : Valuation τ sig (Elt F)) :
    after (opsS2 (F := F)) V (main_v118 : DevRef τ sig)
      = RefAlg.stepEvenT (V (main_v88 : DevRef τ sig)) (extractStridedSlice S440 ![880] (V (main_v23 : DevRef τ sig)) slices_S3520_S440_880) := by
  rw [opsS2_plain]
  unfold RefAlg.stepEvenT RefAlg.triuT RefAlg.trilT RefAlg.diagT RefAlg.offDiagT
  simp (disch := decide) only [after_cons, after_nil, s2_reshape, nullary_result', unary_result', binary_result', ternary_result',
    nullary_result_ne', unary_result_ne', binary_result_ne', ternary_result_ne', reshape_result_ne']

end Cert.ReferenceIdeal.RefSide

end
-- ==== Proof.RefValS3.lean ====
/-
  What the line of Sylvester step 3 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS3
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS3P : List (HloOp τ sig (Elt F)) :=
  [
    StableHlo.unary main_v23 main_v119 ((extractStridedSlice S440 ![1320] · slices_S3520_S440_1320) : (⟨S3520, .f32⟩ : BufTy).Contents (Elt F) → (⟨S440, .f32⟩ : BufTy).Contents (Elt F)),
    StableHlo.unary main_v119 main_v120 ((extractStridedSlice S400 ![0] · slices_S440_S400_0) : (⟨S440, .f32⟩ : BufTy).Contents (Elt F) → (⟨S400, .f32⟩ : BufTy).Contents (Elt F)),
    StableHlo.reshape main_v120 main_v121 rfl shapeCasts_S400_S20x20,
    StableHlo.nullary main_call10_v0 (iotaInDim S20x20 32 0 : (⟨S20x20, .i32⟩ : BufTy).Contents (Elt F)),
    StableHlo.nullary main_call10_c (constantI S_ 32 4294967295#32 : (⟨S_, .i32⟩ : BufTy).Contents (Elt F)),
    StableHlo.unary main_call10_c main_call10_v1 (broadcastInDim S20x20 ![] bcast_S_S20x20 : (⟨S_, .i32⟩ : BufTy).Contents (Elt F) → (⟨S20x20, .i32⟩ : BufTy).Contents (Elt F)),
    StableHlo.binary main_call10_v0 main_call10_v1 main_call10_v2 (addi : (⟨S20x20, .i32⟩ : BufTy).Contents (Elt F) → (⟨S20x20, .i32⟩ : BufTy).Contents (Elt F) → (⟨S20x20, .i32⟩ : BufTy).Contents (Elt F)),
    StableHlo.nullary main_call10_v3 (iotaInDim S20x20 32 1 : (⟨S20x20, .i32⟩ : BufTy).Contents (Elt F)),
    StableHlo.binary main_call10_v2 main_call10_v3 main_call10_v4 (cmpi .sge : (⟨S20x20, .i32⟩ : BufTy).Contents (Elt F) → (⟨S20x20, .i32⟩ : BufTy).Contents (Elt F) → (⟨S20x20, .i1⟩ : BufTy).Contents (Elt F)),
    StableHlo.nullary main_call10_cst (constant S_ .f32 0x00000000#32 : (⟨S_, .f32⟩ : BufTy).Contents (Elt F)),
    StableHlo.unary main_call10_cst main_call10_v5 (broadcastInDim S20x20 ![] bcast_S_S20x20 : (⟨S_, .f32⟩ : BufTy).Contents (Elt F) → (⟨S20x20, .f32⟩ : BufTy).Contents (Elt F)),
    StableHlo.ternary main_call10_v4 main_call10_v5 main_v121 main_v122 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call11_v0 (iotaInDim S20x20 32 0 : (⟨S20x20, .i32⟩ : BufTy).Contents (Elt F)),
    StableHlo.nullary main_call11_c (constantI S_ 32 0#32 : (⟨S_, .i32⟩ : BufTy).Contents (Elt F)),
    StableHlo.unary main_call11_c main_call11_v1 (broadcastInDim S20x20 ![] bcast_S_S20x20 : (⟨S_, .i32⟩ : BufTy).Contents (Elt F) → (⟨S20x20, .i32⟩ : BufTy).Contents (Elt F)),
    StableHlo.binary main_call11_v0 main_call11_v1 main_call11_v2 (addi : (⟨S20x20, .i32⟩ : BufTy).Contents (Elt F) → (⟨S20x20, .i32⟩ : BufTy).Contents (Elt F) → (⟨S20x20, .i32⟩ : BufTy).Contents (Elt F)),
    StableHlo.nullary main_call11_v3 (iotaInDim S20x20 32 1 : (⟨S20x20, .i32⟩ : BufTy).Contents (Elt F)),
    StableHlo.binary main_call11_v2 main_call11_v3 main_call11_v4 (cmpi .sge : (⟨S20x20, .i32⟩ : BufTy).Contents (Elt F) → (⟨S20x20, .i32⟩ : BufTy).Contents (Elt F) → (⟨S20x20, .i1⟩ : BufTy).Contents (Elt F)),
    StableHlo.nullary main_call11_cst (constant S_ .f32 0x00000000#32 : (⟨S_, .f32⟩ : BufTy).Contents (Elt F)),
    StableHlo.unary main_call11_cst main_call11_v5 (broadcastInDim S20x20 ![] bcast_S_S20x20 : (⟨S_, .f32⟩ : BufTy).Contents (Elt F) → (⟨S20x20, .f32⟩ : BufTy).Contents (Elt F)),
    StableHlo.ternary main_call11_v4 main_v121 main_call11_v5 main_v123 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v123 main_v124 ((transpose S20x20 [1, 0] · transposes_S20x20_S20x20_1_0) : (⟨S20x20, .f32⟩ : BufTy).Contents (Elt F) → (⟨S20x20, .f32⟩ : BufTy).Contents (Elt F)),
    StableHlo.unary main_v119 main_v125 ((extractStridedSlice S20 ![400] · slices_S440_S20_400) : (⟨S440, .f32⟩ : BufTy).Contents (Elt F) → (⟨S20, .f32⟩ : BufTy).Contents (Elt F)),
    StableHlo.unary main_v119 main_v126 ((extractStridedSlice S20 ![420] · slices_S440_S20_420) : (⟨S440, .f32⟩ : BufTy).Contents (Elt F) → (⟨S20, .f32⟩ : BufTy).Contents (Elt F)),
    StableHlo.nullary main_v127 (iotaInDim S20x20 32 0),
    StableHlo.nullary main_v128 (iotaInDim S20x20 32 1),
    StableHlo.nullary main_c_10 (constantI S_ 32 0#32),
    StableHlo.unary main_c_10 main_v129 (broadcastInDim S20x20 ![] bcast_S_S20x20 : (⟨S_, .i32⟩ : BufTy).Contents (Elt F) → (⟨S20x20, .i32⟩ : BufTy).Contents (Elt F)),
    StableHlo.binary main_v127 main_v129 main_v130 (addi : (⟨S20x20, .i32⟩ : BufTy).Contents (Elt F) → (⟨S20x20, .i32⟩ : BufTy).Contents (Elt F) → (⟨S20x20, .i32⟩ : BufTy).Contents (Elt F)),
    StableHlo.binary main_v130 main_v128 main_v131 (cmpi .eq : (⟨S20x20, .i32⟩ : BufTy).Contents (Elt F) → (⟨S20x20, .i32⟩ : BufTy).Contents (Elt F) → (⟨S20x20, .i1⟩ : BufTy).Contents (Elt F)),
    StableHlo.unary main_v131 main_v132 (uitofp .f32 : (⟨S20x20, .i1⟩ : BufTy).Contents (Elt F) → (⟨S20x20, .f32⟩ : BufTy).Contents (Elt F)),
    StableHlo.nullary main_cst_11 (constant S_ .f32 0x3F800000#32),
    StableHlo.unary main_cst_11 main_v133 (broadcastInDim S20x20 ![] bcast_S_S20x20 : (⟨S_, .f32⟩ : BufTy).Contents (Elt F) → (⟨S20x20, .f32⟩ : BufTy).Contents (Elt F)),
    StableHlo.binary main_v133 main_v132 main_v134 (subf : (⟨S20x20, .f32⟩ : BufTy).Contents (Elt F) → (⟨S20x20, .f32⟩ : BufTy).Contents (Elt F) → (⟨S20x20, .f32⟩ : BufTy).Contents (Elt F)),
    StableHlo.binary main_v124 main_v134 main_v135 (mulf : (⟨S20x20, .f32⟩ : BufTy).Contents (Elt F) → (⟨S20x20, .f32⟩ : BufTy).Contents (Elt F) → (⟨S20x20, .f32⟩ : BufTy).Contents (Elt F)),
    StableHlo.nullary main_call12_cst (constant S_ .f32 0x00000000#32 : (⟨S_, .f32⟩ : BufTy).Contents (Elt F)),
    StableHlo.binary main_v125 main_call12_cst main_call12_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call12_v1 (iotaInDim S20x20 32 0 : (⟨S20x20, .i32⟩ : BufTy).Contents (Elt F)),
    StableHlo.nullary main_call12_v2 (iotaInDim S20x20 32 1 : (⟨S20x20, .i32⟩ : BufTy).Contents (Elt F)),
    StableHlo.nullary main_call12_c (constantI S_ 32 0#32 : (⟨S_, .i32⟩ : BufTy).Contents (Elt F)),
    StableHlo.unary main_call12_c main_call12_v3 (broadcastInDim S20x20 ![] bcast_S_S20x20 : (⟨S_, .i32⟩ : BufTy).Contents (Elt F) → (⟨S20x20, .i32⟩ : BufTy).Contents (Elt F)),
    StableHlo.binary main_call12_v1 main_call12_v3 main_call12_v4 (addi : (⟨S20x20, .i32⟩ : BufTy).Contents (Elt F) → (⟨S20x20, .i32⟩ : BufTy).Contents (Elt F) → (⟨S20x20, .i32⟩ : BufTy).Contents (Elt F)),
    StableHlo.binary main_call12_v4 main_call12_v2 main_call12_v5 (cmpi .eq : (⟨S20x20, .i32⟩ : BufTy).Contents (Elt F) → (⟨S20x20, .i32⟩ : BufTy).Contents (Elt F) → (⟨S20x20, .i1⟩ : BufTy).Contents (Elt F)),
    StableHlo.unary main_call12_v0 main_call12_v6 (broadcastInDim S20x1 ![0] bcast_S20_S20x1_0 : (⟨S20, .f32⟩ : BufTy).Contents (Elt F) → (⟨S20x1, .f32⟩ : BufTy).Contents (Elt F)),
    StableHlo.nullary main_call12_cst_0 (constant S_ .f32 0x00000000#32 : (⟨S_, .f32⟩ : BufTy).Contents (Elt F)),
    StableHlo.unary main_call12_v6 main_call12_call0_v0 (broadcastInDim S20x20 ![0, 1] bcast_S20x1_S20x20_0_1 : (⟨S20x1, .f32⟩ : BufTy).Contents (Elt F) → (⟨S20x20, .f32⟩ : BufTy).Contents (Elt F)),
    StableHlo.unary main_call12_cst_0 main_call12_call0_v1 (broadcastInDim S20x20 ![] bcast_S_S20x20 : (⟨S_, .f32⟩ : BufTy).Contents (Elt F) → (⟨S20x20, .f32⟩ : BufTy).Contents (Elt F)),
    StableHlo.ternary main_call12_v5 main_call12_call0_v0 main_call12_call0_v1 main_v136 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v135 main_v136 main_v137 (addf : (⟨S20x20, .f32⟩ : BufTy).Contents (Elt F) → (⟨S20x20, .f32⟩ : BufTy).Contents (Elt F) → (⟨S20x20, .f32⟩ : BufTy).Contents (Elt F)),
    StableHlo.unary main_v118 main_v138 ((extractStridedSlice S16384x20 ![0, 0] · slices_S16384x64_S16384x20_0_0) : (⟨S16384x64, .f32⟩ : BufTy).Contents (Elt F) → (⟨S16384x20, .f32⟩ : BufTy).Contents (Elt F)),
    StableHlo.unary main_v137 main_v139 ((transpose S20x20 [1, 0] · transposes_S20x20_S20x20_1_0) : (⟨S20x20, .f32⟩ : BufTy).Contents (Elt F) → (⟨S20x20, .f32⟩ : BufTy).Contents (Elt F)),
    StableHlo.binary main_v138 main_v139 main_v140 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v126 main_v141 (broadcastInDim S1x20 ![1] bcast_S20_S1x20_1 : (⟨S20, .f32⟩ : BufTy).Contents (Elt F) → (⟨S1x20, .f32⟩ : BufTy).Contents (Elt F)),
    StableHlo.unary main_v141 main_v142 (broadcastInDim S16384x20 ![0, 1] bcast_S1x20_S16384x20_0_1 : (⟨S1x20, .f32⟩ : BufTy).Contents (Elt F) → (⟨S16384x20, .f32⟩ : BufTy).Contents (Elt F)),
    StableHlo.binary main_v140 main_v142 main_v143 (addf : (⟨S16384x20, .f32⟩ : BufTy).Contents (Elt F) → (⟨S16384x20, .f32⟩ : BufTy).Contents (Elt F) → (⟨S16384x20, .f32⟩ : BufTy).Contents (Elt F)),
    StableHlo.unary main_v143 main_v144 (Host.tanh : (⟨S16384x20, .f32⟩ : BufTy).Contents (Elt F) → (⟨S16384x20, .f32⟩ : BufTy).Contents (Elt F)),
    StableHlo.unary main_v122 main_v145 ((transpose S20x20 [1, 0] · transposes_S20x20_S20x20_1_0) : (⟨S20x20, .f32⟩ : BufTy).Contents (Elt F) → (⟨S20x20, .f32⟩ : BufTy).Contents (Elt F)),
    StableHlo.binary main_v144 main_v145 main_v146 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_12 (constantI S_ 32 0#32),
    StableHlo.unary main_c_12 main_v147 (broadcastInDim S1 ![] bcast_S_S1 : (⟨S_, .i32⟩ : BufTy).Contents (Elt F) → (⟨S1, .i32⟩ : BufTy).Contents (Elt F)),
    StableHlo.ternary main_v118 main_v147 main_v146 main_v148 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS3_plain : (opsS3 : List (HloOp τ sig (Elt F))) = opsS3P := rfl

/-- The reshape of the step's first 400 parameters to a 20x20 block, read at its result buffer. -/
theorem s3_reshape (V : Valuation τ sig (Elt F)) (hx hy) :
    (StableHlo.reshape (τ := τ) (Val := Elt F) main_v120 main_v121 rfl shapeCasts_S400_S20x20 hx hy).result V (no_index (Proc.devRef .tc main_v121))
      = shapeCast S20x20 (V (Proc.devRef .tc main_v120) : RefAlg.T F S400 .f32) shapeCasts_S400_S20x20 := by
  rw [reshape_result]; rfl

set_option maxRecDepth 65536 in
set_option maxHeartbeats 4000000 in
theorem s3_val (V : Valuation τ sig (Elt F)) :
    after (opsS3 (F := F)) V (main_v148 : DevRef τ sig)
      = RefAlg.stepOddT (V (main_v118 : DevRef τ sig)) (extractStridedSlice S440 ![1320] (V (main_v23 : DevRef τ sig)) slices_S3520_S440_1320) := by
  rw [opsS3_plain]
  unfold RefAlg.stepOddT RefAlg.triuT RefAlg.trilT RefAlg.diagT RefAlg.offDiagT
  simp (disch := decide) only [after_cons, after_nil, s3_reshape, nullary_result', unary_result', binary_result', ternary_result',
    nullary_result_ne', unary_result_ne', binary_result_ne', ternary_result_ne', reshape_result_ne']

end Cert.ReferenceIdeal.RefSide

end
-- ==== Proof.RefValS4.lean ====
/-
  What the line of Sylvester step 4 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS4
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS4P : List (HloOp τ sig (Elt F)) :=
  [
    StableHlo.unary main_v23 main_v149 ((extractStridedSlice S440 ![1760] · slices_S3520_S440_1760) : (⟨S3520, .f32⟩ : BufTy).Contents (Elt F) → (⟨S440, .f32⟩ : BufTy).Contents (Elt F)),
    StableHlo.unary main_v149 main_v150 ((extractStridedSlice S400 ![0] · slices_S440_S400_0) : (⟨S440, .f32⟩ : BufTy).Contents (Elt F) → (⟨S400, .f32⟩ : BufTy).Contents (Elt F)),
    StableHlo.reshape main_v150 main_v151 rfl shapeCasts_S400_S20x20,
    StableHlo.nullary main_call13_v0 (iotaInDim S20x20 32 0 : (⟨S20x20, .i32⟩ : BufTy).Contents (Elt F)),
    StableHlo.nullary main_call13_c (constantI S_ 32 4294967295#32 : (⟨S_, .i32⟩ : BufTy).Contents (Elt F)),
    StableHlo.unary main_call13_c main_call13_v1 (broadcastInDim S20x20 ![] bcast_S_S20x20 : (⟨S_, .i32⟩ : BufTy).Contents (Elt F) → (⟨S20x20, .i32⟩ : BufTy).Contents (Elt F)),
    StableHlo.binary main_call13_v0 main_call13_v1 main_call13_v2 (addi : (⟨S20x20, .i32⟩ : BufTy).Contents (Elt F) → (⟨S20x20, .i32⟩ : BufTy).Contents (Elt F) → (⟨S20x20, .i32⟩ : BufTy).Contents (Elt F)),
    StableHlo.nullary main_call13_v3 (iotaInDim S20x20 32 1 : (⟨S20x20, .i32⟩ : BufTy).Contents (Elt F)),
    StableHlo.binary main_call13_v2 main_call13_v3 main_call13_v4 (cmpi .sge : (⟨S20x20, .i32⟩ : BufTy).Contents (Elt F) → (⟨S20x20, .i32⟩ : BufTy).Contents (Elt F) → (⟨S20x20, .i1⟩ : BufTy).Contents (Elt F)),
    StableHlo.nullary main_call13_cst (constant S_ .f32 0x00000000#32 : (⟨S_, .f32⟩ : BufTy).Contents (Elt F)),
    StableHlo.unary main_call13_cst main_call13_v5 (broadcastInDim S20x20 ![] bcast_S_S20x20 : (⟨S_, .f32⟩ : BufTy).Contents (Elt F) → (⟨S20x20, .f32⟩ : BufTy).Contents (Elt F)),
    StableHlo.ternary main_call13_v4 main_call13_v5 main_v151 main_v152 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call14_v0 (iotaInDim S20x20 32 0 : (⟨S20x20, .i32⟩ : BufTy).Contents (Elt F)),
    StableHlo.nullary main_call14_c (constantI S_ 32 0#32 : (⟨S_, .i32⟩ : BufTy).Contents (Elt F)),
    StableHlo.unary main_call14_c main_call14_v1 (broadcastInDim S20x20 ![] bcast_S_S20x20 : (⟨S_, .i32⟩ : BufTy).Contents (Elt F) → (⟨S20x20, .i32⟩ : BufTy).Contents (Elt F)),
    StableHlo.binary main_call14_v0 main_call14_v1 main_call14_v2 (addi : (⟨S20x20, .i32⟩ : BufTy).Contents (Elt F) → (⟨S20x20, .i32⟩ : BufTy).Contents (Elt F) → (⟨S20x20, .i32⟩ : BufTy).Contents (Elt F)),
    StableHlo.nullary main_call14_v3 (iotaInDim S20x20 32 1 : (⟨S20x20, .i32⟩ : BufTy).Contents (Elt F)),
    StableHlo.binary main_call14_v2 main_call14_v3 main_call14_v4 (cmpi .sge : (⟨S20x20, .i32⟩ : BufTy).Contents (Elt F) → (⟨S20x20, .i32⟩ : BufTy).Contents (Elt F) → (⟨S20x20, .i1⟩ : BufTy).Contents (Elt F)),
    StableHlo.nullary main_call14_cst (constant S_ .f32 0x00000000#32 : (⟨S_, .f32⟩ : BufTy).Contents (Elt F)),
    StableHlo.unary main_call14_cst main_call14_v5 (broadcastInDim S20x20 ![] bcast_S_S20x20 : (⟨S_, .f32⟩ : BufTy).Contents (Elt F) → (⟨S20x20, .f32⟩ : BufTy).Contents (Elt F)),
    StableHlo.ternary main_call14_v4 main_v151 main_call14_v5 main_v153 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v152 main_v154 ((transpose S20x20 [1, 0] · transposes_S20x20_S20x20_1_0) : (⟨S20x20, .f32⟩ : BufTy).Contents (Elt F) → (⟨S20x20, .f32⟩ : BufTy).Contents (Elt F)),
    StableHlo.unary main_v149 main_v155 ((extractStridedSlice S20 ![400] · slices_S440_S20_400) : (⟨S440, .f32⟩ : BufTy).Contents (Elt F) → (⟨S20, .f32⟩ : BufTy).Contents (Elt F)),
    StableHlo.unary main_v149 main_v156 ((extractStridedSlice S20 ![420] · slices_S440_S20_420) : (⟨S440, .f32⟩ : BufTy).Contents (Elt F) → (⟨S20, .f32⟩ : BufTy).Contents (Elt F)),
    StableHlo.nullary main_v157 (iotaInDim S20x20 32 0),
    StableHlo.nullary main_v158 (iotaInDim S20x20 32 1),
    StableHlo.nullary main_c_13 (constantI S_ 32 0#32),
    StableHlo.unary main_c_13 main_v159 (broadcastInDim S20x20 ![] bcast_S_S20x20 : (⟨S_, .i32⟩ : BufTy).Contents (Elt F) → (⟨S20x20, .i32⟩ : BufTy).Contents (Elt F)),
    StableHlo.binary main_v157 main_v159 main_v160 (addi : (⟨S20x20, .i32⟩ : BufTy).Contents (Elt F) → (⟨S20x20, .i32⟩ : BufTy).Contents (Elt F) → (⟨S20x20, .i32⟩ : BufTy).Contents (Elt F)),
    StableHlo.binary main_v160 main_v158 main_v161 (cmpi .eq : (⟨S20x20, .i32⟩ : BufTy).Contents (Elt F) → (⟨S20x20, .i32⟩ : BufTy).Contents (Elt F) → (⟨S20x20, .i1⟩ : BufTy).Contents (Elt F)),
    StableHlo.unary main_v161 main_v162 (uitofp .f32 : (⟨S20x20, .i1⟩ : BufTy).Contents (Elt F) → (⟨S20x20, .f32⟩ : BufTy).Contents (Elt F)),
    StableHlo.nullary main_cst_14 (constant S_ .f32 0x3F800000#32),
    StableHlo.unary main_cst_14 main_v163 (broadcastInDim S20x20 ![] bcast_S_S20x20 : (⟨S_, .f32⟩ : BufTy).Contents (Elt F) → (⟨S20x20, .f32⟩ : BufTy).Contents (Elt F)),
    StableHlo.binary main_v163 main_v162 main_v164 (subf : (⟨S20x20, .f32⟩ : BufTy).Contents (Elt F) → (⟨S20x20, .f32⟩ : BufTy).Contents (Elt F) → (⟨S20x20, .f32⟩ : BufTy).Contents (Elt F)),
    StableHlo.binary main_v153 main_v164 main_v165 (mulf : (⟨S20x20, .f32⟩ : BufTy).Contents (Elt F) → (⟨S20x20, .f32⟩ : BufTy).Contents (Elt F) → (⟨S20x20, .f32⟩ : BufTy).Contents (Elt F)),
    StableHlo.nullary main_call15_cst (constant S_ .f32 0x00000000#32 : (⟨S_, .f32⟩ : BufTy).Contents (Elt F)),
    StableHlo.binary main_v155 main_call15_cst main_call15_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call15_v1 (iotaInDim S20x20 32 0 : (⟨S20x20, .i32⟩ : BufTy).Contents (Elt F)),
    StableHlo.nullary main_call15_v2 (iotaInDim S20x20 32 1 : (⟨S20x20, .i32⟩ : BufTy).Contents (Elt F)),
    StableHlo.nullary main_call15_c (constantI S_ 32 0#32 : (⟨S_, .i32⟩ : BufTy).Contents (Elt F)),
    StableHlo.unary main_call15_c main_call15_v3 (broadcastInDim S20x20 ![] bcast_S_S20x20 : (⟨S_, .i32⟩ : BufTy).Contents (Elt F) → (⟨S20x20, .i32⟩ : BufTy).Contents (Elt F)),
    StableHlo.binary main_call15_v1 main_call15_v3 main_call15_v4 (addi : (⟨S20x20, .i32⟩ : BufTy).Contents (Elt F) → (⟨S20x20, .i32⟩ : BufTy).Contents (Elt F) → (⟨S20x20, .i32⟩ : BufTy).Contents (Elt F)),
    StableHlo.binary main_call15_v4 main_call15_v2 main_call15_v5 (cmpi .eq : (⟨S20x20, .i32⟩ : BufTy).Contents (Elt F) → (⟨S20x20, .i32⟩ : BufTy).Contents (Elt F) → (⟨S20x20, .i1⟩ : BufTy).Contents (Elt F)),
    StableHlo.unary main_call15_v0 main_call15_v6 (broadcastInDim S20x1 ![0] bcast_S20_S20x1_0 : (⟨S20, .f32⟩ : BufTy).Contents (Elt F) → (⟨S20x1, .f32⟩ : BufTy).Contents (Elt F)),
    StableHlo.nullary main_call15_cst_0 (constant S_ .f32 0x00000000#32 : (⟨S_, .f32⟩ : BufTy).Contents (Elt F)),
    StableHlo.unary main_call15_v6 main_call15_call0_v0 (broadcastInDim S20x20 ![0, 1] bcast_S20x1_S20x20_0_1 : (⟨S20x1, .f32⟩ : BufTy).Contents (Elt F) → (⟨S20x20, .f32⟩ : BufTy).Contents (Elt F)),
    StableHlo.unary main_call15_cst_0 main_call15_call0_v1 (broadcastInDim S20x20 ![] bcast_S_S20x20 : (⟨S_, .f32⟩ : BufTy).Contents (Elt F) → (⟨S20x20, .f32⟩ : BufTy).Contents (Elt F)),
    StableHlo.ternary main_call15_v5 main_call15_call0_v0 main_call15_call0_v1 main_v166 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v165 main_v166 main_v167 (addf : (⟨S20x20, .f32⟩ : BufTy).Contents (Elt F) → (⟨S20x20, .f32⟩ : BufTy).Contents (Elt F) → (⟨S20x20, .f32⟩ : BufTy).Contents (Elt F)),
    StableHlo.unary main_v148 main_v168 ((extractStridedSlice S16384x20 ![0, 0] · slices_S16384x64_S16384x20_0_0) : (⟨S16384x64, .f32⟩ : BufTy).Contents (Elt F) → (⟨S16384x20, .f32⟩ : BufTy).Contents (Elt F)),
    StableHlo.unary main_v167 main_v169 ((transpose S20x20 [1, 0] · transposes_S20x20_S20x20_1_0) : (⟨S20x20, .f32⟩ : BufTy).Contents (Elt F) → (⟨S20x20, .f32⟩ : BufTy).Contents (Elt F)),
    StableHlo.binary main_v168 main_v169 main_v170 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v156 main_v171 (broadcastInDim S1x20 ![1] bcast_S20_S1x20_1 : (⟨S20, .f32⟩ : BufTy).Contents (Elt F) → (⟨S1x20, .f32⟩ : BufTy).Contents (Elt F)),
    StableHlo.unary main_v171 main_v172 (broadcastInDim S16384x20 ![0, 1] bcast_S1x20_S16384x20_0_1 : (⟨S1x20, .f32⟩ : BufTy).Contents (Elt F) → (⟨S16384x20, .f32⟩ : BufTy).Contents (Elt F)),
    StableHlo.binary main_v170 main_v172 main_v173 (addf : (⟨S16384x20, .f32⟩ : BufTy).Contents (Elt F) → (⟨S16384x20, .f32⟩ : BufTy).Contents (Elt F) → (⟨S16384x20, .f32⟩ : BufTy).Contents (Elt F)),
    StableHlo.unary main_v173 main_v174 (Host.tanh : (⟨S16384x20, .f32⟩ : BufTy).Contents (Elt F) → (⟨S16384x20, .f32⟩ : BufTy).Contents (Elt F)),
    StableHlo.unary main_v154 main_v175 ((transpose S20x20 [1, 0] · transposes_S20x20_S20x20_1_0) : (⟨S20x20, .f32⟩ : BufTy).Contents (Elt F) → (⟨S20x20, .f32⟩ : BufTy).Contents (Elt F)),
    StableHlo.binary main_v174 main_v175 main_v176 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_15 (constantI S_ 32 0#32),
    StableHlo.unary main_c_15 main_v177 (broadcastInDim S1 ![] bcast_S_S1 : (⟨S_, .i32⟩ : BufTy).Contents (Elt F) → (⟨S1, .i32⟩ : BufTy).Contents (Elt F)),
    StableHlo.ternary main_v148 main_v177 main_v176 main_v178 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS4_plain : (opsS4 : List (HloOp τ sig (Elt F))) = opsS4P := rfl

/-- The reshape of the step's first 400 parameters to a 20x20 block, read at its result buffer. -/
theorem s4_reshape (V : Valuation τ sig (Elt F)) (hx hy) :
    (StableHlo.reshape (τ := τ) (Val := Elt F) main_v150 main_v151 rfl shapeCasts_S400_S20x20 hx hy).result V (no_index (Proc.devRef .tc main_v151))
      = shapeCast S20x20 (V (Proc.devRef .tc main_v150) : RefAlg.T F S400 .f32) shapeCasts_S400_S20x20 := by
  rw [reshape_result]; rfl

set_option maxRecDepth 65536 in
set_option maxHeartbeats 4000000 in
theorem s4_val (V : Valuation τ sig (Elt F)) :
    after (opsS4 (F := F)) V (main_v178 : DevRef τ sig)
      = RefAlg.stepEvenT (V (main_v148 : DevRef τ sig)) (extractStridedSlice S440 ![1760] (V (main_v23 : DevRef τ sig)) slices_S3520_S440_1760) := by
  rw [opsS4_plain]
  unfold RefAlg.stepEvenT RefAlg.triuT RefAlg.trilT RefAlg.diagT RefAlg.offDiagT
  simp (disch := decide) only [after_cons, after_nil, s4_reshape, nullary_result', unary_result', binary_result', ternary_result',
    nullary_result_ne', unary_result_ne', binary_result_ne', ternary_result_ne', reshape_result_ne']

end Cert.ReferenceIdeal.RefSide

end
-- ==== Proof.RefValS5.lean ====
/-
  What the line of Sylvester step 5 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS5
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS5P : List (HloOp τ sig (Elt F)) :=
  [
    StableHlo.unary main_v23 main_v179 ((extractStridedSlice S440 ![2200] · slices_S3520_S440_2200) : (⟨S3520, .f32⟩ : BufTy).Contents (Elt F) → (⟨S440, .f32⟩ : BufTy).Contents (Elt F)),
    StableHlo.unary main_v179 main_v180 ((extractStridedSlice S400 ![0] · slices_S440_S400_0) : (⟨S440, .f32⟩ : BufTy).Contents (Elt F) → (⟨S400, .f32⟩ : BufTy).Contents (Elt F)),
    StableHlo.reshape main_v180 main_v181 rfl shapeCasts_S400_S20x20,
    StableHlo.nullary main_call16_v0 (iotaInDim S20x20 32 0 : (⟨S20x20, .i32⟩ : BufTy).Contents (Elt F)),
    StableHlo.nullary main_call16_c (constantI S_ 32 4294967295#32 : (⟨S_, .i32⟩ : BufTy).Contents (Elt F)),
    StableHlo.unary main_call16_c main_call16_v1 (broadcastInDim S20x20 ![] bcast_S_S20x20 : (⟨S_, .i32⟩ : BufTy).Contents (Elt F) → (⟨S20x20, .i32⟩ : BufTy).Contents (Elt F)),
    StableHlo.binary main_call16_v0 main_call16_v1 main_call16_v2 (addi : (⟨S20x20, .i32⟩ : BufTy).Contents (Elt F) → (⟨S20x20, .i32⟩ : BufTy).Contents (Elt F) → (⟨S20x20, .i32⟩ : BufTy).Contents (Elt F)),
    StableHlo.nullary main_call16_v3 (iotaInDim S20x20 32 1 : (⟨S20x20, .i32⟩ : BufTy).Contents (Elt F)),
    StableHlo.binary main_call16_v2 main_call16_v3 main_call16_v4 (cmpi .sge : (⟨S20x20, .i32⟩ : BufTy).Contents (Elt F) → (⟨S20x20, .i32⟩ : BufTy).Contents (Elt F) → (⟨S20x20, .i1⟩ : BufTy).Contents (Elt F)),
    StableHlo.nullary main_call16_cst (constant S_ .f32 0x00000000#32 : (⟨S_, .f32⟩ : BufTy).Contents (Elt F)),
    StableHlo.unary main_call16_cst main_call16_v5 (broadcastInDim S20x20 ![] bcast_S_S20x20 : (⟨S_, .f32⟩ : BufTy).Contents (Elt F) → (⟨S20x20, .f32⟩ : BufTy).Contents (Elt F)),
    StableHlo.ternary main_call16_v4 main_call16_v5 main_v181 main_v182 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call17_v0 (iotaInDim S20x20 32 0 : (⟨S20x20, .i32⟩ : BufTy).Contents (Elt F)),
    StableHlo.nullary main_call17_c (constantI S_ 32 0#32 : (⟨S_, .i32⟩ : BufTy).Contents (Elt F)),
    StableHlo.unary main_call17_c main_call17_v1 (broadcastInDim S20x20 ![] bcast_S_S20x20 : (⟨S_, .i32⟩ : BufTy).Contents (Elt F) → (⟨S20x20, .i32⟩ : BufTy).Contents (Elt F)),
    StableHlo.binary main_call17_v0 main_call17_v1 main_call17_v2 (addi : (⟨S20x20, .i32⟩ : BufTy).Contents (Elt F) → (⟨S20x20, .i32⟩ : BufTy).Contents (Elt F) → (⟨S20x20, .i32⟩ : BufTy).Contents (Elt F)),
    StableHlo.nullary main_call17_v3 (iotaInDim S20x20 32 1 : (⟨S20x20, .i32⟩ : BufTy).Contents (Elt F)),
    StableHlo.binary main_call17_v2 main_call17_v3 main_call17_v4 (cmpi .sge : (⟨S20x20, .i32⟩ : BufTy).Contents (Elt F) → (⟨S20x20, .i32⟩ : BufTy).Contents (Elt F) → (⟨S20x20, .i1⟩ : BufTy).Contents (Elt F)),
    StableHlo.nullary main_call17_cst (constant S_ .f32 0x00000000#32 : (⟨S_, .f32⟩ : BufTy).Contents (Elt F)),
    StableHlo.unary main_call17_cst main_call17_v5 (broadcastInDim S20x20 ![] bcast_S_S20x20 : (⟨S_, .f32⟩ : BufTy).Contents (Elt F) → (⟨S20x20, .f32⟩ : BufTy).Contents (Elt F)),
    StableHlo.ternary main_call17_v4 main_v181 main_call17_v5 main_v183 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v183 main_v184 ((transpose S20x20 [1, 0] · transposes_S20x20_S20x20_1_0) : (⟨S20x20, .f32⟩ : BufTy).Contents (Elt F) → (⟨S20x20, .f32⟩ : BufTy).Contents (Elt F)),
    StableHlo.unary main_v179 main_v185 ((extractStridedSlice S20 ![400] · slices_S440_S20_400) : (⟨S440, .f32⟩ : BufTy).Contents (Elt F) → (⟨S20, .f32⟩ : BufTy).Contents (Elt F)),
    StableHlo.unary main_v179 main_v186 ((extractStridedSlice S20 ![420] · slices_S440_S20_420) : (⟨S440, .f32⟩ : BufTy).Contents (Elt F) → (⟨S20, .f32⟩ : BufTy).Contents (Elt F)),
    StableHlo.nullary main_v187 (iotaInDim S20x20 32 0),
    StableHlo.nullary main_v188 (iotaInDim S20x20 32 1),
    StableHlo.nullary main_c_16 (constantI S_ 32 0#32),
    StableHlo.unary main_c_16 main_v189 (broadcastInDim S20x20 ![] bcast_S_S20x20 : (⟨S_, .i32⟩ : BufTy).Contents (Elt F) → (⟨S20x20, .i32⟩ : BufTy).Contents (Elt F)),
    StableHlo.binary main_v187 main_v189 main_v190 (addi : (⟨S20x20, .i32⟩ : BufTy).Contents (Elt F) → (⟨S20x20, .i32⟩ : BufTy).Contents (Elt F) → (⟨S20x20, .i32⟩ : BufTy).Contents (Elt F)),
    StableHlo.binary main_v190 main_v188 main_v191 (cmpi .eq : (⟨S20x20, .i32⟩ : BufTy).Contents (Elt F) → (⟨S20x20, .i32⟩ : BufTy).Contents (Elt F) → (⟨S20x20, .i1⟩ : BufTy).Contents (Elt F)),
    StableHlo.unary main_v191 main_v192 (uitofp .f32 : (⟨S20x20, .i1⟩ : BufTy).Contents (Elt F) → (⟨S20x20, .f32⟩ : BufTy).Contents (Elt F)),
    StableHlo.nullary main_cst_17 (constant S_ .f32 0x3F800000#32),
    StableHlo.unary main_cst_17 main_v193 (broadcastInDim S20x20 ![] bcast_S_S20x20 : (⟨S_, .f32⟩ : BufTy).Contents (Elt F) → (⟨S20x20, .f32⟩ : BufTy).Contents (Elt F)),
    StableHlo.binary main_v193 main_v192 main_v194 (subf : (⟨S20x20, .f32⟩ : BufTy).Contents (Elt F) → (⟨S20x20, .f32⟩ : BufTy).Contents (Elt F) → (⟨S20x20, .f32⟩ : BufTy).Contents (Elt F)),
    StableHlo.binary main_v184 main_v194 main_v195 (mulf : (⟨S20x20, .f32⟩ : BufTy).Contents (Elt F) → (⟨S20x20, .f32⟩ : BufTy).Contents (Elt F) → (⟨S20x20, .f32⟩ : BufTy).Contents (Elt F)),
    StableHlo.nullary main_call18_cst (constant S_ .f32 0x00000000#32 : (⟨S_, .f32⟩ : BufTy).Contents (Elt F)),
    StableHlo.binary main_v185 main_call18_cst main_call18_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call18_v1 (iotaInDim S20x20 32 0 : (⟨S20x20, .i32⟩ : BufTy).Contents (Elt F)),
    StableHlo.nullary main_call18_v2 (iotaInDim S20x20 32 1 : (⟨S20x20, .i32⟩ : BufTy).Contents (Elt F)),
    StableHlo.nullary main_call18_c (constantI S_ 32 0#32 : (⟨S_, .i32⟩ : BufTy).Contents (Elt F)),
    StableHlo.unary main_call18_c main_call18_v3 (broadcastInDim S20x20 ![] bcast_S_S20x20 : (⟨S_, .i32⟩ : BufTy).Contents (Elt F) → (⟨S20x20, .i32⟩ : BufTy).Contents (Elt F)),
    StableHlo.binary main_call18_v1 main_call18_v3 main_call18_v4 (addi : (⟨S20x20, .i32⟩ : BufTy).Contents (Elt F) → (⟨S20x20, .i32⟩ : BufTy).Contents (Elt F) → (⟨S20x20, .i32⟩ : BufTy).Contents (Elt F)),
    StableHlo.binary main_call18_v4 main_call18_v2 main_call18_v5 (cmpi .eq : (⟨S20x20, .i32⟩ : BufTy).Contents (Elt F) → (⟨S20x20, .i32⟩ : BufTy).Contents (Elt F) → (⟨S20x20, .i1⟩ : BufTy).Contents (Elt F)),
    StableHlo.unary main_call18_v0 main_call18_v6 (broadcastInDim S20x1 ![0] bcast_S20_S20x1_0 : (⟨S20, .f32⟩ : BufTy).Contents (Elt F) → (⟨S20x1, .f32⟩ : BufTy).Contents (Elt F)),
    StableHlo.nullary main_call18_cst_0 (constant S_ .f32 0x00000000#32 : (⟨S_, .f32⟩ : BufTy).Contents (Elt F)),
    StableHlo.unary main_call18_v6 main_call18_call0_v0 (broadcastInDim S20x20 ![0, 1] bcast_S20x1_S20x20_0_1 : (⟨S20x1, .f32⟩ : BufTy).Contents (Elt F) → (⟨S20x20, .f32⟩ : BufTy).Contents (Elt F)),
    StableHlo.unary main_call18_cst_0 main_call18_call0_v1 (broadcastInDim S20x20 ![] bcast_S_S20x20 : (⟨S_, .f32⟩ : BufTy).Contents (Elt F) → (⟨S20x20, .f32⟩ : BufTy).Contents (Elt F)),
    StableHlo.ternary main_call18_v5 main_call18_call0_v0 main_call18_call0_v1 main_v196 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v195 main_v196 main_v197 (addf : (⟨S20x20, .f32⟩ : BufTy).Contents (Elt F) → (⟨S20x20, .f32⟩ : BufTy).Contents (Elt F) → (⟨S20x20, .f32⟩ : BufTy).Contents (Elt F)),
    StableHlo.unary main_v178 main_v198 ((extractStridedSlice S16384x20 ![0, 0] · slices_S16384x64_S16384x20_0_0) : (⟨S16384x64, .f32⟩ : BufTy).Contents (Elt F) → (⟨S16384x20, .f32⟩ : BufTy).Contents (Elt F)),
    StableHlo.unary main_v197 main_v199 ((transpose S20x20 [1, 0] · transposes_S20x20_S20x20_1_0) : (⟨S20x20, .f32⟩ : BufTy).Contents (Elt F) → (⟨S20x20, .f32⟩ : BufTy).Contents (Elt F)),
    StableHlo.binary main_v198 main_v199 main_v200 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v186 main_v201 (broadcastInDim S1x20 ![1] bcast_S20_S1x20_1 : (⟨S20, .f32⟩ : BufTy).Contents (Elt F) → (⟨S1x20, .f32⟩ : BufTy).Contents (Elt F)),
    StableHlo.unary main_v201 main_v202 (broadcastInDim S16384x20 ![0, 1] bcast_S1x20_S16384x20_0_1 : (⟨S1x20, .f32⟩ : BufTy).Contents (Elt F) → (⟨S16384x20, .f32⟩ : BufTy).Contents (Elt F)),
    StableHlo.binary main_v200 main_v202 main_v203 (addf : (⟨S16384x20, .f32⟩ : BufTy).Contents (Elt F) → (⟨S16384x20, .f32⟩ : BufTy).Contents (Elt F) → (⟨S16384x20, .f32⟩ : BufTy).Contents (Elt F)),
    StableHlo.unary main_v203 main_v204 (Host.tanh : (⟨S16384x20, .f32⟩ : BufTy).Contents (Elt F) → (⟨S16384x20, .f32⟩ : BufTy).Contents (Elt F)),
    StableHlo.unary main_v182 main_v205 ((transpose S20x20 [1, 0] · transposes_S20x20_S20x20_1_0) : (⟨S20x20, .f32⟩ : BufTy).Contents (Elt F) → (⟨S20x20, .f32⟩ : BufTy).Contents (Elt F)),
    StableHlo.binary main_v204 main_v205 main_v206 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_18 (constantI S_ 32 0#32),
    StableHlo.unary main_c_18 main_v207 (broadcastInDim S1 ![] bcast_S_S1 : (⟨S_, .i32⟩ : BufTy).Contents (Elt F) → (⟨S1, .i32⟩ : BufTy).Contents (Elt F)),
    StableHlo.ternary main_v178 main_v207 main_v206 main_v208 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS5_plain : (opsS5 : List (HloOp τ sig (Elt F))) = opsS5P := rfl

/-- The reshape of the step's first 400 parameters to a 20x20 block, read at its result buffer. -/
theorem s5_reshape (V : Valuation τ sig (Elt F)) (hx hy) :
    (StableHlo.reshape (τ := τ) (Val := Elt F) main_v180 main_v181 rfl shapeCasts_S400_S20x20 hx hy).result V (no_index (Proc.devRef .tc main_v181))
      = shapeCast S20x20 (V (Proc.devRef .tc main_v180) : RefAlg.T F S400 .f32) shapeCasts_S400_S20x20 := by
  rw [reshape_result]; rfl

set_option maxRecDepth 65536 in
set_option maxHeartbeats 4000000 in
theorem s5_val (V : Valuation τ sig (Elt F)) :
    after (opsS5 (F := F)) V (main_v208 : DevRef τ sig)
      = RefAlg.stepOddT (V (main_v178 : DevRef τ sig)) (extractStridedSlice S440 ![2200] (V (main_v23 : DevRef τ sig)) slices_S3520_S440_2200) := by
  rw [opsS5_plain]
  unfold RefAlg.stepOddT RefAlg.triuT RefAlg.trilT RefAlg.diagT RefAlg.offDiagT
  simp (disch := decide) only [after_cons, after_nil, s5_reshape, nullary_result', unary_result', binary_result', ternary_result',
    nullary_result_ne', unary_result_ne', binary_result_ne', ternary_result_ne', reshape_result_ne']

end Cert.ReferenceIdeal.RefSide

end
-- ==== Proof.RefValS6.lean ====
/-
  What the line of Sylvester step 6 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS6
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS6P : List (HloOp τ sig (Elt F)) :=
  [
    StableHlo.unary main_v23 main_v209 ((extractStridedSlice S440 ![2640] · slices_S3520_S440_2640) : (⟨S3520, .f32⟩ : BufTy).Contents (Elt F) → (⟨S440, .f32⟩ : BufTy).Contents (Elt F)),
    StableHlo.unary main_v209 main_v210 ((extractStridedSlice S400 ![0] · slices_S440_S400_0) : (⟨S440, .f32⟩ : BufTy).Contents (Elt F) → (⟨S400, .f32⟩ : BufTy).Contents (Elt F)),
    StableHlo.reshape main_v210 main_v211 rfl shapeCasts_S400_S20x20,
    StableHlo.nullary main_call19_v0 (iotaInDim S20x20 32 0 : (⟨S20x20, .i32⟩ : BufTy).Contents (Elt F)),
    StableHlo.nullary main_call19_c (constantI S_ 32 4294967295#32 : (⟨S_, .i32⟩ : BufTy).Contents (Elt F)),
    StableHlo.unary main_call19_c main_call19_v1 (broadcastInDim S20x20 ![] bcast_S_S20x20 : (⟨S_, .i32⟩ : BufTy).Contents (Elt F) → (⟨S20x20, .i32⟩ : BufTy).Contents (Elt F)),
    StableHlo.binary main_call19_v0 main_call19_v1 main_call19_v2 (addi : (⟨S20x20, .i32⟩ : BufTy).Contents (Elt F) → (⟨S20x20, .i32⟩ : BufTy).Contents (Elt F) → (⟨S20x20, .i32⟩ : BufTy).Contents (Elt F)),
    StableHlo.nullary main_call19_v3 (iotaInDim S20x20 32 1 : (⟨S20x20, .i32⟩ : BufTy).Contents (Elt F)),
    StableHlo.binary main_call19_v2 main_call19_v3 main_call19_v4 (cmpi .sge : (⟨S20x20, .i32⟩ : BufTy).Contents (Elt F) → (⟨S20x20, .i32⟩ : BufTy).Contents (Elt F) → (⟨S20x20, .i1⟩ : BufTy).Contents (Elt F)),
    StableHlo.nullary main_call19_cst (constant S_ .f32 0x00000000#32 : (⟨S_, .f32⟩ : BufTy).Contents (Elt F)),
    StableHlo.unary main_call19_cst main_call19_v5 (broadcastInDim S20x20 ![] bcast_S_S20x20 : (⟨S_, .f32⟩ : BufTy).Contents (Elt F) → (⟨S20x20, .f32⟩ : BufTy).Contents (Elt F)),
    StableHlo.ternary main_call19_v4 main_call19_v5 main_v211 main_v212 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call20_v0 (iotaInDim S20x20 32 0 : (⟨S20x20, .i32⟩ : BufTy).Contents (Elt F)),
    StableHlo.nullary main_call20_c (constantI S_ 32 0#32 : (⟨S_, .i32⟩ : BufTy).Contents (Elt F)),
    StableHlo.unary main_call20_c main_call20_v1 (broadcastInDim S20x20 ![] bcast_S_S20x20 : (⟨S_, .i32⟩ : BufTy).Contents (Elt F) → (⟨S20x20, .i32⟩ : BufTy).Contents (Elt F)),
    StableHlo.binary main_call20_v0 main_call20_v1 main_call20_v2 (addi : (⟨S20x20, .i32⟩ : BufTy).Contents (Elt F) → (⟨S20x20, .i32⟩ : BufTy).Contents (Elt F) → (⟨S20x20, .i32⟩ : BufTy).Contents (Elt F)),
    StableHlo.nullary main_call20_v3 (iotaInDim S20x20 32 1 : (⟨S20x20, .i32⟩ : BufTy).Contents (Elt F)),
    StableHlo.binary main_call20_v2 main_call20_v3 main_call20_v4 (cmpi .sge : (⟨S20x20, .i32⟩ : BufTy).Contents (Elt F) → (⟨S20x20, .i32⟩ : BufTy).Contents (Elt F) → (⟨S20x20, .i1⟩ : BufTy).Contents (Elt F)),
    StableHlo.nullary main_call20_cst (constant S_ .f32 0x00000000#32 : (⟨S_, .f32⟩ : BufTy).Contents (Elt F)),
    StableHlo.unary main_call20_cst main_call20_v5 (broadcastInDim S20x20 ![] bcast_S_S20x20 : (⟨S_, .f32⟩ : BufTy).Contents (Elt F) → (⟨S20x20, .f32⟩ : BufTy).Contents (Elt F)),
    StableHlo.ternary main_call20_v4 main_v211 main_call20_v5 main_v213 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v212 main_v214 ((transpose S20x20 [1, 0] · transposes_S20x20_S20x20_1_0) : (⟨S20x20, .f32⟩ : BufTy).Contents (Elt F) → (⟨S20x20, .f32⟩ : BufTy).Contents (Elt F)),
    StableHlo.unary main_v209 main_v215 ((extractStridedSlice S20 ![400] · slices_S440_S20_400) : (⟨S440, .f32⟩ : BufTy).Contents (Elt F) → (⟨S20, .f32⟩ : BufTy).Contents (Elt F)),
    StableHlo.unary main_v209 main_v216 ((extractStridedSlice S20 ![420] · slices_S440_S20_420) : (⟨S440, .f32⟩ : BufTy).Contents (Elt F) → (⟨S20, .f32⟩ : BufTy).Contents (Elt F)),
    StableHlo.nullary main_v217 (iotaInDim S20x20 32 0),
    StableHlo.nullary main_v218 (iotaInDim S20x20 32 1),
    StableHlo.nullary main_c_19 (constantI S_ 32 0#32),
    StableHlo.unary main_c_19 main_v219 (broadcastInDim S20x20 ![] bcast_S_S20x20 : (⟨S_, .i32⟩ : BufTy).Contents (Elt F) → (⟨S20x20, .i32⟩ : BufTy).Contents (Elt F)),
    StableHlo.binary main_v217 main_v219 main_v220 (addi : (⟨S20x20, .i32⟩ : BufTy).Contents (Elt F) → (⟨S20x20, .i32⟩ : BufTy).Contents (Elt F) → (⟨S20x20, .i32⟩ : BufTy).Contents (Elt F)),
    StableHlo.binary main_v220 main_v218 main_v221 (cmpi .eq : (⟨S20x20, .i32⟩ : BufTy).Contents (Elt F) → (⟨S20x20, .i32⟩ : BufTy).Contents (Elt F) → (⟨S20x20, .i1⟩ : BufTy).Contents (Elt F)),
    StableHlo.unary main_v221 main_v222 (uitofp .f32 : (⟨S20x20, .i1⟩ : BufTy).Contents (Elt F) → (⟨S20x20, .f32⟩ : BufTy).Contents (Elt F)),
    StableHlo.nullary main_cst_20 (constant S_ .f32 0x3F800000#32),
    StableHlo.unary main_cst_20 main_v223 (broadcastInDim S20x20 ![] bcast_S_S20x20 : (⟨S_, .f32⟩ : BufTy).Contents (Elt F) → (⟨S20x20, .f32⟩ : BufTy).Contents (Elt F)),
    StableHlo.binary main_v223 main_v222 main_v224 (subf : (⟨S20x20, .f32⟩ : BufTy).Contents (Elt F) → (⟨S20x20, .f32⟩ : BufTy).Contents (Elt F) → (⟨S20x20, .f32⟩ : BufTy).Contents (Elt F)),
    StableHlo.binary main_v213 main_v224 main_v225 (mulf : (⟨S20x20, .f32⟩ : BufTy).Contents (Elt F) → (⟨S20x20, .f32⟩ : BufTy).Contents (Elt F) → (⟨S20x20, .f32⟩ : BufTy).Contents (Elt F)),
    StableHlo.nullary main_call21_cst (constant S_ .f32 0x00000000#32 : (⟨S_, .f32⟩ : BufTy).Contents (Elt F)),
    StableHlo.binary main_v215 main_call21_cst main_call21_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call21_v1 (iotaInDim S20x20 32 0 : (⟨S20x20, .i32⟩ : BufTy).Contents (Elt F)),
    StableHlo.nullary main_call21_v2 (iotaInDim S20x20 32 1 : (⟨S20x20, .i32⟩ : BufTy).Contents (Elt F)),
    StableHlo.nullary main_call21_c (constantI S_ 32 0#32 : (⟨S_, .i32⟩ : BufTy).Contents (Elt F)),
    StableHlo.unary main_call21_c main_call21_v3 (broadcastInDim S20x20 ![] bcast_S_S20x20 : (⟨S_, .i32⟩ : BufTy).Contents (Elt F) → (⟨S20x20, .i32⟩ : BufTy).Contents (Elt F)),
    StableHlo.binary main_call21_v1 main_call21_v3 main_call21_v4 (addi : (⟨S20x20, .i32⟩ : BufTy).Contents (Elt F) → (⟨S20x20, .i32⟩ : BufTy).Contents (Elt F) → (⟨S20x20, .i32⟩ : BufTy).Contents (Elt F)),
    StableHlo.binary main_call21_v4 main_call21_v2 main_call21_v5 (cmpi .eq : (⟨S20x20, .i32⟩ : BufTy).Contents (Elt F) → (⟨S20x20, .i32⟩ : BufTy).Contents (Elt F) → (⟨S20x20, .i1⟩ : BufTy).Contents (Elt F)),
    StableHlo.unary main_call21_v0 main_call21_v6 (broadcastInDim S20x1 ![0] bcast_S20_S20x1_0 : (⟨S20, .f32⟩ : BufTy).Contents (Elt F) → (⟨S20x1, .f32⟩ : BufTy).Contents (Elt F)),
    StableHlo.nullary main_call21_cst_0 (constant S_ .f32 0x00000000#32 : (⟨S_, .f32⟩ : BufTy).Contents (Elt F)),
    StableHlo.unary main_call21_v6 main_call21_call0_v0 (broadcastInDim S20x20 ![0, 1] bcast_S20x1_S20x20_0_1 : (⟨S20x1, .f32⟩ : BufTy).Contents (Elt F) → (⟨S20x20, .f32⟩ : BufTy).Contents (Elt F)),
    StableHlo.unary main_call21_cst_0 main_call21_call0_v1 (broadcastInDim S20x20 ![] bcast_S_S20x20 : (⟨S_, .f32⟩ : BufTy).Contents (Elt F) → (⟨S20x20, .f32⟩ : BufTy).Contents (Elt F)),
    StableHlo.ternary main_call21_v5 main_call21_call0_v0 main_call21_call0_v1 main_v226 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v225 main_v226 main_v227 (addf : (⟨S20x20, .f32⟩ : BufTy).Contents (Elt F) → (⟨S20x20, .f32⟩ : BufTy).Contents (Elt F) → (⟨S20x20, .f32⟩ : BufTy).Contents (Elt F)),
    StableHlo.unary main_v208 main_v228 ((extractStridedSlice S16384x20 ![0, 0] · slices_S16384x64_S16384x20_0_0) : (⟨S16384x64, .f32⟩ : BufTy).Contents (Elt F) → (⟨S16384x20, .f32⟩ : BufTy).Contents (Elt F)),
    StableHlo.unary main_v227 main_v229 ((transpose S20x20 [1, 0] · transposes_S20x20_S20x20_1_0) : (⟨S20x20, .f32⟩ : BufTy).Contents (Elt F) → (⟨S20x20, .f32⟩ : BufTy).Contents (Elt F)),
    StableHlo.binary main_v228 main_v229 main_v230 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v216 main_v231 (broadcastInDim S1x20 ![1] bcast_S20_S1x20_1 : (⟨S20, .f32⟩ : BufTy).Contents (Elt F) → (⟨S1x20, .f32⟩ : BufTy).Contents (Elt F)),
    StableHlo.unary main_v231 main_v232 (broadcastInDim S16384x20 ![0, 1] bcast_S1x20_S16384x20_0_1 : (⟨S1x20, .f32⟩ : BufTy).Contents (Elt F) → (⟨S16384x20, .f32⟩ : BufTy).Contents (Elt F)),
    StableHlo.binary main_v230 main_v232 main_v233 (addf : (⟨S16384x20, .f32⟩ : BufTy).Contents (Elt F) → (⟨S16384x20, .f32⟩ : BufTy).Contents (Elt F) → (⟨S16384x20, .f32⟩ : BufTy).Contents (Elt F)),
    StableHlo.unary main_v233 main_v234 (Host.tanh : (⟨S16384x20, .f32⟩ : BufTy).Contents (Elt F) → (⟨S16384x20, .f32⟩ : BufTy).Contents (Elt F)),
    StableHlo.unary main_v214 main_v235 ((transpose S20x20 [1, 0] · transposes_S20x20_S20x20_1_0) : (⟨S20x20, .f32⟩ : BufTy).Contents (Elt F) → (⟨S20x20, .f32⟩ : BufTy).Contents (Elt F)),
    StableHlo.binary main_v234 main_v235 main_v236 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_21 (constantI S_ 32 0#32),
    StableHlo.unary main_c_21 main_v237 (broadcastInDim S1 ![] bcast_S_S1 : (⟨S_, .i32⟩ : BufTy).Contents (Elt F) → (⟨S1, .i32⟩ : BufTy).Contents (Elt F)),
    StableHlo.ternary main_v208 main_v237 main_v236 main_v238 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS6_plain : (opsS6 : List (HloOp τ sig (Elt F))) = opsS6P := rfl

/-- The reshape of the step's first 400 parameters to a 20x20 block, read at its result buffer. -/
theorem s6_reshape (V : Valuation τ sig (Elt F)) (hx hy) :
    (StableHlo.reshape (τ := τ) (Val := Elt F) main_v210 main_v211 rfl shapeCasts_S400_S20x20 hx hy).result V (no_index (Proc.devRef .tc main_v211))
      = shapeCast S20x20 (V (Proc.devRef .tc main_v210) : RefAlg.T F S400 .f32) shapeCasts_S400_S20x20 := by
  rw [reshape_result]; rfl

set_option maxRecDepth 65536 in
set_option maxHeartbeats 4000000 in
theorem s6_val (V : Valuation τ sig (Elt F)) :
    after (opsS6 (F := F)) V (main_v238 : DevRef τ sig)
      = RefAlg.stepEvenT (V (main_v208 : DevRef τ sig)) (extractStridedSlice S440 ![2640] (V (main_v23 : DevRef τ sig)) slices_S3520_S440_2640) := by
  rw [opsS6_plain]
  unfold RefAlg.stepEvenT RefAlg.triuT RefAlg.trilT RefAlg.diagT RefAlg.offDiagT
  simp (disch := decide) only [after_cons, after_nil, s6_reshape, nullary_result', unary_result', binary_result', ternary_result',
    nullary_result_ne', unary_result_ne', binary_result_ne', ternary_result_ne', reshape_result_ne']

end Cert.ReferenceIdeal.RefSide

end
-- ==== Proof.RefValS7.lean ====
/-
  What the line of Sylvester step 7 (its 440 parameters cut out of the averaged ones, the two triangles, the diagonal, the two products around tanh, the update added to the first twenty columns) leaves in the latent array's buffer: the step's function of the latent array
  before it and of the step's 440 averaged parameters. The called functions' operations are restated over the buffers
  themselves (the same operations: a typed reference of a literal buffer is that buffer).
-/
import proofs.«112810_j2207613190724_2_alg».proof.Proof.RefOpsS7
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The line's operations, every one over the buffers themselves. -/
abbrev opsS7P : List (HloOp τ sig (Elt F)) :=
  [
    StableHlo.unary main_v23 main_v239 ((extractStridedSlice S440 ![3080] · slices_S3520_S440_3080) : (⟨S3520, .f32⟩ : BufTy).Contents (Elt F) → (⟨S440, .f32⟩ : BufTy).Contents (Elt F)),
    StableHlo.unary main_v239 main_v240 ((extractStridedSlice S400 ![0] · slices_S440_S400_0) : (⟨S440, .f32⟩ : BufTy).Contents (Elt F) → (⟨S400, .f32⟩ : BufTy).Contents (Elt F)),
    StableHlo.reshape main_v240 main_v241 rfl shapeCasts_S400_S20x20,
    StableHlo.nullary main_call22_v0 (iotaInDim S20x20 32 0 : (⟨S20x20, .i32⟩ : BufTy).Contents (Elt F)),
    StableHlo.nullary main_call22_c (constantI S_ 32 4294967295#32 : (⟨S_, .i32⟩ : BufTy).Contents (Elt F)),
    StableHlo.unary main_call22_c main_call22_v1 (broadcastInDim S20x20 ![] bcast_S_S20x20 : (⟨S_, .i32⟩ : BufTy).Contents (Elt F) → (⟨S20x20, .i32⟩ : BufTy).Contents (Elt F)),
    StableHlo.binary main_call22_v0 main_call22_v1 main_call22_v2 (addi : (⟨S20x20, .i32⟩ : BufTy).Contents (Elt F) → (⟨S20x20, .i32⟩ : BufTy).Contents (Elt F) → (⟨S20x20, .i32⟩ : BufTy).Contents (Elt F)),
    StableHlo.nullary main_call22_v3 (iotaInDim S20x20 32 1 : (⟨S20x20, .i32⟩ : BufTy).Contents (Elt F)),
    StableHlo.binary main_call22_v2 main_call22_v3 main_call22_v4 (cmpi .sge : (⟨S20x20, .i32⟩ : BufTy).Contents (Elt F) → (⟨S20x20, .i32⟩ : BufTy).Contents (Elt F) → (⟨S20x20, .i1⟩ : BufTy).Contents (Elt F)),
    StableHlo.nullary main_call22_cst (constant S_ .f32 0x00000000#32 : (⟨S_, .f32⟩ : BufTy).Contents (Elt F)),
    StableHlo.unary main_call22_cst main_call22_v5 (broadcastInDim S20x20 ![] bcast_S_S20x20 : (⟨S_, .f32⟩ : BufTy).Contents (Elt F) → (⟨S20x20, .f32⟩ : BufTy).Contents (Elt F)),
    StableHlo.ternary main_call22_v4 main_call22_v5 main_v241 main_v242 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.nullary main_call23_v0 (iotaInDim S20x20 32 0 : (⟨S20x20, .i32⟩ : BufTy).Contents (Elt F)),
    StableHlo.nullary main_call23_c (constantI S_ 32 0#32 : (⟨S_, .i32⟩ : BufTy).Contents (Elt F)),
    StableHlo.unary main_call23_c main_call23_v1 (broadcastInDim S20x20 ![] bcast_S_S20x20 : (⟨S_, .i32⟩ : BufTy).Contents (Elt F) → (⟨S20x20, .i32⟩ : BufTy).Contents (Elt F)),
    StableHlo.binary main_call23_v0 main_call23_v1 main_call23_v2 (addi : (⟨S20x20, .i32⟩ : BufTy).Contents (Elt F) → (⟨S20x20, .i32⟩ : BufTy).Contents (Elt F) → (⟨S20x20, .i32⟩ : BufTy).Contents (Elt F)),
    StableHlo.nullary main_call23_v3 (iotaInDim S20x20 32 1 : (⟨S20x20, .i32⟩ : BufTy).Contents (Elt F)),
    StableHlo.binary main_call23_v2 main_call23_v3 main_call23_v4 (cmpi .sge : (⟨S20x20, .i32⟩ : BufTy).Contents (Elt F) → (⟨S20x20, .i32⟩ : BufTy).Contents (Elt F) → (⟨S20x20, .i1⟩ : BufTy).Contents (Elt F)),
    StableHlo.nullary main_call23_cst (constant S_ .f32 0x00000000#32 : (⟨S_, .f32⟩ : BufTy).Contents (Elt F)),
    StableHlo.unary main_call23_cst main_call23_v5 (broadcastInDim S20x20 ![] bcast_S_S20x20 : (⟨S_, .f32⟩ : BufTy).Contents (Elt F) → (⟨S20x20, .f32⟩ : BufTy).Contents (Elt F)),
    StableHlo.ternary main_call23_v4 main_v241 main_call23_v5 main_v243 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.unary main_v243 main_v244 ((transpose S20x20 [1, 0] · transposes_S20x20_S20x20_1_0) : (⟨S20x20, .f32⟩ : BufTy).Contents (Elt F) → (⟨S20x20, .f32⟩ : BufTy).Contents (Elt F)),
    StableHlo.unary main_v239 main_v245 ((extractStridedSlice S20 ![400] · slices_S440_S20_400) : (⟨S440, .f32⟩ : BufTy).Contents (Elt F) → (⟨S20, .f32⟩ : BufTy).Contents (Elt F)),
    StableHlo.unary main_v239 main_v246 ((extractStridedSlice S20 ![420] · slices_S440_S20_420) : (⟨S440, .f32⟩ : BufTy).Contents (Elt F) → (⟨S20, .f32⟩ : BufTy).Contents (Elt F)),
    StableHlo.nullary main_v247 (iotaInDim S20x20 32 0),
    StableHlo.nullary main_v248 (iotaInDim S20x20 32 1),
    StableHlo.nullary main_c_22 (constantI S_ 32 0#32),
    StableHlo.unary main_c_22 main_v249 (broadcastInDim S20x20 ![] bcast_S_S20x20 : (⟨S_, .i32⟩ : BufTy).Contents (Elt F) → (⟨S20x20, .i32⟩ : BufTy).Contents (Elt F)),
    StableHlo.binary main_v247 main_v249 main_v250 (addi : (⟨S20x20, .i32⟩ : BufTy).Contents (Elt F) → (⟨S20x20, .i32⟩ : BufTy).Contents (Elt F) → (⟨S20x20, .i32⟩ : BufTy).Contents (Elt F)),
    StableHlo.binary main_v250 main_v248 main_v251 (cmpi .eq : (⟨S20x20, .i32⟩ : BufTy).Contents (Elt F) → (⟨S20x20, .i32⟩ : BufTy).Contents (Elt F) → (⟨S20x20, .i1⟩ : BufTy).Contents (Elt F)),
    StableHlo.unary main_v251 main_v252 (uitofp .f32 : (⟨S20x20, .i1⟩ : BufTy).Contents (Elt F) → (⟨S20x20, .f32⟩ : BufTy).Contents (Elt F)),
    StableHlo.nullary main_cst_23 (constant S_ .f32 0x3F800000#32),
    StableHlo.unary main_cst_23 main_v253 (broadcastInDim S20x20 ![] bcast_S_S20x20 : (⟨S_, .f32⟩ : BufTy).Contents (Elt F) → (⟨S20x20, .f32⟩ : BufTy).Contents (Elt F)),
    StableHlo.binary main_v253 main_v252 main_v254 (subf : (⟨S20x20, .f32⟩ : BufTy).Contents (Elt F) → (⟨S20x20, .f32⟩ : BufTy).Contents (Elt F) → (⟨S20x20, .f32⟩ : BufTy).Contents (Elt F)),
    StableHlo.binary main_v244 main_v254 main_v255 (mulf : (⟨S20x20, .f32⟩ : BufTy).Contents (Elt F) → (⟨S20x20, .f32⟩ : BufTy).Contents (Elt F) → (⟨S20x20, .f32⟩ : BufTy).Contents (Elt F)),
    StableHlo.nullary main_call24_cst (constant S_ .f32 0x00000000#32 : (⟨S_, .f32⟩ : BufTy).Contents (Elt F)),
    StableHlo.binary main_v245 main_call24_cst main_call24_v0 (fun x v => pad S20 ![0] ![0] ![0] x v pads_S20_S20_000 h_S_ : (⟨S20, .f32⟩ : BufTy).Contents (Elt F) → (⟨S_, .f32⟩ : BufTy).Contents (Elt F) → (⟨S20, .f32⟩ : BufTy).Contents (Elt F)),
    StableHlo.nullary main_call24_v1 (iotaInDim S20x20 32 0 : (⟨S20x20, .i32⟩ : BufTy).Contents (Elt F)),
    StableHlo.nullary main_call24_v2 (iotaInDim S20x20 32 1 : (⟨S20x20, .i32⟩ : BufTy).Contents (Elt F)),
    StableHlo.nullary main_call24_c (constantI S_ 32 0#32 : (⟨S_, .i32⟩ : BufTy).Contents (Elt F)),
    StableHlo.unary main_call24_c main_call24_v3 (broadcastInDim S20x20 ![] bcast_S_S20x20 : (⟨S_, .i32⟩ : BufTy).Contents (Elt F) → (⟨S20x20, .i32⟩ : BufTy).Contents (Elt F)),
    StableHlo.binary main_call24_v1 main_call24_v3 main_call24_v4 (addi : (⟨S20x20, .i32⟩ : BufTy).Contents (Elt F) → (⟨S20x20, .i32⟩ : BufTy).Contents (Elt F) → (⟨S20x20, .i32⟩ : BufTy).Contents (Elt F)),
    StableHlo.binary main_call24_v4 main_call24_v2 main_call24_v5 (cmpi .eq : (⟨S20x20, .i32⟩ : BufTy).Contents (Elt F) → (⟨S20x20, .i32⟩ : BufTy).Contents (Elt F) → (⟨S20x20, .i1⟩ : BufTy).Contents (Elt F)),
    StableHlo.unary main_call24_v0 main_call24_v6 (broadcastInDim S20x1 ![0] bcast_S20_S20x1_0 : (⟨S20, .f32⟩ : BufTy).Contents (Elt F) → (⟨S20x1, .f32⟩ : BufTy).Contents (Elt F)),
    StableHlo.nullary main_call24_cst_0 (constant S_ .f32 0x00000000#32 : (⟨S_, .f32⟩ : BufTy).Contents (Elt F)),
    StableHlo.unary main_call24_v6 main_call24_call0_v0 (broadcastInDim S20x20 ![0, 1] bcast_S20x1_S20x20_0_1 : (⟨S20x1, .f32⟩ : BufTy).Contents (Elt F) → (⟨S20x20, .f32⟩ : BufTy).Contents (Elt F)),
    StableHlo.unary main_call24_cst_0 main_call24_call0_v1 (broadcastInDim S20x20 ![] bcast_S_S20x20 : (⟨S_, .f32⟩ : BufTy).Contents (Elt F) → (⟨S20x20, .f32⟩ : BufTy).Contents (Elt F)),
    StableHlo.ternary main_call24_v5 main_call24_call0_v0 main_call24_call0_v1 main_v256 (select : (⟨S20x20, .i1⟩ : BufTy).Contents (Elt F) → (⟨S20x20, .f32⟩ : BufTy).Contents (Elt F) → (⟨S20x20, .f32⟩ : BufTy).Contents (Elt F) → (⟨S20x20, .f32⟩ : BufTy).Contents (Elt F)),
    StableHlo.binary main_v255 main_v256 main_v257 (addf : (⟨S20x20, .f32⟩ : BufTy).Contents (Elt F) → (⟨S20x20, .f32⟩ : BufTy).Contents (Elt F) → (⟨S20x20, .f32⟩ : BufTy).Contents (Elt F)),
    StableHlo.unary main_v238 main_v258 ((extractStridedSlice S16384x20 ![0, 0] · slices_S16384x64_S16384x20_0_0) : (⟨S16384x64, .f32⟩ : BufTy).Contents (Elt F) → (⟨S16384x20, .f32⟩ : BufTy).Contents (Elt F)),
    StableHlo.unary main_v257 main_v259 ((transpose S20x20 [1, 0] · transposes_S20x20_S20x20_1_0) : (⟨S20x20, .f32⟩ : BufTy).Contents (Elt F) → (⟨S20x20, .f32⟩ : BufTy).Contents (Elt F)),
    StableHlo.binary main_v258 main_v259 main_v260 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.unary main_v246 main_v261 (broadcastInDim S1x20 ![1] bcast_S20_S1x20_1 : (⟨S20, .f32⟩ : BufTy).Contents (Elt F) → (⟨S1x20, .f32⟩ : BufTy).Contents (Elt F)),
    StableHlo.unary main_v261 main_v262 (broadcastInDim S16384x20 ![0, 1] bcast_S1x20_S16384x20_0_1 : (⟨S1x20, .f32⟩ : BufTy).Contents (Elt F) → (⟨S16384x20, .f32⟩ : BufTy).Contents (Elt F)),
    StableHlo.binary main_v260 main_v262 main_v263 (addf : (⟨S16384x20, .f32⟩ : BufTy).Contents (Elt F) → (⟨S16384x20, .f32⟩ : BufTy).Contents (Elt F) → (⟨S16384x20, .f32⟩ : BufTy).Contents (Elt F)),
    StableHlo.unary main_v263 main_v264 (Host.tanh : (⟨S16384x20, .f32⟩ : BufTy).Contents (Elt F) → (⟨S16384x20, .f32⟩ : BufTy).Contents (Elt F)),
    StableHlo.unary main_v242 main_v265 ((transpose S20x20 [1, 0] · transposes_S20x20_S20x20_1_0) : (⟨S20x20, .f32⟩ : BufTy).Contents (Elt F) → (⟨S20x20, .f32⟩ : BufTy).Contents (Elt F)),
    StableHlo.binary main_v264 main_v265 main_v266 ((fun l r => Host.dotGeneral dot_S16384x20_S20x20_S16384x20_1_0_0_1_n_n none l r) : (⟨S16384x20, .f32⟩ : BufTy).Contents (Elt F) → (⟨S20x20, .f32⟩ : BufTy).Contents (Elt F) → (⟨S16384x20, .f32⟩ : BufTy).Contents (Elt F)),
    StableHlo.nullary main_c_24 (constantI S_ 32 0#32),
    StableHlo.unary main_c_24 main_v267 (broadcastInDim S1 ![] bcast_S_S1 : (⟨S_, .i32⟩ : BufTy).Contents (Elt F) → (⟨S1, .i32⟩ : BufTy).Contents (Elt F)),
    StableHlo.ternary main_v238 main_v267 main_v266 main_v268 ((fun x i u => Host.scatter scatter_S16384x64_S1_S16384x20_01_n_1_0 FloatOps.addf x i u) : (⟨S16384x64, .f32⟩ : BufTy).Contents (Elt F) → (⟨S1, .i32⟩ : BufTy).Contents (Elt F) → (⟨S16384x20, .f32⟩ : BufTy).Contents (Elt F) → (⟨S16384x64, .f32⟩ : BufTy).Contents (Elt F)) ]

set_option maxRecDepth 65536 in
set_option maxHeartbeats 2000000 in
/-- The same line. -/
theorem opsS7_plain : (opsS7 : List (HloOp τ sig (Elt F))) = opsS7P := rfl

/-- The reshape of the step's first 400 parameters to a 20x20 block, read at its result buffer. -/
theorem s7_reshape (V : Valuation τ sig (Elt F)) (hx hy) :
    (StableHlo.reshape (τ := τ) (Val := Elt F) main_v240 main_v241 rfl shapeCasts_S400_S20x20 hx hy).result V (no_index (Proc.devRef .tc main_v241))
      = shapeCast S20x20 (V (Proc.devRef .tc main_v240) : RefAlg.T F S400 .f32) shapeCasts_S400_S20x20 := by
  rw [reshape_result]; rfl

set_option maxRecDepth 65536 in
set_option maxHeartbeats 4000000 in
theorem s7_val (V : Valuation τ sig (Elt F)) :
    after (opsS7 (F := F)) V (main_v268 : DevRef τ sig)
      = RefAlg.stepOddT (V (main_v238 : DevRef τ sig)) (extractStridedSlice S440 ![3080] (V (main_v23 : DevRef τ sig)) slices_S3520_S440_3080) := by
  rw [opsS7_plain]
  unfold RefAlg.stepOddT RefAlg.triuT RefAlg.trilT RefAlg.diagT RefAlg.offDiagT
  simp (disch := decide) only [after_cons, after_nil, s7_reshape, nullary_result', unary_result', binary_result', ternary_result',
    nullary_result_ne', unary_result_ne', binary_result_ne', ternary_result_ne', reshape_result_ne']

end Cert.ReferenceIdeal.RefSide

end
-- ==== Proof.RefValDec.lean ====
/-
  What the line of the decoder (two linear layers with a cut at zero between them) leaves in its result buffers, as the stage's function of the buffers it read.
-/
import proofs.«112810_j2207613190724_2_alg».proof.Proof.RefOpsDec
import proofs.«112810_j2207613190724_2_alg».proof.Proof.RefAlgDefs

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 2000000 in
theorem dec_v279 (V : Valuation τ sig (Elt Ideal)) :
    after (opsDec (F := Ideal)) V (main_v279 : DevRef τ sig)
      = RefAlg.decT (V (main_v268 : DevRef τ sig)) (V (main_arg10 : DevRef τ sig)) (V (main_arg11 : DevRef τ sig)) (V (main_arg12 : DevRef τ sig)) (V (main_arg13 : DevRef τ sig)) := by
  simp only [after_cons, after_nil]
  rfl

end Cert.ReferenceIdeal.RefSide

end
-- ==== Proof.RefAlgOut.lean ====
/-
  The reference network whole, as a function of its fourteen argument arrays: the eight Sylvester steps in order, each
  over its own 440 of the 3520 averaged parameters, between the latent start and the decoder.
-/
import proofs.«112810_j2207613190724_2_alg».proof.Proof.RefAlgDefs

set_option synthInstance.maxSize 4096

noncomputable section

namespace Cert.ReferenceIdeal.RefAlg

open Cert.ReferenceIdeal Idealize.ShloMosaic

variable {F : FTy → Type} [FloatOps F] [Facts₀]
open Facts₀

/-- The eight steps on the latent array, step k over entries 440k .. 440k+439 of the averaged parameters. -/
def flowT (z : T F S16384x64 .f32) (fp : T F S3520 .f32) : T F S16384x64 .f32 :=
  stepOddT (stepEvenT (stepOddT (stepEvenT (stepOddT (stepEvenT (stepOddT (stepEvenT z (extractStridedSlice S440 ![0] fp slices_S3520_S440_0 : T F S440 .f32)) (extractStridedSlice S440 ![440] fp slices_S3520_S440_440 : T F S440 .f32)) (extractStridedSlice S440 ![880] fp slices_S3520_S440_880 : T F S440 .f32)) (extractStridedSlice S440 ![1320] fp slices_S3520_S440_1320 : T F S440 .f32)) (extractStridedSlice S440 ![1760] fp slices_S3520_S440_1760 : T F S440 .f32)) (extractStridedSlice S440 ![2200] fp slices_S3520_S440_2200 : T F S440 .f32)) (extractStridedSlice S440 ![2640] fp slices_S3520_S440_2640 : T F S440 .f32)) (extractStridedSlice S440 ![3080] fp slices_S3520_S440_3080 : T F S440 .f32)

/-- The network's output from its arguments. -/
def outT (x : T F S16384x4096 .f32) (eps : T F S16384x64 .f32) (W1 : T F S400x4096 .f32) (b1 : T F S400 .f32)
    (W21 : T F S64x400 .f32) (b21 : T F S64 .f32) (W22 : T F S64x400 .f32) (b22 : T F S64 .f32)
    (W23 : T F S3520x400 .f32) (b23 : T F S3520 .f32)
    (W3 : T F S400x64 .f32) (b3 : T F S400 .f32) (W4 : T F S4096x400 .f32) (b4 : T F S4096 .f32) : T F S16384x4096 .f32 :=
  decT (flowT (z0T eps (head64T (hidT x W1 b1) W22 b22) (head64T (hidT x W1 b1) W21 b21)) (fpT (hidT x W1 b1) W23 b23)) W3 b3 W4 b4

end Cert.ReferenceIdeal.RefAlg

end
-- ==== Proof.LibScatterSum.lean ====
/-
  A scatter whose combiner is addition, read at an index: the operand's entry plus the sum of the updates that land there.

  `Host.scatter d f x idx upd` folds over the update indices in row-major order; the step for an update index whose
  landing index (`ScatterDims.resultIdx?`) is `some i` replaces the entry at `i` by `f` of that entry and the update,
  and an update whose landing index is `none` (outside the operand) is dropped.  When `f` is the addition of a
  commutative monoid, every step adds to entry `b` the update if it lands on `b` and zero otherwise, so the entry at
  `i` after the fold is the entry before it plus the sum of the updates whose landing index is `some i`.  This holds
  for every choice of dimension numbers; it is the same formula the exact float accumulation
  `Ideal.hostScatterAdd` is defined by.
-/
import Idealize.ShloMosaic.PureOps.ShapeOps
import Mathlib.Algebra.BigOperators.Group.Finset.Basic
import Mathlib.Algebra.BigOperators.Fin

namespace ScatterSum

open Idealize.ShloMosaic

/-- A fold whose every step adds `g n b` to entry `b`: the entry at `b` ends at its start plus the sum of the
    `g n b` over the list. -/
theorem foldl_of_step {α β ι : Type*} [AddCommMonoid α] (step : (β → α) → ι → (β → α)) (g : ι → β → α)
    (hstep : ∀ r n b, step r n b = r b + g n b) (l : List ι) (r : β → α) (b : β) :
    (l.foldl step r) b = r b + (l.map fun n => g n b).sum := by
  induction l generalizing r with
  | nil => simp
  | cons a l ih =>
    simp only [List.foldl_cons, List.map_cons, List.sum_cons]
    rw [ih, hstep, add_assoc]

variable {α : Type} [AddCommMonoid α] {s si u : Shape} {w : ℕ}

/-- A scatter with an additive combiner at an index: the operand's entry plus the sum of the updates whose
    landing index is that entry. -/
theorem scatter_add_apply (d : ScatterDims s si u) (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [foldl_of_step _
    (fun n b => if d.resultIdx? (u.rowMajor.symm n) idx = some b then upd (u.rowMajor.symm n) else 0) ?_,
    ← List.ofFn_eq_map, List.sum_ofFn, Finset.sum_filter]
  · congr 1
    exact Equiv.sum_comp u.rowMajor.symm (fun j => if d.resultIdx? j idx = some i then upd j else 0)
  · intro r n b
    cases hres : d.resultIdx? (u.rowMajor.symm n) idx with
    | none => simp
    | some i =>
      by_cases hb : b = i
      · subst hb; simp [hf]
      · have hne : ¬ (i = b) := fun h => hb h.symm
        simp [hb, hne]

end ScatterSum
-- ==== Proof.RefAlgLib.lean ====
/-
  The host operations the reference network is made of, read at an index over explicit coordinates.

  A plain product's dimension numbers; a vector repeated as the rows of a matrix; a slice of a vector; a 400-vector
  laid out as a 20x20 block in row-major order; a padding by nothing; the masks "column below row", "column at most row"
  and "column equals row" made of signed comparisons of the two coordinates below 20; the words of one and of zero;
  a linear layer x W^T + b at (r, c); and a scatter of a 16384x20 block, with addition, onto the first twenty columns.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«112810_j2207613190724_2_alg».proof.Proof.LibDotIx2
import proofs.«112810_j2207613190724_2_alg».proof.Proof.LibScatterSum
import proofs.«112810_j2207613190724_2_alg».proof.Proof.Spec

noncomputable section

open scoped BigOperators

namespace Cert.RefAlgLib

open Idealize.ShloMosaic Idealize.ShloMosaic.ValueIdx

/-! ## Pointwise operations at an index (definitional) -/

section Pointwise
variable {s : Shape} {φ : FTy} {w : ℕ}

theorem addi_apply (x y : IVec s w) (i : s.Idx) : addi x y i = IntOp.addi (x i) (y i) := rfl
theorem cmpi_apply (p : CmpIPredicate) (x y : IVec s w) (i : s.Idx) : cmpi p x y i = IntOp.cmpi p (x i) (y i) := rfl
theorem uitofp_apply (x : IVec s w) (i : s.Idx) : (uitofp φ x : FVec Ideal s φ) i = (((x i).toNat : ℝ) : EReal) := rfl
theorem hostExp_apply (x : FVec Ideal s φ) (i : s.Idx) : Host.exp x i = Ideal.exp (x i) := rfl
theorem hostTanh_apply (x : FVec Ideal s φ) (i : s.Idx) : Host.tanh x i = Ideal.tanh (x i) := rfl

end Pointwise

/-! ## The dimension numbers of a plain product -/

/-- Dimension numbers that contract the left operand's second axis with the right operand's first, keep the other two
    axes in order and batch nothing are those of a plain product. -/
theorem plainDot_of_lists {M K N : ℕ} (d : DotDims (⟨2, ![M, K]⟩ : Shape) (⟨2, ![K, N]⟩ : Shape) (⟨2, ![M, N]⟩ : Shape))
    (hlc : d.lhsContracting = [1]) (hrc : d.rhsContracting = [0]) (hln : d.lhsNonContracting = [0])
    (hrn : d.rhsNonContracting = [1]) (hlb : d.lhsBatch = []) (hrb : d.rhsBatch = []) : PlainDot d where
  rank := by rw [d.rank_contr, hlc]; rfl
  size := by
    have h0 : 0 < d.lhsContracting.length := by rw [hlc]; exact Nat.one_pos
    have e := d.size_contr 0 h0
    have key : ∀ (l : List (Fin 2)) (h : 0 < l.length), l = [1] → l[0] = (1 : Fin 2) := by
      intro l h e; subst e; rfl
    rw [key _ h0 hlc] at e
    exact e
  l0 := fun j q => by
    have h0b : (0 : Fin 2) ∉ d.lhsBatch := by rw [hlb]; exact List.not_mem_nil
    have h0n : (0 : Fin 2) ∈ d.lhsNonContracting := by rw [hln]; exact List.mem_singleton.mpr rfl
    unfold DotDims.lhsIdx
    rw [dif_neg h0b, dif_pos h0n]
    simp only [Fin.val_cast]
    have key : ∀ (p : ℕ) (hp : p < 2), p = 0 → (j ⟨p, hp⟩).val = (j 0).val := fun p hp h => by subst h; rfl
    exact key _ _ (by rw [hlb, hln]; rfl)
  l1 := fun j q => d.lhsIdx_val_of_single hlc j q
  r0 := fun j q => d.rhsIdx_val_of_single hrc j q
  r1 := fun j q => by
    have h1b : (1 : Fin 2) ∉ d.rhsBatch := by rw [hrb]; exact List.not_mem_nil
    have h1n : (1 : Fin 2) ∈ d.rhsNonContracting := by rw [hrn]; exact List.mem_singleton.mpr rfl
    unfold DotDims.rhsIdx
    rw [dif_neg h1b, dif_pos h1n]
    simp only [Fin.val_cast]
    have key : ∀ (p : ℕ) (hp : p < 2), p = 1 → (j ⟨p, hp⟩).val = (j 1).val := fun p hp h => by subst h; rfl
    exact key _ _ (by rw [hlb, hln, hrn]; rfl)

/-- The host's plain product at (r, c): the sum over the inner position. -/
theorem dot_apply {M K N : ℕ} {d : DotDims (⟨2, ![M, K]⟩ : Shape) (⟨2, ![K, N]⟩ : Shape) (⟨2, ![M, N]⟩ : Shape)}
    (hd : PlainDot d) (l : FVec Ideal (⟨2, ![M, K]⟩ : Shape) .f32) (r : FVec Ideal (⟨2, ![K, N]⟩ : Shape) .f32)
    (i : Fin M) (c : Fin N) :
    Host.dotGeneral d none l r (ix2 i c) = ∑ k : Fin K, l (ix2 i k) * r (ix2 k c) :=
  dotGeneral_ix2_any hd none .single l r i c

/-! ## Layout operations at coordinates -/

section Layout
variable {α : Type}

/-- A vector laid out as the one row of a 1 x n array, that row repeated m times: at (r, c) the vector at c. -/
theorem bcast_row_apply {m n : ℕ} (b : (⟨1, ![n]⟩ : Shape).Idx → α)
    (h1 : (⟨1, ![n]⟩ : Shape).BroadcastsInDim (⟨2, ![1, n]⟩ : Shape) ![1])
    (h2 : (⟨2, ![1, n]⟩ : Shape).BroadcastsInDim (⟨2, ![m, n]⟩ : Shape) ![0, 1]) (r : Fin m) (c : Fin n) :
    broadcastInDim (⟨2, ![m, n]⟩ : Shape) ![0, 1] h2 (broadcastInDim (⟨2, ![1, n]⟩ : Shape) ![1] h1 b) (ix2 r c) = b (ix1 c) := by
  refine (broadcastInDim_apply _ h2 _ (ix2 r c) (ix2 (0 : Fin 1) c) fun a => ?_).trans ?_
  · match a with
    | ⟨0, _⟩ => rfl
    | ⟨1, _⟩ =>
      show c.val = if n = 1 then 0 else c.val
      split
      · have := c.isLt; omega
      · rfl
  · refine broadcastInDim_apply _ h1 _ (ix2 (0 : Fin 1) c) (ix1 c) fun a => ?_
    match a with
    | ⟨0, _⟩ =>
      show c.val = if n = 1 then 0 else c.val
      split
      · have := c.isLt; omega
      · rfl

/-- A slice of a vector from o: at j the vector at o + j. -/
theorem slice1_apply {n m : ℕ} (o : ℕ) (x : (⟨1, ![n]⟩ : Shape).Idx → α)
    (h : (⟨1, ![n]⟩ : Shape).Slices ![o] (⟨1, ![m]⟩ : Shape)) (j : Fin m) (k : Fin n) (hk : k.val = o + j.val) :
    extractStridedSlice (⟨1, ![m]⟩ : Shape) ![o] x h (ix1 j) = x (ix1 k) :=
  extractStridedSlice_apply _ _ _ _ _ (fun ax => by
    match ax with
    | ⟨0, _⟩ => exact hk)

/-- A 400-vector laid out as a 20 x 20 block in row-major order: at (a, b) the vector at 20 a + b. -/
theorem reshape400_apply (x : (⟨1, ![400]⟩ : Shape).Idx → α)
    (h : (⟨1, ![400]⟩ : Shape).ShapeCasts (⟨2, ![20, 20]⟩ : Shape)) (a b : Fin 20) (k : Fin 400) (hk : k.val = 20 * a.val + b.val) :
    shapeCast (⟨2, ![20, 20]⟩ : Shape) x h (ix2 a b) = x (ix1 k) := by
  refine shapeCast_apply x h (ix2 a b) (ix1 k) ?_
  rw [Shape.rowMajor_val_one, Shape.rowMajor_val_two]
  show k.val = a.val * 20 + b.val
  omega

/-- A column vector repeated along the columns: at (a, b) the vector at a. -/
theorem bcast_col_apply {n m : ℕ} (v : (⟨1, ![n]⟩ : Shape).Idx → α)
    (h1 : (⟨1, ![n]⟩ : Shape).BroadcastsInDim (⟨2, ![n, 1]⟩ : Shape) ![0])
    (h2 : (⟨2, ![n, 1]⟩ : Shape).BroadcastsInDim (⟨2, ![n, m]⟩ : Shape) ![0, 1]) (a : Fin n) (b : Fin m) :
    broadcastInDim (⟨2, ![n, m]⟩ : Shape) ![0, 1] h2 (broadcastInDim (⟨2, ![n, 1]⟩ : Shape) ![0] h1 v) (ix2 a b) = v (ix1 a) := by
  refine (broadcastInDim_apply _ h2 _ (ix2 a b) (ix2 a (0 : Fin 1)) fun ax => ?_).trans ?_
  · match ax with
    | ⟨0, _⟩ =>
      show a.val = if n = 1 then 0 else a.val
      split
      · have := a.isLt; omega
      · rfl
    | ⟨1, _⟩ => rfl
  · refine broadcastInDim_apply _ h1 _ (ix2 a (0 : Fin 1)) (ix1 a) fun ax => ?_
    match ax with
    | ⟨0, _⟩ =>
      show a.val = if n = 1 then 0 else a.val
      split
      · have := a.isLt; omega
      · rfl

/-- A padding by nothing on either side and nothing between the entries keeps the vector. -/
theorem pad0_apply {n : ℕ} (x : (⟨1, ![n]⟩ : Shape).Idx → α) {u : Shape} (v : u.Idx → α)
    (h : (⟨1, ![n]⟩ : Shape).Pads ![0] ![0] ![0] (⟨1, ![n]⟩ : Shape)) (hu : 0 < u.numel) (a : Fin n) :
    pad (⟨1, ![n]⟩ : Shape) ![0] ![0] ![0] x v h hu (ix1 a) = x (ix1 a) := by
  unfold pad
  have hin : ∀ ax : Fin (⟨1, ![n]⟩ : Shape).rank, (![0] : Fin 1 → ℕ) ax ≤ ((ix1 a) (ax.cast h.1)).val
      ∧ (((ix1 a) (ax.cast h.1)).val - (![0] : Fin 1 → ℕ) ax) % ((![0] : Fin 1 → ℕ) ax + 1) = 0
      ∧ (((ix1 a) (ax.cast h.1)).val - (![0] : Fin 1 → ℕ) ax) / ((![0] : Fin 1 → ℕ) ax + 1) < (⟨1, ![n]⟩ : Shape).size ax := by
    intro ax
    match ax with
    | ⟨0, _⟩ =>
      refine ⟨Nat.zero_le _, ?_, ?_⟩
      · show (a.val - 0) % (0 + 1) = 0
        omega
      · show (a.val - 0) / (0 + 1) < n
        have := a.isLt
        simp
  rw [dif_pos hin]
  refine congrArg x (funext fun ax => Fin.ext ?_)
  match ax with
  | ⟨0, _⟩ =>
    show (a.val - 0) / (0 + 1) = a.val
    simp

end Layout

/-! ## The three masks over the coordinates below 20 -/

/-- Row minus one at least the column, signed: the column is below the row. -/
theorem mask_below (a b : Fin 20) :
    IntOp.cmpi .sge (IntOp.addi (BitVec.ofNat 32 a.val) 4294967295#32) (BitVec.ofNat 32 b.val) = if b.val < a.val then 1#1 else 0#1 := by
  revert a b; decide

/-- Row at least the column, signed: the column is at most the row. -/
theorem mask_atmost (a b : Fin 20) :
    IntOp.cmpi .sge (IntOp.addi (BitVec.ofNat 32 a.val) 0#32) (BitVec.ofNat 32 b.val) = if b.val ≤ a.val then 1#1 else 0#1 := by
  revert a b; decide

/-- Row equal to the column. -/
theorem mask_diag (a b : Fin 20) :
    IntOp.cmpi .eq (IntOp.addi (BitVec.ofNat 32 a.val) 0#32) (BitVec.ofNat 32 b.val) = if a = b then 1#1 else 0#1 := by
  revert a b; decide

/-- A select on a decided condition is the `if`. -/
theorem select_ite {α : Type} (p : Prop) [Decidable p] (x y : α) :
    Scalar.select (if p then 1#1 else 0#1) x y = if p then x else y := by
  by_cases h : p
  · rw [if_pos h, if_pos h]; exact select_one x y
  · rw [if_neg h, if_neg h]; exact select_zero x y

/-- The one-bit condition read as an unsigned integer is one or zero. -/
theorem bit_toNat (p : Prop) [Decidable p] : ((if p then 1#1 else 0#1 : BitVec 1).toNat : ℝ) = if p then 1 else 0 := by
  by_cases h : p
  · rw [if_pos h, if_pos h]; simp
  · rw [if_neg h, if_neg h]; simp

end Cert.RefAlgLib

end
-- ==== Proof.RefAlgLib2.lean ====
/-
  Two composite readings at coordinates.

  A linear layer as the reference spells it, x times the transpose of W plus the bias b repeated over the rows, is at
  (r, c) the specification's layer of row r of x at c.

  A scatter with addition of an m x k block of updates onto an m x n array, with one scatter index equal to zero on the
  column axis and the whole block as the update window: update (r, j) lands on entry (r, j), so an entry in the first
  k columns receives exactly its update and the other columns nothing.
-/
import proofs.«112810_j2207613190724_2_alg».proof.Proof.RefAlgLib

noncomputable section

open scoped BigOperators

namespace Cert.RefAlgLib

open Idealize.ShloMosaic Idealize.ShloMosaic.ValueIdx

/-! ## A linear layer at (r, c) -/

theorem lin_apply {M K N : ℕ} {d : DotDims (⟨2, ![M, K]⟩ : Shape) (⟨2, ![K, N]⟩ : Shape) (⟨2, ![M, N]⟩ : Shape)}
    (hd : PlainDot d) (x : FVec Ideal (⟨2, ![M, K]⟩ : Shape) .f32) (W : FVec Ideal (⟨2, ![N, K]⟩ : Shape) .f32)
    (b : FVec Ideal (⟨1, ![N]⟩ : Shape) .f32)
    (ht : (⟨2, ![N, K]⟩ : Shape).Transposes [1, 0] (⟨2, ![K, N]⟩ : Shape))
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) (r : Fin M) (c : Fin N) :
    addf (Host.dotGeneral d none x (transpose (⟨2, ![K, N]⟩ : Shape) [1, 0] W ht))
        (broadcastInDim (⟨2, ![M, N]⟩ : Shape) ![0, 1] h2 (broadcastInDim (⟨2, ![1, N]⟩ : Shape) ![1] h1 b)) (ix2 r c)
      = Cert.Spec.lin W b (Cert.Spec.row x r) c := by
  rw [addf_apply, dot_apply hd, bcast_row_apply]
  unfold Cert.Spec.lin Cert.Spec.row
  congr 1
  refine Finset.sum_congr rfl fun k _ => ?_
  rw [transpose_ix2_apply]

/-! ## The scatter onto the first columns -/

section Scatter
variable {m n k : ℕ} (d : ScatterDims (⟨2, ![m, n]⟩ : Shape) (⟨1, ![1]⟩ : Shape) (⟨2, ![m, k]⟩ : Shape))

theorem start_eq_zero {w : ℕ} (idx : IVec (⟨1, ![1]⟩ : Shape) w) (hidx : ∀ i, (idx i).toInt = 0)
    (j : (⟨2, ![m, k]⟩ : Shape).Idx) (a : Fin 2) : d.start j idx a = 0 := by
  unfold ScatterDims.start
  split
  · exact hidx _
  · rfl

theorem sKept_eq (hi : d.insertedWindowDims = []) : d.sKept = [0, 1] := by
  show Shape.kept _ d.insertedWindowDims = _
  rw [hi]; rfl

theorem window_eq (hw : d.updateWindowDims = [0, 1]) (hi : d.insertedWindowDims = [])
    (j : (⟨2, ![m, k]⟩ : Shape).Idx) (a : Fin 2) : d.window j a = (j a).val := by
  have hk := sKept_eq d hi
  have ha : a ∈ d.sKept := by rw [hk]; fin_cases a <;> simp
  unfold ScatterDims.window
  rw [dif_pos ha]
  have key : ∀ (l₁ l₂ : List (Fin 2)) (p : ℕ) (hp : p < l₁.length), l₁ = [0, 1] → l₂ = [0, 1] → p = l₂.idxOf a →
      (j (l₁[p])).val = (j a).val := by
    intro l₁ l₂ p hp e1 e2 ep; subst e1 e2 ep; fin_cases a <;> rfl
  exact key _ _ _ _ hw hk rfl

/-- The landing index of update (r, j): entry (r, j). -/
theorem resultIdx_eq (hw : d.updateWindowDims = [0, 1]) (hi : d.insertedWindowDims = []) (hkn : k ≤ n)
    {w : ℕ} (idx : IVec (⟨1, ![1]⟩ : Shape) w) (hidx : ∀ i, (idx i).toInt = 0) (j : (⟨2, ![m, k]⟩ : Shape).Idx) :
    d.resultIdx? j idx = some (ix2 (j 0) ⟨(j 1).val, by have := idx2_lt1 j; omega⟩) := by
  unfold ScatterDims.resultIdx?
  have hall : ∀ a, 0 ≤ d.start j idx a + d.window j a ∧ d.start j idx a + d.window j a < (⟨2, ![m, n]⟩ : Shape).size a := by
    intro a
    rw [start_eq_zero d idx hidx, window_eq d hw hi]
    match a with
    | ⟨0, _⟩ =>
      refine ⟨by omega, ?_⟩
      show (0 : ℤ) + ((j 0).val : ℤ) < (m : ℤ)
      have := idx2_lt0 j; omega
    | ⟨1, _⟩ =>
      refine ⟨by omega, ?_⟩
      show (0 : ℤ) + ((j 1).val : ℤ) < (n : ℤ)
      have := idx2_lt1 j; omega
  rw [dif_pos hall]
  congr 1
  funext a
  apply Fin.ext
  show (d.start j idx a + d.window j a).toNat = _
  rw [start_eq_zero d idx hidx, window_eq d hw hi]
  match a with
  | ⟨0, _⟩ => simp
  | ⟨1, _⟩ => simp

/-- The scatter at (r, c): the entry plus its update in the first k columns, the entry alone elsewhere. -/
theorem scatter_first_apply (hw : d.updateWindowDims = [0, 1]) (hi : d.insertedWindowDims = []) (hkn : k ≤ n)
    {w : ℕ} (idx : IVec (⟨1, ![1]⟩ : Shape) w) (hidx : ∀ i, (idx i).toInt = 0)
    (f : EReal → EReal → EReal) (hf : ∀ a b, f a b = a + b)
    (x : (⟨2, ![m, n]⟩ : Shape).Idx → EReal) (upd : (⟨2, ![m, k]⟩ : Shape).Idx → EReal) (r : Fin m) (c : Fin n) :
    Host.scatter d f x idx upd (ix2 r c)
      = if h : c.val < k then x (ix2 r c) + upd (ix2 r ⟨c.val, h⟩) else x (ix2 r c) := by
  rw [ScatterSum.scatter_add_apply d f hf, Finset.sum_filter]
  have hp : ∀ j : (⟨2, ![m, k]⟩ : Shape).Idx, d.resultIdx? j idx = some (ix2 r c) ↔ (j 0 = r ∧ (j 1).val = c.val) := by
    intro j
    rw [resultIdx_eq d hw hi hkn idx hidx j]
    constructor
    · intro e
      have e' := Option.some.inj e
      exact ⟨congrFun e' 0, congrArg Fin.val (congrFun e' 1)⟩
    · rintro ⟨e0, e1⟩
      congr 1
      funext a
      match a with
      | ⟨0, _⟩ => exact e0
      | ⟨1, _⟩ => exact Fin.ext e1
  split
  · next h =>
    congr 1
    rw [Finset.sum_eq_single_of_mem (ix2 r ⟨c.val, h⟩) (Finset.mem_univ _)]
    · rw [if_pos ((hp _).2 ⟨rfl, rfl⟩)]
    · intro j _ hne
      rw [if_neg]
      intro hj
      obtain ⟨e0, e1⟩ := (hp j).1 hj
      apply hne
      rw [eq_ix2 j]
      congr 1
      exact Fin.ext e1
  · next h =>
    rw [Finset.sum_eq_zero, add_zero]
    intro j _
    rw [if_neg]
    intro hj
    obtain ⟨_, e1⟩ := (hp j).1 hj
    have := idx2_lt1 j
    omega

end Scatter

end Cert.RefAlgLib

end
-- ==== Proof.RefAlg1.lean ====
/-
  The reference's stages outside the flow, each equal to the specification index by index: the hidden layer, a head of
  64 columns, the averaged flow parameters, the latent start, the decoder.
-/
import proofs.«112810_j2207613190724_2_alg».proof.Proof.RefAlgDefs
import proofs.«112810_j2207613190724_2_alg».proof.Proof.RefAlgLib2

noncomputable section

open scoped BigOperators

namespace Cert.ReferenceIdeal.RefAlg

open Cert.ReferenceIdeal Idealize.ShloMosaic Idealize.ShloMosaic.ValueIdx Cert.RefAlgLib

variable [Facts₀]
open Facts₀

/-! ## The six products are plain -/

theorem pd_x_400 : PlainDot dot_S16384x4096_S4096x400_S16384x400_1_0_0_1_n_n := plainDot_of_lists _ rfl rfl rfl rfl rfl rfl
theorem pd_h_64 : PlainDot dot_S16384x400_S400x64_S16384x64_1_0_0_1_n_n := plainDot_of_lists _ rfl rfl rfl rfl rfl rfl
theorem pd_h_3520 : PlainDot dot_S16384x400_S400x3520_S16384x3520_1_0_0_1_n_n := plainDot_of_lists _ rfl rfl rfl rfl rfl rfl
theorem pd_z_20 : PlainDot dot_S16384x20_S20x20_S16384x20_1_0_0_1_n_n := plainDot_of_lists _ rfl rfl rfl rfl rfl rfl
theorem pd_z_400 : PlainDot dot_S16384x64_S64x400_S16384x400_1_0_0_1_n_n := plainDot_of_lists _ rfl rfl rfl rfl rfl rfl
theorem pd_h_4096 : PlainDot dot_S16384x400_S400x4096_S16384x4096_1_0_0_1_n_n := plainDot_of_lists _ rfl rfl rfl rfl rfl rfl

/-- Row r of an array given entry by entry from its coordinates. -/
theorem row_mk {n k : ℕ} (f : Fin n → Fin k → EReal) (r : Fin n) :
    Cert.Spec.row (fun i : (⟨2, ![n, k]⟩ : Shape).Idx => f (i 0) (i 1)) r = f r := rfl

/-- The cut at zero at (r, c). -/
theorem reluT_apply (x : T Ideal S16384x400 .f32) (r : Fin 16384) (c : Fin 400) :
    reluT (F := Ideal) x (ix2 r c) = max (x (ix2 r c)) Cert.Spec.z32 := by
  unfold reluT
  rw [maximumf_apply, broadcastInDim_scalar_apply, constant_apply]

/-- The hidden layer, row by row. -/
theorem hidT_eq (x : T Ideal S16384x4096 .f32) (W1 : T Ideal S400x4096 .f32) (b1 : T Ideal S400 .f32) :
    hidT (F := Ideal) x W1 b1 = fun i => Cert.Spec.hid W1 b1 (Cert.Spec.row x (i 0)) (i 1) := by
  funext i
  obtain ⟨r, c, rfl⟩ : ∃ r c, i = ix2 r c := ⟨i 0, i 1, eq_ix2 i⟩
  unfold hidT
  rw [reluT_apply, lin_apply pd_x_400]
  rfl

/-- A head of 64 columns, row by row. -/
theorem head64T_eq (h : T Ideal S16384x400 .f32) (W : T Ideal S64x400 .f32) (b : T Ideal S64 .f32) :
    head64T (F := Ideal) h W b = fun i => Cert.Spec.lin W b (Cert.Spec.row h (i 0)) (i 1) := by
  funext i
  obtain ⟨r, c, rfl⟩ : ∃ r c, i = ix2 r c := ⟨i 0, i 1, eq_ix2 i⟩
  unfold head64T
  rw [lin_apply pd_h_64]

/-- The first head of the hidden layer is the specification's mean array. -/
theorem head64T_hidT_eq (x : T Ideal S16384x4096 .f32) (W1 : T Ideal S400x4096 .f32) (b1 : T Ideal S400 .f32)
    (W21 : T Ideal S64x400 .f32) (b21 : T Ideal S64 .f32) :
    head64T (F := Ideal) (hidT (F := Ideal) x W1 b1) W21 b21 = Cert.Spec.MU x W1 b1 W21 b21 := by
  rw [head64T_eq, hidT_eq]
  rfl

/-- Row r of the hidden layer's array. -/
theorem row_hidT (x : T Ideal S16384x4096 .f32) (W1 : T Ideal S400x4096 .f32) (b1 : T Ideal S400 .f32) (k : Fin 16384) :
    Cert.Spec.row (hidT (F := Ideal) x W1 b1) k = Cert.Spec.hid W1 b1 (Cert.Spec.row x k) := by
  rw [hidT_eq]
  rfl

/-- The sum over the batch axis, the dropped coordinate put back in front. -/
theorem sum_lift (hR : S16384x3520.Reduces [0] S3520) (G : S16384x3520.Idx → EReal) (n : Fin 3520) :
    (∑ k : Fin (S16384x3520.size 0), G (hR.lift (ix1 n) k)) = ∑ k : Fin 16384, G (ix2 k n) := by
  refine Finset.sum_congr rfl fun k _ => ?_
  congr 1
  funext c
  apply Fin.ext
  rw [hR.lift_val]
  unfold Shape.Reduces.liftVal
  match c with
  | ⟨0, _⟩ => simp
  | ⟨1, _⟩ => simp

theorem div_sum_lift (hR : S16384x3520.Reduces [0] S3520) (G : S16384x3520.Idx → EReal) (n : Fin 3520) (w : EReal) :
    Ideal.div (∑ k : Fin (S16384x3520.size 0), G (hR.lift (ix1 n) k)) w = Ideal.div (∑ k : Fin 16384, G (ix2 k n)) w := by
  rw [sum_lift]

theorem div_congr_left {a b w : EReal} (h : a = b) : Ideal.div a w = Ideal.div b w := by rw [h]

/-- The averaged flow parameters: the batch sum of the third head, divided by the word of 16384. -/
theorem fpT_eq (x : T Ideal S16384x4096 .f32) (W1 : T Ideal S400x4096 .f32) (b1 : T Ideal S400 .f32)
    (W23 : T Ideal S3520x400 .f32) (b23 : T Ideal S3520 .f32) :
    fpT (F := Ideal) (hidT (F := Ideal) x W1 b1) W23 b23 = Cert.Spec.FPdiv x W1 b1 W23 b23 := by
  funext i
  obtain ⟨n, rfl⟩ : ∃ n, i = ix1 n := ⟨i 0, eq_ix1 i⟩
  have hR : S16384x3520.Reduces [0] S3520 := by decide
  unfold fpT
  rw [hostDivf_apply, hostReduceAdd_apply, broadcastInDim_scalar_apply, constant_apply,
    Ideal.hostReduceAdd_single reducesTo_S16384x3520_S3520_d0 hR, constant_apply, Ideal.ofBits_zero_f32, zero_add]
  refine (div_sum_lift hR _ n _).trans ?_
  unfold Cert.Spec.FPdiv Cert.Spec.FSUM
  refine div_congr_left ?_
  refine Finset.sum_congr rfl fun k _ => ?_
  rw [lin_apply pd_h_3520, row_hidT]

/-- The latent start, row by row. -/
theorem z0T_eq (eps lv mu : T Ideal S16384x64 .f32) :
    z0T (F := Ideal) eps lv mu
      = fun i => Cert.Spec.z0 (Cert.Spec.row mu (i 0)) (Cert.Spec.row lv (i 0)) (Cert.Spec.row eps (i 0)) (i 1) := by
  funext i
  obtain ⟨r, c, rfl⟩ : ∃ r c, i = ix2 r c := ⟨i 0, i 1, eq_ix2 i⟩
  unfold z0T
  rw [addf_apply, mulf_apply, hostExp_apply, mulf_apply, broadcastInDim_scalar_apply, constant_apply]
  rfl

/-- The decoder, row by row. -/
theorem decT_eq (z : T Ideal S16384x64 .f32) (W3 : T Ideal S400x64 .f32) (b3 : T Ideal S400 .f32)
    (W4 : T Ideal S4096x400 .f32) (b4 : T Ideal S4096 .f32) :
    decT (F := Ideal) z W3 b3 W4 b4 = fun i => Cert.Spec.dec W3 b3 W4 b4 (Cert.Spec.row z (i 0)) (i 1) := by
  funext i
  obtain ⟨r, c, rfl⟩ : ∃ r c, i = ix2 r c := ⟨i 0, i 1, eq_ix2 i⟩
  unfold decT
  rw [lin_apply pd_h_4096]
  show Cert.Spec.lin W4 b4 _ c = Cert.Spec.lin W4 b4 (Cert.Spec.relu (Cert.Spec.lin W3 b3 (Cert.Spec.row z r))) c
  congr 1
  funext j
  show reluT (F := Ideal) _ (ix2 r j) = _
  rw [reluT_apply, lin_apply pd_z_400]
  rfl

end Cert.ReferenceIdeal.RefAlg

end
-- ==== Proof.RefAlgStep.lean ====
/-
  One triangular Sylvester step of the reference, of either parity, equal to the specification's step on each row.

  The step's 440 parameters q hold a 20 x 20 block R in row-major order (entries 0 .. 399), a diagonal v (400 .. 419) and
  a bias c (420 .. 439).  The reference forms the upper and the lower triangle of R by selects on signed comparisons of
  the row and the column index, the matrix A as (lower triangle, or its transpose) times (one minus the identity
  pattern) plus the diagonal array of v — on the extended reals x * (1 - 1) + v = v and x * (1 - 0) + 0 = x —, the
  pre-activation as the first twenty columns of z times the transpose of A plus c, and the update as tanh of that times
  the upper triangle (or its transpose); the update is then added onto the first twenty columns of z by a scatter.
-/
import proofs.«112810_j2207613190724_2_alg».proof.Proof.RefAlg1

noncomputable section

open scoped BigOperators

namespace Cert.ReferenceIdeal.RefAlg

open Cert.ReferenceIdeal Idealize.ShloMosaic Idealize.ShloMosaic.ValueIdx Cert.RefAlgLib

variable [Facts₀]
open Facts₀

/-! ## The step's parameters read off its 440-slice -/

/-- The step's 20 x 20 block: entry (a, b) is parameter 20 a + b. -/
def Rq (q : Cert.Spec.Arr1 440) : Fin 20 → Fin 20 → EReal := fun a b => q (ix1 ⟨20 * a.val + b.val, by omega⟩)
/-- The step's diagonal: entry a is parameter 400 + a. -/
def vq (q : Cert.Spec.Arr1 440) : Fin 20 → EReal := fun a => q (ix1 ⟨400 + a.val, by omega⟩)
/-- The step's bias: entry a is parameter 420 + a. -/
def cq (q : Cert.Spec.Arr1 440) : Fin 20 → EReal := fun a => q (ix1 ⟨420 + a.val, by omega⟩)

theorem Rq_apply (q : T Ideal S440 .f32) (a b : Fin 20) :
    shapeCast S20x20 (extractStridedSlice S400 ![0] q slices_S440_S400_0) shapeCasts_S400_S20x20 (ix2 a b) = Rq q a b := by
  rw [reshape400_apply _ _ a b ⟨20 * a.val + b.val, by omega⟩ rfl,
    slice1_apply 0 q _ ⟨20 * a.val + b.val, by omega⟩ ⟨20 * a.val + b.val, by omega⟩ (by simp)]
  rfl

theorem Rq_fun (q : T Ideal S440 .f32) :
    (fun a b : Fin 20 => shapeCast S20x20 (extractStridedSlice S400 ![0] q slices_S440_S400_0) shapeCasts_S400_S20x20 (ix2 a b)) = Rq q := by
  funext a b
  exact Rq_apply q a b

theorem vq_apply (q : T Ideal S440 .f32) (a : Fin 20) :
    extractStridedSlice S20 ![400] q slices_S440_S20_400 (ix1 a) = vq q a :=
  slice1_apply 400 q _ a ⟨400 + a.val, by omega⟩ rfl

theorem cq_apply (q : T Ideal S440 .f32) (a : Fin 20) :
    extractStridedSlice S20 ![420] q slices_S440_S20_420 (ix1 a) = cq q a :=
  slice1_apply 420 q _ a ⟨420 + a.val, by omega⟩ rfl

/-! ## The triangles, the diagonal array and the off-diagonal pattern at (a, b) -/

theorem iota0_apply (a b : Fin 20) : (iotaInDim S20x20 32 0 : IVec S20x20 32) (ix2 a b) = BitVec.ofNat 32 a.val := rfl
theorem iota1_apply (a b : Fin 20) : (iotaInDim S20x20 32 1 : IVec S20x20 32) (ix2 a b) = BitVec.ofNat 32 b.val := rfl

theorem triuT_apply (R : T Ideal S20x20 .f32) (a b : Fin 20) :
    triuT (F := Ideal) R (ix2 a b) = Cert.Spec.triu (fun a b => R (ix2 a b)) a b := by
  unfold triuT Cert.Spec.triu
  rw [select_apply, cmpi_apply, addi_apply, iota0_apply, iota1_apply, broadcastInDim_scalar_apply, constantI_apply,
    mask_below, select_ite, broadcastInDim_scalar_apply, constant_apply]

theorem trilT_apply (R : T Ideal S20x20 .f32) (a b : Fin 20) :
    trilT (F := Ideal) R (ix2 a b) = Cert.Spec.tril (fun a b => R (ix2 a b)) a b := by
  unfold trilT Cert.Spec.tril
  rw [select_apply, cmpi_apply, addi_apply, iota0_apply, iota1_apply, broadcastInDim_scalar_apply, constantI_apply,
    mask_atmost, select_ite, broadcastInDim_scalar_apply, constant_apply]

theorem diagT_apply (v : T Ideal S20 .f32) (a b : Fin 20) :
    diagT (F := Ideal) v (ix2 a b) = if a = b then v (ix1 a) else Cert.Spec.z32 := by
  unfold diagT
  rw [select_apply, cmpi_apply, addi_apply, iota0_apply, iota1_apply, broadcastInDim_scalar_apply, constantI_apply,
    mask_diag, select_ite, bcast_col_apply, pad0_apply, broadcastInDim_scalar_apply, constant_apply]

theorem offDiagT_apply (a b : Fin 20) :
    offDiagT (F := Ideal) (ix2 a b) = if a = b then 0 else 1 := by
  unfold offDiagT
  rw [subf_apply, broadcastInDim_scalar_apply, constant_apply, Ideal.ofBits_one_f32, uitofp_apply, cmpi_apply, addi_apply,
    iota0_apply, iota1_apply, broadcastInDim_scalar_apply, constantI_apply, mask_diag, bit_toNat]
  by_cases h : a = b
  · rw [if_pos h, if_pos h, ← EReal.coe_one, ← EReal.coe_sub, sub_self, EReal.coe_zero]
  · rw [if_neg h, if_neg h, EReal.coe_zero, sub_zero]

/-- A block times the off-diagonal pattern plus the diagonal array of v: v on the diagonal, the block off it. -/
theorem amatT_apply (X : T Ideal S20x20 .f32) (v : T Ideal S20 .f32) (a b : Fin 20) :
    addf (F := Ideal) (φ := .f32) (mulf (F := Ideal) (φ := .f32) X (offDiagT (F := Ideal))) (diagT (F := Ideal) v) (ix2 a b)
      = if a = b then v (ix1 a) else X (ix2 a b) := by
  rw [addf_apply, mulf_apply, offDiagT_apply, diagT_apply]
  by_cases h : a = b
  · rw [if_pos h, if_pos h, if_pos h, mul_zero, zero_add]
  · rw [if_neg h, if_neg h, if_neg h, mul_one]
    show _ + Ideal.ofBits .f32 0x00000000#32 = _
    rw [Ideal.ofBits_zero_f32, add_zero]

/-! ## The pre-activation and the update at (r, a) -/

/-- The first twenty columns of z times the transpose of A, plus the bias repeated over the rows. -/
theorem preT_apply (z : T Ideal S16384x64 .f32) (A : T Ideal S20x20 .f32) (cv : T Ideal S20 .f32) (r : Fin 16384) (a : Fin 20) :
    addf (F := Ideal) (φ := .f32)
        (Host.dotGeneral (F := Ideal) (φ₁ := .f32) (φ₂ := .f32) dot_S16384x20_S20x20_S16384x20_1_0_0_1_n_n none
          (extractStridedSlice S16384x20 ![0, 0] z slices_S16384x64_S16384x20_0_0 : T Ideal S16384x20 .f32)
          (transpose S20x20 [1, 0] A transposes_S20x20_S20x20_1_0 : T Ideal S20x20 .f32) : T Ideal S16384x20 .f32)
        (broadcastInDim S16384x20 ![0, 1] bcast_S1x20_S16384x20_0_1 (broadcastInDim S1x20 ![1] bcast_S20_S1x20_1 cv : T Ideal S1x20 .f32) : T Ideal S16384x20 .f32) (ix2 r a)
      = (∑ b : Fin 20, Cert.Spec.first20 (Cert.Spec.row z r) b * A (ix2 a b)) + cv (ix1 a) := by
  rw [addf_apply, dot_apply pd_z_20, bcast_row_apply]
  congr 1
  refine Finset.sum_congr rfl fun b _ => ?_
  rw [transpose_ix2_apply, slice2_axis1_apply 0 z _ r b ⟨b.val, by omega⟩ (by simp)]
  rfl

/-- tanh of the pre-activation times a 20 x 20 matrix. -/
theorem updT_apply (P : T Ideal S16384x20 .f32) (Mt : T Ideal S20x20 .f32) (r : Fin 16384) (a : Fin 20) :
    (Host.dotGeneral (F := Ideal) (φ₁ := .f32) (φ₂ := .f32) dot_S16384x20_S20x20_S16384x20_1_0_0_1_n_n none (Host.tanh (F := Ideal) (φ := .f32) P : T Ideal S16384x20 .f32) Mt : T Ideal S16384x20 .f32) (ix2 r a)
      = ∑ b : Fin 20, Ideal.tanh (P (ix2 r b)) * Mt (ix2 b a) := by
  rw [dot_apply pd_z_20]
  rfl

/-- The scatter's one index is the zero word. -/
theorem scatterIdx_zero (i : S1.Idx) :
    ((broadcastInDim S1 ![] bcast_S_S1 (constantI S_ 32 0#32) : IVec S1 32) i).toInt = 0 := by
  rw [broadcastInDim_scalar_apply, constantI_apply]
  rfl

/-! ## The two steps -/

/-- The step of even index, row by row. -/
theorem stepEvenT_eq (z : T Ideal S16384x64 .f32) (q : T Ideal S440 .f32) :
    stepEvenT (F := Ideal) z q
      = fun i => Cert.Spec.step true (Rq q) (vq q) (cq q) (Cert.Spec.row z (i 0)) (i 1) := by
  funext i
  obtain ⟨r, c, rfl⟩ : ∃ r c, i = ix2 r c := ⟨i 0, i 1, eq_ix2 i⟩
  show stepEvenT (F := Ideal) z q (ix2 r c) = Cert.Spec.step true (Rq q) (vq q) (cq q) (Cert.Spec.row z r) c
  unfold stepEvenT
  rw [scatter_first_apply _ rfl rfl (by norm_num) _ scatterIdx_zero (FloatOps.addf (F := Ideal) (φ := .f32)) (fun a b => rfl)]
  unfold Cert.Spec.step
  by_cases h : c.val < 20
  · rw [dif_pos h, dif_pos h]
    refine congrArg₂ (· + ·) rfl ?_
    rw [updT_apply]
    unfold Cert.Spec.upd
    refine Finset.sum_congr rfl fun b _ => ?_
    refine congrArg₂ (· * ·) (congrArg Ideal.tanh ?_) ?_
    · rw [preT_apply]
      unfold Cert.Spec.pre
      refine congrArg₂ (· + ·) (Finset.sum_congr rfl fun b' _ => ?_) (cq_apply q b)
      refine congrArg₂ (· * ·) rfl ?_
      rw [amatT_apply, vq_apply, trilT_apply]
      unfold Cert.Spec.amat
      rw [Rq_fun, if_pos (rfl : true = true)]
    · rw [transpose_ix2_apply, transpose_ix2_apply, triuT_apply]
      unfold Cert.Spec.mmat
      rw [Rq_fun, if_pos (rfl : true = true)]
  · rw [dif_neg h, dif_neg h]
    rfl

/-- The step of odd index, row by row. -/
theorem stepOddT_eq (z : T Ideal S16384x64 .f32) (q : T Ideal S440 .f32) :
    stepOddT (F := Ideal) z q
      = fun i => Cert.Spec.step false (Rq q) (vq q) (cq q) (Cert.Spec.row z (i 0)) (i 1) := by
  funext i
  obtain ⟨r, c, rfl⟩ : ∃ r c, i = ix2 r c := ⟨i 0, i 1, eq_ix2 i⟩
  show stepOddT (F := Ideal) z q (ix2 r c) = Cert.Spec.step false (Rq q) (vq q) (cq q) (Cert.Spec.row z r) c
  unfold stepOddT
  rw [scatter_first_apply _ rfl rfl (by norm_num) _ scatterIdx_zero (FloatOps.addf (F := Ideal) (φ := .f32)) (fun a b => rfl)]
  unfold Cert.Spec.step
  by_cases h : c.val < 20
  · rw [dif_pos h, dif_pos h]
    refine congrArg₂ (· + ·) rfl ?_
    rw [updT_apply]
    unfold Cert.Spec.upd
    refine Finset.sum_congr rfl fun b _ => ?_
    refine congrArg₂ (· * ·) (congrArg Ideal.tanh ?_) ?_
    · rw [preT_apply]
      unfold Cert.Spec.pre
      refine congrArg₂ (· + ·) (Finset.sum_congr rfl fun b' _ => ?_) (cq_apply q b)
      refine congrArg₂ (· * ·) rfl ?_
      rw [amatT_apply, vq_apply, transpose_ix2_apply, trilT_apply]
      unfold Cert.Spec.amat
      rw [Rq_fun, if_neg Bool.false_ne_true]
    · rw [transpose_ix2_apply, triuT_apply]
      unfold Cert.Spec.mmat
      rw [Rq_fun, if_neg Bool.false_ne_true]
  · rw [dif_neg h, dif_neg h]
    rfl

end Cert.ReferenceIdeal.RefAlg

end
-- ==== Proof.RefAlgTop.lean ====
/-
  The reference network whole: the eight steps, each over its own 440 of the 3520 averaged parameters, are the
  specification's flow on each row, and the network's output is the specification's output of the mean array, the
  log-variance array, the noise and the three parameter arrays cut out of the averaged parameters.
-/
import proofs.«112810_j2207613190724_2_alg».proof.Proof.RefAlgOut
import proofs.«112810_j2207613190724_2_alg».proof.Proof.RefAlgStep

noncomputable section

open scoped BigOperators

namespace Cert.ReferenceIdeal.RefAlg

open Cert.ReferenceIdeal Idealize.ShloMosaic Idealize.ShloMosaic.ValueIdx Cert.RefAlgLib

variable [Facts₀]
open Facts₀

/-- A head of the hidden layer is the specification's array of that head. -/
theorem mu_eq (x : T Ideal S16384x4096 .f32) (W1 : T Ideal S400x4096 .f32) (b1 : T Ideal S400 .f32)
    (W : T Ideal S64x400 .f32) (b : T Ideal S64 .f32) :
    head64T (F := Ideal) (hidT (F := Ideal) x W1 b1) W b = Cert.Spec.MU x W1 b1 W b :=
  head64T_hidT_eq x W1 b1 W b

/-! ## Step k's parameters are the 440-slice at 440 k -/

theorem Rq_slice (o : ℕ) (k : Fin 8) (ho : o = 440 * k.val) (p : T Ideal S3520 .f32) (h : S3520.Slices ![o] S440) :
    Rq (extractStridedSlice S440 ![o] p h) = Cert.Spec.Rk (Cert.Spec.RRof p) k := by
  subst ho
  funext a b
  unfold Rq Cert.Spec.Rk Cert.Spec.RRof
  rw [slice1_apply (440 * k.val) p h ⟨20 * a.val + b.val, by omega⟩ ⟨440 * k.val + (20 * a.val + b.val), by omega⟩ rfl]
  refine congrArg p (congrArg ix1 (Fin.ext ?_))
  show 440 * k.val + (20 * a.val + b.val) = 440 * k.val + 20 * a.val + b.val
  omega

theorem vq_slice (o : ℕ) (k : Fin 8) (ho : o = 440 * k.val) (p : T Ideal S3520 .f32) (h : S3520.Slices ![o] S440) :
    vq (extractStridedSlice S440 ![o] p h) = Cert.Spec.vk (Cert.Spec.Vof p) k := by
  subst ho
  funext a
  unfold vq Cert.Spec.vk Cert.Spec.Vof
  rw [slice1_apply (440 * k.val) p h ⟨400 + a.val, by omega⟩ ⟨440 * k.val + (400 + a.val), by omega⟩ rfl]
  refine congrArg p (congrArg ix1 (Fin.ext ?_))
  show 440 * k.val + (400 + a.val) = 440 * k.val + 400 + a.val
  omega

theorem cq_slice (o : ℕ) (k : Fin 8) (ho : o = 440 * k.val) (p : T Ideal S3520 .f32) (h : S3520.Slices ![o] S440) :
    cq (extractStridedSlice S440 ![o] p h) = Cert.Spec.vk (Cert.Spec.Cof p) k := by
  subst ho
  funext a
  unfold cq Cert.Spec.vk Cert.Spec.Cof
  rw [slice1_apply (440 * k.val) p h ⟨420 + a.val, by omega⟩ ⟨440 * k.val + (420 + a.val), by omega⟩ rfl]
  refine congrArg p (congrArg ix1 (Fin.ext ?_))
  show 440 * k.val + (420 + a.val) = 440 * k.val + 420 + a.val
  omega

/-- A step of even index over the slice at 440 k is the specification's step k. -/
theorem stepEven_slice (o : ℕ) (k : Fin 8) (ho : o = 440 * k.val) (p : T Ideal S3520 .f32) (h : S3520.Slices ![o] S440)
    (hk : (k.val % 2 == 0) = true) (z : T Ideal S16384x64 .f32) :
    stepEvenT (F := Ideal) z (extractStridedSlice S440 ![o] p h)
      = fun i => Cert.Spec.stepk (Cert.Spec.RRof p) (Cert.Spec.Vof p) (Cert.Spec.Cof p) k (Cert.Spec.row z (i 0)) (i 1) := by
  rw [stepEvenT_eq, Rq_slice o k ho p h, vq_slice o k ho p h, cq_slice o k ho p h]
  unfold Cert.Spec.stepk
  rw [hk]

/-- A step of odd index over the slice at 440 k is the specification's step k. -/
theorem stepOdd_slice (o : ℕ) (k : Fin 8) (ho : o = 440 * k.val) (p : T Ideal S3520 .f32) (h : S3520.Slices ![o] S440)
    (hk : (k.val % 2 == 0) = false) (z : T Ideal S16384x64 .f32) :
    stepOddT (F := Ideal) z (extractStridedSlice S440 ![o] p h)
      = fun i => Cert.Spec.stepk (Cert.Spec.RRof p) (Cert.Spec.Vof p) (Cert.Spec.Cof p) k (Cert.Spec.row z (i 0)) (i 1) := by
  rw [stepOddT_eq, Rq_slice o k ho p h, vq_slice o k ho p h, cq_slice o k ho p h]
  unfold Cert.Spec.stepk
  rw [hk]

/-- The eight steps in order are the specification's flow, row by row. -/
theorem flowT_eq (z : T Ideal S16384x64 .f32) (p : T Ideal S3520 .f32) :
    flowT (F := Ideal) z p
      = fun i => Cert.Spec.flow (Cert.Spec.RRof p) (Cert.Spec.Vof p) (Cert.Spec.Cof p) (Cert.Spec.row z (i 0)) (i 1) := by
  unfold flowT
  rw [stepEven_slice 0 0 rfl p _ rfl, stepOdd_slice 440 1 rfl p _ rfl, stepEven_slice 880 2 rfl p _ rfl,
    stepOdd_slice 1320 3 rfl p _ rfl, stepEven_slice 1760 4 rfl p _ rfl, stepOdd_slice 2200 5 rfl p _ rfl,
    stepEven_slice 2640 6 rfl p _ rfl, stepOdd_slice 3080 7 rfl p _ rfl]
  rfl

/-- The network's output is the specification's. -/
theorem outT_eq (x : T Ideal S16384x4096 .f32) (eps : T Ideal S16384x64 .f32) (W1 : T Ideal S400x4096 .f32) (b1 : T Ideal S400 .f32)
    (W21 : T Ideal S64x400 .f32) (b21 : T Ideal S64 .f32) (W22 : T Ideal S64x400 .f32) (b22 : T Ideal S64 .f32)
    (W23 : T Ideal S3520x400 .f32) (b23 : T Ideal S3520 .f32)
    (W3 : T Ideal S400x64 .f32) (b3 : T Ideal S400 .f32) (W4 : T Ideal S4096x400 .f32) (b4 : T Ideal S4096 .f32) :
    outT (F := Ideal) x eps W1 b1 W21 b21 W22 b22 W23 b23 W3 b3 W4 b4
      = Cert.Spec.OUT (Cert.Spec.MU x W1 b1 W21 b21) (Cert.Spec.MU x W1 b1 W22 b22) eps
          (Cert.Spec.RRof (Cert.Spec.FPdiv x W1 b1 W23 b23)) (Cert.Spec.Vof (Cert.Spec.FPdiv x W1 b1 W23 b23))
          (Cert.Spec.Cof (Cert.Spec.FPdiv x W1 b1 W23 b23)) W3 b3 W4 b4 := by
  unfold outT
  rw [fpT_eq, mu_eq x W1 b1 W21 b21, mu_eq x W1 b1 W22 b22, z0T_eq, flowT_eq, decT_eq]
  rfl

end Cert.ReferenceIdeal.RefAlg

end
-- ==== Proof.RefSide.lean ====
/-
  The reference's run, read back: from the launch contents the encoder's line, the eight steps' lines and the decoder's
  line leave, in the three result buffers, the network's stages composed — which are the specification's functions of
  the argument arrays — and leave the fourteen argument arrays as launched.
-/
import proofs.«112810_j2207613190724_2_alg».proof.Proof.RefMain
import proofs.«112810_j2207613190724_2_alg».proof.Proof.RefValEnc
import proofs.«112810_j2207613190724_2_alg».proof.Proof.RefValS0
import proofs.«112810_j2207613190724_2_alg».proof.Proof.RefValS1
import proofs.«112810_j2207613190724_2_alg».proof.Proof.RefValS2
import proofs.«112810_j2207613190724_2_alg».proof.Proof.RefValS3
import proofs.«112810_j2207613190724_2_alg».proof.Proof.RefValS4
import proofs.«112810_j2207613190724_2_alg».proof.Proof.RefValS5
import proofs.«112810_j2207613190724_2_alg».proof.Proof.RefValS6
import proofs.«112810_j2207613190724_2_alg».proof.Proof.RefValS7
import proofs.«112810_j2207613190724_2_alg».proof.Proof.RefValDec
import proofs.«112810_j2207613190724_2_alg».proof.Proof.RefAlgOut
import proofs.«112810_j2207613190724_2_alg».proof.Proof.RefAlgTop
import proofs.«112810_j2207613190724_2_alg».proof.Proof.RefStmt

set_option synthInstance.maxSize 4096

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The buffer contents after the encoder's line, and after each further line. -/
abbrev A0 (V : Valuation τ sig (Elt Ideal)) : Valuation τ sig (Elt Ideal) := after opsEnc V
abbrev A1 (V : Valuation τ sig (Elt Ideal)) : Valuation τ sig (Elt Ideal) := after opsS0 (A0 V)
abbrev A2 (V : Valuation τ sig (Elt Ideal)) : Valuation τ sig (Elt Ideal) := after opsS1 (A1 V)
abbrev A3 (V : Valuation τ sig (Elt Ideal)) : Valuation τ sig (Elt Ideal) := after opsS2 (A2 V)
abbrev A4 (V : Valuation τ sig (Elt Ideal)) : Valuation τ sig (Elt Ideal) := after opsS3 (A3 V)
abbrev A5 (V : Valuation τ sig (Elt Ideal)) : Valuation τ sig (Elt Ideal) := after opsS4 (A4 V)
abbrev A6 (V : Valuation τ sig (Elt Ideal)) : Valuation τ sig (Elt Ideal) := after opsS5 (A5 V)
abbrev A7 (V : Valuation τ sig (Elt Ideal)) : Valuation τ sig (Elt Ideal) := after opsS6 (A6 V)
abbrev A8 (V : Valuation τ sig (Elt Ideal)) : Valuation τ sig (Elt Ideal) := after opsS7 (A7 V)
abbrev A9 (V : Valuation τ sig (Elt Ideal)) : Valuation τ sig (Elt Ideal) := after opsDec (A8 V)

theorem ops_A9 (V : Valuation τ sig (Elt Ideal)) : after (ops (F := Ideal)) V = A9 V := by
  simp only [ops, after_app]

theorem A8_arg10 (V : Valuation τ sig (Elt Ideal)) : A8 V (main_arg10 : DevRef τ sig) = V (main_arg10 : DevRef τ sig) :=
  ((opsS7_keep (A7 V) (r := main_arg10) (by decide)).trans ((opsS6_keep (A6 V) (r := main_arg10) (by decide)).trans ((opsS5_keep (A5 V) (r := main_arg10) (by decide)).trans ((opsS4_keep (A4 V) (r := main_arg10) (by decide)).trans ((opsS3_keep (A3 V) (r := main_arg10) (by decide)).trans ((opsS2_keep (A2 V) (r := main_arg10) (by decide)).trans ((opsS1_keep (A1 V) (r := main_arg10) (by decide)).trans ((opsS0_keep (A0 V) (r := main_arg10) (by decide)).trans (opsEnc_keep V (r := main_arg10) (by decide))))))))))

theorem A8_arg11 (V : Valuation τ sig (Elt Ideal)) : A8 V (main_arg11 : DevRef τ sig) = V (main_arg11 : DevRef τ sig) :=
  ((opsS7_keep (A7 V) (r := main_arg11) (by decide)).trans ((opsS6_keep (A6 V) (r := main_arg11) (by decide)).trans ((opsS5_keep (A5 V) (r := main_arg11) (by decide)).trans ((opsS4_keep (A4 V) (r := main_arg11) (by decide)).trans ((opsS3_keep (A3 V) (r := main_arg11) (by decide)).trans ((opsS2_keep (A2 V) (r := main_arg11) (by decide)).trans ((opsS1_keep (A1 V) (r := main_arg11) (by decide)).trans ((opsS0_keep (A0 V) (r := main_arg11) (by decide)).trans (opsEnc_keep V (r := main_arg11) (by decide))))))))))

theorem A8_arg12 (V : Valuation τ sig (Elt Ideal)) : A8 V (main_arg12 : DevRef τ sig) = V (main_arg12 : DevRef τ sig) :=
  ((opsS7_keep (A7 V) (r := main_arg12) (by decide)).trans ((opsS6_keep (A6 V) (r := main_arg12) (by decide)).trans ((opsS5_keep (A5 V) (r := main_arg12) (by decide)).trans ((opsS4_keep (A4 V) (r := main_arg12) (by decide)).trans ((opsS3_keep (A3 V) (r := main_arg12) (by decide)).trans ((opsS2_keep (A2 V) (r := main_arg12) (by decide)).trans ((opsS1_keep (A1 V) (r := main_arg12) (by decide)).trans ((opsS0_keep (A0 V) (r := main_arg12) (by decide)).trans (opsEnc_keep V (r := main_arg12) (by decide))))))))))

theorem A8_arg13 (V : Valuation τ sig (Elt Ideal)) : A8 V (main_arg13 : DevRef τ sig) = V (main_arg13 : DevRef τ sig) :=
  ((opsS7_keep (A7 V) (r := main_arg13) (by decide)).trans ((opsS6_keep (A6 V) (r := main_arg13) (by decide)).trans ((opsS5_keep (A5 V) (r := main_arg13) (by decide)).trans ((opsS4_keep (A4 V) (r := main_arg13) (by decide)).trans ((opsS3_keep (A3 V) (r := main_arg13) (by decide)).trans ((opsS2_keep (A2 V) (r := main_arg13) (by decide)).trans ((opsS1_keep (A1 V) (r := main_arg13) (by decide)).trans ((opsS0_keep (A0 V) (r := main_arg13) (by decide)).trans (opsEnc_keep V (r := main_arg13) (by decide))))))))))

theorem A1_v23 (V : Valuation τ sig (Elt Ideal)) : A1 V (main_v23 : DevRef τ sig) = A0 V (main_v23 : DevRef τ sig) :=
  (opsS0_keep (A0 V) (r := main_v23) (by decide))

theorem A2_v23 (V : Valuation τ sig (Elt Ideal)) : A2 V (main_v23 : DevRef τ sig) = A0 V (main_v23 : DevRef τ sig) :=
  ((opsS1_keep (A1 V) (r := main_v23) (by decide)).trans (opsS0_keep (A0 V) (r := main_v23) (by decide)))

theorem A3_v23 (V : Valuation τ sig (Elt Ideal)) : A3 V (main_v23 : DevRef τ sig) = A0 V (main_v23 : DevRef τ sig) :=
  ((opsS2_keep (A2 V) (r := main_v23) (by decide)).trans ((opsS1_keep (A1 V) (r := main_v23) (by decide)).trans (opsS0_keep (A0 V) (r := main_v23) (by decide))))

theorem A4_v23 (V : Valuation τ sig (Elt Ideal)) : A4 V (main_v23 : DevRef τ sig) = A0 V (main_v23 : DevRef τ sig) :=
  ((opsS3_keep (A3 V) (r := main_v23) (by decide)).trans ((opsS2_keep (A2 V) (r := main_v23) (by decide)).trans ((opsS1_keep (A1 V) (r := main_v23) (by decide)).trans (opsS0_keep (A0 V) (r := main_v23) (by decide)))))

theorem A5_v23 (V : Valuation τ sig (Elt Ideal)) : A5 V (main_v23 : DevRef τ sig) = A0 V (main_v23 : DevRef τ sig) :=
  ((opsS4_keep (A4 V) (r := main_v23) (by decide)).trans ((opsS3_keep (A3 V) (r := main_v23) (by decide)).trans ((opsS2_keep (A2 V) (r := main_v23) (by decide)).trans ((opsS1_keep (A1 V) (r := main_v23) (by decide)).trans (opsS0_keep (A0 V) (r := main_v23) (by decide))))))

theorem A6_v23 (V : Valuation τ sig (Elt Ideal)) : A6 V (main_v23 : DevRef τ sig) = A0 V (main_v23 : DevRef τ sig) :=
  ((opsS5_keep (A5 V) (r := main_v23) (by decide)).trans ((opsS4_keep (A4 V) (r := main_v23) (by decide)).trans ((opsS3_keep (A3 V) (r := main_v23) (by decide)).trans ((opsS2_keep (A2 V) (r := main_v23) (by decide)).trans ((opsS1_keep (A1 V) (r := main_v23) (by decide)).trans (opsS0_keep (A0 V) (r := main_v23) (by decide)))))))

theorem A7_v23 (V : Valuation τ sig (Elt Ideal)) : A7 V (main_v23 : DevRef τ sig) = A0 V (main_v23 : DevRef τ sig) :=
  ((opsS6_keep (A6 V) (r := main_v23) (by decide)).trans ((opsS5_keep (A5 V) (r := main_v23) (by decide)).trans ((opsS4_keep (A4 V) (r := main_v23) (by decide)).trans ((opsS3_keep (A3 V) (r := main_v23) (by decide)).trans ((opsS2_keep (A2 V) (r := main_v23) (by decide)).trans ((opsS1_keep (A1 V) (r := main_v23) (by decide)).trans (opsS0_keep (A0 V) (r := main_v23) (by decide))))))))

theorem A9_v10 (V : Valuation τ sig (Elt Ideal)) : A9 V (main_v10 : DevRef τ sig) = A0 V (main_v10 : DevRef τ sig) :=
  ((opsDec_keep (A8 V) (r := main_v10) (by decide)).trans ((opsS7_keep (A7 V) (r := main_v10) (by decide)).trans ((opsS6_keep (A6 V) (r := main_v10) (by decide)).trans ((opsS5_keep (A5 V) (r := main_v10) (by decide)).trans ((opsS4_keep (A4 V) (r := main_v10) (by decide)).trans ((opsS3_keep (A3 V) (r := main_v10) (by decide)).trans ((opsS2_keep (A2 V) (r := main_v10) (by decide)).trans ((opsS1_keep (A1 V) (r := main_v10) (by decide)).trans (opsS0_keep (A0 V) (r := main_v10) (by decide))))))))))

theorem A9_v15 (V : Valuation τ sig (Elt Ideal)) : A9 V (main_v15 : DevRef τ sig) = A0 V (main_v15 : DevRef τ sig) :=
  ((opsDec_keep (A8 V) (r := main_v15) (by decide)).trans ((opsS7_keep (A7 V) (r := main_v15) (by decide)).trans ((opsS6_keep (A6 V) (r := main_v15) (by decide)).trans ((opsS5_keep (A5 V) (r := main_v15) (by decide)).trans ((opsS4_keep (A4 V) (r := main_v15) (by decide)).trans ((opsS3_keep (A3 V) (r := main_v15) (by decide)).trans ((opsS2_keep (A2 V) (r := main_v15) (by decide)).trans ((opsS1_keep (A1 V) (r := main_v15) (by decide)).trans (opsS0_keep (A0 V) (r := main_v15) (by decide))))))))))

/-- The latent array after the eight steps. -/
theorem flow_val (V : Valuation τ sig (Elt Ideal)) :
    A8 V (main_v268 : DevRef τ sig) = RefAlg.flowT (RefAlg.z0T (V (main_arg1 : DevRef τ sig)) (RefAlg.head64T (RefAlg.hidT (F := Ideal) (V (main_arg0 : DevRef τ sig)) (V (main_arg2 : DevRef τ sig)) (V (main_arg3 : DevRef τ sig))) (V (main_arg6 : DevRef τ sig)) (V (main_arg7 : DevRef τ sig))) (RefAlg.head64T (RefAlg.hidT (F := Ideal) (V (main_arg0 : DevRef τ sig)) (V (main_arg2 : DevRef τ sig)) (V (main_arg3 : DevRef τ sig))) (V (main_arg4 : DevRef τ sig)) (V (main_arg5 : DevRef τ sig)))) (RefAlg.fpT (RefAlg.hidT (F := Ideal) (V (main_arg0 : DevRef τ sig)) (V (main_arg2 : DevRef τ sig)) (V (main_arg3 : DevRef τ sig))) (V (main_arg8 : DevRef τ sig)) (V (main_arg9 : DevRef τ sig))) := by
  rw [show A8 V (main_v268 : DevRef τ sig) = _ from s7_val (A7 V),
    A7_v23 V,
    show A7 V (main_v238 : DevRef τ sig) = _ from s6_val (A6 V),
    A6_v23 V,
    show A6 V (main_v208 : DevRef τ sig) = _ from s5_val (A5 V),
    A5_v23 V,
    show A5 V (main_v178 : DevRef τ sig) = _ from s4_val (A4 V),
    A4_v23 V,
    show A4 V (main_v148 : DevRef τ sig) = _ from s3_val (A3 V),
    A3_v23 V,
    show A3 V (main_v118 : DevRef τ sig) = _ from s2_val (A2 V),
    A2_v23 V,
    show A2 V (main_v88 : DevRef τ sig) = _ from s1_val (A1 V),
    A1_v23 V,
    show A1 V (main_v58 : DevRef τ sig) = _ from s0_val (A0 V),
    show A0 V (main_v28 : DevRef τ sig) = _ from enc_v28 V,
    show A0 V (main_v23 : DevRef τ sig) = _ from enc_v23 V]
  rfl

/-- The decoder's output after all the operations. -/
theorem out_val (V : Valuation τ sig (Elt Ideal)) :
    after (ops (F := Ideal)) V (main_v279 : DevRef τ sig)
      = RefAlg.outT (F := Ideal) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_A9, show A9 V (main_v279 : DevRef τ sig) = _ from dec_v279 (A8 V), flow_val V, A8_arg10 V, A8_arg11 V, A8_arg12 V, A8_arg13 V]
  rfl

/-- The mean head after all the operations. -/
theorem mu_val (V : Valuation τ sig (Elt Ideal)) :
    after (ops (F := Ideal)) V (main_v10 : DevRef τ sig) = RefAlg.head64T (RefAlg.hidT (F := Ideal) (V (main_arg0 : DevRef τ sig)) (V (main_arg2 : DevRef τ sig)) (V (main_arg3 : DevRef τ sig))) (V (main_arg4 : DevRef τ sig)) (V (main_arg5 : DevRef τ sig)) := by
  rw [ops_A9, A9_v10 V]; exact enc_v10 V

/-- The log-variance head after all the operations. -/
theorem lv_val (V : Valuation τ sig (Elt Ideal)) :
    after (ops (F := Ideal)) V (main_v15 : DevRef τ sig) = RefAlg.head64T (RefAlg.hidT (F := Ideal) (V (main_arg0 : DevRef τ sig)) (V (main_arg2 : DevRef τ sig)) (V (main_arg3 : DevRef τ sig))) (V (main_arg6 : DevRef τ sig)) (V (main_arg7 : DevRef τ sig)) := by
  rw [ops_A9, A9_v15 V]; exact enc_v15 V

/-- An argument array is written by no operation. -/
theorem arg_keep (V : Valuation τ sig (Elt Ideal)) {r : Ref sig .tc}
    (h0 : r ∉ wEnc) (h1 : r ∉ wS0) (h2 : r ∉ wS1) (h3 : r ∉ wS2) (h4 : r ∉ wS3) (h5 : r ∉ wS4) (h6 : r ∉ wS5) (h7 : r ∉ wS6) (h8 : r ∉ wS7) (h9 : r ∉ wDec) :
    after (ops (F := Ideal)) V (Proc.devRef .tc r) = V (Proc.devRef .tc r) := ops_keep V h0 h1 h2 h3 h4 h5 h6 h7 h8 h9

/-- The reference's run: the three results at the specification's functions of the arguments, the arguments unchanged. -/
theorem run : Cert.RefStmt.RefRun := by
  intro m ρ
  refine (θ_run _ _ _).mono (fun r h c => ?_) (run_after (F := Ideal) m ρ)
  refine ⟨?_, ?_, ?_, ?_, ?_, ?_, ?_, ?_, ?_, ?_, ?_, ?_, ?_, ?_, ?_, ?_, ?_⟩
  · exact (h c main_v279).trans ((out_val _).trans (RefAlg.outT_eq ..))
  · exact (h c main_v10).trans ((mu_val _).trans (RefAlg.mu_eq ..))
  · exact (h c main_v15).trans ((lv_val _).trans (RefAlg.mu_eq ..))
  · exact (h c main_arg0).trans (arg_keep _ (by decide) (by decide) (by decide) (by decide) (by decide) (by decide) (by decide) (by decide) (by decide) (by decide))
  · exact (h c main_arg1).trans (arg_keep _ (by decide) (by decide) (by decide) (by decide) (by decide) (by decide) (by decide) (by decide) (by decide) (by decide))
  · exact (h c main_arg2).trans (arg_keep _ (by decide) (by decide) (by decide) (by decide) (by decide) (by decide) (by decide) (by decide) (by decide) (by decide))
  · exact (h c main_arg3).trans (arg_keep _ (by decide) (by decide) (by decide) (by decide) (by decide) (by decide) (by decide) (by decide) (by decide) (by decide))
  · exact (h c main_arg4).trans (arg_keep _ (by decide) (by decide) (by decide) (by decide) (by decide) (by decide) (by decide) (by decide) (by decide) (by decide))
  · exact (h c main_arg5).trans (arg_keep _ (by decide) (by decide) (by decide) (by decide) (by decide) (by decide) (by decide) (by decide) (by decide) (by decide))
  · exact (h c main_arg6).trans (arg_keep _ (by decide) (by decide) (by decide) (by decide) (by decide) (by decide) (by decide) (by decide) (by decide) (by decide))
  · exact (h c main_arg7).trans (arg_keep _ (by decide) (by decide) (by decide) (by decide) (by decide) (by decide) (by decide) (by decide) (by decide) (by decide))
  · exact (h c main_arg8).trans (arg_keep _ (by decide) (by decide) (by decide) (by decide) (by decide) (by decide) (by decide) (by decide) (by decide) (by decide))
  · exact (h c main_arg9).trans (arg_keep _ (by decide) (by decide) (by decide) (by decide) (by decide) (by decide) (by decide) (by decide) (by decide) (by decide))
  · exact (h c main_arg10).trans (arg_keep _ (by decide) (by decide) (by decide) (by decide) (by decide) (by decide) (by decide) (by decide) (by decide) (by decide))
  · exact (h c main_arg11).trans (arg_keep _ (by decide) (by decide) (by decide) (by decide) (by decide) (by decide) (by decide) (by decide) (by decide) (by decide))
  · exact (h c main_arg12).trans (arg_keep _ (by decide) (by decide) (by decide) (by decide) (by decide) (by decide) (by decide) (by decide) (by decide) (by decide))
  · exact (h c main_arg13).trans (arg_keep _ (by decide) (by decide) (by decide) (by decide) (by decide) (by decide) (by decide) (by decide) (by decide) (by decide))

end Cert.ReferenceIdeal.RefSide

end
-- ==== Proof.lean ====
/-
  The certificate of the two-call variational autoencoder with a Sylvester flow against its jnp reference, on the
  extended reals.

  The kernel encodes 256 rows at a time (a hidden layer cut at zero, two heads, and a third head whose batch mean it
  accumulates over the 64 tiles and scales by 2^-14 at the last one), cuts the 3520 averaged parameters into eight
  20x20 blocks with their diagonals and biases on the host, and decodes 512 rows at a time (the latent row
  eps * exp(lv / 2) + mu, eight triangular flow steps on its first twenty entries, two layers).  The reference is the
  same network written with whole-array operations: the batch mean as a sum divided by 16384, each step's matrices by
  triangle masks, a product with (1 - identity) and a diagonal matrix, the update by a scatter-add into the first
  twenty columns.  At this instance a matrix-unit product into zeros and the host's dot_general are one finite sum,
  every change of float format is the identity, the tiled sums regroup (addition of extended reals is commutative
  and associative), and dividing by 2^14 is multiplying by 2^-14.  Both runs therefore end at the specification's
  three functions of the arguments (Spec.lean): the kernel's by what each region leaves in its output arrays
  (K0.lean, K1.lean, read through the program in KVal.lean), the reference's by its run (RefSide.lean).
-/
import proofs.«112810_j2207613190724_2_alg».proof.Proof.Assemble
import proofs.«112810_j2207613190724_2_alg».proof.Proof.K0
import proofs.«112810_j2207613190724_2_alg».proof.Proof.K1
import proofs.«112810_j2207613190724_2_alg».proof.Proof.RefSide

noncomputable section

namespace Cert.Proof

theorem claim : Cert.Claim :=
  Cert.Assemble.claim_of
    ⟨Cert.KernelIdeal.K0.arr9, Cert.KernelIdeal.K0.arr10, Cert.KernelIdeal.K0.arr11, Cert.KernelIdeal.K1.arr10⟩
    Cert.ReferenceIdeal.RefSide.run

end Cert.Proof

end
